-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S64x8192 : Shape := ⟨2, ![64, 8192]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S64x8192 : S_.BroadcastsInDim S64x8192 (![] : Fin 0 → Fin S64x8192.rank)
  reducesTo_S64x8192_S_d0_1 : S64x8192.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part5 {F : FTy → Type} [FloatOps F] (main_arg18 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  main_v93

def fn_part4 {F : FTy → Type} [FloatOps F] (main_arg14 : FVec F S256 .f32) (main_arg15 : FVec F S256x256 .f32) (main_arg16 : FVec F S256 .f32) (main_arg17 : FVec F S256 .f32) (main_arg18 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_v63 main_v67

def fn_part2 {F : FTy → Type} [FloatOps F] (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_v48 main_v49 main_v50

def fn_part1 {F : FTy → Type} [FloatOps F] (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S8192x128 .f32) (main_arg1 : FVec F S8192x8192 .f32) (main_arg2 : FVec F S64x8192 .f32) (main_arg3 : FVec F S128x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S64x8192 .f32 := Host.absf main_arg2
  let main_cst_2 : FVec F S_ .f32 := constant S_ .f32 0x7F800000#32
  let main_v10 : FVec F S64x8192 .f32 := broadcastInDim S64x8192 ![] bcast_S_S64x8192 main_cst_2
  let main_v11 : IVec S64x8192 1 := cmpf .olt main_v9 main_v10
  let main_c_3 : IVec S_ 1 := constantI S_ 1 1#1
  let main_v12 : IVec S_ 1 := (fun x v => Host.reduce IntOp.andi x v reducesTo_S64x8192_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S8192x128 : Shape := ⟨2, ![8192, 128]⟩
abbrev S8192x8192 : Shape := ⟨2, ![8192, 8192]⟩
abbrev S64x8192 : Shape := ⟨2, ![64, 8192]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S8192x256 : Shape := ⟨2, ![8192, 256]⟩
abbrev S1024x2048 : Shape := ⟨2, ![1024, 2048]⟩
abbrev S1024x256 : Shape := ⟨2, ![1024, 256]⟩
abbrev S1024x128 : Shape := ⟨2, ![1024, 128]⟩
abbrev S2048x128 : Shape := ⟨2, ![2048, 128]⟩
abbrev S_ : Shape := ⟨0, ![]⟩
abbrev S2048x256 : Shape := ⟨2, ![2048, 256]⟩
abbrev S64x256 : Shape := ⟨2, ![64, 256]⟩
abbrev S64x2048 : Shape := ⟨2, ![64, 2048]⟩

abbrev nBuf : Space → Nat
  | .hbm => 220
  | .vmem => 22
  | .smem => 0
  | _ => 0

abbrev hbmTy0_0 (i : Nat) : BufTy := match i % 128 with
  | 0 => ⟨S8192x128, .f32⟩
  | 1 => ⟨S8192x8192, .f32⟩
  | 2 => ⟨S64x8192, .f32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256, .f32⟩
  | 17 => ⟨S256, .f32⟩
  | 18 => ⟨S256, .f32⟩
  | 19 => ⟨S1x256, .f32⟩
  | 20 => ⟨S8192x256, .f32⟩
  | 21 => ⟨S_, .f32⟩
  | 22 => ⟨S256, .f32⟩
  | 23 => ⟨S_, .f32⟩
  | 24 => ⟨S256, .f32⟩
  | 25 => ⟨S256, .f32⟩
  | 26 => ⟨S_, .i32⟩
  | 27 => ⟨S_, .f32⟩
  | 28 => ⟨S256, .f32⟩
  | 29 => ⟨S1x256, .f32⟩
  | 30 => ⟨S_, .f32⟩
  | 31 => ⟨S1x256, .f32⟩
  | 32 => ⟨S1x256, .f32⟩
  | 33 => ⟨S8192x256, .f32⟩
  | 34 => ⟨S8192x256, .f32⟩
  | 35 => ⟨S8192x256, .f32⟩
  | 36 => ⟨S_, .f32⟩
  | 37 => ⟨S_, .f32⟩
  | 38 => ⟨S_, .f32⟩
  | 39 => ⟨S_, .f32⟩
  | 40 => ⟨S256, .f32⟩
  | 41 => ⟨S256, .f32⟩
  | 42 => ⟨S256, .f32⟩
  | 43 => ⟨S_, .f32⟩
  | 44 => ⟨S_, .i1⟩
  | 45 => ⟨S_, .f32⟩
  | 46 => ⟨S_, .f32⟩
  | 47 => ⟨S256, .f32⟩
  | 48 => ⟨S256, .f32⟩
  | 49 => ⟨S1x256, .f32⟩
  | 50 => ⟨S8192x256, .f32⟩
  | 51 => ⟨S8192x256, .f32⟩
  | 52 => ⟨S1x256, .f32⟩
  | 53 => ⟨S8192x256, .f32⟩
  | 54 => ⟨S8192x256, .f32⟩
  | 55 => ⟨S_, .f32⟩
  | 56 => ⟨S256, .f32⟩
  | 57 => ⟨S256, .f32⟩
  | 58 => ⟨S256, .f32⟩
  | 59 => ⟨S1x256, .f32⟩
  | 60 => ⟨S8192x256, .f32⟩
  | 61 => ⟨S8192x256, .f32⟩
  | 62 => ⟨S1x256, .f32⟩
  | 63 => ⟨S8192x256, .f32⟩
  | 64 => ⟨S8192x256, .f32⟩
  | 65 => ⟨S_, .f32⟩
  | 66 => ⟨S8192x256, .f32⟩
  | 67 => ⟨S8192x256, .f32⟩
  | 68 => ⟨S8192x256, .f32⟩
  | 69 => ⟨S1x256, .f32⟩
  | 70 => ⟨S8192x256, .f32⟩
  | 71 => ⟨S8192x256, .f32⟩
  | 72 => ⟨S_, .f32⟩
  | 73 => ⟨S256, .f32⟩
  | 74 => ⟨S_, .f32⟩
  | 75 => ⟨S256, .f32⟩
  | 76 => ⟨S256, .f32⟩
  | 77 => ⟨S_, .i32⟩
  | 78 => ⟨S_, .f32⟩
  | 79 => ⟨S256, .f32⟩
  | 80 => ⟨S1x256, .f32⟩
  | 81 => ⟨S_, .f32⟩
  | 82 => ⟨S1x256, .f32⟩
  | 83 => ⟨S1x256, .f32⟩
  | 84 => ⟨S8192x256, .f32⟩
  | 85 => ⟨S8192x256, .f32⟩
  | 86 => ⟨S8192x256, .f32⟩
  | 87 => ⟨S_, .f32⟩
  | 88 => ⟨S_, .f32⟩
  | 89 => ⟨S_, .f32⟩
  | 90 => ⟨S_, .f32⟩
  | 91 => ⟨S256, .f32⟩
  | 92 => ⟨S256, .f32⟩
  | 93 => ⟨S256, .f32⟩
  | 94 => ⟨S_, .f32⟩
  | 95 => ⟨S_, .i1⟩
  | 96 => ⟨S_, .f32⟩
  | 97 => ⟨S_, .f32⟩
  | 98 => ⟨S256, .f32⟩
  | 99 => ⟨S256, .f32⟩
  | 100 => ⟨S1x256, .f32⟩
  | 101 => ⟨S8192x256, .f32⟩
  | 102 => ⟨S8192x256, .f32⟩
  | 103 => ⟨S1x256, .f32⟩
  | 104 => ⟨S8192x256, .f32⟩
  | 105 => ⟨S8192x256, .f32⟩
  | 106 => ⟨S_, .f32⟩
  | 107 => ⟨S256, .f32⟩
  | 108 => ⟨S256, .f32⟩
  | 109 => ⟨S256, .f32⟩
  | 110 => ⟨S1x256, .f32⟩
  | 111 => ⟨S8192x256, .f32⟩
  | 112 => ⟨S8192x256, .f32⟩
  | 113 => ⟨S1x256, .f32⟩
  | 114 => ⟨S8192x256, .f32⟩
  | 115 => ⟨S8192x256, .f32⟩
  | 116 => ⟨S_, .f32⟩
  | 117 => ⟨S8192x256, .f32⟩
  | 118 => ⟨S8192x256, .f32⟩
  | 119 => ⟨S1x256, .f32⟩
  | 120 => ⟨S8192x256, .f32⟩
  | 121 => ⟨S_, .f32⟩
  | 122 => ⟨S256, .f32⟩
  | 123 => ⟨S_, .f32⟩
  | 124 => ⟨S256, .f32⟩
  | 125 => ⟨S256, .f32⟩
  | 126 => ⟨S_, .i32⟩
  | 127 => ⟨S_, .f32⟩
  | _ => ⟨S8192x128, .f32⟩

abbrev hbmTy0_1 (i : Nat) : BufTy := match i % 128 with
  | 0 => ⟨S256, .f32⟩
  | 1 => ⟨S1x256, .f32⟩
  | 2 => ⟨S_, .f32⟩
  | 3 => ⟨S1x256, .f32⟩
  | 4 => ⟨S1x256, .f32⟩
  | 5 => ⟨S8192x256, .f32⟩
  | 6 => ⟨S8192x256, .f32⟩
  | 7 => ⟨S8192x256, .f32⟩
  | 8 => ⟨S_, .f32⟩
  | 9 => ⟨S_, .f32⟩
  | 10 => ⟨S_, .f32⟩
  | 11 => ⟨S_, .f32⟩
  | 12 => ⟨S256, .f32⟩
  | 13 => ⟨S256, .f32⟩
  | 14 => ⟨S256, .f32⟩
  | 15 => ⟨S_, .f32⟩
  | 16 => ⟨S_, .i1⟩
  | 17 => ⟨S_, .f32⟩
  | 18 => ⟨S_, .f32⟩
  | 19 => ⟨S256, .f32⟩
  | 20 => ⟨S256, .f32⟩
  | 21 => ⟨S1x256, .f32⟩
  | 22 => ⟨S8192x256, .f32⟩
  | 23 => ⟨S8192x256, .f32⟩
  | 24 => ⟨S1x256, .f32⟩
  | 25 => ⟨S8192x256, .f32⟩
  | 26 => ⟨S8192x256, .f32⟩
  | 27 => ⟨S_, .f32⟩
  | 28 => ⟨S256, .f32⟩
  | 29 => ⟨S256, .f32⟩
  | 30 => ⟨S256, .f32⟩
  | 31 => ⟨S1x256, .f32⟩
  | 32 => ⟨S8192x256, .f32⟩
  | 33 => ⟨S8192x256, .f32⟩
  | 34 => ⟨S1x256, .f32⟩
  | 35 => ⟨S8192x256, .f32⟩
  | 36 => ⟨S8192x256, .f32⟩
  | 37 => ⟨S_, .f32⟩
  | 38 => ⟨S8192x256, .f32⟩
  | 39 => ⟨S8192x256, .f32⟩
  | 40 => ⟨S8192x256, .f32⟩
  | 41 => ⟨S1x256, .f32⟩
  | 42 => ⟨S8192x256, .f32⟩
  | 43 => ⟨S8192x256, .f32⟩
  | 44 => ⟨S_, .f32⟩
  | 45 => ⟨S256, .f32⟩
  | 46 => ⟨S_, .f32⟩
  | 47 => ⟨S256, .f32⟩
  | 48 => ⟨S256, .f32⟩
  | 49 => ⟨S_, .i32⟩
  | 50 => ⟨S_, .f32⟩
  | 51 => ⟨S256, .f32⟩
  | 52 => ⟨S1x256, .f32⟩
  | 53 => ⟨S_, .f32⟩
  | 54 => ⟨S1x256, .f32⟩
  | 55 => ⟨S1x256, .f32⟩
  | 56 => ⟨S8192x256, .f32⟩
  | 57 => ⟨S8192x256, .f32⟩
  | 58 => ⟨S8192x256, .f32⟩
  | 59 => ⟨S_, .f32⟩
  | 60 => ⟨S_, .f32⟩
  | 61 => ⟨S_, .f32⟩
  | 62 => ⟨S_, .f32⟩
  | 63 => ⟨S256, .f32⟩
  | 64 => ⟨S256, .f32⟩
  | 65 => ⟨S256, .f32⟩
  | 66 => ⟨S_, .f32⟩
  | 67 => ⟨S_, .i1⟩
  | 68 => ⟨S_, .f32⟩
  | 69 => ⟨S_, .f32⟩
  | 70 => ⟨S256, .f32⟩
  | 71 => ⟨S256, .f32⟩
  | 72 => ⟨S1x256, .f32⟩
  | 73 => ⟨S8192x256, .f32⟩
  | 74 => ⟨S8192x256, .f32⟩
  | 75 => ⟨S1x256, .f32⟩
  | 76 => ⟨S8192x256, .f32⟩
  | 77 => ⟨S8192x256, .f32⟩
  | 78 => ⟨S_, .f32⟩
  | 79 => ⟨S256, .f32⟩
  | 80 => ⟨S256, .f32⟩
  | 81 => ⟨S256, .f32⟩
  | 82 => ⟨S1x256, .f32⟩
  | 83 => ⟨S8192x256, .f32⟩
  | 84 => ⟨S8192x256, .f32⟩
  | 85 => ⟨S1x256, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S64x256, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | .local _ .vmem, ⟨0, _⟩ => ⟨S1024x2048, .f32⟩
  | .local _ .vmem, ⟨1, _⟩ => ⟨S1024x2048, .f32⟩
  | .local _ .vmem, ⟨2, _⟩ => ⟨S8192x128, .f32⟩
  | .local _ .vmem, ⟨3, _⟩ => ⟨S128x256, .f32⟩
  | .local _ .vmem, ⟨4, _⟩ => ⟨S1x256, .f32⟩
  | .local _ .vmem, ⟨5, _⟩ => ⟨S1024x256, .f32⟩
  | .local _ .vmem, ⟨6, _⟩ => ⟨S1024x256, .f32⟩
  | .local _ .vmem, ⟨7, _⟩ => ⟨S1024x128, .f32⟩
  | .local _ .vmem, ⟨8, _⟩ => ⟨S1024x2048, .f32⟩
  | .local _ .vmem, ⟨9, _⟩ => ⟨S1024x2048, .f32⟩
  | .local _ .vmem, ⟨10, _⟩ => ⟨S8192x256, .f32⟩
  | .local _ .vmem, ⟨11, _⟩ => ⟨S256x256, .f32⟩
  | .local _ .vmem, ⟨12, _⟩ => ⟨S1x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S64x2048, .f32⟩
  | .local _ .vmem, ⟨17, _⟩ => ⟨S64x2048, .f32⟩
  | .local _ .vmem, ⟨18, _⟩ => ⟨S2048x256, .f32⟩
  | .local _ .vmem, ⟨19, _⟩ => ⟨S2048x256, .f32⟩
  | .local _ .vmem, ⟨20, _⟩ => ⟨S64x256, .f32⟩
  | .local _ .vmem, ⟨21, _⟩ => ⟨S64x256, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_cst_0 : Ref sig .tc := ⟨.hbm, 23, rfl⟩
abbrev main_v3 : Ref sig .tc := ⟨.hbm, 24, rfl⟩
abbrev main_v4 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_cst_3 : Ref sig .tc := ⟨.hbm, 43, rfl⟩
abbrev main_call0_v12 : Ref sig .tc := ⟨.hbm, 44, rfl⟩
abbrev main_call0_cst_4 : Ref sig .tc := ⟨.hbm, 45, rfl⟩
abbrev main_call0_call0_v0 : Ref sig .tc := ⟨.hbm, 46, rfl⟩
abbrev main_call0_call0_v1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_cst_1 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_call1_cst : Ref sig .tc := ⟨.hbm, 65, rfl⟩
abbrev main_call1_v0 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_cst_2 : Ref sig .tc := ⟨.hbm, 72, rfl⟩
abbrev main_v26 : Ref sig .tc := ⟨.hbm, 73, rfl⟩
abbrev main_cst_3 : Ref sig .tc := ⟨.hbm, 74, rfl⟩
abbrev main_v27 : Ref sig .tc := ⟨.hbm, 75, rfl⟩
abbrev main_v28 : Ref sig .tc := ⟨.hbm, 76, rfl⟩
abbrev main_c_4 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_cst_3 : Ref sig .tc := ⟨.hbm, 94, rfl⟩
abbrev main_call2_v12 : Ref sig .tc := ⟨.hbm, 95, rfl⟩
abbrev main_call2_cst_4 : Ref sig .tc := ⟨.hbm, 96, rfl⟩
abbrev main_call2_call0_v0 : Ref sig .tc := ⟨.hbm, 97, rfl⟩
abbrev main_call2_call0_v1 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_cst_5 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_call3_cst : Ref sig .tc := ⟨.hbm, 116, rfl⟩
abbrev main_call3_v0 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_cst_6 : Ref sig .tc := ⟨.hbm, 121, rfl⟩
abbrev main_v48 : Ref sig .tc := ⟨.hbm, 122, rfl⟩
abbrev main_cst_7 : Ref sig .tc := ⟨.hbm, 123, rfl⟩
abbrev main_v49 : Ref sig .tc := ⟨.hbm, 124, rfl⟩
abbrev main_v50 : Ref sig .tc := ⟨.hbm, 125, rfl⟩
abbrev main_c_8 : Ref sig .tc := ⟨.hbm, 126, rfl⟩
abbrev main_call4_cst : Ref sig .tc := ⟨.hbm, 127, rfl⟩
abbrev main_call4_v0 : Ref sig .tc := ⟨.hbm, 128, rfl⟩
abbrev main_call4_v1 : Ref sig .tc := ⟨.hbm, 129, rfl⟩
abbrev main_call4_cst_0 : Ref sig .tc := ⟨.hbm, 130, rfl⟩
abbrev main_call4_v2 : Ref sig .tc := ⟨.hbm, 131, rfl⟩
abbrev main_call4_v3 : Ref sig .tc := ⟨.hbm, 132, rfl⟩
abbrev main_call4_v4 : Ref sig .tc := ⟨.hbm, 133, rfl⟩
abbrev main_call4_v5 : Ref sig .tc := ⟨.hbm, 134, rfl⟩
abbrev main_call4_v6 : Ref sig .tc := ⟨.hbm, 135, rfl⟩
abbrev main_call4_v7 : Ref sig .tc := ⟨.hbm, 136, rfl⟩
abbrev main_call4_cst_1 : Ref sig .tc := ⟨.hbm, 137, rfl⟩
abbrev main_call4_v8 : Ref sig .tc := ⟨.hbm, 138, rfl⟩
abbrev main_call4_cst_2 : Ref sig .tc := ⟨.hbm, 139, rfl⟩
abbrev main_call4_v9 : Ref sig .tc := ⟨.hbm, 140, rfl⟩
abbrev main_call4_v10 : Ref sig .tc := ⟨.hbm, 141, rfl⟩
abbrev main_call4_v11 : Ref sig .tc := ⟨.hbm, 142, rfl⟩
abbrev main_call4_cst_3 : Ref sig .tc := ⟨.hbm, 143, rfl⟩
abbrev main_call4_v12 : Ref sig .tc := ⟨.hbm, 144, rfl⟩
abbrev main_call4_cst_4 : Ref sig .tc := ⟨.hbm, 145, rfl⟩
abbrev main_call4_call0_v0 : Ref sig .tc := ⟨.hbm, 146, rfl⟩
abbrev main_call4_call0_v1 : Ref sig .tc := ⟨.hbm, 147, rfl⟩
abbrev main_v51 : Ref sig .tc := ⟨.hbm, 148, rfl⟩
abbrev main_v52 : Ref sig .tc := ⟨.hbm, 149, rfl⟩
abbrev main_v53 : Ref sig .tc := ⟨.hbm, 150, rfl⟩
abbrev main_v54 : Ref sig .tc := ⟨.hbm, 151, rfl⟩
abbrev main_v55 : Ref sig .tc := ⟨.hbm, 152, rfl⟩
abbrev main_v56 : Ref sig .tc := ⟨.hbm, 153, rfl⟩
abbrev main_v57 : Ref sig .tc := ⟨.hbm, 154, rfl⟩
abbrev main_cst_9 : Ref sig .tc := ⟨.hbm, 155, rfl⟩
abbrev main_v58 : Ref sig .tc := ⟨.hbm, 156, rfl⟩
abbrev main_v59 : Ref sig .tc := ⟨.hbm, 157, rfl⟩
abbrev main_v60 : Ref sig .tc := ⟨.hbm, 158, rfl⟩
abbrev main_v61 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_call5_cst : Ref sig .tc := ⟨.hbm, 165, rfl⟩
abbrev main_call5_v0 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_v70 : Ref sig .tc := ⟨.hbm, 170, rfl⟩
abbrev main_v71 : Ref sig .tc := ⟨.hbm, 171, rfl⟩
abbrev main_cst_10 : Ref sig .tc := ⟨.hbm, 172, rfl⟩
abbrev main_v72 : Ref sig .tc := ⟨.hbm, 173, rfl⟩
abbrev main_cst_11 : Ref sig .tc := ⟨.hbm, 174, rfl⟩
abbrev main_v73 : Ref sig .tc := ⟨.hbm, 175, rfl⟩
abbrev main_v74 : Ref sig .tc := ⟨.hbm, 176, rfl⟩
abbrev main_c_12 : Ref sig .tc := ⟨.hbm, 177, rfl⟩
abbrev main_call6_cst : Ref sig .tc := ⟨.hbm, 178, rfl⟩
abbrev main_call6_v0 : Ref sig .tc := ⟨.hbm, 179, rfl⟩
abbrev main_call6_v1 : Ref sig .tc := ⟨.hbm, 180, rfl⟩
abbrev main_call6_cst_0 : Ref sig .tc := ⟨.hbm, 181, rfl⟩
abbrev main_call6_v2 : Ref sig .tc := ⟨.hbm, 182, rfl⟩
abbrev main_call6_v3 : Ref sig .tc := ⟨.hbm, 183, rfl⟩
abbrev main_call6_v4 : Ref sig .tc := ⟨.hbm, 184, rfl⟩
abbrev main_call6_v5 : Ref sig .tc := ⟨.hbm, 185, rfl⟩
abbrev main_call6_v6 : Ref sig .tc := ⟨.hbm, 186, rfl⟩
abbrev main_call6_v7 : Ref sig .tc := ⟨.hbm, 187, rfl⟩
abbrev main_call6_cst_1 : Ref sig .tc := ⟨.hbm, 188, rfl⟩
abbrev main_call6_v8 : Ref sig .tc := ⟨.hbm, 189, rfl⟩
abbrev main_call6_cst_2 : Ref sig .tc := ⟨.hbm, 190, rfl⟩
abbrev main_call6_v9 : Ref sig .tc := ⟨.hbm, 191, rfl⟩
abbrev main_call6_v10 : Ref sig .tc := ⟨.hbm, 192, rfl⟩
abbrev main_call6_v11 : Ref sig .tc := ⟨.hbm, 193, rfl⟩
abbrev main_call6_cst_3 : Ref sig .tc := ⟨.hbm, 194, rfl⟩
abbrev main_call6_v12 : Ref sig .tc := ⟨.hbm, 195, rfl⟩
abbrev main_call6_cst_4 : Ref sig .tc := ⟨.hbm, 196, rfl⟩
abbrev main_call6_call0_v0 : Ref sig .tc := ⟨.hbm, 197, rfl⟩
abbrev main_call6_call0_v1 : Ref sig .tc := ⟨.hbm, 198, rfl⟩
abbrev main_v75 : Ref sig .tc := ⟨.hbm, 199, rfl⟩
abbrev main_v76 : Ref sig .tc := ⟨.hbm, 200, rfl⟩
abbrev main_v77 : Ref sig .tc := ⟨.hbm, 201, rfl⟩
abbrev main_v78 : Ref sig .tc := ⟨.hbm, 202, rfl⟩
abbrev main_v79 : Ref sig .tc := ⟨.hbm, 203, rfl⟩
abbrev main_v80 : Ref sig .tc := ⟨.hbm, 204, rfl⟩
abbrev main_v81 : Ref sig .tc := ⟨.hbm, 205, rfl⟩
abbrev main_cst_13 : Ref sig .tc := ⟨.hbm, 206, rfl⟩
abbrev main_v82 : Ref sig .tc := ⟨.hbm, 207, rfl⟩
abbrev main_v83 : Ref sig .tc := ⟨.hbm, 208, rfl⟩
abbrev main_v84 : Ref sig .tc := ⟨.hbm, 209, rfl⟩
abbrev main_v85 : Ref sig .tc := ⟨.hbm, 210, rfl⟩
abbrev main_v86 : Ref sig .tc := ⟨.hbm, 211, rfl⟩
abbrev main_v87 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_call7_cst : Ref sig .tc := ⟨.hbm, 216, rfl⟩
abbrev main_call7_v0 : Ref sig .tc := ⟨.hbm, 217, rfl⟩
abbrev main_v91 : Ref sig .tc := ⟨.hbm, 218, rfl⟩
abbrev main_v92 : Ref sig .tc := ⟨.hbm, 219, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v3 : BitVec 32 := Scalar.muli arg1 c2048_i32
  v3
def k0_off1 (i : grid0.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v7 : Index := Scalar.indexCast v4
  let c0_2 : Index := 0#32
  ![v7.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let arg1 : BitVec 32 := BitVec.ofNat 32 (i 1).val
  let c2048_i32 : BitVec 32 := 2048#32
  let v3 : BitVec 32 := Scalar.muli arg1 c2048_i32
  let v4 : BitVec 32 := v3
  let v7 : Index := Scalar.indexCast v4
  let c0_2 : Index := 0#32
  ![v7.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![1, 4], ![false, false]⟩

def k2_cond2 (i : grid2.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S64x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

class Facts₀ : Prop where
  shapeCasts_S256_S1x256 : S256.ShapeCasts S1x256
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S2048x128 : 0 < S2048x128.numel
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  reducesTo_S8192x256_S256_d0 : S8192x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S_S1x256 : S_.BroadcastsInDim S1x256 (![] : Fin 0 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  shapeCasts_S1024x256_S1024x256 : S1024x256.ShapeCasts S1024x256
  h_S2048x256 : 0 < S2048x256.numel
  shapeCasts_S2048x256_S2048x256 : S2048x256.ShapeCasts S2048x256
  inb_S256x256_S256x256_0_0 : ∀ a, (![0, 0] : Fin 2 → Nat) a + S256x256.size a ≤ S256x256.size a
  h_S256x256 : 0 < S256x256.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S64x2048_S64x2048_0_0 : ∀ a, (![0, 0] : Fin 2 → Nat) a + S64x2048.size a ≤ S64x2048.size a
  h_S64x2048 : 0 < S64x2048.numel
  inb_S2048x256_S2048x256_0_0 : ∀ a, (![0, 0] : Fin 2 → Nat) a + S2048x256.size a ≤ S2048x256.size a
  dot_S1024x2048_S2048x128_S1024x128_1_0_0_1_n_n_wf : DotDims.WF S1024x2048 S2048x128 S1024x128 [1] [0] [0] [1] [] []
  dot_S1024x128_S128x256_S1024x256_1_0_0_1_n_n_wf : DotDims.WF S1024x128 S128x256 S1024x256 [1] [0] [0] [1] [] []
  dot_S8192x256_S256x256_S8192x256_1_0_0_1_n_n_wf : DotDims.WF S8192x256 S256x256 S8192x256 [1] [0] [0] [1] [] []
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  dot_S64x2048_S2048x256_S64x256_1_0_0_1_n_n_wf : DotDims.WF S64x2048 S2048x256 S64x256 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x256.size a
  hwx0_4 : ∀ i : grid0.Coords, EltTy.bits .f32 = 32 ∨ (Rect.block (s := S8192x256) S1024x256.size (cc0_transform_4 i) (hinb0_4 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x256.size a ≤ S8192x256.size a
  hwx1_1 : ∀ i : grid1.Coords, EltTy.bits .f32 = 32 ∨ (Rect.block (s := S8192x256) S8192x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x256.size a ≤ S8192x256.size a
  hwx1_4 : ∀ i : grid1.Coords, EltTy.bits .f32 = 32 ∨ (Rect.block (s := S8192x256) S1024x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S64x2048.size a ≤ S64x8192.size a
  hwx2_0 : ∀ i : grid2.Coords, EltTy.bits .f32 = 32 ∨ (Rect.block (s := S64x8192) S64x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S8192x256.size a
  hwx2_1 : ∀ i : grid2.Coords, EltTy.bits .f32 = 32 ∨ (Rect.block (s := S8192x256) S2048x256.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .f32 = 32 ∨ (Rect.block (s := S64x256) S64x256.size (cc2_transform_2 i) (hinb2_2 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S64x2048_S2048x256_S64x256_1_0_0_1_n_n : DotDims S64x2048 S2048x256 S64x256 where
  lhsContracting := [1]
  rhsContracting := [0]
  lhsNonContracting := [0]
  rhsNonContracting := [1]
  lhsBatch := []
  rhsBatch := []
  wf := dot_S64x2048_S2048x256_S64x256_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S8192x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S1024x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg2) S64x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v91) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v92) S64x256.size cc2_transform_2 reads2_2 true false 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S64x8192 : Shape := ⟨2, ![64, 8192]⟩
abbrev S128x256 : Shape := ⟨2, ![128, 256]⟩
abbrev S256 : Shape := ⟨1, ![256]⟩
abbrev S256x256 : Shape := ⟨2, ![256, 256]⟩
abbrev S8192x256 : Shape := ⟨2, ![8192, 256]⟩
abbrev S1x256 : Shape := ⟨2, ![1, 256]⟩
abbrev S_ : Shape := ⟨0, ![]⟩
abbrev S64x256 : Shape := ⟨2, ![64, 256]⟩

abbrev nBuf : Space → Nat
  | .hbm => 226
  | .vmem => 0
  | .smem => 0
  | _ => 0

abbrev hbmTy0_0 (i : Nat) : BufTy := match i % 128 with
  | 0 => ⟨S8192x128, .f32⟩
  | 1 => ⟨S8192x8192, .f32⟩
  | 2 => ⟨S64x8192, .f32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256, .f32⟩
  | 14 => ⟨S256, .f32⟩
  | 15 => ⟨S256x256, .f32⟩
  | 16 => ⟨S256, .f32⟩
  | 17 => ⟨S256, .f32⟩
  | 18 => ⟨S256, .f32⟩
  | 19 => ⟨S8192x128, .f32⟩
  | 20 => ⟨S8192x256, .f32⟩
  | 21 => ⟨S1x256, .f32⟩
  | 22 => ⟨S8192x256, .f32⟩
  | 23 => ⟨S8192x256, .f32⟩
  | 24 => ⟨S_, .f32⟩
  | 25 => ⟨S256, .f32⟩
  | 26 => ⟨S_, .f32⟩
  | 27 => ⟨S256, .f32⟩
  | 28 => ⟨S256, .f32⟩
  | 29 => ⟨S_, .i32⟩
  | 30 => ⟨S_, .f32⟩
  | 31 => ⟨S256, .f32⟩
  | 32 => ⟨S1x256, .f32⟩
  | 33 => ⟨S_, .f32⟩
  | 34 => ⟨S1x256, .f32⟩
  | 35 => ⟨S1x256, .f32⟩
  | 36 => ⟨S8192x256, .f32⟩
  | 37 => ⟨S8192x256, .f32⟩
  | 38 => ⟨S8192x256, .f32⟩
  | 39 => ⟨S_, .f32⟩
  | 40 => ⟨S_, .f32⟩
  | 41 => ⟨S_, .f32⟩
  | 42 => ⟨S_, .f32⟩
  | 43 => ⟨S256, .f32⟩
  | 44 => ⟨S256, .f32⟩
  | 45 => ⟨S256, .f32⟩
  | 46 => ⟨S_, .f32⟩
  | 47 => ⟨S_, .i1⟩
  | 48 => ⟨S_, .f32⟩
  | 49 => ⟨S_, .f32⟩
  | 50 => ⟨S256, .f32⟩
  | 51 => ⟨S256, .f32⟩
  | 52 => ⟨S1x256, .f32⟩
  | 53 => ⟨S8192x256, .f32⟩
  | 54 => ⟨S8192x256, .f32⟩
  | 55 => ⟨S1x256, .f32⟩
  | 56 => ⟨S8192x256, .f32⟩
  | 57 => ⟨S8192x256, .f32⟩
  | 58 => ⟨S_, .f32⟩
  | 59 => ⟨S256, .f32⟩
  | 60 => ⟨S256, .f32⟩
  | 61 => ⟨S256, .f32⟩
  | 62 => ⟨S1x256, .f32⟩
  | 63 => ⟨S8192x256, .f32⟩
  | 64 => ⟨S8192x256, .f32⟩
  | 65 => ⟨S1x256, .f32⟩
  | 66 => ⟨S8192x256, .f32⟩
  | 67 => ⟨S8192x256, .f32⟩
  | 68 => ⟨S_, .f32⟩
  | 69 => ⟨S8192x256, .f32⟩
  | 70 => ⟨S8192x256, .f32⟩
  | 71 => ⟨S8192x256, .f32⟩
  | 72 => ⟨S1x256, .f32⟩
  | 73 => ⟨S8192x256, .f32⟩
  | 74 => ⟨S8192x256, .f32⟩
  | 75 => ⟨S_, .f32⟩
  | 76 => ⟨S256, .f32⟩
  | 77 => ⟨S_, .f32⟩
  | 78 => ⟨S256, .f32⟩
  | 79 => ⟨S256, .f32⟩
  | 80 => ⟨S_, .i32⟩
  | 81 => ⟨S_, .f32⟩
  | 82 => ⟨S256, .f32⟩
  | 83 => ⟨S1x256, .f32⟩
  | 84 => ⟨S_, .f32⟩
  | 85 => ⟨S1x256, .f32⟩
  | 86 => ⟨S1x256, .f32⟩
  | 87 => ⟨S8192x256, .f32⟩
  | 88 => ⟨S8192x256, .f32⟩
  | 89 => ⟨S8192x256, .f32⟩
  | 90 => ⟨S_, .f32⟩
  | 91 => ⟨S_, .f32⟩
  | 92 => ⟨S_, .f32⟩
  | 93 => ⟨S_, .f32⟩
  | 94 => ⟨S256, .f32⟩
  | 95 => ⟨S256, .f32⟩
  | 96 => ⟨S256, .f32⟩
  | 97 => ⟨S_, .f32⟩
  | 98 => ⟨S_, .i1⟩
  | 99 => ⟨S_, .f32⟩
  | 100 => ⟨S_, .f32⟩
  | 101 => ⟨S256, .f32⟩
  | 102 => ⟨S256, .f32⟩
  | 103 => ⟨S1x256, .f32⟩
  | 104 => ⟨S8192x256, .f32⟩
  | 105 => ⟨S8192x256, .f32⟩
  | 106 => ⟨S1x256, .f32⟩
  | 107 => ⟨S8192x256, .f32⟩
  | 108 => ⟨S8192x256, .f32⟩
  | 109 => ⟨S_, .f32⟩
  | 110 => ⟨S256, .f32⟩
  | 111 => ⟨S256, .f32⟩
  | 112 => ⟨S256, .f32⟩
  | 113 => ⟨S1x256, .f32⟩
  | 114 => ⟨S8192x256, .f32⟩
  | 115 => ⟨S8192x256, .f32⟩
  | 116 => ⟨S1x256, .f32⟩
  | 117 => ⟨S8192x256, .f32⟩
  | 118 => ⟨S8192x256, .f32⟩
  | 119 => ⟨S_, .f32⟩
  | 120 => ⟨S8192x256, .f32⟩
  | 121 => ⟨S8192x256, .f32⟩
  | 122 => ⟨S8192x256, .f32⟩
  | 123 => ⟨S8192x256, .f32⟩
  | 124 => ⟨S1x256, .f32⟩
  | 125 => ⟨S8192x256, .f32⟩
  | 126 => ⟨S8192x256, .f32⟩
  | 127 => ⟨S_, .f32⟩
  | _ => ⟨S8192x128, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S_, .i32⟩
  | 5 => ⟨S_, .f32⟩
  | 6 => ⟨S256, .f32⟩
  | 7 => ⟨S1x256, .f32⟩
  | 8 => ⟨S_, .f32⟩
  | 9 => ⟨S1x256, .f32⟩
  | 10 => ⟨S1x256, .f32⟩
  | 11 => ⟨S8192x256, .f32⟩
  | 12 => ⟨S8192x256, .f32⟩
  | 13 => ⟨S8192x256, .f32⟩
  | 14 => ⟨S_, .f32⟩
  | 15 => ⟨S_, .f32⟩
  | 16 => ⟨S_, .f32⟩
  | 17 => ⟨S_, .f32⟩
  | 18 => ⟨S256, .f32⟩
  | 19 => ⟨S256, .f32⟩
  | 20 => ⟨S256, .f32⟩
  | 21 => ⟨S_, .f32⟩
  | 22 => ⟨S_, .i1⟩
  | 23 => ⟨S_, .f32⟩
  | 24 => ⟨S_, .f32⟩
  | 25 => ⟨S256, .f32⟩
  | 26 => ⟨S256, .f32⟩
  | 27 => ⟨S1x256, .f32⟩
  | 28 => ⟨S8192x256, .f32⟩
  | 29 => ⟨S8192x256, .f32⟩
  | 30 => ⟨S1x256, .f32⟩
  | 31 => ⟨S8192x256, .f32⟩
  | 32 => ⟨S8192x256, .f32⟩
  | 33 => ⟨S_, .f32⟩
  | 34 => ⟨S256, .f32⟩
  | 35 => ⟨S256, .f32⟩
  | 36 => ⟨S256, .f32⟩
  | 37 => ⟨S1x256, .f32⟩
  | 38 => ⟨S8192x256, .f32⟩
  | 39 => ⟨S8192x256, .f32⟩
  | 40 => ⟨S1x256, .f32⟩
  | 41 => ⟨S8192x256, .f32⟩
  | 42 => ⟨S8192x256, .f32⟩
  | 43 => ⟨S_, .f32⟩
  | 44 => ⟨S8192x256, .f32⟩
  | 45 => ⟨S8192x256, .f32⟩
  | 46 => ⟨S8192x256, .f32⟩
  | 47 => ⟨S1x256, .f32⟩
  | 48 => ⟨S8192x256, .f32⟩
  | 49 => ⟨S8192x256, .f32⟩
  | 50 => ⟨S_, .f32⟩
  | 51 => ⟨S256, .f32⟩
  | 52 => ⟨S_, .f32⟩
  | 53 => ⟨S256, .f32⟩
  | 54 => ⟨S256, .f32⟩
  | 55 => ⟨S_, .i32⟩
  | 56 => ⟨S_, .f32⟩
  | 57 => ⟨S256, .f32⟩
  | 58 => ⟨S1x256, .f32⟩
  | 59 => ⟨S_, .f32⟩
  | 60 => ⟨S1x256, .f32⟩
  | 61 => ⟨S1x256, .f32⟩
  | 62 => ⟨S8192x256, .f32⟩
  | 63 => ⟨S8192x256, .f32⟩
  | 64 => ⟨S8192x256, .f32⟩
  | 65 => ⟨S_, .f32⟩
  | 66 => ⟨S_, .f32⟩
  | 67 => ⟨S_, .f32⟩
  | 68 => ⟨S_, .f32⟩
  | 69 => ⟨S256, .f32⟩
  | 70 => ⟨S256, .f32⟩
  | 71 => ⟨S256, .f32⟩
  | 72 => ⟨S_, .f32⟩
  | 73 => ⟨S_, .i1⟩
  | 74 => ⟨S_, .f32⟩
  | 75 => ⟨S_, .f32⟩
  | 76 => ⟨S256, .f32⟩
  | 77 => ⟨S256, .f32⟩
  | 78 => ⟨S1x256, .f32⟩
  | 79 => ⟨S8192x256, .f32⟩
  | 80 => ⟨S8192x256, .f32⟩
  | 81 => ⟨S1x256, .f32⟩
  | 82 => ⟨S8192x256, .f32⟩
  | 83 => ⟨S8192x256, .f32⟩
  | 84 => ⟨S_, .f32⟩
  | 85 => ⟨S256, .f32⟩
  | 86 => ⟨S256, .f32⟩
  | 87 => ⟨S256, .f32⟩
  | 88 => ⟨S1x256, .f32⟩
  | 89 => ⟨S8192x256, .f32⟩
  | 90 => ⟨S8192x256, .f32⟩
  | 91 => ⟨S1x256, .f32⟩
  | 92 => ⟨S8192x256, .f32⟩
  | 93 => ⟨S8192x256, .f32⟩
  | 94 => ⟨S_, .f32⟩
  | 95 => ⟨S8192x256, .f32⟩
  | 96 => ⟨S8192x256, .f32⟩
  | 97 => ⟨S64x256, .f32⟩
  | _ => ⟨S8192x128, .f32⟩

abbrev hbmTy (i : Nat) : BufTy := match i / 128 with
  | 0 => hbmTy0_0 i
  | 1 => hbmTy0_1 i
  | _ => ⟨S8192x128, .f32⟩

abbrev bufTy : (tb : Table) → Fin (tcTables nBuf tb) → BufTy
  | .hbm, ⟨i, _⟩ => hbmTy i
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_v7 : Ref sig .tc := ⟨.hbm, 28, rfl⟩
abbrev main_c : Ref sig .tc := ⟨.hbm, 29, rfl⟩
abbrev main_call0_cst : Ref sig .tc := ⟨.hbm, 30, rfl⟩
abbrev main_call0_v0 : Ref sig .tc := ⟨.hbm, 31, rfl⟩
abbrev main_call0_v1 : Ref sig .tc := ⟨.hbm, 32, rfl⟩
abbrev main_call0_cst_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_cst_1 : Ref sig .tc := ⟨.hbm, 40, rfl⟩
abbrev main_call0_v8 : Ref sig .tc := ⟨.hbm, 41, rfl⟩
abbrev main_call0_cst_2 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_cst_3 : Ref sig .tc := ⟨.hbm, 46, rfl⟩
abbrev main_call0_v12 : Ref sig .tc := ⟨.hbm, 47, rfl⟩
abbrev main_call0_cst_4 : Ref sig .tc := ⟨.hbm, 48, rfl⟩
abbrev main_call0_call0_v0 : Ref sig .tc := ⟨.hbm, 49, rfl⟩
abbrev main_call0_call0_v1 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst_1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_call1_cst : Ref sig .tc := ⟨.hbm, 68, rfl⟩
abbrev main_call1_v0 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_cst_2 : Ref sig .tc := ⟨.hbm, 75, rfl⟩
abbrev main_v29 : Ref sig .tc := ⟨.hbm, 76, rfl⟩
abbrev main_cst_3 : Ref sig .tc := ⟨.hbm, 77, rfl⟩
abbrev main_v30 : Ref sig .tc := ⟨.hbm, 78, rfl⟩
abbrev main_v31 : Ref sig .tc := ⟨.hbm, 79, rfl⟩
abbrev main_c_4 : Ref sig .tc := ⟨.hbm, 80, rfl⟩
abbrev main_call2_cst : Ref sig .tc := ⟨.hbm, 81, rfl⟩
abbrev main_call2_v0 : Ref sig .tc := ⟨.hbm, 82, rfl⟩
abbrev main_call2_v1 : Ref sig .tc := ⟨.hbm, 83, rfl⟩
abbrev main_call2_cst_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_v6 : Ref sig .tc := ⟨.hbm, 89, rfl⟩
abbrev main_call2_v7 : Ref sig .tc := ⟨.hbm, 90, rfl⟩
abbrev main_call2_cst_1 : Ref sig .tc := ⟨.hbm, 91, rfl⟩
abbrev main_call2_v8 : Ref sig .tc := ⟨.hbm, 92, rfl⟩
abbrev main_call2_cst_2 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_cst_3 : Ref sig .tc := ⟨.hbm, 97, rfl⟩
abbrev main_call2_v12 : Ref sig .tc := ⟨.hbm, 98, rfl⟩
abbrev main_call2_cst_4 : Ref sig .tc := ⟨.hbm, 99, rfl⟩
abbrev main_call2_call0_v0 : Ref sig .tc := ⟨.hbm, 100, rfl⟩
abbrev main_call2_call0_v1 : Ref sig .tc := ⟨.hbm, 101, rfl⟩
abbrev main_v32 : Ref sig .tc := ⟨.hbm, 102, rfl⟩
abbrev main_v33 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_v37 : Ref sig .tc := ⟨.hbm, 107, rfl⟩
abbrev main_v38 : Ref sig .tc := ⟨.hbm, 108, rfl⟩
abbrev main_cst_5 : Ref sig .tc := ⟨.hbm, 109, rfl⟩
abbrev main_v39 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_call3_cst : Ref sig .tc := ⟨.hbm, 119, rfl⟩
abbrev main_call3_v0 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_cst_6 : Ref sig .tc := ⟨.hbm, 127, rfl⟩
abbrev main_v54 : Ref sig .tc := ⟨.hbm, 128, rfl⟩
abbrev main_cst_7 : Ref sig .tc := ⟨.hbm, 129, rfl⟩
abbrev main_v55 : Ref sig .tc := ⟨.hbm, 130, rfl⟩
abbrev main_v56 : Ref sig .tc := ⟨.hbm, 131, rfl⟩
abbrev main_c_8 : Ref sig .tc := ⟨.hbm, 132, rfl⟩
abbrev main_call4_cst : Ref sig .tc := ⟨.hbm, 133, rfl⟩
abbrev main_call4_v0 : Ref sig .tc := ⟨.hbm, 134, rfl⟩
abbrev main_call4_v1 : Ref sig .tc := ⟨.hbm, 135, rfl⟩
abbrev main_call4_cst_0 : Ref sig .tc := ⟨.hbm, 136, rfl⟩
abbrev main_call4_v2 : Ref sig .tc := ⟨.hbm, 137, rfl⟩
abbrev main_call4_v3 : Ref sig .tc := ⟨.hbm, 138, rfl⟩
abbrev main_call4_v4 : Ref sig .tc := ⟨.hbm, 139, rfl⟩
abbrev main_call4_v5 : Ref sig .tc := ⟨.hbm, 140, rfl⟩
abbrev main_call4_v6 : Ref sig .tc := ⟨.hbm, 141, rfl⟩
abbrev main_call4_v7 : Ref sig .tc := ⟨.hbm, 142, rfl⟩
abbrev main_call4_cst_1 : Ref sig .tc := ⟨.hbm, 143, rfl⟩
abbrev main_call4_v8 : Ref sig .tc := ⟨.hbm, 144, rfl⟩
abbrev main_call4_cst_2 : Ref sig .tc := ⟨.hbm, 145, rfl⟩
abbrev main_call4_v9 : Ref sig .tc := ⟨.hbm, 146, rfl⟩
abbrev main_call4_v10 : Ref sig .tc := ⟨.hbm, 147, rfl⟩
abbrev main_call4_v11 : Ref sig .tc := ⟨.hbm, 148, rfl⟩
abbrev main_call4_cst_3 : Ref sig .tc := ⟨.hbm, 149, rfl⟩
abbrev main_call4_v12 : Ref sig .tc := ⟨.hbm, 150, rfl⟩
abbrev main_call4_cst_4 : Ref sig .tc := ⟨.hbm, 151, rfl⟩
abbrev main_call4_call0_v0 : Ref sig .tc := ⟨.hbm, 152, rfl⟩
abbrev main_call4_call0_v1 : Ref sig .tc := ⟨.hbm, 153, rfl⟩
abbrev main_v57 : Ref sig .tc := ⟨.hbm, 154, rfl⟩
abbrev main_v58 : Ref sig .tc := ⟨.hbm, 155, rfl⟩
abbrev main_v59 : Ref sig .tc := ⟨.hbm, 156, rfl⟩
abbrev main_v60 : Ref sig .tc := ⟨.hbm, 157, rfl⟩
abbrev main_v61 : Ref sig .tc := ⟨.hbm, 158, rfl⟩
abbrev main_v62 : Ref sig .tc := ⟨.hbm, 159, rfl⟩
abbrev main_v63 : Ref sig .tc := ⟨.hbm, 160, rfl⟩
abbrev main_cst_9 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩
abbrev main_v67 : Ref sig .tc := ⟨.hbm, 165, rfl⟩
abbrev main_v68 : Ref sig .tc := ⟨.hbm, 166, rfl⟩
abbrev main_v69 : Ref sig .tc := ⟨.hbm, 167, rfl⟩
abbrev main_v70 : Ref sig .tc := ⟨.hbm, 168, rfl⟩
abbrev main_v71 : Ref sig .tc := ⟨.hbm, 169, rfl⟩
abbrev main_v72 : Ref sig .tc := ⟨.hbm, 170, rfl⟩
abbrev main_call5_cst : Ref sig .tc := ⟨.hbm, 171, rfl⟩
abbrev main_call5_v0 : Ref sig .tc := ⟨.hbm, 172, rfl⟩
abbrev main_v73 : Ref sig .tc := ⟨.hbm, 173, rfl⟩
abbrev main_v74 : Ref sig .tc := ⟨.hbm, 174, rfl⟩
abbrev main_v75 : Ref sig .tc := ⟨.hbm, 175, rfl⟩
abbrev main_v76 : Ref sig .tc := ⟨.hbm, 176, rfl⟩
abbrev main_v77 : Ref sig .tc := ⟨.hbm, 177, rfl⟩
abbrev main_cst_10 : Ref sig .tc := ⟨.hbm, 178, rfl⟩
abbrev main_v78 : Ref sig .tc := ⟨.hbm, 179, rfl⟩
abbrev main_cst_11 : Ref sig .tc := ⟨.hbm, 180, rfl⟩
abbrev main_v79 : Ref sig .tc := ⟨.hbm, 181, rfl⟩
abbrev main_v80 : Ref sig .tc := ⟨.hbm, 182, rfl⟩
abbrev main_c_12 : Ref sig .tc := ⟨.hbm, 183, rfl⟩
abbrev main_call6_cst : Ref sig .tc := ⟨.hbm, 184, rfl⟩
abbrev main_call6_v0 : Ref sig .tc := ⟨.hbm, 185, rfl⟩
abbrev main_call6_v1 : Ref sig .tc := ⟨.hbm, 186, rfl⟩
abbrev main_call6_cst_0 : Ref sig .tc := ⟨.hbm, 187, rfl⟩
abbrev main_call6_v2 : Ref sig .tc := ⟨.hbm, 188, rfl⟩
abbrev main_call6_v3 : Ref sig .tc := ⟨.hbm, 189, rfl⟩
abbrev main_call6_v4 : Ref sig .tc := ⟨.hbm, 190, rfl⟩
abbrev main_call6_v5 : Ref sig .tc := ⟨.hbm, 191, rfl⟩
abbrev main_call6_v6 : Ref sig .tc := ⟨.hbm, 192, rfl⟩
abbrev main_call6_v7 : Ref sig .tc := ⟨.hbm, 193, rfl⟩
abbrev main_call6_cst_1 : Ref sig .tc := ⟨.hbm, 194, rfl⟩
abbrev main_call6_v8 : Ref sig .tc := ⟨.hbm, 195, rfl⟩
abbrev main_call6_cst_2 : Ref sig .tc := ⟨.hbm, 196, rfl⟩
abbrev main_call6_v9 : Ref sig .tc := ⟨.hbm, 197, rfl⟩
abbrev main_call6_v10 : Ref sig .tc := ⟨.hbm, 198, rfl⟩
abbrev main_call6_v11 : Ref sig .tc := ⟨.hbm, 199, rfl⟩
abbrev main_call6_cst_3 : Ref sig .tc := ⟨.hbm, 200, rfl⟩
abbrev main_call6_v12 : Ref sig .tc := ⟨.hbm, 201, rfl⟩
abbrev main_call6_cst_4 : Ref sig .tc := ⟨.hbm, 202, rfl⟩
abbrev main_call6_call0_v0 : Ref sig .tc := ⟨.hbm, 203, rfl⟩
abbrev main_call6_call0_v1 : Ref sig .tc := ⟨.hbm, 204, rfl⟩
abbrev main_v81 : Ref sig .tc := ⟨.hbm, 205, rfl⟩
abbrev main_v82 : Ref sig .tc := ⟨.hbm, 206, rfl⟩
abbrev main_v83 : Ref sig .tc := ⟨.hbm, 207, rfl⟩
abbrev main_v84 : Ref sig .tc := ⟨.hbm, 208, rfl⟩
abbrev main_v85 : Ref sig .tc := ⟨.hbm, 209, rfl⟩
abbrev main_v86 : Ref sig .tc := ⟨.hbm, 210, rfl⟩
abbrev main_v87 : Ref sig .tc := ⟨.hbm, 211, rfl⟩
abbrev main_cst_13 : Ref sig .tc := ⟨.hbm, 212, rfl⟩
abbrev main_v88 : Ref sig .tc := ⟨.hbm, 213, rfl⟩
abbrev main_v89 : Ref sig .tc := ⟨.hbm, 214, rfl⟩
abbrev main_v90 : Ref sig .tc := ⟨.hbm, 215, rfl⟩
abbrev main_v91 : Ref sig .tc := ⟨.hbm, 216, rfl⟩
abbrev main_v92 : Ref sig .tc := ⟨.hbm, 217, rfl⟩
abbrev main_v93 : Ref sig .tc := ⟨.hbm, 218, rfl⟩
abbrev main_v94 : Ref sig .tc := ⟨.hbm, 219, rfl⟩
abbrev main_v95 : Ref sig .tc := ⟨.hbm, 220, rfl⟩
abbrev main_v96 : Ref sig .tc := ⟨.hbm, 221, rfl⟩
abbrev main_call7_cst : Ref sig .tc := ⟨.hbm, 222, rfl⟩
abbrev main_call7_v0 : Ref sig .tc := ⟨.hbm, 223, rfl⟩
abbrev main_v97 : Ref sig .tc := ⟨.hbm, 224, rfl⟩
abbrev main_v98 : Ref sig .tc := ⟨.hbm, 225, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  reducesTo_S8192x256_S256_d0 : S8192x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S8192x256 : S_.BroadcastsInDim S8192x256 (![] : Fin 0 → Fin S8192x256.rank)
  dot_S8192x8192_S8192x128_S8192x128_1_0_0_1_n_n_wf : DotDims.WF S8192x8192 S8192x128 S8192x128 [1] [0] [0] [1] [] []
  dot_S8192x128_S128x256_S8192x256_1_0_0_1_n_n_wf : DotDims.WF S8192x128 S128x256 S8192x256 [1] [0] [0] [1] [] []
  dot_S8192x256_S256x256_S8192x256_1_0_0_1_n_n_wf : DotDims.WF S8192x256 S256x256 S8192x256 [1] [0] [0] [1] [] []
  dot_S8192x8192_S8192x256_S8192x256_1_0_0_1_n_n_wf : DotDims.WF S8192x8192 S8192x256 S8192x256 [1] [0] [0] [1] [] []
  dot_S64x8192_S8192x256_S64x256_1_0_0_1_n_n_wf : DotDims.WF S64x8192 S8192x256 S64x256 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def dot_S8192x8192_S8192x256_S8192x256_1_0_0_1_n_n : DotDims S8192x8192 S8192x256 S8192x256 where
  lhsContracting := [1]
  rhsContracting := [0]
  lhsNonContracting := [0]
  rhsNonContracting := [1]
  lhsBatch := []
  rhsBatch := []
  wf := dot_S8192x8192_S8192x256_S8192x256_1_0_0_1_n_n_wf
def dot_S64x8192_S8192x256_S64x256_1_0_0_1_n_n : DotDims S64x8192 S8192x256 S64x256 where
  lhsContracting := [1]
  rhsContracting := [0]
  lhsNonContracting := [0]
  rhsNonContracting := [1]
  lhsBatch := []
  rhsBatch := []
  wf := dot_S64x8192_S8192x256_S64x256_1_0_0_1_n_n_wf

class Facts : Prop extends Facts₀ where

variable [Facts]
-- ==== Proof.K0.lean ====
/- Region 0 (the fused matmul kernel at 128 hidden columns, grid 8 x 4, point t = 4 i + k) at a parameter `V`,
   the contents of the TensorCore's buffers when the region is entered, generic in the float model.
   The kernel keeps a 1024 x 128 accumulator in scratch: at k = 0 it is zeroed; at every k the product of the
   point's 1024 x 2048 block of window 0 with the 2048-row slice of window 1 at row offset 2048 k is added to it;
   at k = 3 the epilogue multiplies it by window 2, adds window 3's row and stores the 1024 x 256 output block.
   So there are three control cases (reset / accumulate / accumulate and store), each run once symbolically;
   the scratch after position n (`acc0`) and the output buffer after it (`out0`) are defined by recursion on n,
   and the invariant carries the scratch at `acc0` from point to point. -/
import proofs.«116793_j28183575396967_2_alg».proof.Proof.Gen.Kernel.Launch
import proofs.«116793_j28183575396967_2_alg».proof.Proof.Gen.Kernel.Skeleton
import proofs.«116793_j28183575396967_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rX0 : Rect S1024x2048 := Rect.unit (s := S1024x2048) ![0, 0] S1024x2048.size inb_S1024x2048_S1024x2048_0_0
abbrev rH0 (i : grid0.Coords) : Rect S8192x128 := Rect.unit (s := S8192x128) (k0_off1 i) S2048x128.size (k0_off1_inb i)
abbrev rW0 : Rect S128x256 := Rect.unit (s := S128x256) ![0, 0] S128x256.size inb_S128x256_S128x256_0_0
abbrev rB0 : Rect S1x256 := Rect.unit (s := S1x256) ![0, 0] S1x256.size inb_S1x256_S1x256_0_0
abbrev rO0 : Rect S1024x256 := Rect.unit (s := S1024x256) ![0, 0] S1024x256.size inb_S1024x256_S1024x256_0_0
abbrev rS0 : Rect S1024x128 := Rect.unit (s := S1024x128) ![0, 0] S1024x128.size inb_S1024x128_S1024x128_0_0

/-- The body's branch conditions, from the grid coordinates. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

/-! ## What the body leaves, as functions of what it reads -/

/-- The scratch after the reset: the zero payload stored through the whole rectangle. -/
def zero0 : Vec F S1024x128 .f32 := View.canon [⟨rS0, k0_pay1 (F := F)⟩]

/-- The scratch after one accumulation step: the product of window 0's block with the row slice of window 1's
    block at the point's offset, added to the scratch's contents `xs`. -/
def step0 (i : grid0.Coords) (x0 : Vec F S1024x2048 .f32) (x1 : Vec F S8192x128 .f32) (xs : Vec F S1024x128 .f32) : Vec F S1024x128 .f32 :=
  View.canon [⟨rS0, k0_pay2 (View.ld x0 rX0) (View.ld x1 (rH0 i)) (View.ld xs rS0)⟩]

/-- The output block the epilogue stores, from the accumulated scratch `xs` and windows 2 and 3. -/
def fin0 (xs : Vec F S1024x128 .f32) (x2 : Vec F S128x256 .f32) (x3 : Vec F S1x256 .f32) : Vec F S1024x256 .f32 :=
  View.canon [⟨rO0, k0_pay3 (View.ld xs rS0) (View.ld x2 rW0) (View.ld x3 rB0)⟩]

theorem coverS0 (p0 : rS0.shape.Idx → Elt F .f32) (y : S1024x128.Idx) :
    ∃ pc ∈ ([⟨rS0, p0⟩] : List (View.Piece (Elt F) S1024x128 .f32)), y ∈ pc.1.set :=
  View.cover_of_tiled [⟨rS0, p0⟩] S1024x128.size (by rfl) y

theorem coverO0 (p0 : rO0.shape.Idx → Elt F .f32) (y : S1024x256.Idx) :
    ∃ pc ∈ ([⟨rO0, p0⟩] : List (View.Piece (Elt F) S1024x256 .f32)), y ∈ pc.1.set :=
  View.cover_of_tiled [⟨rO0, p0⟩] S1024x256.size (by rfl) y

/-! ## The body's triple, case by case -/

/-- The reset's zeros, overwritten by one step read back through them: one step over zeros. -/
theorem read_reset_step0 (v : View sig .tc .vmem S1024x128 .f32) (fs : v.ty.Contents (Elt F)) (i : grid0.Coords)
    (x0 : Vec F S1024x2048 .f32) (x1 : Vec F S8192x128 .f32) :
    v.read (Elt F) (v.writes (Elt F) fs
        [⟨rS0, k0_pay2 (View.ld x0 rX0) (View.ld x1 (rH0 i)) (v.readCov [⟨rS0, k0_pay1 (F := F)⟩] rS0.toLoadRect)⟩, ⟨rS0, k0_pay1 (F := F)⟩])
      = step0 i x0 x1 (zero0 (F := F)) := by
  rw [View.writes_cons_drop v fs ⟨rS0, _⟩ rS0 _ [] (fun _ hy => hy)]
  rw [View.readCov_eq_canon_ld v _ rS0 (coverS0 _)]
  unfold step0 zero0
  exact View.read_writes_eq_canon _ _ _ (coverS0 _)

set_option maxHeartbeats 1000000 in
/-- Case B (neither conditional taken): the scratch at `xs` is stepped; everything else is handed back. -/
theorem sound_B0 (c : Dev nD) (i : grid0.Coords) (E : Set ℕ)
    (arg2 : Memref sig .tc .vmem S1024x2048 .f32) (harg2 : arg2.IsWhole) (arg3 : Memref sig .tc .vmem S8192x128 .f32) (harg3 : arg3.IsWhole)
    (arg4 : Memref sig .tc .vmem S128x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x128 .f32) (harg7 : arg7.IsWhole)
    (hc0 : ¬cond0_0 i) (hc1 : ¬cond0_1 i)
    (x0 : Vec F S1024x2048 .f32) (x1 : Vec F S8192x128 .f32) (x2 : Vec F S128x256 .f32) (x3 : Vec F S1x256 .f32) (xi4 : Vec F S1024x256 .f32) (xs : Vec F S1024x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (step0 i x0 x1 xs)) -∗ K ⟨⟩))
      ⊢ wp frame (wpE (defs₀ (F := F)) Variants.none c none) E (cc0__matmul_fused_kernel i arg2 harg2 arg3 harg3 arg4 harg4 arg5 harg5 arg6 harg6 arg7 harg7) K := by
  simp only [cc0__matmul_fused_kernel_eq_skeleton]; unfold cc0__matmul_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  exact View.read_writes_eq_canon _ _ _ (coverS0 _)

set_option maxHeartbeats 1000000 in
/-- Case A (the reset taken, the epilogue not): the scratch, at anything, is zeroed and stepped. -/
theorem sound_A0 (c : Dev nD) (i : grid0.Coords) (E : Set ℕ)
    (arg2 : Memref sig .tc .vmem S1024x2048 .f32) (harg2 : arg2.IsWhole) (arg3 : Memref sig .tc .vmem S8192x128 .f32) (harg3 : arg3.IsWhole)
    (arg4 : Memref sig .tc .vmem S128x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x128 .f32) (harg7 : arg7.IsWhole)
    (hc0 : cond0_0 i) (hc1 : ¬cond0_1 i)
    (x0 : Vec F S1024x2048 .f32) (x1 : Vec F S8192x128 .f32) (x2 : Vec F S128x256 .f32) (x3 : Vec F S1x256 .f32) (xi4 : Vec F S1024x256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (step0 i x0 x1 (zero0 (F := F)))) -∗ K ⟨⟩))
      ⊢ wp frame (wpE (defs₀ (F := F)) Variants.none c none) E (cc0__matmul_fused_kernel i arg2 harg2 arg3 harg3 arg4 harg4 arg5 harg5 arg6 harg6 arg7 harg7) K := by
  simp only [cc0__matmul_fused_kernel_eq_skeleton]; unfold cc0__matmul_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  exact read_reset_step0 arg7.view fs i (arg2.view.read (Elt F) f0) (arg3.view.read (Elt F) f1)

set_option maxHeartbeats 1000000 in
/-- Case C (the epilogue taken, the reset not): the scratch at `xs` is stepped, and the output block stored from it. -/
theorem sound_C0 (c : Dev nD) (i : grid0.Coords) (E : Set ℕ)
    (arg2 : Memref sig .tc .vmem S1024x2048 .f32) (harg2 : arg2.IsWhole) (arg3 : Memref sig .tc .vmem S8192x128 .f32) (harg3 : arg3.IsWhole)
    (arg4 : Memref sig .tc .vmem S128x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x128 .f32) (harg7 : arg7.IsWhole)
    (hc0 : ¬cond0_0 i) (hc1 : cond0_1 i)
    (x0 : Vec F S1024x2048 .f32) (x1 : Vec F S8192x128 .f32) (x2 : Vec F S128x256 .f32) (x3 : Vec F S1x256 .f32) (xs : Vec F S1024x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (fin0 (step0 i x0 x1 xs) x2 x3) ∗ owns (c : Thread nD τ) arg7 fullShare (step0 i x0 x1 xs)) -∗ K ⟨⟩))
      ⊢ wp frame (wpE (defs₀ (F := F)) Variants.none c none) E (cc0__matmul_fused_kernel i arg2 harg2 arg3 harg3 arg4 harg4 arg5 harg5 arg6 harg6 arg7 harg7) K := by
  simp only [cc0__matmul_fused_kernel_eq_skeleton]; unfold cc0__matmul_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon_ld _ _ rS0 (coverS0 _)]
    exact View.read_writes_eq_canon _ _ _ (coverO0 _)
  iexists _; isplitr
  swap; · iexact HS
  ipureintro
  exact View.read_writes_eq_canon _ _ _ (coverS0 _)

/-! ## The windows' blocks -/

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions and the idle points, decided over the grid -/

/-- The reset is taken at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The epilogue is taken at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- Off the epilogue's points the output window is idle, -/
theorem idleAt0_4 : ∀ t : Fin cfg0.N, ¬cond0_1 (grid0.coords t) → cfg0.idle 4 (grid0.coords t) = true := by decide +kernel
/-- and its block is not written back there; -/
theorem noFlush0_4 : ∀ t : Fin cfg0.N, ¬cond0_1 (grid0.coords t) → (cfg0.win 4).flush t = false := by decide +kernel
/-- at the epilogue's points it is live. -/
theorem liveAt0_4 : ∀ t : Fin cfg0.N, cond0_1 (grid0.coords t) → cfg0.idle 4 (grid0.coords t) = false := by decide +kernel

/-! ## What the scratch and the output's buffer hold after each point -/

/-- The carried scratch after the body at position `n`: one accumulation step at the point's blocks, over zeros at a
    point ≡ 0 (mod 4), over what the point before left otherwise. -/
def acc0 (c : Dev nD) : (n : ℕ) → n < cfg0.N → Vec F S1024x128 .f32
  | 0, hn => step0 (grid0.coords ⟨0, hn⟩) (iblk0 V c 0 ⟨0, hn⟩) (iblk0 V c 1 ⟨0, hn⟩) (zero0 (F := F))
  | n + 1, hn => step0 (grid0.coords ⟨n + 1, hn⟩) (iblk0 V c 0 ⟨n + 1, hn⟩) (iblk0 V c 1 ⟨n + 1, hn⟩)
      (if (n + 1) % 4 = 0 then zero0 (F := F) else acc0 c n (Nat.lt_of_succ_lt hn))

/-- The output window's staging buffer after the body at position `n` (what the epilogue stores from the scratch as
    that point leaves it; consulted at the points ≡ 3 (mod 4) only, the window being idle elsewhere). -/
def out0 (c : Dev nD) (n : ℕ) (hn : n < cfg0.N) : Vec F S1024x256 .f32 :=
  fin0 (acc0 V c n hn) (iblk0 V c 2 ⟨n, hn⟩) (iblk0 V c 3 ⟨n, hn⟩)

/-- VALUE EQUATION, reset points: the scratch after a point ≡ 0 (mod 4) is one step over zeros. -/
theorem acc0_reset (c : Dev nD) (t : Fin cfg0.N) (h0 : t.val % 4 = 0) :
    acc0 V c t.val t.isLt = step0 (grid0.coords t) (iblk0 V c 0 t) (iblk0 V c 1 t) (zero0 (F := F)) := by
  obtain ⟨n, hn⟩ := t
  cases n with
  | zero => rfl
  | succ n => exact congrArg (step0 _ _ _) (if_pos h0)

/-- VALUE EQUATION, the other points: one step over what the point before left. -/
theorem acc0_step (c : Dev nD) (t : Fin cfg0.N) (h0 : ¬t.val % 4 = 0) :
    acc0 V c t.val t.isLt = step0 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact congrArg (step0 _ _ _) (if_neg h0)

/-- VALUE EQUATION, the output: the epilogue's block from the scratch as the same point leaves it. -/
theorem out0_eq (c : Dev nD) (t : Fin cfg0.N) :
    out0 V c t.val t.isLt = fin0 (acc0 V c t.val t.isLt) (iblk0 V c 2 t) (iblk0 V c 3 t) := rfl

/-! ## The region invariant -/

/-- The scratch operand: a whole scoped buffer of the kernel's own. -/
abbrev scM0 : Memref sig .tc .vmem S1024x128 .f32 := Memref.whole cc0_scratch0

/-- The core's other scoped buffers that are no staging buffer of this call, unopened. -/
abbrev rest0 (c : Dev nD) : sProp 𝕄 :=
  Pipeline.scopedRestBut (Ix := Unit) (Name := ℕ) (U := UR sig nD τ) (Lvl := ℕ) (Val := Elt F) spec0 c [cc0_scratch0]

/-- The class's invariant with the scratch operand as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]; try rfl

/-- The invariant before position `n`: the class's before the first point; afterwards the scratch at what the point
    before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of this pipeline on core `c`, at the region-entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- The current staging memrefs at point `t`, spelled as the pipeline passes them, and their wholeness. -/
abbrev ms0_0 (t : Fin cfg0.N) : Memref sig .tc .vmem S1024x2048 .f32 := win0_0.stage (cfg0.slots t 0)
abbrev ms0_1 (t : Fin cfg0.N) : Memref sig .tc .vmem S8192x128 .f32 := win0_1.stage (cfg0.slots t 1)
abbrev ms0_2 (t : Fin cfg0.N) : Memref sig .tc .vmem S128x256 .f32 := win0_2.stage (cfg0.slots t 2)
abbrev ms0_3 (t : Fin cfg0.N) : Memref sig .tc .vmem S1x256 .f32 := win0_3.stage (cfg0.slots t 3)
abbrev ms0_4 (t : Fin cfg0.N) : Memref sig .tc .vmem S1024x256 .f32 := win0_4.stage (cfg0.slots t 4)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- An input window is live everywhere: the body leaves its block in place. -/
theorem leaves0_0 (c : Dev nD) (t : Fin cfg0.N) :
    (dat0 V c).leavesExact 0 t = owns (c : Thread nD τ) (ms0_0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (ms0_1 t) fullShare (iblk0 V c 1 t) := by
  unfold Dat.leavesExact; rw [show cfg0.idle 1 (cfg0.grid.coords t) = false from rfl, after0_1]
theorem leaves0_2 (c : Dev nD) (t : Fin cfg0.N) :
    (dat0 V c).leavesExact 2 t = owns (c : Thread nD τ) (ms0_2 t) fullShare (iblk0 V c 2 t) := by
  unfold Dat.leavesExact; rw [show cfg0.idle 2 (cfg0.grid.coords t) = false from rfl, after0_2]
theorem leaves0_3 (c : Dev nD) (t : Fin cfg0.N) :
    (dat0 V c).leavesExact 3 t = owns (c : Thread nD τ) (ms0_3 t) fullShare (iblk0 V c 3 t) := by
  unfold Dat.leavesExact; rw [show cfg0.idle 3 (cfg0.grid.coords t) = false from rfl, after0_3]

set_option maxHeartbeats 4800000 in
/-- The body at any point: the inputs' memrefs hold their blocks; the point's residue mod 4 says which case it is
    in; the invariant hands the body the scratch at what the point before left (at anything at the first point) and
    takes it back at this point's contents; off the epilogue's points the output's buffer goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 32 := lt_of_lt_of_eq t.isLt (show cfg0.N = 32 from N_0)
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1)]
    rw [acc0_reset V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (sound_A0 c (grid0.coords t) Set.univ _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_A0 c (grid0.coords t) Set.univ _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hz : t.val ≠ 0 := fun hz => h0 (by rw [hz])
    rw [acc0_step V c t h0]
    rw [PhiS0_castSucc V c t, PhiS0_pos V c _ _ hz]
    by_cases h1 : t.val % 4 = 3
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, out0_eq, acc0_step V c t h0]
      iintro ⟨⟨⟨HS, HR⟩, Hg⟩, Ho, ⟨%d0, H0⟩, ⟨%d1, H1⟩, ⟨%d2, H2⟩, ⟨%d3, H3⟩, ⟨%d4, H4⟩⟩
      iapply (sound_C0 c (grid0.coords t) Set.univ _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 t hc1) (noFlush0_4 t hc1)]
      iintro ⟨⟨⟨HS, HR⟩, Hg⟩, Ho, ⟨%d0, H0⟩, ⟨%d1, H1⟩, ⟨%d2, H2⟩, ⟨%d3, H3⟩, ⟨%d4, H4⟩⟩
      iapply (sound_B0 c (grid0.coords t) Set.univ _ _ _ _ _ _ _ _ _ _ _ _ hc0 hc1 (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.Kernel.Hand

end
-- ==== Proof.K1.lean ====
/- Region 1 (the fused matmul kernel at 256 hidden columns, grid 8 x 4, point t = 4 i + k) at a parameter `V`,
   the contents of the TensorCore's buffers when the region is entered, generic in the float model.
   The kernel keeps a 1024 x 256 accumulator in scratch: at k = 0 it is zeroed; at every k the product of the
   point's 1024 x 2048 block of window 0 with the 2048-row slice of window 1 at row offset 2048 k is added to it;
   at k = 3 the epilogue multiplies it by window 2, adds window 3's row and stores the 1024 x 256 output block.
   So there are three control cases (reset / accumulate / accumulate and store), each run once symbolically;
   the scratch after position n (`acc1`) and the output buffer after it (`out1`) are defined by recursion on n,
   and the invariant carries the scratch at `acc1` from point to point. -/
import proofs.«116793_j28183575396967_2_alg».proof.Proof.Gen.Kernel.Launch
import proofs.«116793_j28183575396967_2_alg».proof.Proof.Gen.Kernel.Skeleton
import proofs.«116793_j28183575396967_2_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rX1 : Rect S1024x2048 := Rect.unit (s := S1024x2048) ![0, 0] S1024x2048.size inb_S1024x2048_S1024x2048_0_0
abbrev rH1 (i : grid1.Coords) : Rect S8192x256 := Rect.unit (s := S8192x256) (k1_off1 i) S2048x256.size (k1_off1_inb i)
abbrev rW1 : Rect S256x256 := Rect.unit (s := S256x256) ![0, 0] S256x256.size inb_S256x256_S256x256_0_0
abbrev rB1 : Rect S1x256 := Rect.unit (s := S1x256) ![0, 0] S1x256.size inb_S1x256_S1x256_0_0
abbrev rO1 : Rect S1024x256 := Rect.unit (s := S1024x256) ![0, 0] S1024x256.size inb_S1024x256_S1024x256_0_0
abbrev rS1 : Rect S1024x256 := Rect.unit (s := S1024x256) ![0, 0] S1024x256.size inb_S1024x256_S1024x256_0_0

/-- The body's branch conditions, from the grid coordinates. -/
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-! ## What the body leaves, as functions of what it reads -/

/-- The scratch after the reset: the zero payload stored through the whole rectangle. -/
def zero1 : Vec F S1024x256 .f32 := View.canon [⟨rS1, k1_pay1 (F := F)⟩]

/-- The scratch after one accumulation step: the product of window 0's block with the row slice of window 1's
    block at the point's offset, added to the scratch's contents `xs`. -/
def step1 (i : grid1.Coords) (x0 : Vec F S1024x2048 .f32) (x1 : Vec F S8192x256 .f32) (xs : Vec F S1024x256 .f32) : Vec F S1024x256 .f32 :=
  View.canon [⟨rS1, k1_pay2 (View.ld x0 rX1) (View.ld x1 (rH1 i)) (View.ld xs rS1)⟩]

/-- The output block the epilogue stores, from the accumulated scratch `xs` and windows 2 and 3. -/
def fin1 (xs : Vec F S1024x256 .f32) (x2 : Vec F S256x256 .f32) (x3 : Vec F S1x256 .f32) : Vec F S1024x256 .f32 :=
  View.canon [⟨rO1, k1_pay3 (View.ld xs rS1) (View.ld x2 rW1) (View.ld x3 rB1)⟩]

theorem coverS1 (p0 : rS1.shape.Idx → Elt F .f32) (y : S1024x256.Idx) :
    ∃ pc ∈ ([⟨rS1, p0⟩] : List (View.Piece (Elt F) S1024x256 .f32)), y ∈ pc.1.set :=
  View.cover_of_tiled [⟨rS1, p0⟩] S1024x256.size (by rfl) y

theorem coverO1 (p0 : rO1.shape.Idx → Elt F .f32) (y : S1024x256.Idx) :
    ∃ pc ∈ ([⟨rO1, p0⟩] : List (View.Piece (Elt F) S1024x256 .f32)), y ∈ pc.1.set :=
  View.cover_of_tiled [⟨rO1, p0⟩] S1024x256.size (by rfl) y

/-! ## The body's triple, case by case -/

/-- The reset's zeros, overwritten by one step read back through them: one step over zeros. -/
theorem read_reset_step1 (v : View sig .tc .vmem S1024x256 .f32) (fs : v.ty.Contents (Elt F)) (i : grid1.Coords)
    (x0 : Vec F S1024x2048 .f32) (x1 : Vec F S8192x256 .f32) :
    v.read (Elt F) (v.writes (Elt F) fs
        [⟨rS1, k1_pay2 (View.ld x0 rX1) (View.ld x1 (rH1 i)) (v.readCov [⟨rS1, k1_pay1 (F := F)⟩] rS1.toLoadRect)⟩, ⟨rS1, k1_pay1 (F := F)⟩])
      = step1 i x0 x1 (zero1 (F := F)) := by
  rw [View.writes_cons_drop v fs ⟨rS1, _⟩ rS1 _ [] (fun _ hy => hy)]
  rw [View.readCov_eq_canon_ld v _ rS1 (coverS1 _)]
  unfold step1 zero1
  exact View.read_writes_eq_canon _ _ _ (coverS1 _)

set_option maxHeartbeats 1000000 in
/-- Case B (neither conditional taken): the scratch at `xs` is stepped; everything else is handed back. -/
theorem sound_B1 (c : Dev nD) (i : grid1.Coords) (E : Set ℕ)
    (arg2 : Memref sig .tc .vmem S1024x2048 .f32) (harg2 : arg2.IsWhole) (arg3 : Memref sig .tc .vmem S8192x256 .f32) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond1_0 i) (hc1 : ¬cond1_1 i)
    (x0 : Vec F S1024x2048 .f32) (x1 : Vec F S8192x256 .f32) (x2 : Vec F S256x256 .f32) (x3 : Vec F S1x256 .f32) (xi4 : Vec F S1024x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (step1 i x0 x1 xs)) -∗ K ⟨⟩))
      ⊢ wp frame (wpE (defs₀ (F := F)) Variants.none c none) E (cc1__matmul_fused_kernel i arg2 harg2 arg3 harg3 arg4 harg4 arg5 harg5 arg6 harg6 arg7 harg7) K := by
  simp only [cc1__matmul_fused_kernel_eq_skeleton]; unfold cc1__matmul_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  exact View.read_writes_eq_canon _ _ _ (coverS1 _)

set_option maxHeartbeats 1000000 in
/-- Case A (the reset taken, the epilogue not): the scratch, at anything, is zeroed and stepped. -/
theorem sound_A1 (c : Dev nD) (i : grid1.Coords) (E : Set ℕ)
    (arg2 : Memref sig .tc .vmem S1024x2048 .f32) (harg2 : arg2.IsWhole) (arg3 : Memref sig .tc .vmem S8192x256 .f32) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x256 .f32) (harg7 : arg7.IsWhole)
    (hc0 : cond1_0 i) (hc1 : ¬cond1_1 i)
    (x0 : Vec F S1024x2048 .f32) (x1 : Vec F S8192x256 .f32) (x2 : Vec F S256x256 .f32) (x3 : Vec F S1x256 .f32) (xi4 : Vec F S1024x256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (step1 i x0 x1 (zero1 (F := F)))) -∗ K ⟨⟩))
      ⊢ wp frame (wpE (defs₀ (F := F)) Variants.none c none) E (cc1__matmul_fused_kernel i arg2 harg2 arg3 harg3 arg4 harg4 arg5 harg5 arg6 harg6 arg7 harg7) K := by
  simp only [cc1__matmul_fused_kernel_eq_skeleton]; unfold cc1__matmul_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  exact read_reset_step1 arg7.view fs i (arg2.view.read (Elt F) f0) (arg3.view.read (Elt F) f1)

set_option maxHeartbeats 1000000 in
/-- Case C (the epilogue taken, the reset not): the scratch at `xs` is stepped, and the output block stored from it. -/
theorem sound_C1 (c : Dev nD) (i : grid1.Coords) (E : Set ℕ)
    (arg2 : Memref sig .tc .vmem S1024x2048 .f32) (harg2 : arg2.IsWhole) (arg3 : Memref sig .tc .vmem S8192x256 .f32) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond1_0 i) (hc1 : cond1_1 i)
    (x0 : Vec F S1024x2048 .f32) (x1 : Vec F S8192x256 .f32) (x2 : Vec F S256x256 .f32) (x3 : Vec F S1x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (fin1 (step1 i x0 x1 xs) x2 x3) ∗ owns (c : Thread nD τ) arg7 fullShare (step1 i x0 x1 xs)) -∗ K ⟨⟩))
      ⊢ wp frame (wpE (defs₀ (F := F)) Variants.none c none) E (cc1__matmul_fused_kernel i arg2 harg2 arg3 harg3 arg4 harg4 arg5 harg5 arg6 harg6 arg7 harg7) K := by
  simp only [cc1__matmul_fused_kernel_eq_skeleton]; unfold cc1__matmul_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon_ld _ _ rS1 (coverS1 _)]
    exact View.read_writes_eq_canon _ _ _ (coverO1 _)
  iexists _; isplitr
  swap; · iexact HS
  ipureintro
  exact View.read_writes_eq_canon _ _ _ (coverS1 _)

/-! ## The windows' blocks -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions and the idle points, decided over the grid -/

/-- The reset is taken at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The epilogue is taken at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- Off the epilogue's points the output window is idle, -/
theorem idleAt1_4 : ∀ t : Fin cfg1.N, ¬cond1_1 (grid1.coords t) → cfg1.idle 4 (grid1.coords t) = true := by decide +kernel
/-- and its block is not written back there; -/
theorem noFlush1_4 : ∀ t : Fin cfg1.N, ¬cond1_1 (grid1.coords t) → (cfg1.win 4).flush t = false := by decide +kernel
/-- at the epilogue's points it is live. -/
theorem liveAt1_4 : ∀ t : Fin cfg1.N, cond1_1 (grid1.coords t) → cfg1.idle 4 (grid1.coords t) = false := by decide +kernel

/-! ## What the scratch and the output's buffer hold after each point -/

/-- The carried scratch after the body at position `n`: one accumulation step at the point's blocks, over zeros at a
    point ≡ 0 (mod 4), over what the point before left otherwise. -/
def acc1 (c : Dev nD) : (n : ℕ) → n < cfg1.N → Vec F S1024x256 .f32
  | 0, hn => step1 (grid1.coords ⟨0, hn⟩) (iblk1 V c 0 ⟨0, hn⟩) (iblk1 V c 1 ⟨0, hn⟩) (zero1 (F := F))
  | n + 1, hn => step1 (grid1.coords ⟨n + 1, hn⟩) (iblk1 V c 0 ⟨n + 1, hn⟩) (iblk1 V c 1 ⟨n + 1, hn⟩)
      (if (n + 1) % 4 = 0 then zero1 (F := F) else acc1 c n (Nat.lt_of_succ_lt hn))

/-- The output window's staging buffer after the body at position `n` (what the epilogue stores from the scratch as
    that point leaves it; consulted at the points ≡ 3 (mod 4) only, the window being idle elsewhere). -/
def out1 (c : Dev nD) (n : ℕ) (hn : n < cfg1.N) : Vec F S1024x256 .f32 :=
  fin1 (acc1 V c n hn) (iblk1 V c 2 ⟨n, hn⟩) (iblk1 V c 3 ⟨n, hn⟩)

/-- VALUE EQUATION, reset points: the scratch after a point ≡ 0 (mod 4) is one step over zeros. -/
theorem acc1_reset (c : Dev nD) (t : Fin cfg1.N) (h0 : t.val % 4 = 0) :
    acc1 V c t.val t.isLt = step1 (grid1.coords t) (iblk1 V c 0 t) (iblk1 V c 1 t) (zero1 (F := F)) := by
  obtain ⟨n, hn⟩ := t
  cases n with
  | zero => rfl
  | succ n => exact congrArg (step1 _ _ _) (if_pos h0)

/-- VALUE EQUATION, the other points: one step over what the point before left. -/
theorem acc1_step (c : Dev nD) (t : Fin cfg1.N) (h0 : ¬t.val % 4 = 0) :
    acc1 V c t.val t.isLt = step1 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact congrArg (step1 _ _ _) (if_neg h0)

/-- VALUE EQUATION, the output: the epilogue's block from the scratch as the same point leaves it. -/
theorem out1_eq (c : Dev nD) (t : Fin cfg1.N) :
    out1 V c t.val t.isLt = fin1 (acc1 V c t.val t.isLt) (iblk1 V c 2 t) (iblk1 V c 3 t) := rfl

/-! ## The region invariant -/

/-- The scratch operand: a whole scoped buffer of the kernel's own. -/
abbrev scM1 : Memref sig .tc .vmem S1024x256 .f32 := Memref.whole cc1_scratch0

/-- The core's other scoped buffers that are no staging buffer of this call, unopened. -/
abbrev rest1 (c : Dev nD) : sProp 𝕄 :=
  Pipeline.scopedRestBut (Ix := Unit) (Name := ℕ) (U := UR sig nD τ) (Lvl := ℕ) (Val := Elt F) spec1 c [cc1_scratch0]

/-- The class's invariant with the scratch operand as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [bigSepL_singleton, scM1, owns_whole]; try rfl

/-- The invariant before position `n`: the class's before the first point; afterwards the scratch at what the point
    before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 (F := F) c) ∗ (∃ r, prngReg c r)) := by
  cases n with
  | zero => exact absurd rfl hz
  | succ n => rfl

/-! ## The pipeline's proof data -/

/-- The proof data of this pipeline on core `c`, at the region-entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- The current staging memrefs at point `t`, spelled as the pipeline passes them, and their wholeness. -/
abbrev ms1_0 (t : Fin cfg1.N) : Memref sig .tc .vmem S1024x2048 .f32 := win1_0.stage (cfg1.slots t 0)
abbrev ms1_1 (t : Fin cfg1.N) : Memref sig .tc .vmem S8192x256 .f32 := win1_1.stage (cfg1.slots t 1)
abbrev ms1_2 (t : Fin cfg1.N) : Memref sig .tc .vmem S256x256 .f32 := win1_2.stage (cfg1.slots t 2)
abbrev ms1_3 (t : Fin cfg1.N) : Memref sig .tc .vmem S1x256 .f32 := win1_3.stage (cfg1.slots t 3)
abbrev ms1_4 (t : Fin cfg1.N) : Memref sig .tc .vmem S1024x256 .f32 := win1_4.stage (cfg1.slots t 4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window is live everywhere: the body leaves its block in place. -/
theorem leaves1_0 (c : Dev nD) (t : Fin cfg1.N) :
    (dat1 V c).leavesExact 0 t = owns (c : Thread nD τ) (ms1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact; rw [show cfg1.idle 3 (cfg1.grid.coords t) = false from rfl, after1_3]

set_option maxHeartbeats 4800000 in
/-- The body at any point: the inputs' memrefs hold their blocks; the point's residue mod 4 says which case it is
    in; the invariant hands the body the scratch at what the point before left (at anything at the first point) and
    takes it back at this point's contents; off the epilogue's points the output's buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [acc1_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (sound_A1 c (grid1.coords t) Set.univ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_A1 c (grid1.coords t) Set.univ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun hz => h0 (by rw [hz])
    rw [acc1_step V c t h0]
    rw [PhiS1_castSucc V c t, PhiS1_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, out1_eq, acc1_step V c t h0]
      iintro ⟨⟨⟨HS, HR⟩, Hg⟩, Ho, ⟨%d0, H0⟩, ⟨%d1, H1⟩, ⟨%d2, H2⟩, ⟨%d3, H3⟩, ⟨%d4, H4⟩⟩
      iapply (sound_C1 c (grid1.coords t) Set.univ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨⟨HS, HR⟩, Hg⟩, Ho, ⟨%d0, H0⟩, ⟨%d1, H1⟩, ⟨%d2, H2⟩, ⟨%d3, H3⟩, ⟨%d4, H4⟩⟩
      iapply (sound_B1 c (grid1.coords t) Set.univ _ _ _ _ _ _ _ _ _ _ _ _ hc0 hc1 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Hand

end
-- ==== Proof.K2.lean ====
/- Region 2 of the kernel program (the call of `cc2__matmul_kernel`, grid [1, 4]) at the region-entry contents `V`:
   the kernel body's triple in each of its three control cases, the contents of the carried accumulator and of the
   output block point by point, the proof data of the pipeline, its body obligation, and the value equations of the
   accumulator over the skeleton's payloads. Generic in the float model `F`. -/
import proofs.«116793_j28183575396967_2_alg».proof.Proof.Gen.Kernel.Launch
import proofs.«116793_j28183575396967_2_alg».proof.Proof.Gen.Kernel.Skeleton
import proofs.«116793_j28183575396967_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-shape accesses and the branch conditions -/

/-- The branch condition of the first conditional (the reduction step is the first), from the grid coordinates. -/
abbrev cond2_0 (i : grid2.Coords) : Prop := (Scalar.cmpi .ne (Scalar.extui (Scalar.cmpi .eq (BitVec.ofNat 32 (i 1).val) 0#32)) 0#32) = 1#1
/-- The branch condition of the second conditional (the reduction step is the last). -/
abbrev cond2_1 (i : grid2.Coords) : Prop := k2_cond2 i = 1#1

/-- The first holds exactly at the first point, -/
theorem hcond2_0 : ∀ t : Fin cfg2.N, cond2_0 (grid2.coords t) ↔ t.val = 0 :=
  (by decide +kernel : ∀ t : Fin grid2.N, cond2_0 (grid2.coords t) ↔ t.val = 0)
/-- the second exactly at the last. -/
theorem hcond2_1 : ∀ t : Fin cfg2.N, cond2_1 (grid2.coords t) ↔ t.val = 3 :=
  (by decide +kernel : ∀ t : Fin grid2.N, cond2_1 (grid2.coords t) ↔ t.val = 3)

/-- A unit-stride rectangle of the shape's own sizes sits at offset zero and places every index at itself. -/
theorem idx_unit_self2 {s : Shape} (off : Fin s.rank → ℕ) (h : ∀ a, off a + s.size a ≤ s.size a) (x : s.Idx) :
    (Rect.unit (s := s) off s.size h).toLoadRect.idx x = x := by
  funext a; apply Fin.ext
  show off a + 1 * (x a : ℕ) = x a
  have := h a; omega

/-- A load through such a rectangle of a whole memref held at the contents that read `X` reads `X`. -/
theorem readAt_unit_self_unread2 {sig : RefSig} {Val : EltTy → Type} {κ : Kind} {sp : Space} {s : Shape} {e : EltTy}
    {m : Memref sig κ sp s e} (hm : m.IsWhole) (X : s.Idx → Val e) (off : Fin s.rank → ℕ) (h : ∀ a, off a + s.size a ≤ s.size a) :
    View.readAt Val m.view (Rect.unit (s := s) off s.size h).toLoadRect (hm.unread X) = X := by
  funext x
  exact (congrFun (Memref.IsWhole.read_unread hm X) _).trans (congrArg X (idx_unit_self2 off h x))

/-- A store through such a rectangle, made last, leaves its payload in the whole buffer. -/
theorem read_writes_unit_self2 {sig : RefSig} {Val : EltTy → Type} {κ : Kind} {sp : Space} {s : Shape} {e : EltTy}
    (v : View sig κ sp s e) (f : v.ty.Contents Val) (off : Fin s.rank → ℕ) (h : ∀ a, off a + s.size a ≤ s.size a)
    (w : s.Idx → Val e) (L : List (View.Piece Val s e)) :
    v.read Val (v.writes Val f (⟨Rect.unit (s := s) off s.size h, w⟩ :: L)) = w := by
  funext x
  have := View.read_writes_cons_emb (v := v) (f := f) (Rect.unit (s := s) off s.size h) w L x
  rwa [show (Rect.unit (s := s) off s.size h).emb x = x from idx_unit_self2 off h x] at this

/-! ## Where the output window is idle -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Off the last reduction step the output window is idle, -/
theorem idleAt2_2 : ∀ t : Fin cfg2.N, ¬cond2_1 (grid2.coords t) → cfg2.idle 2 (grid2.coords t) = true := by decide +kernel
/-- and live at it. -/
theorem liveAt2_2 : ∀ t : Fin cfg2.N, cond2_1 (grid2.coords t) → cfg2.idle 2 (grid2.coords t) = false := by decide +kernel
/-- The output block is written back at the last step only. -/
theorem noFlush2_2 (t : Fin cfg2.N) (h : ¬t.val = 3) : (cfg2.win 2).flush t = false := by
  have hN : t.val < 4 := lt_of_lt_of_eq t.isLt N_2
  exact Bool.eq_false_iff.mpr fun hf => h (by have := (flush2_2 t).mp hf; omega)

/-! ## The kernel body's triple, case by case

On whole memrefs — the two inputs at contents `x0`, `x1`, the output's at `xi2` or at anything, the accumulator at
`xs` or at anything — the body runs to the continuation holding the inputs as they were and the accumulator at one more
term of the sum: `k2_pay2 x0 x1 ·` of zeros (first step) or of what it held (later steps); at the last step the output
holds the accumulator's new contents, elsewhere it is untouched. -/

set_option maxHeartbeats 1000000 in
/-- First step: the accumulator is reset to zeros, then one product is added. -/
theorem kernel2_A (c : Dev nD) (i : grid2.Coords) (arg2 : Memref sig .tc .vmem S64x2048 .f32) (harg2 : arg2.IsWhole) (arg3 : Memref sig .tc .vmem S2048x256 .f32) (harg3 : arg3.IsWhole) (arg4 : Memref sig .tc .vmem S64x256 .f32) (harg4 : arg4.IsWhole) (arg5 : Memref sig .tc .vmem S64x256 .f32) (harg5 : arg5.IsWhole) (hc0 : cond2_0 i) (hc1 : ¬cond2_1 i)
    (x0 : Vec F S64x2048 .f32) (x1 : Vec F S2048x256 .f32) (xi2 : Vec F S64x256 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 x0 x1 k2_pay1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [readAt_unit_self_unread2 harg2 x0, readAt_unit_self_unread2 harg3 x1, View.readCov_cons_toLoadRect]
  exact read_writes_unit_self2 _ _ _ _ _ _

set_option maxHeartbeats 1000000 in
/-- A middle step: one product is added to what the accumulator held. -/
theorem kernel2_B (c : Dev nD) (i : grid2.Coords) (arg2 : Memref sig .tc .vmem S64x2048 .f32) (harg2 : arg2.IsWhole) (arg3 : Memref sig .tc .vmem S2048x256 .f32) (harg3 : arg3.IsWhole) (arg4 : Memref sig .tc .vmem S64x256 .f32) (harg4 : arg4.IsWhole) (arg5 : Memref sig .tc .vmem S64x256 .f32) (harg5 : arg5.IsWhole) (hc0 : ¬cond2_0 i) (hc1 : ¬cond2_1 i)
    (x0 : Vec F S64x2048 .f32) (x1 : Vec F S2048x256 .f32) (xi2 : Vec F S64x256 .f32) (xs : Vec F S64x256 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 x0 x1 xs)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [readAt_unit_self_unread2 harg2 x0, readAt_unit_self_unread2 harg3 x1, readAt_unit_self_unread2 harg5 xs]
  exact read_writes_unit_self2 _ _ _ _ _ _

set_option maxHeartbeats 1000000 in
/-- Last step: one product is added, and the accumulator's new contents are stored into the output block. -/
theorem kernel2_C (c : Dev nD) (i : grid2.Coords) (arg2 : Memref sig .tc .vmem S64x2048 .f32) (harg2 : arg2.IsWhole) (arg3 : Memref sig .tc .vmem S2048x256 .f32) (harg3 : arg3.IsWhole) (arg4 : Memref sig .tc .vmem S64x256 .f32) (harg4 : arg4.IsWhole) (arg5 : Memref sig .tc .vmem S64x256 .f32) (harg5 : arg5.IsWhole) (hc0 : ¬cond2_0 i) (hc1 : cond2_1 i)
    (x0 : Vec F S64x2048 .f32) (x1 : Vec F S2048x256 .f32) (xs : Vec F S64x256 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k2_pay2 x0 x1 xs) ∗ owns (c : Thread nD τ) arg5 fullShare (k2_pay2 x0 x1 xs)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [readAt_unit_self_unread2 harg2 x0, readAt_unit_self_unread2 harg3 x1, readAt_unit_self_unread2 harg5 xs, View.readCov_cons_toLoadRect]
    exact read_writes_unit_self2 _ _ _ _ _ _
  iexists _; isplitr
  swap; · iexact HS
  ipureintro
  sl_unfold_run_names
  rw [readAt_unit_self_unread2 harg2 x0, readAt_unit_self_unread2 harg3 x1, readAt_unit_self_unread2 harg5 xs]
  exact read_writes_unit_self2 _ _ _ _ _ _

/-! ## The windows' blocks -/

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is `V`'s
    and whose body leaves the block in place: the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator and the output block, point by point -/

/-- THE ACCUMULATION. What the carried accumulator holds after the body at position `n`: one product of the point's two
    blocks added to zeros at the first position, to what the position before left afterwards. -/
def acc2 (c : Dev nD) : (n : ℕ) → n < cfg2.N → Vec F S64x256 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩) (acc2 c n (Nat.lt_of_succ_lt hn))

/-- What the output window's staging buffer holds after the body at position `n`: the last step stores the accumulator
    itself (at the other positions the window is idle and not written back: nothing consults the value). -/
def out2 (c : Dev nD) (n : ℕ) (hn : n < cfg2.N) : Vec F S64x256 .f32 := acc2 V c n hn

/-- The accumulator after the first point: one product added to zeros. -/
theorem acc2_zero (c : Dev nD) (t : Fin cfg2.N) (h0 : t.val = 0) :
    acc2 V c t.val t.isLt = k2_pay2 (iblk2 V c 0 t) (iblk2 V c 1 t) k2_pay1 := by
  obtain ⟨n, hn⟩ := t
  cases n with
  | zero => rfl
  | succ n => exact absurd h0 (Nat.succ_ne_zero n)

/-- The accumulator after a later point: one product added to what the point before left. -/
theorem acc2_pos (c : Dev nD) (t : Fin cfg2.N) (h0 : ¬t.val = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h0
  | succ n => rfl

/-- The output block after the body is the accumulator's contents there. -/
theorem out2_eq (c : Dev nD) (n : ℕ) (hn : n < cfg2.N) : out2 V c n hn = acc2 V c n hn := rfl

/-! ## The region invariant -/

/-- The accumulator as a memref: a whole scoped buffer of the kernel's own. -/
abbrev scM2 : Memref sig .tc .vmem S64x256 .f32 := Memref.whole cc2_scratch0

/-- The core's scoped buffers that are no staging buffer of this call, split at the accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What the launch hands the region, with the accumulator as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The invariant before position `n`: what the launch hands over before the first point; afterwards the same with the
    accumulator at what the point before left. -/
def Phi2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out2`; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the point's position decides the control case; the
    invariant hands the body the accumulator at what the point before left (at anything at the first point) and takes it
    back at this point's contents; the output window is handed back untouched off the last step and at the accumulator's
    contents at it; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 4 := lt_of_lt_of_eq t.isLt N_2
  by_cases h0 : t.val = 0
  · have h1 : ¬t.val = 3 := by omega
    rw [Dat.leavesExact_idle (dat2 V c) 2 t (idleAt2_2 t (fun h => h1 ((hcond2_1 t).mp h))) (noFlush2_2 t h1)]
    rw [Phi2_castSucc V c t, Phi2_zero V c _ _ h0, PhiA2_eq, acc2_zero V c t h0]
    iintro ⟨⟨⟨HS, Hr⟩, Hg⟩, Ho, ⟨%d0, H0⟩, ⟨%d1, H1⟩, ⟨%d2, H2⟩⟩
    iapply (kernel2_A c (grid2.coords t) _ _ _ _ _ _ _ _ ((hcond2_0 t).mpr h0) (fun h => h1 ((hcond2_1 t).mp h)) (iblk2 V c 0 t) (iblk2 V c 1 t) _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · by_cases h1 : t.val = 3
    · rw [show (dat2 V c).leavesExact 2 t = owns (c : Thread nD τ) (st2_2 t) fullShare ((dat2 V c).after 2 t) from by
        unfold Dat.leavesExact; rw [liveAt2_2 t ((hcond2_1 t).mpr h1)], after2_2]
      unfold out2
      rw [Phi2_castSucc V c t, Phi2_pos V c _ _ h0, acc2_pos V c t h0]
      iintro ⟨⟨⟨HS, Hr⟩, Hg⟩, Ho, ⟨%d0, H0⟩, ⟨%d1, H1⟩, ⟨%d2, H2⟩⟩
      iapply (kernel2_C c (grid2.coords t) _ _ _ _ _ _ _ _ (fun h => h0 ((hcond2_0 t).mp h)) ((hcond2_1 t).mpr h1) (iblk2 V c 0 t) (iblk2 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Dat.leavesExact_idle (dat2 V c) 2 t (idleAt2_2 t (fun h => h1 ((hcond2_1 t).mp h))) (noFlush2_2 t h1)]
      rw [Phi2_castSucc V c t, Phi2_pos V c _ _ h0, acc2_pos V c t h0]
      iintro ⟨⟨⟨HS, Hr⟩, Hg⟩, Ho, ⟨%d0, H0⟩, ⟨%d1, H1⟩, ⟨%d2, H2⟩⟩
      iapply (kernel2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point but the first the invariant gives it back: the accumulator's named contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, Hr⟩, Hg⟩
  isplitl [HS Hr]
  · isplitl [HS]; · iexists _; iexact HS
    iexact Hr
  iexact Hg

/-- The same after the last point. -/
theorem hout2 (c : Dev nD) : (dat2 V c).Φ (Fin.last cfg2.N) ⊢ Pipeline.ΦA spec2 c :=
  Phi2_out V c _ (by rw [Fin.val_last]; have : cfg2.N = 4 := N_2; omega)

/-! ## The value equations

The accumulator's contents over the skeleton's payloads, one per control case (`acc2_zero`, `acc2_pos` above, restated
at a point), and the output block's at the last point. -/

/-- At the first point the accumulator holds one product of the point's blocks added to zeros. -/
theorem acc2_first (c : Dev nD) (t : Fin cfg2.N) (h0 : t.val = 0) :
    acc2 V c t.val t.isLt = k2_pay2 (iblk2 V c 0 t) (iblk2 V c 1 t) k2_pay1 := acc2_zero V c t h0

/-- At a later point it holds one product of the point's blocks added to what the point before left. -/
theorem acc2_later (c : Dev nD) (t : Fin cfg2.N) (h0 : ¬t.val = 0) :
    acc2 V c t.val t.isLt = k2_pay2 (iblk2 V c 0 t) (iblk2 V c 1 t) (acc2 V c (t.val - 1) (Nat.lt_of_le_of_lt (Nat.sub_le _ _) t.isLt)) :=
  acc2_pos V c t h0

/-- The output block after the body at the last point (where it is written back) is the accumulator there. -/
theorem out2_last (c : Dev nD) (t : Fin cfg2.N) (h3 : t.val = 3) :
    (dat2 V c).after 2 t = acc2 V c t.val t.isLt := after2_2 V c t

end Cert.Kernel.Hand

end
-- ==== Proof.KRun.lean ====
/-
  @main of the kernel program as a list of segments: a stretch of host operations applies them to the unscoped buffers; a
  kernel region is entered with its windows' arrays split out of those buffers and left with them put back, the output
  window's array at what the region's write-backs fold to. The contents at every boundary are a fold from the launch
  memory; the run ends with every unscoped buffer at the last boundary's contents, and a buffer no item writes is still
  at its launch contents there.
-/
import proofs.«116793_j28183575396967_2_alg».proof.Proof.Gen.Kernel.Launch
import proofs.«116793_j28183575396967_2_alg».proof.Proof.Gen.Kernel.Skeleton
import proofs.«116793_j28183575396967_2_alg».proof.Proof.Gen.Kernel.Points
import proofs.«116793_j28183575396967_2_alg».proof.Proof.Gen.Kernel.Regions
import proofs.«116793_j28183575396967_2_alg».proof.Proof.K0
import proofs.«116793_j28183575396967_2_alg».proof.Proof.K1
import proofs.«116793_j28183575396967_2_alg».proof.Proof.K2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary of @main: a fold from the launch memory.
    A stretch of host operations applies them (`StableHlo.after`); a kernel region leaves each of its arrays at what
    its write-backs fold to (`Dat.arrAt … N`) and every other buffer as it found it (`Pipeline.withArrays`). -/

abbrev W0 : Dev nD → Valuation τ sig (Elt F) := fun c b => (s₀ m ρ).mem ((c : Dev nD), b)
abbrev W1 : Dev nD → Valuation τ sig (Elt F) := fun c => StableHlo.after hostOps0 (W0 m ρ c)
/-- The contents region 0 is entered from, read at the TensorCore's references. -/
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
abbrev W9 : Dev nD → Valuation τ sig (Elt F) := fun c => StableHlo.after hostOps1_6 (W8 m ρ c)
abbrev W10 : Dev nD → Valuation τ sig (Elt F) := fun c => StableHlo.after hostOps1_7 (W9 m ρ c)
abbrev W11 : Dev nD → Valuation τ sig (Elt F) := fun c => StableHlo.after hostOps1_8 (W10 m ρ c)
/-- The contents region 1 is entered from, read at the TensorCore's references. -/
abbrev V11 : (c : Dev nD) → (b : Ref sig .tc) → Buf (Elt F) ((c : Thread nD τ).loc b) := fun c b => W11 m ρ c b
/-- After region 1: its arrays at what the pipeline leaves, every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
abbrev W13 : Dev nD → Valuation τ sig (Elt F) := fun c => StableHlo.after hostOps2 (W12 m ρ c)
abbrev W14 : Dev nD → Valuation τ sig (Elt F) := fun c => StableHlo.after hostOps2_1 (W13 m ρ c)
abbrev W15 : Dev nD → Valuation τ sig (Elt F) := fun c => StableHlo.after hostOps2_2 (W14 m ρ c)
abbrev W16 : Dev nD → Valuation τ sig (Elt F) := fun c => StableHlo.after hostOps2_3 (W15 m ρ c)
abbrev W17 : Dev nD → Valuation τ sig (Elt F) := fun c => StableHlo.after hostOps2_4 (W16 m ρ c)
abbrev W18 : Dev nD → Valuation τ sig (Elt F) := fun c => StableHlo.after hostOps2_5 (W17 m ρ c)
abbrev W19 : Dev nD → Valuation τ sig (Elt F) := fun c => StableHlo.after hostOps2_6 (W18 m ρ c)
abbrev W20 : Dev nD → Valuation τ sig (Elt F) := fun c => StableHlo.after hostOps2_7 (W19 m ρ c)
/-- The contents region 2 is entered from, read at the TensorCore's references. -/
abbrev V20 : (c : Dev nD) → (b : Ref sig .tc) → Buf (Elt F) ((c : Thread nD τ).loc b) := fun c b => W20 m ρ c b
/-- After region 2: its arrays at what the pipeline leaves, every other buffer as entered. -/
def W21 (c : Dev nD) : Valuation τ sig (Elt F) :=
  Pipeline.withArrays spec2 c (W20 m ρ c) fun w => (dat2 (V20 m ρ) c).arrAt w cfg2.N
theorem W21_arr (c : Dev nD) (w : Fin cfg2.W) :
    W21 m ρ c (Proc.devRef .tc (Pipeline.arrRef spec2 w)) = (dat2 (V20 m ρ) c).arrAt w cfg2.N := by
  unfold W21; exact Pipeline.withArrays_arr spec2 launch2.win.arr_inj c _ _ w
theorem W21_of_ne (c : Dev nD) (b : Ref sig .tc) (hb : ∀ w, Pipeline.arrRef spec2 w ≠ b) :
    W21 m ρ c (Proc.devRef .tc b) = W20 m ρ c (Proc.devRef .tc b) := by
  unfold W21; exact Pipeline.withArrays_of_ne spec2 c _ _ b hb
abbrev V21 : (c : Dev nD) → (b : Ref sig .tc) → Buf (Elt F) ((c : Thread nD τ).loc b) := fun c b => W21 m ρ c b
theorem hF2 (c : Dev nD) (w : Fin cfg2.W) : (dat2 (V20 m ρ) c).arrAt w cfg2.N = V21 m ρ c (Pipeline.arrRef spec2 w) :=
  (W21_arr m ρ c w).symm
theorem hrest2 (c : Dev nD) : ∀ b, b ∉ Finset.univ.image (Pipeline.arrRef spec2) → V21 m ρ c b = V20 m ρ c b :=
  fun b hb => W21_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents (a literal match on the pipeline's index). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V11 m ρ) c
  | ⟨2, _⟩ => fun c => dat2 (V20 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- Region 0 over the thread state: entered from every unscoped buffer at the boundary before it, left at the one
    after it. Its arrays are split out of the unscoped buffers and put back at the exit contents; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers and put back at the exit contents; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V11 m ρ) c)
    unfold Pipeline.ΦA
    iintro ⟨Hp, -, Hr⟩
    isplitl [Hr]; · iexact Hr
    iexact Hp
  hout c := by
    refine BIBase.Entails.trans (hout1 (V11 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one
    after it. Its arrays are split out of the unscoped buffers and put back at the exit contents; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V20 m ρ) c).loose
  hwaits := Pipeline.hwaits_of_owed_zero _ _ _ _ L lv 2 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec2 c (V20 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V20 m ρ) c)
    unfold Pipeline.ΦA
    iintro ⟨Hp, -, Hr⟩
    isplitl [Hr]; · iexact Hr
    iexact Hp
  hout c := by
    refine BIBase.Entails.trans (hout2 (V20 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V20 m ρ c) (V21 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)),
    .host (hseg hostOps2_1 hostOps2_1_sub hostOps2_1_fresh (W13 m ρ)),
    .host (hseg hostOps2_2 hostOps2_2_sub hostOps2_2_fresh (W14 m ρ)),
    .host (hseg hostOps2_3 hostOps2_3_sub hostOps2_3_fresh (W15 m ρ)),
    .host (hseg hostOps2_4 hostOps2_4_sub hostOps2_4_fresh (W16 m ρ)),
    .host (hseg hostOps2_5 hostOps2_5_sub hostOps2_5_fresh (W17 m ρ)),
    .host (hseg hostOps2_6 hostOps2_6_sub hostOps2_6_fresh (W18 m ρ)),
    .host (hseg hostOps2_7 hostOps2_7_sub hostOps2_7_fresh (W19 m ρ)),
    .region (reg2 m ρ) ]

theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-! ## What each item leaves alone

A stretch of host operations changes only the references it writes; a region changes only its output window's array
(an input window's array is read through its blocks and found again as entered). -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h
theorem W2_keep (c : Dev nD) (b : Ref sig .tc) (hb : b ≠ main_v1) : W2 m ρ c (Proc.devRef .tc b) = W1 m ρ c (Proc.devRef .tc b) := by
  by_cases h : ∃ w, Pipeline.arrRef spec0 w = b
  · obtain ⟨w, rfl⟩ := h
    match w, hb with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, _ => exact (W2_arr m ρ c 3).trans (((dat0 (V1 m ρ) c).arrAt_in 3 rfl _).trans (A_eq0 (V1 m ρ) c 3))
    | ⟨4, _⟩, hb => exact absurd rfl hb
  · exact W2_of_ne m ρ c b fun w e => h ⟨w, e⟩
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h
theorem W4_keep (c : Dev nD) (b : Ref sig .tc) (h : b ∉ hostOps1_1_W) : W4 m ρ c (Proc.devRef .tc b) = W3 m ρ c (Proc.devRef .tc b) :=
  StableHlo.after_of_writes_sub hostOps1_1 _ hostOps1_1_writes h
theorem W5_keep (c : Dev nD) (b : Ref sig .tc) (h : b ∉ hostOps1_2_W) : W5 m ρ c (Proc.devRef .tc b) = W4 m ρ c (Proc.devRef .tc b) :=
  StableHlo.after_of_writes_sub hostOps1_2 _ hostOps1_2_writes h
theorem W6_keep (c : Dev nD) (b : Ref sig .tc) (h : b ∉ hostOps1_3_W) : W6 m ρ c (Proc.devRef .tc b) = W5 m ρ c (Proc.devRef .tc b) :=
  StableHlo.after_of_writes_sub hostOps1_3 _ hostOps1_3_writes h
theorem W7_keep (c : Dev nD) (b : Ref sig .tc) (h : b ∉ hostOps1_4_W) : W7 m ρ c (Proc.devRef .tc b) = W6 m ρ c (Proc.devRef .tc b) :=
  StableHlo.after_of_writes_sub hostOps1_4 _ hostOps1_4_writes h
theorem W8_keep (c : Dev nD) (b : Ref sig .tc) (h : b ∉ hostOps1_5_W) : W8 m ρ c (Proc.devRef .tc b) = W7 m ρ c (Proc.devRef .tc b) :=
  StableHlo.after_of_writes_sub hostOps1_5 _ hostOps1_5_writes h
theorem W9_keep (c : Dev nD) (b : Ref sig .tc) (h : b ∉ hostOps1_6_W) : W9 m ρ c (Proc.devRef .tc b) = W8 m ρ c (Proc.devRef .tc b) :=
  StableHlo.after_of_writes_sub hostOps1_6 _ hostOps1_6_writes h
theorem W10_keep (c : Dev nD) (b : Ref sig .tc) (h : b ∉ hostOps1_7_W) : W10 m ρ c (Proc.devRef .tc b) = W9 m ρ c (Proc.devRef .tc b) :=
  StableHlo.after_of_writes_sub hostOps1_7 _ hostOps1_7_writes h
theorem W11_keep (c : Dev nD) (b : Ref sig .tc) (h : b ∉ hostOps1_8_W) : W11 m ρ c (Proc.devRef .tc b) = W10 m ρ c (Proc.devRef .tc b) :=
  StableHlo.after_of_writes_sub hostOps1_8 _ hostOps1_8_writes h
theorem W12_keep (c : Dev nD) (b : Ref sig .tc) (hb : b ≠ main_v47) : W12 m ρ c (Proc.devRef .tc b) = W11 m ρ c (Proc.devRef .tc b) := by
  by_cases h : ∃ w, Pipeline.arrRef spec1 w = b
  · obtain ⟨w, rfl⟩ := h
    match w, hb with
    | ⟨0, _⟩, _ => exact (W12_arr m ρ c 0).trans (((dat1 (V11 m ρ) c).arrAt_in 0 rfl _).trans (A_eq1 (V11 m ρ) c 0))
    | ⟨1, _⟩, _ => exact (W12_arr m ρ c 1).trans (((dat1 (V11 m ρ) c).arrAt_in 1 rfl _).trans (A_eq1 (V11 m ρ) c 1))
    | ⟨2, _⟩, _ => exact (W12_arr m ρ c 2).trans (((dat1 (V11 m ρ) c).arrAt_in 2 rfl _).trans (A_eq1 (V11 m ρ) c 2))
    | ⟨3, _⟩, _ => exact (W12_arr m ρ c 3).trans (((dat1 (V11 m ρ) c).arrAt_in 3 rfl _).trans (A_eq1 (V11 m ρ) c 3))
    | ⟨4, _⟩, hb => exact absurd rfl hb
  · exact W12_of_ne m ρ c b fun w e => h ⟨w, e⟩
theorem W13_keep (c : Dev nD) (b : Ref sig .tc) (h : b ∉ hostOps2_W) : W13 m ρ c (Proc.devRef .tc b) = W12 m ρ c (Proc.devRef .tc b) :=
  StableHlo.after_of_writes_sub hostOps2 _ hostOps2_writes h
theorem W14_keep (c : Dev nD) (b : Ref sig .tc) (h : b ∉ hostOps2_1_W) : W14 m ρ c (Proc.devRef .tc b) = W13 m ρ c (Proc.devRef .tc b) :=
  StableHlo.after_of_writes_sub hostOps2_1 _ hostOps2_1_writes h
theorem W15_keep (c : Dev nD) (b : Ref sig .tc) (h : b ∉ hostOps2_2_W) : W15 m ρ c (Proc.devRef .tc b) = W14 m ρ c (Proc.devRef .tc b) :=
  StableHlo.after_of_writes_sub hostOps2_2 _ hostOps2_2_writes h
theorem W16_keep (c : Dev nD) (b : Ref sig .tc) (h : b ∉ hostOps2_3_W) : W16 m ρ c (Proc.devRef .tc b) = W15 m ρ c (Proc.devRef .tc b) :=
  StableHlo.after_of_writes_sub hostOps2_3 _ hostOps2_3_writes h
theorem W17_keep (c : Dev nD) (b : Ref sig .tc) (h : b ∉ hostOps2_4_W) : W17 m ρ c (Proc.devRef .tc b) = W16 m ρ c (Proc.devRef .tc b) :=
  StableHlo.after_of_writes_sub hostOps2_4 _ hostOps2_4_writes h
theorem W18_keep (c : Dev nD) (b : Ref sig .tc) (h : b ∉ hostOps2_5_W) : W18 m ρ c (Proc.devRef .tc b) = W17 m ρ c (Proc.devRef .tc b) :=
  StableHlo.after_of_writes_sub hostOps2_5 _ hostOps2_5_writes h
theorem W19_keep (c : Dev nD) (b : Ref sig .tc) (h : b ∉ hostOps2_6_W) : W19 m ρ c (Proc.devRef .tc b) = W18 m ρ c (Proc.devRef .tc b) :=
  StableHlo.after_of_writes_sub hostOps2_6 _ hostOps2_6_writes h
theorem W20_keep (c : Dev nD) (b : Ref sig .tc) (h : b ∉ hostOps2_7_W) : W20 m ρ c (Proc.devRef .tc b) = W19 m ρ c (Proc.devRef .tc b) :=
  StableHlo.after_of_writes_sub hostOps2_7 _ hostOps2_7_writes h
theorem W21_keep (c : Dev nD) (b : Ref sig .tc) (hb : b ≠ main_v92) : W21 m ρ c (Proc.devRef .tc b) = W20 m ρ c (Proc.devRef .tc b) := by
  by_cases h : ∃ w, Pipeline.arrRef spec2 w = b
  · obtain ⟨w, rfl⟩ := h
    match w, hb with
    | ⟨0, _⟩, _ => exact (W21_arr m ρ c 0).trans (((dat2 (V20 m ρ) c).arrAt_in 0 rfl _).trans (A_eq2 (V20 m ρ) c 0))
    | ⟨1, _⟩, _ => exact (W21_arr m ρ c 1).trans (((dat2 (V20 m ρ) c).arrAt_in 1 rfl _).trans (A_eq2 (V20 m ρ) c 1))
    | ⟨2, _⟩, hb => exact absurd rfl hb
  · exact W21_of_ne m ρ c b fun w e => h ⟨w, e⟩

/-- A reference no item writes holds its launch contents at the end. -/
theorem W21_untouched (c : Dev nD) (b : Ref sig .tc) (h0 : b ∉ hostOps0_W) (h1 : b ≠ main_v1) (h2 : b ∉ hostOps1_W) (h3 : b ∉ hostOps1_1_W) (h4 : b ∉ hostOps1_2_W) (h5 : b ∉ hostOps1_3_W) (h6 : b ∉ hostOps1_4_W) (h7 : b ∉ hostOps1_5_W) (h8 : b ∉ hostOps1_6_W) (h9 : b ∉ hostOps1_7_W) (h10 : b ∉ hostOps1_8_W) (h11 : b ≠ main_v47) (h12 : b ∉ hostOps2_W) (h13 : b ∉ hostOps2_1_W) (h14 : b ∉ hostOps2_2_W) (h15 : b ∉ hostOps2_3_W) (h16 : b ∉ hostOps2_4_W) (h17 : b ∉ hostOps2_5_W) (h18 : b ∉ hostOps2_6_W) (h19 : b ∉ hostOps2_7_W) (h20 : b ≠ main_v92) :
    W21 m ρ c (Proc.devRef .tc b) = m ((c : Thread nD τ).loc b) :=
  (W21_keep m ρ c b h20).trans <| (W20_keep m ρ c b h19).trans <| (W19_keep m ρ c b h18).trans <| (W18_keep m ρ c b h17).trans <| (W17_keep m ρ c b h16).trans <| (W16_keep m ρ c b h15).trans <| (W15_keep m ρ c b h14).trans <| (W14_keep m ρ c b h13).trans <| (W13_keep m ρ c b h12).trans <| (W12_keep m ρ c b h11).trans <| (W11_keep m ρ c b h10).trans <| (W10_keep m ρ c b h9).trans <| (W9_keep m ρ c b h8).trans <| (W8_keep m ρ c b h7).trans <| (W7_keep m ρ c b h6).trans <| (W6_keep m ρ c b h5).trans <| (W5_keep m ρ c b h4).trans <| (W4_keep m ρ c b h3).trans <| (W3_keep m ρ c b h2).trans <| (W2_keep m ρ c b h1).trans <| (W1_keep m ρ c b h0).trans <| rfl
theorem W21_main_arg0 (c : Dev nD) : W21 m ρ c (Proc.devRef .tc main_arg0) = m ((c : Thread nD τ).loc main_arg0) :=
  W21_untouched m ρ c main_arg0 (by decide) (by decide) (by decide) (by decide) (by decide) (by decide) (by decide) (by decide) (by decide) (by decide) (by decide) (by decide) (by decide) (by decide) (by decide) (by decide) (by decide) (by decide) (by decide) (by decide) (by decide)
theorem W21_main_arg1 (c : Dev nD) : W21 m ρ c (Proc.devRef .tc main_arg1) = m ((c : Thread nD τ).loc main_arg1) :=
  W21_untouched m ρ c main_arg1 (by decide) (by decide) (by decide) (by decide) (by decide) (by decide) (by decide) (by decide) (by decide) (by decide) (by decide) (by decide) (by decide) (by decide) (by decide) (by decide) (by decide) (by decide) (by decide) (by decide) (by decide)
theorem W21_main_arg2 (c : Dev nD) : W21 m ρ c (Proc.devRef .tc main_arg2) = m ((c : Thread nD τ).loc main_arg2) :=
  W21_untouched m ρ c main_arg2 (by decide) (by decide) (by decide) (by decide) (by decide) (by decide) (by decide) (by decide) (by decide) (by decide) (by decide) (by decide) (by decide) (by decide) (by decide) (by decide) (by decide) (by decide) (by decide) (by decide) (by decide)
theorem W21_main_arg3 (c : Dev nD) : W21 m ρ c (Proc.devRef .tc main_arg3) = m ((c : Thread nD τ).loc main_arg3) :=
  W21_untouched m ρ c main_arg3 (by decide) (by decide) (by decide) (by decide) (by decide) (by decide) (by decide) (by decide) (by decide) (by decide) (by decide) (by decide) (by decide) (by decide) (by decide) (by decide) (by decide) (by decide) (by decide) (by decide) (by decide)
theorem W21_main_arg4 (c : Dev nD) : W21 m ρ c (Proc.devRef .tc main_arg4) = m ((c : Thread nD τ).loc main_arg4) :=
  W21_untouched m ρ c main_arg4 (by decide) (by decide) (by decide) (by decide) (by decide) (by decide) (by decide) (by decide) (by decide) (by decide) (by decide) (by decide) (by decide) (by decide) (by decide) (by decide) (by decide) (by decide) (by decide) (by decide) (by decide)
theorem W21_main_arg5 (c : Dev nD) : W21 m ρ c (Proc.devRef .tc main_arg5) = m ((c : Thread nD τ).loc main_arg5) :=
  W21_untouched m ρ c main_arg5 (by decide) (by decide) (by decide) (by decide) (by decide) (by decide) (by decide) (by decide) (by decide) (by decide) (by decide) (by decide) (by decide) (by decide) (by decide) (by decide) (by decide) (by decide) (by decide) (by decide) (by decide)
theorem W21_main_arg6 (c : Dev nD) : W21 m ρ c (Proc.devRef .tc main_arg6) = m ((c : Thread nD τ).loc main_arg6) :=
  W21_untouched m ρ c main_arg6 (by decide) (by decide) (by decide) (by decide) (by decide) (by decide) (by decide) (by decide) (by decide) (by decide) (by decide) (by decide) (by decide) (by decide) (by decide) (by decide) (by decide) (by decide) (by decide) (by decide) (by decide)
theorem W21_main_arg7 (c : Dev nD) : W21 m ρ c (Proc.devRef .tc main_arg7) = m ((c : Thread nD τ).loc main_arg7) :=
  W21_untouched m ρ c main_arg7 (by decide) (by decide) (by decide) (by decide) (by decide) (by decide) (by decide) (by decide) (by decide) (by decide) (by decide) (by decide) (by decide) (by decide) (by decide) (by decide) (by decide) (by decide) (by decide) (by decide) (by decide)
theorem W21_main_arg8 (c : Dev nD) : W21 m ρ c (Proc.devRef .tc main_arg8) = m ((c : Thread nD τ).loc main_arg8) :=
  W21_untouched m ρ c main_arg8 (by decide) (by decide) (by decide) (by decide) (by decide) (by decide) (by decide) (by decide) (by decide) (by decide) (by decide) (by decide) (by decide) (by decide) (by decide) (by decide) (by decide) (by decide) (by decide) (by decide) (by decide)
theorem W21_main_arg9 (c : Dev nD) : W21 m ρ c (Proc.devRef .tc main_arg9) = m ((c : Thread nD τ).loc main_arg9) :=
  W21_untouched m ρ c main_arg9 (by decide) (by decide) (by decide) (by decide) (by decide) (by decide) (by decide) (by decide) (by decide) (by decide) (by decide) (by decide) (by decide) (by decide) (by decide) (by decide) (by decide) (by decide) (by decide) (by decide) (by decide)
theorem W21_main_arg10 (c : Dev nD) : W21 m ρ c (Proc.devRef .tc main_arg10) = m ((c : Thread nD τ).loc main_arg10) :=
  W21_untouched m ρ c main_arg10 (by decide) (by decide) (by decide) (by decide) (by decide) (by decide) (by decide) (by decide) (by decide) (by decide) (by decide) (by decide) (by decide) (by decide) (by decide) (by decide) (by decide) (by decide) (by decide) (by decide) (by decide)
theorem W21_main_arg11 (c : Dev nD) : W21 m ρ c (Proc.devRef .tc main_arg11) = m ((c : Thread nD τ).loc main_arg11) :=
  W21_untouched m ρ c main_arg11 (by decide) (by decide) (by decide) (by decide) (by decide) (by decide) (by decide) (by decide) (by decide) (by decide) (by decide) (by decide) (by decide) (by decide) (by decide) (by decide) (by decide) (by decide) (by decide) (by decide) (by decide)
theorem W21_main_arg12 (c : Dev nD) : W21 m ρ c (Proc.devRef .tc main_arg12) = m ((c : Thread nD τ).loc main_arg12) :=
  W21_untouched m ρ c main_arg12 (by decide) (by decide) (by decide) (by decide) (by decide) (by decide) (by decide) (by decide) (by decide) (by decide) (by decide) (by decide) (by decide) (by decide) (by decide) (by decide) (by decide) (by decide) (by decide) (by decide) (by decide)
theorem W21_main_arg13 (c : Dev nD) : W21 m ρ c (Proc.devRef .tc main_arg13) = m ((c : Thread nD τ).loc main_arg13) :=
  W21_untouched m ρ c main_arg13 (by decide) (by decide) (by decide) (by decide) (by decide) (by decide) (by decide) (by decide) (by decide) (by decide) (by decide) (by decide) (by decide) (by decide) (by decide) (by decide) (by decide) (by decide) (by decide) (by decide) (by decide)
theorem W21_main_arg14 (c : Dev nD) : W21 m ρ c (Proc.devRef .tc main_arg14) = m ((c : Thread nD τ).loc main_arg14) :=
  W21_untouched m ρ c main_arg14 (by decide) (by decide) (by decide) (by decide) (by decide) (by decide) (by decide) (by decide) (by decide) (by decide) (by decide) (by decide) (by decide) (by decide) (by decide) (by decide) (by decide) (by decide) (by decide) (by decide) (by decide)
theorem W21_main_arg15 (c : Dev nD) : W21 m ρ c (Proc.devRef .tc main_arg15) = m ((c : Thread nD τ).loc main_arg15) :=
  W21_untouched m ρ c main_arg15 (by decide) (by decide) (by decide) (by decide) (by decide) (by decide) (by decide) (by decide) (by decide) (by decide) (by decide) (by decide) (by decide) (by decide) (by decide) (by decide) (by decide) (by decide) (by decide) (by decide) (by decide)
theorem W21_main_arg16 (c : Dev nD) : W21 m ρ c (Proc.devRef .tc main_arg16) = m ((c : Thread nD τ).loc main_arg16) :=
  W21_untouched m ρ c main_arg16 (by decide) (by decide) (by decide) (by decide) (by decide) (by decide) (by decide) (by decide) (by decide) (by decide) (by decide) (by decide) (by decide) (by decide) (by decide) (by decide) (by decide) (by decide) (by decide) (by decide) (by decide)
theorem W21_main_arg17 (c : Dev nD) : W21 m ρ c (Proc.devRef .tc main_arg17) = m ((c : Thread nD τ).loc main_arg17) :=
  W21_untouched m ρ c main_arg17 (by decide) (by decide) (by decide) (by decide) (by decide) (by decide) (by decide) (by decide) (by decide) (by decide) (by decide) (by decide) (by decide) (by decide) (by decide) (by decide) (by decide) (by decide) (by decide) (by decide) (by decide)
theorem W21_main_arg18 (c : Dev nD) : W21 m ρ c (Proc.devRef .tc main_arg18) = m ((c : Thread nD τ).loc main_arg18) :=
  W21_untouched m ρ c main_arg18 (by decide) (by decide) (by decide) (by decide) (by decide) (by decide) (by decide) (by decide) (by decide) (by decide) (by decide) (by decide) (by decide) (by decide) (by decide) (by decide) (by decide) (by decide) (by decide) (by decide) (by decide)

end Cert.Kernel.Hand

end
-- ==== Proof.KI0.lean ====
/- Region 0 (the fused matmul kernel at 128 hidden columns, grid 8 x 4, point t = 4 i + k) at a parameter `V`,
   the contents of the TensorCore's buffers when the region is entered, generic in the float model.
   The kernel keeps a 1024 x 128 accumulator in scratch: at k = 0 it is zeroed; at every k the product of the
   point's 1024 x 2048 block of window 0 with the 2048-row slice of window 1 at row offset 2048 k is added to it;
   at k = 3 the epilogue multiplies it by window 2, adds window 3's row and stores the 1024 x 256 output block.
   So there are three control cases (reset / accumulate / accumulate and store), each run once symbolically;
   the scratch after position n (`acc0`) and the output buffer after it (`out0`) are defined by recursion on n,
   and the invariant carries the scratch at `acc0` from point to point. -/
import proofs.«116793_j28183575396967_2_alg».proof.Proof.Gen.KernelIdeal.Launch
import proofs.«116793_j28183575396967_2_alg».proof.Proof.Gen.KernelIdeal.Skeleton
import proofs.«116793_j28183575396967_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rX0 : Rect S1024x2048 := Rect.unit (s := S1024x2048) ![0, 0] S1024x2048.size inb_S1024x2048_S1024x2048_0_0
abbrev rH0 (i : grid0.Coords) : Rect S8192x128 := Rect.unit (s := S8192x128) (k0_off1 i) S2048x128.size (k0_off1_inb i)
abbrev rW0 : Rect S128x256 := Rect.unit (s := S128x256) ![0, 0] S128x256.size inb_S128x256_S128x256_0_0
abbrev rB0 : Rect S1x256 := Rect.unit (s := S1x256) ![0, 0] S1x256.size inb_S1x256_S1x256_0_0
abbrev rO0 : Rect S1024x256 := Rect.unit (s := S1024x256) ![0, 0] S1024x256.size inb_S1024x256_S1024x256_0_0
abbrev rS0 : Rect S1024x128 := Rect.unit (s := S1024x128) ![0, 0] S1024x128.size inb_S1024x128_S1024x128_0_0

/-- The body's branch conditions, from the grid coordinates. -/
abbrev cond0_0 (i : grid0.Coords) : Prop := (Scalar.cmpi .ne (Scalar.extui (Scalar.cmpi .eq (BitVec.ofNat 32 (i 1).val) 0#32)) 0#32) = 1#1
abbrev cond0_1 (i : grid0.Coords) : Prop := k0_cond2 i = 1#1

/-! ## What the body leaves, as functions of what it reads -/

/-- The scratch after the reset: the zero payload stored through the whole rectangle. -/
def zero0 : Vec F S1024x128 .f32 := View.canon [⟨rS0, k0_pay1 (F := F)⟩]

/-- The scratch after one accumulation step: the product of window 0's block with the row slice of window 1's
    block at the point's offset, added to the scratch's contents `xs`. -/
def step0 (i : grid0.Coords) (x0 : Vec F S1024x2048 .f32) (x1 : Vec F S8192x128 .f32) (xs : Vec F S1024x128 .f32) : Vec F S1024x128 .f32 :=
  View.canon [⟨rS0, k0_pay2 (View.ld x0 rX0) (View.ld x1 (rH0 i)) (View.ld xs rS0)⟩]

/-- The output block the epilogue stores, from the accumulated scratch `xs` and windows 2 and 3. -/
def fin0 (xs : Vec F S1024x128 .f32) (x2 : Vec F S128x256 .f32) (x3 : Vec F S1x256 .f32) : Vec F S1024x256 .f32 :=
  View.canon [⟨rO0, k0_pay3 (View.ld xs rS0) (View.ld x2 rW0) (View.ld x3 rB0)⟩]

theorem coverS0 (p0 : rS0.shape.Idx → Elt F .f32) (y : S1024x128.Idx) :
    ∃ pc ∈ ([⟨rS0, p0⟩] : List (View.Piece (Elt F) S1024x128 .f32)), y ∈ pc.1.set :=
  View.cover_of_tiled [⟨rS0, p0⟩] S1024x128.size (by rfl) y

theorem coverO0 (p0 : rO0.shape.Idx → Elt F .f32) (y : S1024x256.Idx) :
    ∃ pc ∈ ([⟨rO0, p0⟩] : List (View.Piece (Elt F) S1024x256 .f32)), y ∈ pc.1.set :=
  View.cover_of_tiled [⟨rO0, p0⟩] S1024x256.size (by rfl) y

/-! ## The body's triple, case by case -/

/-- The reset's zeros, overwritten by one step read back through them: one step over zeros. -/
theorem read_reset_step0 (v : View sig .tc .vmem S1024x128 .f32) (fs : v.ty.Contents (Elt F)) (i : grid0.Coords)
    (x0 : Vec F S1024x2048 .f32) (x1 : Vec F S8192x128 .f32) :
    v.read (Elt F) (v.writes (Elt F) fs
        [⟨rS0, k0_pay2 (View.ld x0 rX0) (View.ld x1 (rH0 i)) (v.readCov [⟨rS0, k0_pay1 (F := F)⟩] rS0.toLoadRect)⟩, ⟨rS0, k0_pay1 (F := F)⟩])
      = step0 i x0 x1 (zero0 (F := F)) := by
  rw [View.writes_cons_drop v fs ⟨rS0, _⟩ rS0 _ [] (fun _ hy => hy)]
  rw [View.readCov_eq_canon_ld v _ rS0 (coverS0 _)]
  unfold step0 zero0
  exact View.read_writes_eq_canon _ _ _ (coverS0 _)

set_option maxHeartbeats 1000000 in
/-- Case B (neither conditional taken): the scratch at `xs` is stepped; everything else is handed back. -/
theorem sound_B0 (c : Dev nD) (i : grid0.Coords) (E : Set ℕ)
    (arg2 : Memref sig .tc .vmem S1024x2048 .f32) (harg2 : arg2.IsWhole) (arg3 : Memref sig .tc .vmem S8192x128 .f32) (harg3 : arg3.IsWhole)
    (arg4 : Memref sig .tc .vmem S128x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x128 .f32) (harg7 : arg7.IsWhole)
    (hc0 : ¬cond0_0 i) (hc1 : ¬cond0_1 i)
    (x0 : Vec F S1024x2048 .f32) (x1 : Vec F S8192x128 .f32) (x2 : Vec F S128x256 .f32) (x3 : Vec F S1x256 .f32) (xi4 : Vec F S1024x256 .f32) (xs : Vec F S1024x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (step0 i x0 x1 xs)) -∗ K ⟨⟩))
      ⊢ wp frame (wpE (defs₀ (F := F)) Variants.none c none) E (cc0__matmul_fused_kernel i arg2 harg2 arg3 harg3 arg4 harg4 arg5 harg5 arg6 harg6 arg7 harg7) K := by
  simp only [cc0__matmul_fused_kernel_eq_skeleton]; unfold cc0__matmul_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  exact View.read_writes_eq_canon _ _ _ (coverS0 _)

set_option maxHeartbeats 1000000 in
/-- Case A (the reset taken, the epilogue not): the scratch, at anything, is zeroed and stepped. -/
theorem sound_A0 (c : Dev nD) (i : grid0.Coords) (E : Set ℕ)
    (arg2 : Memref sig .tc .vmem S1024x2048 .f32) (harg2 : arg2.IsWhole) (arg3 : Memref sig .tc .vmem S8192x128 .f32) (harg3 : arg3.IsWhole)
    (arg4 : Memref sig .tc .vmem S128x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x128 .f32) (harg7 : arg7.IsWhole)
    (hc0 : cond0_0 i) (hc1 : ¬cond0_1 i)
    (x0 : Vec F S1024x2048 .f32) (x1 : Vec F S8192x128 .f32) (x2 : Vec F S128x256 .f32) (x3 : Vec F S1x256 .f32) (xi4 : Vec F S1024x256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (step0 i x0 x1 (zero0 (F := F)))) -∗ K ⟨⟩))
      ⊢ wp frame (wpE (defs₀ (F := F)) Variants.none c none) E (cc0__matmul_fused_kernel i arg2 harg2 arg3 harg3 arg4 harg4 arg5 harg5 arg6 harg6 arg7 harg7) K := by
  simp only [cc0__matmul_fused_kernel_eq_skeleton]; unfold cc0__matmul_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  exact read_reset_step0 arg7.view fs i (arg2.view.read (Elt F) f0) (arg3.view.read (Elt F) f1)

set_option maxHeartbeats 1000000 in
/-- Case C (the epilogue taken, the reset not): the scratch at `xs` is stepped, and the output block stored from it. -/
theorem sound_C0 (c : Dev nD) (i : grid0.Coords) (E : Set ℕ)
    (arg2 : Memref sig .tc .vmem S1024x2048 .f32) (harg2 : arg2.IsWhole) (arg3 : Memref sig .tc .vmem S8192x128 .f32) (harg3 : arg3.IsWhole)
    (arg4 : Memref sig .tc .vmem S128x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x128 .f32) (harg7 : arg7.IsWhole)
    (hc0 : ¬cond0_0 i) (hc1 : cond0_1 i)
    (x0 : Vec F S1024x2048 .f32) (x1 : Vec F S8192x128 .f32) (x2 : Vec F S128x256 .f32) (x3 : Vec F S1x256 .f32) (xs : Vec F S1024x128 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (fin0 (step0 i x0 x1 xs) x2 x3) ∗ owns (c : Thread nD τ) arg7 fullShare (step0 i x0 x1 xs)) -∗ K ⟨⟩))
      ⊢ wp frame (wpE (defs₀ (F := F)) Variants.none c none) E (cc0__matmul_fused_kernel i arg2 harg2 arg3 harg3 arg4 harg4 arg5 harg5 arg6 harg6 arg7 harg7) K := by
  simp only [cc0__matmul_fused_kernel_eq_skeleton]; unfold cc0__matmul_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon_ld _ _ rS0 (coverS0 _)]
    exact View.read_writes_eq_canon _ _ _ (coverO0 _)
  iexists _; isplitr
  swap; · iexact HS
  ipureintro
  exact View.read_writes_eq_canon _ _ _ (coverS0 _)

/-! ## The windows' blocks -/

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not (unfetched, the
    block index has not moved), for any proof data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The branch conditions and the idle points, decided over the grid -/

/-- The reset is taken at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)
/-- The epilogue is taken at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-- Off the epilogue's points the output window is idle, -/
theorem idleAt0_4 : ∀ t : Fin cfg0.N, ¬cond0_1 (grid0.coords t) → cfg0.idle 4 (grid0.coords t) = true := by decide +kernel
/-- and its block is not written back there; -/
theorem noFlush0_4 : ∀ t : Fin cfg0.N, ¬cond0_1 (grid0.coords t) → (cfg0.win 4).flush t = false := by decide +kernel
/-- at the epilogue's points it is live. -/
theorem liveAt0_4 : ∀ t : Fin cfg0.N, cond0_1 (grid0.coords t) → cfg0.idle 4 (grid0.coords t) = false := by decide +kernel

/-! ## What the scratch and the output's buffer hold after each point -/

/-- The carried scratch after the body at position `n`: one accumulation step at the point's blocks, over zeros at a
    point ≡ 0 (mod 4), over what the point before left otherwise. -/
def acc0 (c : Dev nD) : (n : ℕ) → n < cfg0.N → Vec F S1024x128 .f32
  | 0, hn => step0 (grid0.coords ⟨0, hn⟩) (iblk0 V c 0 ⟨0, hn⟩) (iblk0 V c 1 ⟨0, hn⟩) (zero0 (F := F))
  | n + 1, hn => step0 (grid0.coords ⟨n + 1, hn⟩) (iblk0 V c 0 ⟨n + 1, hn⟩) (iblk0 V c 1 ⟨n + 1, hn⟩)
      (if (n + 1) % 4 = 0 then zero0 (F := F) else acc0 c n (Nat.lt_of_succ_lt hn))

/-- The output window's staging buffer after the body at position `n` (what the epilogue stores from the scratch as
    that point leaves it; consulted at the points ≡ 3 (mod 4) only, the window being idle elsewhere). -/
def out0 (c : Dev nD) (n : ℕ) (hn : n < cfg0.N) : Vec F S1024x256 .f32 :=
  fin0 (acc0 V c n hn) (iblk0 V c 2 ⟨n, hn⟩) (iblk0 V c 3 ⟨n, hn⟩)

/-- VALUE EQUATION, reset points: the scratch after a point ≡ 0 (mod 4) is one step over zeros. -/
theorem acc0_reset (c : Dev nD) (t : Fin cfg0.N) (h0 : t.val % 4 = 0) :
    acc0 V c t.val t.isLt = step0 (grid0.coords t) (iblk0 V c 0 t) (iblk0 V c 1 t) (zero0 (F := F)) := by
  obtain ⟨n, hn⟩ := t
  cases n with
  | zero => rfl
  | succ n => exact congrArg (step0 _ _ _) (if_pos h0)

/-- VALUE EQUATION, the other points: one step over what the point before left. -/
theorem acc0_step (c : Dev nD) (t : Fin cfg0.N) (h0 : ¬t.val % 4 = 0) :
    acc0 V c t.val t.isLt = step0 (grid0.coords t) (iblk0 V c 0 t) (iblk0 V c 1 t)
      (acc0 V c (t.val - 1) (Nat.lt_of_le_of_lt (Nat.sub_le _ _) t.isLt)) := by
  obtain ⟨n, hn⟩ := t
  cases n with
  | zero => exact absurd (Nat.zero_mod _) h0
  | succ n => exact congrArg (step0 _ _ _) (if_neg h0)

/-- VALUE EQUATION, the output: the epilogue's block from the scratch as the same point leaves it. -/
theorem out0_eq (c : Dev nD) (t : Fin cfg0.N) :
    out0 V c t.val t.isLt = fin0 (acc0 V c t.val t.isLt) (iblk0 V c 2 t) (iblk0 V c 3 t) := rfl

/-! ## The region invariant -/

/-- The scratch operand: a whole scoped buffer of the kernel's own. -/
abbrev scM0 : Memref sig .tc .vmem S1024x128 .f32 := Memref.whole cc0_scratch0

/-- The core's other scoped buffers that are no staging buffer of this call, unopened. -/
abbrev rest0 (c : Dev nD) : sProp 𝕄 :=
  Pipeline.scopedRestBut (Ix := Unit) (Name := ℕ) (U := UR sig nD τ) (Lvl := ℕ) (Val := Elt F) spec0 c [cc0_scratch0]

/-- The class's invariant with the scratch operand as a memref owned at some contents. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list spec0 c [cc0_scratch0] (by decide) (by decide)]
  simp only [bigSepL_singleton, scM0, owns_whole]; try rfl

/-- The invariant before position `n`: the class's before the first point; afterwards the scratch at what the point
    before left, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0 fullShare (acc0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (acc0 V c n hn) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (acc0 V c (n - 1) (by omega)) ∗ rest0 (F := F) c) ∗ (∃ r, prngReg c r)) := by
  cases n with
  | zero => exact absurd rfl hz
  | succ n => rfl

/-! ## The pipeline's proof data -/

/-- The proof data of this pipeline on core `c`, at the region-entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- The current staging memrefs at point `t`, spelled as the pipeline passes them, and their wholeness. -/
abbrev ms0_0 (t : Fin cfg0.N) : Memref sig .tc .vmem S1024x2048 .f32 := win0_0.stage (cfg0.slots t 0)
abbrev ms0_1 (t : Fin cfg0.N) : Memref sig .tc .vmem S8192x128 .f32 := win0_1.stage (cfg0.slots t 1)
abbrev ms0_2 (t : Fin cfg0.N) : Memref sig .tc .vmem S128x256 .f32 := win0_2.stage (cfg0.slots t 2)
abbrev ms0_3 (t : Fin cfg0.N) : Memref sig .tc .vmem S1x256 .f32 := win0_3.stage (cfg0.slots t 3)
abbrev ms0_4 (t : Fin cfg0.N) : Memref sig .tc .vmem S1024x256 .f32 := win0_4.stage (cfg0.slots t 4)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

/-- An input window is live everywhere: the body leaves its block in place. -/
theorem leaves0_0 (c : Dev nD) (t : Fin cfg0.N) :
    (dat0 V c).leavesExact 0 t = owns (c : Thread nD τ) (ms0_0 t) fullShare (iblk0 V c 0 t) := by
  unfold Dat.leavesExact; rw [show cfg0.idle 0 (cfg0.grid.coords t) = false from rfl, after0_0]
theorem leaves0_1 (c : Dev nD) (t : Fin cfg0.N) :
    (dat0 V c).leavesExact 1 t = owns (c : Thread nD τ) (ms0_1 t) fullShare (iblk0 V c 1 t) := by
  unfold Dat.leavesExact; rw [show cfg0.idle 1 (cfg0.grid.coords t) = false from rfl, after0_1]
theorem leaves0_2 (c : Dev nD) (t : Fin cfg0.N) :
    (dat0 V c).leavesExact 2 t = owns (c : Thread nD τ) (ms0_2 t) fullShare (iblk0 V c 2 t) := by
  unfold Dat.leavesExact; rw [show cfg0.idle 2 (cfg0.grid.coords t) = false from rfl, after0_2]
theorem leaves0_3 (c : Dev nD) (t : Fin cfg0.N) :
    (dat0 V c).leavesExact 3 t = owns (c : Thread nD τ) (ms0_3 t) fullShare (iblk0 V c 3 t) := by
  unfold Dat.leavesExact; rw [show cfg0.idle 3 (cfg0.grid.coords t) = false from rfl, after0_3]

set_option maxHeartbeats 4800000 in
/-- The body at any point: the inputs' memrefs hold their blocks; the point's residue mod 4 says which case it is
    in; the invariant hands the body the scratch at what the point before left (at anything at the first point) and
    takes it back at this point's contents; off the epilogue's points the output's buffer goes back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2, leaves0_3]
  have hN : t.val < 32 := lt_of_lt_of_eq t.isLt (show cfg0.N = 32 from N_0)
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dat0 V c) 4 t (idleAt0_4 t hc1) (noFlush0_4 t hc1)]
    rw [acc0_reset V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (sound_A0 c (grid0.coords t) Set.univ _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_A0 c (grid0.coords t) Set.univ _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hz : t.val ≠ 0 := fun hz => h0 (by rw [hz])
    rw [acc0_step V c t h0]
    rw [PhiS0_castSucc V c t, PhiS0_pos V c _ _ hz]
    by_cases h1 : t.val % 4 = 3
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4, out0_eq, acc0_step V c t h0]
      iintro ⟨⟨⟨HS, HR⟩, Hg⟩, Ho, ⟨%d0, H0⟩, ⟨%d1, H1⟩, ⟨%d2, H2⟩, ⟨%d3, H3⟩, ⟨%d4, H4⟩⟩
      iapply (sound_C0 c (grid0.coords t) Set.univ _ _ _ _ _ _ _ _ _ _ _ _ hc0 hc1 (iblk0 V c 0 t) (iblk0 V c 1 t) (iblk0 V c 2 t) (iblk0 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 t hc1) (noFlush0_4 t hc1)]
      iintro ⟨⟨⟨HS, HR⟩, Hg⟩, Ho, ⟨%d0, H0⟩, ⟨%d1, H1⟩, ⟨%d2, H2⟩, ⟨%d3, H3⟩, ⟨%d4, H4⟩⟩
      iapply (sound_B0 c (grid0.coords t) Set.univ _ _ _ _ _ _ _ _ _ _ _ _ hc0 hc1 (iblk0 V c 0 t) (iblk0 V c 1 t) (iblk0 V c 2 t) (iblk0 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the scratch's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end Cert.KernelIdeal.Hand

end
-- ==== Proof.KI1.lean ====
/- Region 1 (the fused matmul kernel at 256 hidden columns, grid 8 x 4, point t = 4 i + k) at a parameter `V`,
   the contents of the TensorCore's buffers when the region is entered, generic in the float model.
   The kernel keeps a 1024 x 256 accumulator in scratch: at k = 0 it is zeroed; at every k the product of the
   point's 1024 x 2048 block of window 0 with the 2048-row slice of window 1 at row offset 2048 k is added to it;
   at k = 3 the epilogue multiplies it by window 2, adds window 3's row and stores the 1024 x 256 output block.
   So there are three control cases (reset / accumulate / accumulate and store), each run once symbolically;
   the scratch after position n (`acc1`) and the output buffer after it (`out1`) are defined by recursion on n,
   and the invariant carries the scratch at `acc1` from point to point. -/
import proofs.«116793_j28183575396967_2_alg».proof.Proof.Gen.KernelIdeal.Launch
import proofs.«116793_j28183575396967_2_alg».proof.Proof.Gen.KernelIdeal.Skeleton
import proofs.«116793_j28183575396967_2_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

abbrev rX1 : Rect S1024x2048 := Rect.unit (s := S1024x2048) ![0, 0] S1024x2048.size inb_S1024x2048_S1024x2048_0_0
abbrev rH1 (i : grid1.Coords) : Rect S8192x256 := Rect.unit (s := S8192x256) (k1_off1 i) S2048x256.size (k1_off1_inb i)
abbrev rW1 : Rect S256x256 := Rect.unit (s := S256x256) ![0, 0] S256x256.size inb_S256x256_S256x256_0_0
abbrev rB1 : Rect S1x256 := Rect.unit (s := S1x256) ![0, 0] S1x256.size inb_S1x256_S1x256_0_0
abbrev rO1 : Rect S1024x256 := Rect.unit (s := S1024x256) ![0, 0] S1024x256.size inb_S1024x256_S1024x256_0_0
abbrev rS1 : Rect S1024x256 := Rect.unit (s := S1024x256) ![0, 0] S1024x256.size inb_S1024x256_S1024x256_0_0

/-- The body's branch conditions, from the grid coordinates. -/
abbrev cond1_0 (i : grid1.Coords) : Prop := (Scalar.cmpi .ne (Scalar.extui (Scalar.cmpi .eq (BitVec.ofNat 32 (i 1).val) 0#32)) 0#32) = 1#1
abbrev cond1_1 (i : grid1.Coords) : Prop := k1_cond2 i = 1#1

/-! ## What the body leaves, as functions of what it reads -/

/-- The scratch after the reset: the zero payload stored through the whole rectangle. -/
def zero1 : Vec F S1024x256 .f32 := View.canon [⟨rS1, k1_pay1 (F := F)⟩]

/-- The scratch after one accumulation step: the product of window 0's block with the row slice of window 1's
    block at the point's offset, added to the scratch's contents `xs`. -/
def step1 (i : grid1.Coords) (x0 : Vec F S1024x2048 .f32) (x1 : Vec F S8192x256 .f32) (xs : Vec F S1024x256 .f32) : Vec F S1024x256 .f32 :=
  View.canon [⟨rS1, k1_pay2 (View.ld x0 rX1) (View.ld x1 (rH1 i)) (View.ld xs rS1)⟩]

/-- The output block the epilogue stores, from the accumulated scratch `xs` and windows 2 and 3. -/
def fin1 (xs : Vec F S1024x256 .f32) (x2 : Vec F S256x256 .f32) (x3 : Vec F S1x256 .f32) : Vec F S1024x256 .f32 :=
  View.canon [⟨rO1, k1_pay3 (View.ld xs rS1) (View.ld x2 rW1) (View.ld x3 rB1)⟩]

theorem coverS1 (p0 : rS1.shape.Idx → Elt F .f32) (y : S1024x256.Idx) :
    ∃ pc ∈ ([⟨rS1, p0⟩] : List (View.Piece (Elt F) S1024x256 .f32)), y ∈ pc.1.set :=
  View.cover_of_tiled [⟨rS1, p0⟩] S1024x256.size (by rfl) y

theorem coverO1 (p0 : rO1.shape.Idx → Elt F .f32) (y : S1024x256.Idx) :
    ∃ pc ∈ ([⟨rO1, p0⟩] : List (View.Piece (Elt F) S1024x256 .f32)), y ∈ pc.1.set :=
  View.cover_of_tiled [⟨rO1, p0⟩] S1024x256.size (by rfl) y

/-! ## The body's triple, case by case -/

/-- The reset's zeros, overwritten by one step read back through them: one step over zeros. -/
theorem read_reset_step1 (v : View sig .tc .vmem S1024x256 .f32) (fs : v.ty.Contents (Elt F)) (i : grid1.Coords)
    (x0 : Vec F S1024x2048 .f32) (x1 : Vec F S8192x256 .f32) :
    v.read (Elt F) (v.writes (Elt F) fs
        [⟨rS1, k1_pay2 (View.ld x0 rX1) (View.ld x1 (rH1 i)) (v.readCov [⟨rS1, k1_pay1 (F := F)⟩] rS1.toLoadRect)⟩, ⟨rS1, k1_pay1 (F := F)⟩])
      = step1 i x0 x1 (zero1 (F := F)) := by
  rw [View.writes_cons_drop v fs ⟨rS1, _⟩ rS1 _ [] (fun _ hy => hy)]
  rw [View.readCov_eq_canon_ld v _ rS1 (coverS1 _)]
  unfold step1 zero1
  exact View.read_writes_eq_canon _ _ _ (coverS1 _)

set_option maxHeartbeats 1000000 in
/-- Case B (neither conditional taken): the scratch at `xs` is stepped; everything else is handed back. -/
theorem sound_B1 (c : Dev nD) (i : grid1.Coords) (E : Set ℕ)
    (arg2 : Memref sig .tc .vmem S1024x2048 .f32) (harg2 : arg2.IsWhole) (arg3 : Memref sig .tc .vmem S8192x256 .f32) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond1_0 i) (hc1 : ¬cond1_1 i)
    (x0 : Vec F S1024x2048 .f32) (x1 : Vec F S8192x256 .f32) (x2 : Vec F S256x256 .f32) (x3 : Vec F S1x256 .f32) (xi4 : Vec F S1024x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (step1 i x0 x1 xs)) -∗ K ⟨⟩))
      ⊢ wp frame (wpE (defs₀ (F := F)) Variants.none c none) E (cc1__matmul_fused_kernel i arg2 harg2 arg3 harg3 arg4 harg4 arg5 harg5 arg6 harg6 arg7 harg7) K := by
  simp only [cc1__matmul_fused_kernel_eq_skeleton]; unfold cc1__matmul_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  subst hf0; subst hf1; subst hf2; subst hf3; subst hf4; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  exact View.read_writes_eq_canon _ _ _ (coverS1 _)

set_option maxHeartbeats 1000000 in
/-- Case A (the reset taken, the epilogue not): the scratch, at anything, is zeroed and stepped. -/
theorem sound_A1 (c : Dev nD) (i : grid1.Coords) (E : Set ℕ)
    (arg2 : Memref sig .tc .vmem S1024x2048 .f32) (harg2 : arg2.IsWhole) (arg3 : Memref sig .tc .vmem S8192x256 .f32) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x256 .f32) (harg7 : arg7.IsWhole)
    (hc0 : cond1_0 i) (hc1 : ¬cond1_1 i)
    (x0 : Vec F S1024x2048 .f32) (x1 : Vec F S8192x256 .f32) (x2 : Vec F S256x256 .f32) (x3 : Vec F S1x256 .f32) (xi4 : Vec F S1024x256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (step1 i x0 x1 (zero1 (F := F)))) -∗ K ⟨⟩))
      ⊢ wp frame (wpE (defs₀ (F := F)) Variants.none c none) E (cc1__matmul_fused_kernel i arg2 harg2 arg3 harg3 arg4 harg4 arg5 harg5 arg6 harg6 arg7 harg7) K := by
  simp only [cc1__matmul_fused_kernel_eq_skeleton]; unfold cc1__matmul_fused_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HS
  ipureintro
  sl_unfold_run_names
  exact read_reset_step1 arg7.view fs i (arg2.view.read (Elt F) f0) (arg3.view.read (Elt F) f1)

set_option maxHeartbeats 1000000 in
/-- Case C (the epilogue taken, the reset not): the scratch at `xs` is stepped, and the output block stored from it. -/
theorem sound_C1 (c : Dev nD) (i : grid1.Coords) (E : Set ℕ)
    (arg2 : Memref sig .tc .vmem S1024x2048 .f32) (harg2 : arg2.IsWhole) (arg3 : Memref sig .tc .vmem S8192x256 .f32) (harg3 : arg3.IsWhole)
    (arg4 : Memref sig .tc .vmem S256x256 .f32) (harg4 : arg4.IsWhole) (arg5 : Memref sig .tc .vmem S1x256 .f32) (harg5 : arg5.IsWhole)
    (arg6 : Memref sig .tc .vmem S1024x256 .f32) (harg6 : arg6.IsWhole) (arg7 : Memref sig .tc .vmem S1024x256 .f32) (harg7 : arg7.IsWhole)
    (hc0 : ¬cond1_0 i) (hc1 : cond1_1 i)
    (x0 : Vec F S1024x2048 .f32) (x1 : Vec F S8192x256 .f32) (x2 : Vec F S256x256 .f32) (x3 : Vec F S1x256 .f32) (xs : Vec F S1024x256 .f32)
    (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (fin1 (step1 i x0 x1 xs) x2 x3) ∗ owns (c : Thread nD τ) arg7 fullShare (step1 i x0 x1 xs)) -∗ K ⟨⟩))
      ⊢ wp frame (wpE (defs₀ (F := F)) Variants.none c none) E (cc1__matmul_fused_kernel i arg2 harg2 arg3 harg3 arg4 harg4 arg5 harg5 arg6 harg6 arg7 harg7) K := by
  simp only [cc1__matmul_fused_kernel_eq_skeleton]; unfold cc1__matmul_fused_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  subst hf0; subst hf1; subst hf2; subst hf3; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.readCov_eq_canon_ld _ _ rS1 (coverS1 _)]
    exact View.read_writes_eq_canon _ _ _ (coverO1 _)
  iexists _; isplitr
  swap; · iexact HS
  ipureintro
  exact View.read_writes_eq_canon _ _ _ (coverS1 _)

/-! ## The windows' blocks -/

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The branch conditions and the idle points, decided over the grid -/

/-- The reset is taken at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)
/-- The epilogue is taken at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-- Off the epilogue's points the output window is idle, -/
theorem idleAt1_4 : ∀ t : Fin cfg1.N, ¬cond1_1 (grid1.coords t) → cfg1.idle 4 (grid1.coords t) = true := by decide +kernel
/-- and its block is not written back there; -/
theorem noFlush1_4 : ∀ t : Fin cfg1.N, ¬cond1_1 (grid1.coords t) → (cfg1.win 4).flush t = false := by decide +kernel
/-- at the epilogue's points it is live. -/
theorem liveAt1_4 : ∀ t : Fin cfg1.N, cond1_1 (grid1.coords t) → cfg1.idle 4 (grid1.coords t) = false := by decide +kernel

/-! ## What the scratch and the output's buffer hold after each point -/

/-- The carried scratch after the body at position `n`: one accumulation step at the point's blocks, over zeros at a
    point ≡ 0 (mod 4), over what the point before left otherwise. -/
def acc1 (c : Dev nD) : (n : ℕ) → n < cfg1.N → Vec F S1024x256 .f32
  | 0, hn => step1 (grid1.coords ⟨0, hn⟩) (iblk1 V c 0 ⟨0, hn⟩) (iblk1 V c 1 ⟨0, hn⟩) (zero1 (F := F))
  | n + 1, hn => step1 (grid1.coords ⟨n + 1, hn⟩) (iblk1 V c 0 ⟨n + 1, hn⟩) (iblk1 V c 1 ⟨n + 1, hn⟩)
      (if (n + 1) % 4 = 0 then zero1 (F := F) else acc1 c n (Nat.lt_of_succ_lt hn))

/-- The output window's staging buffer after the body at position `n` (what the epilogue stores from the scratch as
    that point leaves it; consulted at the points ≡ 3 (mod 4) only, the window being idle elsewhere). -/
def out1 (c : Dev nD) (n : ℕ) (hn : n < cfg1.N) : Vec F S1024x256 .f32 :=
  fin1 (acc1 V c n hn) (iblk1 V c 2 ⟨n, hn⟩) (iblk1 V c 3 ⟨n, hn⟩)

/-- VALUE EQUATION, reset points: the scratch after a point ≡ 0 (mod 4) is one step over zeros. -/
theorem acc1_reset (c : Dev nD) (t : Fin cfg1.N) (h0 : t.val % 4 = 0) :
    acc1 V c t.val t.isLt = step1 (grid1.coords t) (iblk1 V c 0 t) (iblk1 V c 1 t) (zero1 (F := F)) := by
  obtain ⟨n, hn⟩ := t
  cases n with
  | zero => rfl
  | succ n => exact congrArg (step1 _ _ _) (if_pos h0)

/-- VALUE EQUATION, the other points: one step over what the point before left. -/
theorem acc1_step (c : Dev nD) (t : Fin cfg1.N) (h0 : ¬t.val % 4 = 0) :
    acc1 V c t.val t.isLt = step1 (grid1.coords t) (iblk1 V c 0 t) (iblk1 V c 1 t)
      (acc1 V c (t.val - 1) (Nat.lt_of_le_of_lt (Nat.sub_le _ _) t.isLt)) := by
  obtain ⟨n, hn⟩ := t
  cases n with
  | zero => exact absurd (Nat.zero_mod _) h0
  | succ n => exact congrArg (step1 _ _ _) (if_neg h0)

/-- VALUE EQUATION, the output: the epilogue's block from the scratch as the same point leaves it. -/
theorem out1_eq (c : Dev nD) (t : Fin cfg1.N) :
    out1 V c t.val t.isLt = fin1 (acc1 V c t.val t.isLt) (iblk1 V c 2 t) (iblk1 V c 3 t) := rfl

/-! ## The region invariant -/

/-- The scratch operand: a whole scoped buffer of the kernel's own. -/
abbrev scM1 : Memref sig .tc .vmem S1024x256 .f32 := Memref.whole cc1_scratch0

/-- The core's other scoped buffers that are no staging buffer of this call, unopened. -/
abbrev rest1 (c : Dev nD) : sProp 𝕄 :=
  Pipeline.scopedRestBut (Ix := Unit) (Name := ℕ) (U := UR sig nD τ) (Lvl := ℕ) (Val := Elt F) spec1 c [cc1_scratch0]

/-- The class's invariant with the scratch operand as a memref owned at some contents. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list spec1 c [cc1_scratch0] (by decide) (by decide)]
  simp only [bigSepL_singleton, scM1, owns_whole]; try rfl

/-- The invariant before position `n`: the class's before the first point; afterwards the scratch at what the point
    before left, the other scoped buffers unopened, the generator register at some state. -/
def PhiS1 (c : Dev nD) : (n : ℕ) → n ≤ cfg1.N → sProp 𝕄
  | 0, _ => Pipeline.ΦA spec1 c
  | n + 1, hn => iprop(iprop(owns (c : Thread nD τ) scM1 fullShare (acc1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1 fullShare (acc1 V c n hn) ∗ rest1 (F := F) c) ∗ (∃ r, prngReg c r)) := rfl

theorem PhiS1_pos (c : Dev nD) (n : ℕ) (h : n ≤ cfg1.N) (hz : n ≠ 0) :
    PhiS1 V c n h = iprop(iprop(owns (c : Thread nD τ) scM1 fullShare (acc1 V c (n - 1) (by omega)) ∗ rest1 (F := F) c) ∗ (∃ r, prngReg c r)) := by
  cases n with
  | zero => exact absurd rfl hz
  | succ n => rfl

/-! ## The pipeline's proof data -/

/-- The proof data of this pipeline on core `c`, at the region-entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- The current staging memrefs at point `t`, spelled as the pipeline passes them, and their wholeness. -/
abbrev ms1_0 (t : Fin cfg1.N) : Memref sig .tc .vmem S1024x2048 .f32 := win1_0.stage (cfg1.slots t 0)
abbrev ms1_1 (t : Fin cfg1.N) : Memref sig .tc .vmem S8192x256 .f32 := win1_1.stage (cfg1.slots t 1)
abbrev ms1_2 (t : Fin cfg1.N) : Memref sig .tc .vmem S256x256 .f32 := win1_2.stage (cfg1.slots t 2)
abbrev ms1_3 (t : Fin cfg1.N) : Memref sig .tc .vmem S1x256 .f32 := win1_3.stage (cfg1.slots t 3)
abbrev ms1_4 (t : Fin cfg1.N) : Memref sig .tc .vmem S1024x256 .f32 := win1_4.stage (cfg1.slots t 4)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

/-- An input window is live everywhere: the body leaves its block in place. -/
theorem leaves1_0 (c : Dev nD) (t : Fin cfg1.N) :
    (dat1 V c).leavesExact 0 t = owns (c : Thread nD τ) (ms1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (ms1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (ms1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (ms1_3 t) fullShare (iblk1 V c 3 t) := by
  unfold Dat.leavesExact; rw [show cfg1.idle 3 (cfg1.grid.coords t) = false from rfl, after1_3]

set_option maxHeartbeats 4800000 in
/-- The body at any point: the inputs' memrefs hold their blocks; the point's residue mod 4 says which case it is
    in; the invariant hands the body the scratch at what the point before left (at anything at the first point) and
    takes it back at this point's contents; off the epilogue's points the output's buffer goes back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3]
  have hN : t.val < 32 := lt_of_lt_of_eq t.isLt (show cfg1.N = 32 from N_1)
  by_cases h0 : t.val % 4 = 0
  · have hc0 : cond1_0 (grid1.coords t) := (hcond1_0 t).mpr h0
    have hc1 : ¬cond1_1 (grid1.coords t) := fun h => by have := (hcond1_1 t).mp h; omega
    rw [Dat.leavesExact_idle (dat1 V c) 4 t (idleAt1_4 t hc1) (noFlush1_4 t hc1)]
    rw [acc1_reset V c t h0]
    by_cases hz : t.val = 0
    · rw [PhiS1_castSucc V c t, PhiS1_zero V c _ _ hz, PhiA1_eq]
      iintro ⟨⟨⟨HS, HR⟩, Hg⟩, Ho, ⟨%d0, H0⟩, ⟨%d1, H1⟩, ⟨%d2, H2⟩, ⟨%d3, H3⟩, ⟨%d4, H4⟩⟩
      iapply (sound_A1 c (grid1.coords t) Set.univ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS1_castSucc V c t, PhiS1_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (sound_A1 c (grid1.coords t) Set.univ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hc0 : ¬cond1_0 (grid1.coords t) := fun h => h0 ((hcond1_0 t).mp h)
    have hz : t.val ≠ 0 := fun hz => h0 (by rw [hz])
    rw [acc1_step V c t h0]
    rw [PhiS1_castSucc V c t, PhiS1_pos V c _ _ hz]
    by_cases h1 : t.val % 4 = 3
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4, out1_eq, acc1_step V c t h0]
      iintro ⟨⟨⟨HS, HR⟩, Hg⟩, Ho, ⟨%d0, H0⟩, ⟨%d1, H1⟩, ⟨%d2, H2⟩, ⟨%d3, H3⟩, ⟨%d4, H4⟩⟩
      iapply (sound_C1 c (grid1.coords t) Set.univ _ _ _ _ _ _ _ _ _ _ _ _ hc0 hc1 (iblk1 V c 0 t) (iblk1 V c 1 t) (iblk1 V c 2 t) (iblk1 V c 3 t) _ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond1_1 (grid1.coords t) := fun h => h1 ((hcond1_1 t).mp h)
      rw [Dat.leavesExact_idle (dat1 V c) 4 t (idleAt1_4 t hc1) (noFlush1_4 t hc1)]
      iintro ⟨⟨⟨HS, HR⟩, Hg⟩, Ho, ⟨%d0, H0⟩, ⟨%d1, H1⟩, ⟨%d2, H2⟩, ⟨%d3, H3⟩, ⟨%d4, H4⟩⟩
      iapply (sound_B1 c (grid1.coords t) Set.univ _ _ _ _ _ _ _ _ _ _ _ _ hc0 hc1 (iblk1 V c 0 t) (iblk1 V c 1 t) (iblk1 V c 2 t) (iblk1 V c 3 t) _ _ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the scratch's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS, HR⟩, Hg⟩
  isplitl [HS HR]
  · isplitl [HS]
    · iexists _; iexact HS
    iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Hand

end
-- ==== Proof.KI2.lean ====
/- Region 2 of the kernel program (the call of `cc2__matmul_kernel`, grid [1, 4]) at the region-entry contents `V`:
   the kernel body's triple in each of its three control cases, the contents of the carried accumulator and of the
   output block point by point, the proof data of the pipeline, its body obligation, and the value equations of the
   accumulator over the skeleton's payloads. Generic in the float model `F`. -/
import proofs.«116793_j28183575396967_2_alg».proof.Proof.Gen.KernelIdeal.Launch
import proofs.«116793_j28183575396967_2_alg».proof.Proof.Gen.KernelIdeal.Skeleton
import proofs.«116793_j28183575396967_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Whole-shape accesses and the branch conditions -/

/-- The branch condition of the first conditional (the reduction step is the first), from the grid coordinates. -/
abbrev cond2_0 (i : grid2.Coords) : Prop := (Scalar.cmpi .ne (Scalar.extui (Scalar.cmpi .eq (BitVec.ofNat 32 (i 1).val) 0#32)) 0#32) = 1#1
/-- The branch condition of the second conditional (the reduction step is the last). -/
abbrev cond2_1 (i : grid2.Coords) : Prop := k2_cond2 i = 1#1

/-- The first holds exactly at the first point, -/
theorem hcond2_0 : ∀ t : Fin cfg2.N, cond2_0 (grid2.coords t) ↔ t.val = 0 :=
  (by decide +kernel : ∀ t : Fin grid2.N, cond2_0 (grid2.coords t) ↔ t.val = 0)
/-- the second exactly at the last. -/
theorem hcond2_1 : ∀ t : Fin cfg2.N, cond2_1 (grid2.coords t) ↔ t.val = 3 :=
  (by decide +kernel : ∀ t : Fin grid2.N, cond2_1 (grid2.coords t) ↔ t.val = 3)

/-- A unit-stride rectangle of the shape's own sizes sits at offset zero and places every index at itself. -/
theorem idx_unit_self2 {s : Shape} (off : Fin s.rank → ℕ) (h : ∀ a, off a + s.size a ≤ s.size a) (x : s.Idx) :
    (Rect.unit (s := s) off s.size h).toLoadRect.idx x = x := by
  funext a; apply Fin.ext
  show off a + 1 * (x a : ℕ) = x a
  have := h a; omega

/-- A load through such a rectangle of a whole memref held at the contents that read `X` reads `X`. -/
theorem readAt_unit_self_unread2 {sig : RefSig} {Val : EltTy → Type} {κ : Kind} {sp : Space} {s : Shape} {e : EltTy}
    {m : Memref sig κ sp s e} (hm : m.IsWhole) (X : s.Idx → Val e) (off : Fin s.rank → ℕ) (h : ∀ a, off a + s.size a ≤ s.size a) :
    View.readAt Val m.view (Rect.unit (s := s) off s.size h).toLoadRect (hm.unread X) = X := by
  funext x
  exact (congrFun (Memref.IsWhole.read_unread hm X) _).trans (congrArg X (idx_unit_self2 off h x))

/-- A store through such a rectangle, made last, leaves its payload in the whole buffer. -/
theorem read_writes_unit_self2 {sig : RefSig} {Val : EltTy → Type} {κ : Kind} {sp : Space} {s : Shape} {e : EltTy}
    (v : View sig κ sp s e) (f : v.ty.Contents Val) (off : Fin s.rank → ℕ) (h : ∀ a, off a + s.size a ≤ s.size a)
    (w : s.Idx → Val e) (L : List (View.Piece Val s e)) :
    v.read Val (v.writes Val f (⟨Rect.unit (s := s) off s.size h, w⟩ :: L)) = w := by
  funext x
  have := View.read_writes_cons_emb (v := v) (f := f) (Rect.unit (s := s) off s.size h) w L x
  rwa [show (Rect.unit (s := s) off s.size h).emb x = x from idx_unit_self2 off h x] at this

/-! ## Where the output window is idle -/

/-- The two input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
/-- Off the last reduction step the output window is idle, -/
theorem idleAt2_2 : ∀ t : Fin cfg2.N, ¬cond2_1 (grid2.coords t) → cfg2.idle 2 (grid2.coords t) = true := by decide +kernel
/-- and live at it. -/
theorem liveAt2_2 : ∀ t : Fin cfg2.N, cond2_1 (grid2.coords t) → cfg2.idle 2 (grid2.coords t) = false := by decide +kernel
/-- The output block is written back at the last step only. -/
theorem noFlush2_2 (t : Fin cfg2.N) (h : ¬t.val = 3) : (cfg2.win 2).flush t = false := by
  have hN : t.val < 4 := lt_of_lt_of_eq t.isLt N_2
  exact Bool.eq_false_iff.mpr fun hf => h (by have := (flush2_2 t).mp hf; omega)

/-! ## The kernel body's triple, case by case

On whole memrefs — the two inputs at contents `x0`, `x1`, the output's at `xi2` or at anything, the accumulator at
`xs` or at anything — the body runs to the continuation holding the inputs as they were and the accumulator at one more
term of the sum: `k2_pay2 x0 x1 ·` of zeros (first step) or of what it held (later steps); at the last step the output
holds the accumulator's new contents, elsewhere it is untouched. -/

set_option maxHeartbeats 1000000 in
/-- First step: the accumulator is reset to zeros, then one product is added. -/
theorem kernel2_A (c : Dev nD) (i : grid2.Coords) (arg2 : Memref sig .tc .vmem S64x2048 .f32) (harg2 : arg2.IsWhole) (arg3 : Memref sig .tc .vmem S2048x256 .f32) (harg3 : arg3.IsWhole) (arg4 : Memref sig .tc .vmem S64x256 .f32) (harg4 : arg4.IsWhole) (arg5 : Memref sig .tc .vmem S64x256 .f32) (harg5 : arg5.IsWhole) (hc0 : cond2_0 i) (hc1 : ¬cond2_1 i)
    (x0 : Vec F S64x2048 .f32) (x1 : Vec F S2048x256 .f32) (xi2 : Vec F S64x256 .f32) (E : Set ℕ) (K : PUnit → sProp 𝕄) :
    iprop(owns (c : Thread nD τ) arg2 fullShare x0 ∗ owns (c : Thread nD τ) arg3 fullShare x1 ∗ owns (c : Thread nD τ) arg4 fullShare xi2 ∗ (∃ d, owns (c : Thread nD τ) arg5 fullShare d)
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 x0 x1 k2_pay1)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%ds, %fs, -, HS⟩, Hk⟩
  obtain rfl := harg2.eq_unread hf0; obtain rfl := harg3.eq_unread hf1; obtain rfl := harg4.eq_unread hf2
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  sl_unfold_run_names
  rw [readAt_unit_self_unread2 harg2 x0, readAt_unit_self_unread2 harg3 x1, View.readCov_cons_toLoadRect]
  exact read_writes_unit_self2 _ _ _ _ _ _

set_option maxHeartbeats 1000000 in
/-- A middle step: one product is added to what the accumulator held. -/
theorem kernel2_B (c : Dev nD) (i : grid2.Coords) (arg2 : Memref sig .tc .vmem S64x2048 .f32) (harg2 : arg2.IsWhole) (arg3 : Memref sig .tc .vmem S2048x256 .f32) (harg3 : arg3.IsWhole) (arg4 : Memref sig .tc .vmem S64x256 .f32) (harg4 : arg4.IsWhole) (arg5 : Memref sig .tc .vmem S64x256 .f32) (harg5 : arg5.IsWhole) (hc0 : ¬cond2_0 i) (hc1 : ¬cond2_1 i)
    (x0 : Vec F S64x2048 .f32) (x1 : Vec F S2048x256 .f32) (xi2 : Vec F S64x256 .f32) (xs : Vec F S64x256 .f32) (E : Set ℕ) (K : PUnit → sProp 𝕄) :
    iprop(owns (c : Thread nD τ) arg2 fullShare x0 ∗ owns (c : Thread nD τ) arg3 fullShare x1 ∗ owns (c : Thread nD τ) arg4 fullShare xi2 ∗ owns (c : Thread nD τ) arg5 fullShare xs
        ∗ (iprop(owns (c : Thread nD τ) arg2 fullShare x0 ∗ owns (c : Thread nD τ) arg3 fullShare x1 ∗ owns (c : Thread nD τ) arg4 fullShare xi2 ∗ owns (c : Thread nD τ) arg5 fullShare (k2_pay2 x0 x1 xs)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  iexists _; isplitr
  swap; · iexact HS
  ipureintro
  rw [readAt_unit_self_unread2 harg2 x0, readAt_unit_self_unread2 harg3 x1, readAt_unit_self_unread2 harg5 xs]
  exact read_writes_unit_self2 _ _ _ _ _ _

set_option maxHeartbeats 1000000 in
/-- Last step: one product is added, and the accumulator's new contents are stored into the output block. -/
theorem kernel2_C (c : Dev nD) (i : grid2.Coords) (arg2 : Memref sig .tc .vmem S64x2048 .f32) (harg2 : arg2.IsWhole) (arg3 : Memref sig .tc .vmem S2048x256 .f32) (harg3 : arg3.IsWhole) (arg4 : Memref sig .tc .vmem S64x256 .f32) (harg4 : arg4.IsWhole) (arg5 : Memref sig .tc .vmem S64x256 .f32) (harg5 : arg5.IsWhole) (hc0 : ¬cond2_0 i) (hc1 : cond2_1 i)
    (x0 : Vec F S64x2048 .f32) (x1 : Vec F S2048x256 .f32) (xs : Vec F S64x256 .f32) (E : Set ℕ) (K : PUnit → sProp 𝕄) :
    iprop(owns (c : Thread nD τ) arg2 fullShare x0 ∗ owns (c : Thread nD τ) arg3 fullShare x1 ∗ (∃ d, owns (c : Thread nD τ) arg4 fullShare d) ∗ owns (c : Thread nD τ) arg5 fullShare xs
        ∗ (iprop(owns (c : Thread nD τ) arg2 fullShare x0 ∗ owns (c : Thread nD τ) arg3 fullShare x1 ∗ owns (c : Thread nD τ) arg4 fullShare (k2_pay2 x0 x1 xs) ∗ owns (c : Thread nD τ) arg5 fullShare (k2_pay2 x0 x1 xs)) -∗ K ⟨⟩))
      ⊢ wp frame (wpE (defs₀ (F := F)) Variants.none c none) E (cc2__matmul_kernel i arg2 harg2 arg3 harg3 arg4 harg4 arg5 harg5) K := by
  simp only [cc2__matmul_kernel_eq_skeleton]; unfold cc2__matmul_kernel_skel
  unfold owns
  iintro ⟨⟨%f0, %hf0, H0⟩, ⟨%f1, %hf1, H1⟩, ⟨%d2, %f2, -, H2⟩, ⟨%fs, %hfs, HS⟩, Hk⟩
  obtain rfl := harg2.eq_unread hf0; obtain rfl := harg3.eq_unread hf1; obtain rfl := harg5.eq_unread hfs
  sl_exec (disch := first | exact hc0 | exact hc1)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_run_names
    rw [readAt_unit_self_unread2 harg2 x0, readAt_unit_self_unread2 harg3 x1, readAt_unit_self_unread2 harg5 xs, View.readCov_cons_toLoadRect]
    exact read_writes_unit_self2 _ _ _ _ _ _
  iexists _; isplitr
  swap; · iexact HS
  ipureintro
  sl_unfold_run_names
  rw [readAt_unit_self_unread2 harg2 x0, readAt_unit_self_unread2 harg3 x1, readAt_unit_self_unread2 harg5 xs]
  exact read_writes_unit_self2 _ _ _ _ _ _

/-! ## The windows' blocks -/

variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, for any proof data whose array is `V`'s
    and whose body leaves the block in place: the windows are uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The accumulator and the output block, point by point -/

/-- THE ACCUMULATION. What the carried accumulator holds after the body at position `n`: one product of the point's two
    blocks added to zeros at the first position, to what the position before left afterwards. -/
def acc2 (c : Dev nD) : (n : ℕ) → n < cfg2.N → Vec F S64x256 .f32
  | 0, hn => k2_pay2 (iblk2 V c 0 ⟨0, hn⟩) (iblk2 V c 1 ⟨0, hn⟩) k2_pay1
  | n + 1, hn => k2_pay2 (iblk2 V c 0 ⟨n + 1, hn⟩) (iblk2 V c 1 ⟨n + 1, hn⟩) (acc2 c n (Nat.lt_of_succ_lt hn))

/-- What the output window's staging buffer holds after the body at position `n`: the last step stores the accumulator
    itself (at the other positions the window is idle and not written back: nothing consults the value). -/
def out2 (c : Dev nD) (n : ℕ) (hn : n < cfg2.N) : Vec F S64x256 .f32 := acc2 V c n hn

/-- The accumulator after the first point: one product added to zeros. -/
theorem acc2_zero (c : Dev nD) (t : Fin cfg2.N) (h0 : t.val = 0) :
    acc2 V c t.val t.isLt = k2_pay2 (iblk2 V c 0 t) (iblk2 V c 1 t) k2_pay1 := by
  obtain ⟨n, hn⟩ := t
  cases n with
  | zero => rfl
  | succ n => exact absurd h0 (Nat.succ_ne_zero n)

/-- The accumulator after a later point: one product added to what the point before left. -/
theorem acc2_pos (c : Dev nD) (t : Fin cfg2.N) (h0 : ¬t.val = 0) :
    acc2 V c t.val t.isLt = k2_pay2 (iblk2 V c 0 t) (iblk2 V c 1 t) (acc2 V c (t.val - 1) (Nat.lt_of_le_of_lt (Nat.sub_le _ _) t.isLt)) := by
  obtain ⟨n, hn⟩ := t
  cases n with
  | zero => exact absurd rfl h0
  | succ n => rfl

/-- The output block after the body is the accumulator's contents there. -/
theorem out2_eq (c : Dev nD) (n : ℕ) (hn : n < cfg2.N) : out2 V c n hn = acc2 V c n hn := rfl

/-! ## The region invariant -/

/-- The accumulator as a memref: a whole scoped buffer of the kernel's own. -/
abbrev scM2 : Memref sig .tc .vmem S64x256 .f32 := Memref.whole cc2_scratch0

/-- The core's scoped buffers that are no staging buffer of this call, split at the accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- What the launch hands the region, with the accumulator as a memref owned at some contents. -/
theorem PhiA2_eq (c : Dev nD) :
    (Pipeline.ΦA spec2 c : sProp 𝕄)
      = iprop(iprop((∃ d, owns (c : Thread nD τ) scM2 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2, owns_whole]; try rfl

/-- The invariant before position `n`: what the launch hands over before the first point; afterwards the same with the
    accumulator at what the point before left. -/
def Phi2 (c : Dev nD) : (n : ℕ) → n ≤ cfg2.N → sProp 𝕄
  | 0, _ => Pipeline.ΦA spec2 c
  | n + 1, hn => iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn)
      ∗ Pipeline.scopedRestBut (Ix := Unit) (Name := ℕ) (U := UR sig nD τ) (Lvl := ℕ) (Val := Elt F) spec2 c [cc2_scratch0]) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega))
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The proof data of the pipeline on core `c`: the arrays as the region finds them; after the body each input's buffer
    at its block and the output's at `out2`; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2 V c t.val t.isLt
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem Phi2_castSucc (c : Dev nD) (t : Fin cfg2.N) :
    (dat2 V c).Φ t.castSucc = Phi2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2 V c t.val t.isLt := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the point's position decides the control case; the
    invariant hands the body the accumulator at what the point before left (at anything at the first point) and takes it
    back at this point's contents; the output window is handed back untouched off the last step and at the accumulator's
    contents at it; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = Phi2 V c (t.val + 1) t.isLt from rfl, Phi2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  have hN : t.val < 4 := lt_of_lt_of_eq t.isLt N_2
  by_cases h0 : t.val = 0
  · have h1 : ¬t.val = 3 := by omega
    rw [Dat.leavesExact_idle (dat2 V c) 2 t (idleAt2_2 t (fun h => h1 ((hcond2_1 t).mp h))) (noFlush2_2 t h1)]
    rw [Phi2_castSucc V c t, Phi2_zero V c _ _ h0, PhiA2_eq, acc2_zero V c t h0]
    iintro ⟨⟨⟨HS, Hr⟩, Hg⟩, Ho, ⟨%d0, H0⟩, ⟨%d1, H1⟩, ⟨%d2, H2⟩⟩
    iapply (kernel2_A c (grid2.coords t) _ _ _ _ _ _ _ _ ((hcond2_0 t).mpr h0) (fun h => h1 ((hcond2_1 t).mp h)) (iblk2 V c 0 t) (iblk2 V c 1 t) _ Set.univ _)
    isplitl [H0]; · iexact H0
    isplitl [H1]; · iexact H1
    isplitl [H2]; · iexact H2
    isplitl [HS]; · iexact HS
    iintro ⟨H0, H1, H2, HS⟩
    isplitl [HS Hr Hg]
    · isplitl [HS Hr]
      · isplitl [HS]; · iexact HS
        iexact Hr
      iexact Hg
    isplitl [Ho]; · iexact Ho
    isplitl [H0]; · iexact H0
    isplitl [H1]; · iexact H1
    iexists _; iexact H2
  · by_cases h1 : t.val = 3
    · rw [show (dat2 V c).leavesExact 2 t = owns (c : Thread nD τ) (st2_2 t) fullShare ((dat2 V c).after 2 t) from by
        unfold Dat.leavesExact; rw [liveAt2_2 t ((hcond2_1 t).mpr h1)], after2_2]
      unfold out2
      rw [Phi2_castSucc V c t, Phi2_pos V c _ _ h0, acc2_pos V c t h0]
      iintro ⟨⟨⟨HS, Hr⟩, Hg⟩, Ho, ⟨%d0, H0⟩, ⟨%d1, H1⟩, ⟨%d2, H2⟩⟩
      iapply (kernel2_C c (grid2.coords t) _ _ _ _ _ _ _ _ (fun h => h0 ((hcond2_0 t).mp h)) ((hcond2_1 t).mpr h1) (iblk2 V c 0 t) (iblk2 V c 1 t) _ Set.univ _)
      isplitl [H0]; · iexact H0
      isplitl [H1]; · iexact H1
      isplitl [H2]; · iexists _; iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexact H2
    · rw [Dat.leavesExact_idle (dat2 V c) 2 t (idleAt2_2 t (fun h => h1 ((hcond2_1 t).mp h))) (noFlush2_2 t h1)]
      rw [Phi2_castSucc V c t, Phi2_pos V c _ _ h0, acc2_pos V c t h0]
      iintro ⟨⟨⟨HS, Hr⟩, Hg⟩, Ho, ⟨%d0, H0⟩, ⟨%d1, H1⟩, ⟨%d2, H2⟩⟩
      iapply (kernel2_B c (grid2.coords t) _ _ _ _ _ _ _ _ (fun h => h0 ((hcond2_0 t).mp h)) (fun h => h1 ((hcond2_1 t).mp h)) (iblk2 V c 0 t) (iblk2 V c 1 t) _ _ Set.univ _)
      isplitl [H0]; · iexact H0
      isplitl [H1]; · iexact H1
      isplitl [H2]; · iexact H2
      isplitl [HS]; · iexact HS
      iintro ⟨H0, H1, H2, HS⟩
      isplitl [HS Hr Hg]
      · isplitl [HS Hr]
        · isplitl [HS]; · iexact HS
          iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]
  try exact Idealize.SL.BI.Entails.refl _

/-- After any point but the first the invariant gives it back: the accumulator's named contents are forgotten. -/
theorem Phi2_out (c : Dev nD) (t : Fin (cfg2.N + 1)) (ht : t.val ≠ 0) : (dat2 V c).Φ t ⊢ Pipeline.ΦA spec2 c := by
  rw [show (dat2 V c).Φ t = Phi2 V c t.val (Nat.le_of_lt_succ t.isLt) from rfl, Phi2_pos V c _ _ ht, PhiA2_eq]
  iintro ⟨⟨HS, Hr⟩, Hg⟩
  isplitl [HS Hr]
  · isplitl [HS]; · iexists _; iexact HS
    iexact Hr
  iexact Hg

/-- The same after the last point. -/
theorem hout2 (c : Dev nD) : (dat2 V c).Φ (Fin.last cfg2.N) ⊢ Pipeline.ΦA spec2 c :=
  Phi2_out V c _ (by rw [Fin.val_last]; have : cfg2.N = 4 := N_2; omega)

/-! ## The value equations

The accumulator's contents over the skeleton's payloads, one per control case (`acc2_zero`, `acc2_pos` above, restated
at a point), and the output block's at the last point. -/

/-- At the first point the accumulator holds one product of the point's blocks added to zeros. -/
theorem acc2_first (c : Dev nD) (t : Fin cfg2.N) (h0 : t.val = 0) :
    acc2 V c t.val t.isLt = k2_pay2 (iblk2 V c 0 t) (iblk2 V c 1 t) k2_pay1 := acc2_zero V c t h0

/-- At a later point it holds one product of the point's blocks added to what the point before left. -/
theorem acc2_later (c : Dev nD) (t : Fin cfg2.N) (h0 : ¬t.val = 0) :
    acc2 V c t.val t.isLt = k2_pay2 (iblk2 V c 0 t) (iblk2 V c 1 t) (acc2 V c (t.val - 1) (Nat.lt_of_le_of_lt (Nat.sub_le _ _) t.isLt)) :=
  acc2_pos V c t h0

/-- The output block after the body at the last point (where it is written back) is the accumulator there. -/
theorem out2_last (c : Dev nD) (t : Fin cfg2.N) (h3 : t.val = 3) :
    (dat2 V c).after 2 t = acc2 V c t.val t.isLt := after2_2 V c t

end Cert.KernelIdeal.Hand

end
-- ==== Proof.KIRun.lean ====
/-
  @main of the kernel program as a list of segments: a stretch of host operations applies them to the unscoped buffers; a
  kernel region is entered with its windows' arrays split out of those buffers and left with them put back, the output
  window's array at what the region's write-backs fold to. The contents at every boundary are a fold from the launch
  memory; the run ends with every unscoped buffer at the last boundary's contents, and a buffer no item writes is still
  at its launch contents there.
-/
import proofs.«116793_j28183575396967_2_alg».proof.Proof.Gen.KernelIdeal.Launch
import proofs.«116793_j28183575396967_2_alg».proof.Proof.Gen.KernelIdeal.Skeleton
import proofs.«116793_j28183575396967_2_alg».proof.Proof.Gen.KernelIdeal.Points
import proofs.«116793_j28183575396967_2_alg».proof.Proof.Gen.KernelIdeal.Regions
import proofs.«116793_j28183575396967_2_alg».proof.Proof.KI0
import proofs.«116793_j28183575396967_2_alg».proof.Proof.KI1
import proofs.«116793_j28183575396967_2_alg».proof.Proof.KI2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at every boundary of @main: a fold from the launch memory.
    A stretch of host operations applies them (`StableHlo.after`); a kernel region leaves each of its arrays at what
    its write-backs fold to (`Dat.arrAt … N`) and every other buffer as it found it (`Pipeline.withArrays`). -/

abbrev W0 : Dev nD → Valuation τ sig (Elt F) := fun c b => (s₀ m ρ).mem ((c : Dev nD), b)
abbrev W1 : Dev nD → Valuation τ sig (Elt F) := fun c => StableHlo.after hostOps0 (W0 m ρ c)
/-- The contents region 0 is entered from, read at the TensorCore's references. -/
abbrev V1 : (c : Dev nD) → (b : Ref sig .tc) → Buf (Elt F) ((c : Thread nD τ).loc b) := fun c b => W1 m ρ c b
/-- After region 0: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
abbrev W3 : Dev nD → Valuation τ sig (Elt F) := fun c => StableHlo.after hostOps1 (W2 m ρ c)
abbrev W4 : Dev nD → Valuation τ sig (Elt F) := fun c => StableHlo.after hostOps1_1 (W3 m ρ c)
abbrev W5 : Dev nD → Valuation τ sig (Elt F) := fun c => StableHlo.after hostOps1_2 (W4 m ρ c)
abbrev W6 : Dev nD → Valuation τ sig (Elt F) := fun c => StableHlo.after hostOps1_3 (W5 m ρ c)
abbrev W7 : Dev nD → Valuation τ sig (Elt F) := fun c => StableHlo.after hostOps1_4 (W6 m ρ c)
abbrev W8 : Dev nD → Valuation τ sig (Elt F) := fun c => StableHlo.after hostOps1_5 (W7 m ρ c)
abbrev W9 : Dev nD → Valuation τ sig (Elt F) := fun c => StableHlo.after hostOps1_6 (W8 m ρ c)
abbrev W10 : Dev nD → Valuation τ sig (Elt F) := fun c => StableHlo.after hostOps1_7 (W9 m ρ c)
abbrev W11 : Dev nD → Valuation τ sig (Elt F) := fun c => StableHlo.after hostOps1_8 (W10 m ρ c)
/-- The contents region 1 is entered from, read at the TensorCore's references. -/
abbrev V11 : (c : Dev nD) → (b : Ref sig .tc) → Buf (Elt F) ((c : Thread nD τ).loc b) := fun c b => W11 m ρ c b
/-- After region 1: its arrays at what the pipeline leaves, every other buffer as entered. -/
def W12 (c : Dev nD) : Valuation τ sig (Elt F) :=
  Pipeline.withArrays spec1 c (W11 m ρ c) fun w => (dat1 (V11 m ρ) c).arrAt w cfg1.N
theorem W12_arr (c : Dev nD) (w : Fin cfg1.W) :
    W12 m ρ c (Proc.devRef .tc (Pipeline.arrRef spec1 w)) = (dat1 (V11 m ρ) c).arrAt w cfg1.N := by
  unfold W12; exact Pipeline.withArrays_arr spec1 launch1.win.arr_inj c _ _ w
theorem W12_of_ne (c : Dev nD) (b : Ref sig .tc) (hb : ∀ w, Pipeline.arrRef spec1 w ≠ b) :
    W12 m ρ c (Proc.devRef .tc b) = W11 m ρ c (Proc.devRef .tc b) := by
  unfold W12; exact Pipeline.withArrays_of_ne spec1 c _ _ b hb
abbrev V12 : (c : Dev nD) → (b : Ref sig .tc) → Buf (Elt F) ((c : Thread nD τ).loc b) := fun c b => W12 m ρ c b
theorem hF1 (c : Dev nD) (w : Fin cfg1.W) : (dat1 (V11 m ρ) c).arrAt w cfg1.N = V12 m ρ c (Pipeline.arrRef spec1 w) :=
  (W12_arr m ρ c w).symm
theorem hrest1 (c : Dev nD) : ∀ b, b ∉ Finset.univ.image (Pipeline.arrRef spec1) → V12 m ρ c b = V11 m ρ c b :=
  fun b hb => W12_of_ne m ρ c b fun w e => hb (Finset.mem_image.mpr ⟨w, Finset.mem_univ _, e⟩)
abbrev W13 : Dev nD → Valuation τ sig (Elt F) := fun c => StableHlo.after hostOps2 (W12 m ρ c)
abbrev W14 : Dev nD → Valuation τ sig (Elt F) := fun c => StableHlo.after hostOps2_1 (W13 m ρ c)
abbrev W15 : Dev nD → Valuation τ sig (Elt F) := fun c => StableHlo.after hostOps2_2 (W14 m ρ c)
abbrev W16 : Dev nD → Valuation τ sig (Elt F) := fun c => StableHlo.after hostOps2_3 (W15 m ρ c)
abbrev W17 : Dev nD → Valuation τ sig (Elt F) := fun c => StableHlo.after hostOps2_4 (W16 m ρ c)
abbrev W18 : Dev nD → Valuation τ sig (Elt F) := fun c => StableHlo.after hostOps2_5 (W17 m ρ c)
abbrev W19 : Dev nD → Valuation τ sig (Elt F) := fun c => StableHlo.after hostOps2_6 (W18 m ρ c)
abbrev W20 : Dev nD → Valuation τ sig (Elt F) := fun c => StableHlo.after hostOps2_7 (W19 m ρ c)
/-- The contents region 2 is entered from, read at the TensorCore's references. -/
abbrev V20 : (c : Dev nD) → (b : Ref sig .tc) → Buf (Elt F) ((c : Thread nD τ).loc b) := fun c b => W20 m ρ c b
/-- After region 2: its arrays at what the pipeline leaves, every other buffer as entered. -/
def W21 (c : Dev nD) : Valuation τ sig (Elt F) :=
  Pipeline.withArrays spec2 c (W20 m ρ c) fun w => (dat2 (V20 m ρ) c).arrAt w cfg2.N
theorem W21_arr (c : Dev nD) (w : Fin cfg2.W) :
    W21 m ρ c (Proc.devRef .tc (Pipeline.arrRef spec2 w)) = (dat2 (V20 m ρ) c).arrAt w cfg2.N := by
  unfold W21; exact Pipeline.withArrays_arr spec2 launch2.win.arr_inj c _ _ w
theorem W21_of_ne (c : Dev nD) (b : Ref sig .tc) (hb : ∀ w, Pipeline.arrRef spec2 w ≠ b) :
    W21 m ρ c (Proc.devRef .tc b) = W20 m ρ c (Proc.devRef .tc b) := by
  unfold W21; exact Pipeline.withArrays_of_ne spec2 c _ _ b hb
abbrev V21 : (c : Dev nD) → (b : Ref sig .tc) → Buf (Elt F) ((c : Thread nD τ).loc b) := fun c b => W21 m ρ c b
theorem hF2 (c : Dev nD) (w : Fin cfg2.W) : (dat2 (V20 m ρ) c).arrAt w cfg2.N = V21 m ρ c (Pipeline.arrRef spec2 w) :=
  (W21_arr m ρ c w).symm
theorem hrest2 (c : Dev nD) : ∀ b, b ∉ Finset.univ.image (Pipeline.arrRef spec2) → V21 m ρ c b = V20 m ρ c b :=
  fun b hb => W21_of_ne m ρ c b fun w e => hb (Finset.mem_image.mpr ⟨w, Finset.mem_univ _, e⟩)

/-! ## The proof data family and the thread state -/

abbrev adm : (p : Fin 3) → (pcfgs (F := F) p).Adm := fun p => (cfgs p).toPCfg_adm
/-- Every pipeline's proof data, each at its region's entry contents (a literal match on the pipeline's index). -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V11 m ρ) c
  | ⟨2, _⟩ => fun c => dat2 (V20 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W21 m ρ c) ∗ ∃ r, prngReg c r)

/-! ## The regions as segments -/

set_option backward.isDefEq.respectTransparency.types false in
/-- Region 0 over the thread state: entered from every unscoped buffer at the boundary before it, left at the one
    after it. Its arrays are split out of the unscoped buffers and put back at the exit contents; the generator register
    goes into the region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    refine BIBase.Entails.trans (hout0 (V1 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers and put back at the exit contents; the generator register
    goes into the region's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V11 m ρ) c).loose
  hwaits := Pipeline.hwaits_of_owed_zero _ _ _ _ L lv 1 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec1 c (V11 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V11 m ρ) c)
    unfold Pipeline.ΦA
    iintro ⟨Hp, -, Hr⟩
    isplitl [Hr]; · iexact Hr
    iexact Hp
  hout c := by
    refine BIBase.Entails.trans (hout1 (V11 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V11 m ρ c) (V12 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one
    after it. Its arrays are split out of the unscoped buffers and put back at the exit contents; the generator register
    goes into the region's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V20 m ρ) c).loose
  hwaits := Pipeline.hwaits_of_owed_zero _ _ _ _ L lv 2 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec2 c (V20 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V20 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V20 m ρ) c)
    unfold Pipeline.ΦA
    iintro ⟨Hp, -, Hr⟩
    isplitl [Hr]; · iexact Hr
    iexact Hp
  hout c := by
    refine BIBase.Entails.trans (hout2 (V20 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V20 m ρ c) (V21 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .region (reg1 m ρ),
    .host (hseg hostOps2 hostOps2_sub hostOps2_fresh (W12 m ρ)),
    .host (hseg hostOps2_1 hostOps2_1_sub hostOps2_1_fresh (W13 m ρ)),
    .host (hseg hostOps2_2 hostOps2_2_sub hostOps2_2_fresh (W14 m ρ)),
    .host (hseg hostOps2_3 hostOps2_3_sub hostOps2_3_fresh (W15 m ρ)),
    .host (hseg hostOps2_4 hostOps2_4_sub hostOps2_4_fresh (W16 m ρ)),
    .host (hseg hostOps2_5 hostOps2_5_sub hostOps2_5_fresh (W17 m ρ)),
    .host (hseg hostOps2_6 hostOps2_6_sub hostOps2_6_fresh (W18 m ρ)),
    .host (hseg hostOps2_7 hostOps2_7_sub hostOps2_7_fresh (W19 m ρ)),
    .region (reg2 m ρ) ]

theorem main_run (c : Dev nD) : main (F := F) c = Pipeline.Seg.run (segs m ρ) := (main_chain c).trans (by chain_rfl)

set_option backward.isDefEq.respectTransparency.types false in
/-- THE RUN. From any memory with zero counters every weakly fair execution of @main on the TensorCores terminates,
    nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W21 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W21 m ρ c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h => h)

/-! ## What each item leaves alone

A stretch of host operations changes only the references it writes; a region changes only its output window's array
(an input window's array is read through its blocks and found again as entered). -/
theorem W1_keep (c : Dev nD) (b : Ref sig .tc) (h : b ∉ hostOps0_W) : W1 m ρ c (Proc.devRef .tc b) = W0 m ρ c (Proc.devRef .tc b) :=
  StableHlo.after_of_writes_sub hostOps0 _ hostOps0_writes h
theorem W2_keep (c : Dev nD) (b : Ref sig .tc) (hb : b ≠ main_v1) : W2 m ρ c (Proc.devRef .tc b) = W1 m ρ c (Proc.devRef .tc b) := by
  by_cases h : ∃ w, Pipeline.arrRef spec0 w = b
  · obtain ⟨w, rfl⟩ := h
    match w, hb with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, _ => exact (W2_arr m ρ c 3).trans (((dat0 (V1 m ρ) c).arrAt_in 3 rfl _).trans (A_eq0 (V1 m ρ) c 3))
    | ⟨4, _⟩, hb => exact absurd rfl hb
  · exact W2_of_ne m ρ c b fun w e => h ⟨w, e⟩
theorem W3_keep (c : Dev nD) (b : Ref sig .tc) (h : b ∉ hostOps1_W) : W3 m ρ c (Proc.devRef .tc b) = W2 m ρ c (Proc.devRef .tc b) :=
  StableHlo.after_of_writes_sub hostOps1 _ hostOps1_writes h
theorem W4_keep (c : Dev nD) (b : Ref sig .tc) (h : b ∉ hostOps1_1_W) : W4 m ρ c (Proc.devRef .tc b) = W3 m ρ c (Proc.devRef .tc b) :=
  StableHlo.after_of_writes_sub hostOps1_1 _ hostOps1_1_writes h
theorem W5_keep (c : Dev nD) (b : Ref sig .tc) (h : b ∉ hostOps1_2_W) : W5 m ρ c (Proc.devRef .tc b) = W4 m ρ c (Proc.devRef .tc b) :=
  StableHlo.after_of_writes_sub hostOps1_2 _ hostOps1_2_writes h
theorem W6_keep (c : Dev nD) (b : Ref sig .tc) (h : b ∉ hostOps1_3_W) : W6 m ρ c (Proc.devRef .tc b) = W5 m ρ c (Proc.devRef .tc b) :=
  StableHlo.after_of_writes_sub hostOps1_3 _ hostOps1_3_writes h
theorem W7_keep (c : Dev nD) (b : Ref sig .tc) (h : b ∉ hostOps1_4_W) : W7 m ρ c (Proc.devRef .tc b) = W6 m ρ c (Proc.devRef .tc b) :=
  StableHlo.after_of_writes_sub hostOps1_4 _ hostOps1_4_writes h
theorem W8_keep (c : Dev nD) (b : Ref sig .tc) (h : b ∉ hostOps1_5_W) : W8 m ρ c (Proc.devRef .tc b) = W7 m ρ c (Proc.devRef .tc b) :=
  StableHlo.after_of_writes_sub hostOps1_5 _ hostOps1_5_writes h
theorem W9_keep (c : Dev nD) (b : Ref sig .tc) (h : b ∉ hostOps1_6_W) : W9 m ρ c (Proc.devRef .tc b) = W8 m ρ c (Proc.devRef .tc b) :=
  StableHlo.after_of_writes_sub hostOps1_6 _ hostOps1_6_writes h
theorem W10_keep (c : Dev nD) (b : Ref sig .tc) (h : b ∉ hostOps1_7_W) : W10 m ρ c (Proc.devRef .tc b) = W9 m ρ c (Proc.devRef .tc b) :=
  StableHlo.after_of_writes_sub hostOps1_7 _ hostOps1_7_writes h
theorem W11_keep (c : Dev nD) (b : Ref sig .tc) (h : b ∉ hostOps1_8_W) : W11 m ρ c (Proc.devRef .tc b) = W10 m ρ c (Proc.devRef .tc b) :=
  StableHlo.after_of_writes_sub hostOps1_8 _ hostOps1_8_writes h
theorem W12_keep (c : Dev nD) (b : Ref sig .tc) (hb : b ≠ main_v47) : W12 m ρ c (Proc.devRef .tc b) = W11 m ρ c (Proc.devRef .tc b) := by
  by_cases h : ∃ w, Pipeline.arrRef spec1 w = b
  · obtain ⟨w, rfl⟩ := h
    match w, hb with
    | ⟨0, _⟩, _ => exact (W12_arr m ρ c 0).trans (((dat1 (V11 m ρ) c).arrAt_in 0 rfl _).trans (A_eq1 (V11 m ρ) c 0))
    | ⟨1, _⟩, _ => exact (W12_arr m ρ c 1).trans (((dat1 (V11 m ρ) c).arrAt_in 1 rfl _).trans (A_eq1 (V11 m ρ) c 1))
    | ⟨2, _⟩, _ => exact (W12_arr m ρ c 2).trans (((dat1 (V11 m ρ) c).arrAt_in 2 rfl _).trans (A_eq1 (V11 m ρ) c 2))
    | ⟨3, _⟩, _ => exact (W12_arr m ρ c 3).trans (((dat1 (V11 m ρ) c).arrAt_in 3 rfl _).trans (A_eq1 (V11 m ρ) c 3))
    | ⟨4, _⟩, hb => exact absurd rfl hb
  · exact W12_of_ne m ρ c b fun w e => h ⟨w, e⟩
theorem W13_keep (c : Dev nD) (b : Ref sig .tc) (h : b ∉ hostOps2_W) : W13 m ρ c (Proc.devRef .tc b) = W12 m ρ c (Proc.devRef .tc b) :=
  StableHlo.after_of_writes_sub hostOps2 _ hostOps2_writes h
theorem W14_keep (c : Dev nD) (b : Ref sig .tc) (h : b ∉ hostOps2_1_W) : W14 m ρ c (Proc.devRef .tc b) = W13 m ρ c (Proc.devRef .tc b) :=
  StableHlo.after_of_writes_sub hostOps2_1 _ hostOps2_1_writes h
theorem W15_keep (c : Dev nD) (b : Ref sig .tc) (h : b ∉ hostOps2_2_W) : W15 m ρ c (Proc.devRef .tc b) = W14 m ρ c (Proc.devRef .tc b) :=
  StableHlo.after_of_writes_sub hostOps2_2 _ hostOps2_2_writes h
theorem W16_keep (c : Dev nD) (b : Ref sig .tc) (h : b ∉ hostOps2_3_W) : W16 m ρ c (Proc.devRef .tc b) = W15 m ρ c (Proc.devRef .tc b) :=
  StableHlo.after_of_writes_sub hostOps2_3 _ hostOps2_3_writes h
theorem W17_keep (c : Dev nD) (b : Ref sig .tc) (h : b ∉ hostOps2_4_W) : W17 m ρ c (Proc.devRef .tc b) = W16 m ρ c (Proc.devRef .tc b) :=
  StableHlo.after_of_writes_sub hostOps2_4 _ hostOps2_4_writes h
theorem W18_keep (c : Dev nD) (b : Ref sig .tc) (h : b ∉ hostOps2_5_W) : W18 m ρ c (Proc.devRef .tc b) = W17 m ρ c (Proc.devRef .tc b) :=
  StableHlo.after_of_writes_sub hostOps2_5 _ hostOps2_5_writes h
theorem W19_keep (c : Dev nD) (b : Ref sig .tc) (h : b ∉ hostOps2_6_W) : W19 m ρ c (Proc.devRef .tc b) = W18 m ρ c (Proc.devRef .tc b) :=
  StableHlo.after_of_writes_sub hostOps2_6 _ hostOps2_6_writes h
theorem W20_keep (c : Dev nD) (b : Ref sig .tc) (h : b ∉ hostOps2_7_W) : W20 m ρ c (Proc.devRef .tc b) = W19 m ρ c (Proc.devRef .tc b) :=
  StableHlo.after_of_writes_sub hostOps2_7 _ hostOps2_7_writes h
theorem W21_keep (c : Dev nD) (b : Ref sig .tc) (hb : b ≠ main_v92) : W21 m ρ c (Proc.devRef .tc b) = W20 m ρ c (Proc.devRef .tc b) := by
  by_cases h : ∃ w, Pipeline.arrRef spec2 w = b
  · obtain ⟨w, rfl⟩ := h
    match w, hb with
    | ⟨0, _⟩, _ => exact (W21_arr m ρ c 0).trans (((dat2 (V20 m ρ) c).arrAt_in 0 rfl _).trans (A_eq2 (V20 m ρ) c 0))
    | ⟨1, _⟩, _ => exact (W21_arr m ρ c 1).trans (((dat2 (V20 m ρ) c).arrAt_in 1 rfl _).trans (A_eq2 (V20 m ρ) c 1))
    | ⟨2, _⟩, hb => exact absurd rfl hb
  · exact W21_of_ne m ρ c b fun w e => h ⟨w, e⟩

/-- A reference no item writes holds its launch contents at the end. -/
theorem W21_untouched (c : Dev nD) (b : Ref sig .tc) (h0 : b ∉ hostOps0_W) (h1 : b ≠ main_v1) (h2 : b ∉ hostOps1_W) (h3 : b ∉ hostOps1_1_W) (h4 : b ∉ hostOps1_2_W) (h5 : b ∉ hostOps1_3_W) (h6 : b ∉ hostOps1_4_W) (h7 : b ∉ hostOps1_5_W) (h8 : b ∉ hostOps1_6_W) (h9 : b ∉ hostOps1_7_W) (h10 : b ∉ hostOps1_8_W) (h11 : b ≠ main_v47) (h12 : b ∉ hostOps2_W) (h13 : b ∉ hostOps2_1_W) (h14 : b ∉ hostOps2_2_W) (h15 : b ∉ hostOps2_3_W) (h16 : b ∉ hostOps2_4_W) (h17 : b ∉ hostOps2_5_W) (h18 : b ∉ hostOps2_6_W) (h19 : b ∉ hostOps2_7_W) (h20 : b ≠ main_v92) :
    W21 m ρ c (Proc.devRef .tc b) = m ((c : Thread nD τ).loc b) :=
  (W21_keep m ρ c b h20).trans <| (W20_keep m ρ c b h19).trans <| (W19_keep m ρ c b h18).trans <| (W18_keep m ρ c b h17).trans <| (W17_keep m ρ c b h16).trans <| (W16_keep m ρ c b h15).trans <| (W15_keep m ρ c b h14).trans <| (W14_keep m ρ c b h13).trans <| (W13_keep m ρ c b h12).trans <| (W12_keep m ρ c b h11).trans <| (W11_keep m ρ c b h10).trans <| (W10_keep m ρ c b h9).trans <| (W9_keep m ρ c b h8).trans <| (W8_keep m ρ c b h7).trans <| (W7_keep m ρ c b h6).trans <| (W6_keep m ρ c b h5).trans <| (W5_keep m ρ c b h4).trans <| (W4_keep m ρ c b h3).trans <| (W3_keep m ρ c b h2).trans <| (W2_keep m ρ c b h1).trans <| (W1_keep m ρ c b h0).trans <| rfl
theorem W21_main_arg0 (c : Dev nD) : W21 m ρ c (Proc.devRef .tc main_arg0) = m ((c : Thread nD τ).loc main_arg0) :=
  W21_untouched m ρ c main_arg0 (by decide) (by decide) (by decide) (by decide) (by decide) (by decide) (by decide) (by decide) (by decide) (by decide) (by decide) (by decide) (by decide) (by decide) (by decide) (by decide) (by decide) (by decide) (by decide) (by decide) (by decide)
theorem W21_main_arg1 (c : Dev nD) : W21 m ρ c (Proc.devRef .tc main_arg1) = m ((c : Thread nD τ).loc main_arg1) :=
  W21_untouched m ρ c main_arg1 (by decide) (by decide) (by decide) (by decide) (by decide) (by decide) (by decide) (by decide) (by decide) (by decide) (by decide) (by decide) (by decide) (by decide) (by decide) (by decide) (by decide) (by decide) (by decide) (by decide) (by decide)
theorem W21_main_arg2 (c : Dev nD) : W21 m ρ c (Proc.devRef .tc main_arg2) = m ((c : Thread nD τ).loc main_arg2) :=
  W21_untouched m ρ c main_arg2 (by decide) (by decide) (by decide) (by decide) (by decide) (by decide) (by decide) (by decide) (by decide) (by decide) (by decide) (by decide) (by decide) (by decide) (by decide) (by decide) (by decide) (by decide) (by decide) (by decide) (by decide)
theorem W21_main_arg3 (c : Dev nD) : W21 m ρ c (Proc.devRef .tc main_arg3) = m ((c : Thread nD τ).loc main_arg3) :=
  W21_untouched m ρ c main_arg3 (by decide) (by decide) (by decide) (by decide) (by decide) (by decide) (by decide) (by decide) (by decide) (by decide) (by decide) (by decide) (by decide) (by decide) (by decide) (by decide) (by decide) (by decide) (by decide) (by decide) (by decide)
theorem W21_main_arg4 (c : Dev nD) : W21 m ρ c (Proc.devRef .tc main_arg4) = m ((c : Thread nD τ).loc main_arg4) :=
  W21_untouched m ρ c main_arg4 (by decide) (by decide) (by decide) (by decide) (by decide) (by decide) (by decide) (by decide) (by decide) (by decide) (by decide) (by decide) (by decide) (by decide) (by decide) (by decide) (by decide) (by decide) (by decide) (by decide) (by decide)
theorem W21_main_arg5 (c : Dev nD) : W21 m ρ c (Proc.devRef .tc main_arg5) = m ((c : Thread nD τ).loc main_arg5) :=
  W21_untouched m ρ c main_arg5 (by decide) (by decide) (by decide) (by decide) (by decide) (by decide) (by decide) (by decide) (by decide) (by decide) (by decide) (by decide) (by decide) (by decide) (by decide) (by decide) (by decide) (by decide) (by decide) (by decide) (by decide)
theorem W21_main_arg6 (c : Dev nD) : W21 m ρ c (Proc.devRef .tc main_arg6) = m ((c : Thread nD τ).loc main_arg6) :=
  W21_untouched m ρ c main_arg6 (by decide) (by decide) (by decide) (by decide) (by decide) (by decide) (by decide) (by decide) (by decide) (by decide) (by decide) (by decide) (by decide) (by decide) (by decide) (by decide) (by decide) (by decide) (by decide) (by decide) (by decide)
theorem W21_main_arg7 (c : Dev nD) : W21 m ρ c (Proc.devRef .tc main_arg7) = m ((c : Thread nD τ).loc main_arg7) :=
  W21_untouched m ρ c main_arg7 (by decide) (by decide) (by decide) (by decide) (by decide) (by decide) (by decide) (by decide) (by decide) (by decide) (by decide) (by decide) (by decide) (by decide) (by decide) (by decide) (by decide) (by decide) (by decide) (by decide) (by decide)
theorem W21_main_arg8 (c : Dev nD) : W21 m ρ c (Proc.devRef .tc main_arg8) = m ((c : Thread nD τ).loc main_arg8) :=
  W21_untouched m ρ c main_arg8 (by decide) (by decide) (by decide) (by decide) (by decide) (by decide) (by decide) (by decide) (by decide) (by decide) (by decide) (by decide) (by decide) (by decide) (by decide) (by decide) (by decide) (by decide) (by decide) (by decide) (by decide)
theorem W21_main_arg9 (c : Dev nD) : W21 m ρ c (Proc.devRef .tc main_arg9) = m ((c : Thread nD τ).loc main_arg9) :=
  W21_untouched m ρ c main_arg9 (by decide) (by decide) (by decide) (by decide) (by decide) (by decide) (by decide) (by decide) (by decide) (by decide) (by decide) (by decide) (by decide) (by decide) (by decide) (by decide) (by decide) (by decide) (by decide) (by decide) (by decide)
theorem W21_main_arg10 (c : Dev nD) : W21 m ρ c (Proc.devRef .tc main_arg10) = m ((c : Thread nD τ).loc main_arg10) :=
  W21_untouched m ρ c main_arg10 (by decide) (by decide) (by decide) (by decide) (by decide) (by decide) (by decide) (by decide) (by decide) (by decide) (by decide) (by decide) (by decide) (by decide) (by decide) (by decide) (by decide) (by decide) (by decide) (by decide) (by decide)
theorem W21_main_arg11 (c : Dev nD) : W21 m ρ c (Proc.devRef .tc main_arg11) = m ((c : Thread nD τ).loc main_arg11) :=
  W21_untouched m ρ c main_arg11 (by decide) (by decide) (by decide) (by decide) (by decide) (by decide) (by decide) (by decide) (by decide) (by decide) (by decide) (by decide) (by decide) (by decide) (by decide) (by decide) (by decide) (by decide) (by decide) (by decide) (by decide)
theorem W21_main_arg12 (c : Dev nD) : W21 m ρ c (Proc.devRef .tc main_arg12) = m ((c : Thread nD τ).loc main_arg12) :=
  W21_untouched m ρ c main_arg12 (by decide) (by decide) (by decide) (by decide) (by decide) (by decide) (by decide) (by decide) (by decide) (by decide) (by decide) (by decide) (by decide) (by decide) (by decide) (by decide) (by decide) (by decide) (by decide) (by decide) (by decide)
theorem W21_main_arg13 (c : Dev nD) : W21 m ρ c (Proc.devRef .tc main_arg13) = m ((c : Thread nD τ).loc main_arg13) :=
  W21_untouched m ρ c main_arg13 (by decide) (by decide) (by decide) (by decide) (by decide) (by decide) (by decide) (by decide) (by decide) (by decide) (by decide) (by decide) (by decide) (by decide) (by decide) (by decide) (by decide) (by decide) (by decide) (by decide) (by decide)
theorem W21_main_arg14 (c : Dev nD) : W21 m ρ c (Proc.devRef .tc main_arg14) = m ((c : Thread nD τ).loc main_arg14) :=
  W21_untouched m ρ c main_arg14 (by decide) (by decide) (by decide) (by decide) (by decide) (by decide) (by decide) (by decide) (by decide) (by decide) (by decide) (by decide) (by decide) (by decide) (by decide) (by decide) (by decide) (by decide) (by decide) (by decide) (by decide)
theorem W21_main_arg15 (c : Dev nD) : W21 m ρ c (Proc.devRef .tc main_arg15) = m ((c : Thread nD τ).loc main_arg15) :=
  W21_untouched m ρ c main_arg15 (by decide) (by decide) (by decide) (by decide) (by decide) (by decide) (by decide) (by decide) (by decide) (by decide) (by decide) (by decide) (by decide) (by decide) (by decide) (by decide) (by decide) (by decide) (by decide) (by decide) (by decide)
theorem W21_main_arg16 (c : Dev nD) : W21 m ρ c (Proc.devRef .tc main_arg16) = m ((c : Thread nD τ).loc main_arg16) :=
  W21_untouched m ρ c main_arg16 (by decide) (by decide) (by decide) (by decide) (by decide) (by decide) (by decide) (by decide) (by decide) (by decide) (by decide) (by decide) (by decide) (by decide) (by decide) (by decide) (by decide) (by decide) (by decide) (by decide) (by decide)
theorem W21_main_arg17 (c : Dev nD) : W21 m ρ c (Proc.devRef .tc main_arg17) = m ((c : Thread nD τ).loc main_arg17) :=
  W21_untouched m ρ c main_arg17 (by decide) (by decide) (by decide) (by decide) (by decide) (by decide) (by decide) (by decide) (by decide) (by decide) (by decide) (by decide) (by decide) (by decide) (by decide) (by decide) (by decide) (by decide) (by decide) (by decide) (by decide)
theorem W21_main_arg18 (c : Dev nD) : W21 m ρ c (Proc.devRef .tc main_arg18) = m ((c : Thread nD τ).loc main_arg18) :=
  W21_untouched m ρ c main_arg18 (by decide) (by decide) (by decide) (by decide) (by decide) (by decide) (by decide) (by decide) (by decide) (by decide) (by decide) (by decide) (by decide) (by decide) (by decide) (by decide) (by decide) (by decide) (by decide) (by decide) (by decide)

end Cert.KernelIdeal.Hand

end
-- ==== Proof.LibMatmulEntry.lean ====
/-
  A `tpu.matmul` of two rank-2 operands into the zero accumulator, read at ONE ENTRY of its result at the ideal values,
  as a plain sum over `Fin K` of the two operands' entries — for the two layouts a dense layer meets:

  * `matmul_rows_cols`: `[M, K] × [K, N] → [M, N]`, contracting the left operand's axis 1 with the right operand's
    axis 0 (rows times columns): entry `(p, q)` is `Σ_k a[p, k] · b[k, q]`;
  * `matmul_cols_rows`: `[K, N] × [M, K] → [N, M]`, contracting the left operand's axis 0 with the right operand's
    axis 1 (both operands transposed): entry `(q, p)` is `Σ_k a[k, q] · b[p, k]`.

  Each is stated for ANY dimension-number record with those six lists, whatever its name and well-formedness proof, and
  for any extents and operand formats. The contraction's own index type is re-indexed to `Fin K` through its one
  coordinate; on an axis that is not contracted an operand's index is the result index's coordinate, which is what the
  two small lemmas on `DotDims.lhsIdx` / `rhsIdx` say.
-/
import Idealize.ShloMosaic.PureOps.Ideal.Laws
import Idealize.ShloMosaic.Lib.ValueIdx

noncomputable section

open scoped BigOperators

namespace Idealize.ShloMosaic.DotDims

variable {sl sr so : Shape} (d : DotDims sl sr so)

/-- On a left axis that is kept (not batch, not contracted) the left operand's index is the result index's coordinate at
    that axis's position among the result's axes. -/
theorem lhsIdx_val_of_kept {a : Fin sl.rank} (hb : a ∉ d.lhsBatch) (hn : a ∈ d.lhsNonContracting) (j : so.Idx)
    (k : d.contr.Idx) (p : Nat) (hp : p < so.rank) (hpe : d.lhsBatch.length + d.lhsNonContracting.idxOf a = p) :
    (d.lhsIdx j k a).val = (j ⟨p, hp⟩).val := by
  subst hpe
  unfold lhsIdx
  rw [dif_neg hb, dif_pos hn]
  rfl

/-- The same for the right operand, whose kept axes come after the left operand's among the result's. -/
theorem rhsIdx_val_of_kept {a : Fin sr.rank} (hb : a ∉ d.rhsBatch) (hn : a ∈ d.rhsNonContracting) (j : so.Idx)
    (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold rhsIdx
  rw [dif_neg hb, dif_pos hn]
  rfl

end Idealize.ShloMosaic.DotDims

namespace Idealize.ShloMosaic.Ideal

open Idealize.ShloMosaic.ValueIdx

/-- Rows times columns: `[M, K] × [K, N] → [M, N]` into the zero accumulator, at entry `(p, q)`. -/
theorem matmul_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (a : FVec Ideal ⟨2, ![M, K]⟩ φ₁) (b : FVec Ideal ⟨2, ![K, N]⟩ φ₂)
    (p : Fin M) (q : Fin N) :
    FloatOps.matmul D prec a b (constant ⟨2, ![M, N]⟩ .f32 0x00000000#32) (ix2 p q)
      = ∑ k : Fin K, a (ix2 p k) * b (ix2 k q) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 p q) ((contrEquiv1 D K hr hs).symm k) = ix2 p k := by
    funext ax
    refine Fin.ext ?_
    match ax with
    | ⟨0, _⟩ =>
      exact D.lhsIdx_val_of_kept (a := (0 : Fin 2)) (by rw [hlb]; exact List.not_mem_nil) (by rw [hln]; exact List.mem_singleton.mpr rfl)
        _ _ 0 Nat.zero_lt_two (by rw [hlb, hln]; rfl)
    | ⟨1, _⟩ =>
      exact (D.lhsIdx_val_of_single (cl := (1 : Fin 2)) hlc _ _).trans (contrEquiv1_symm_val D K hr hs k)
  have eb : D.rhsIdx (ix2 p q) ((contrEquiv1 D K hr hs).symm k) = ix2 k q := by
    funext ax
    refine Fin.ext ?_
    match ax with
    | ⟨0, _⟩ =>
      exact (D.rhsIdx_val_of_single (cr := (0 : Fin 2)) hrc _ _).trans (contrEquiv1_symm_val D K hr hs k)
    | ⟨1, _⟩ =>
      exact D.rhsIdx_val_of_kept (a := (1 : Fin 2)) (by rw [hrb]; exact List.not_mem_nil) (by rw [hrn]; exact List.mem_singleton.mpr rfl)
        _ _ 1 Nat.one_lt_two (by rw [hlb, hln, hrn]; rfl)
  rw [ea, eb]

/-- Both operands transposed: `[K, N] × [M, K] → [N, M]` into the zero accumulator, at entry `(q, p)`. -/
theorem matmul_cols_rows {M K N : Nat} {φ₁ φ₂ : FTy} (D : DotDims ⟨2, ![K, N]⟩ ⟨2, ![M, K]⟩ ⟨2, ![N, M]⟩)
    (hlb : D.lhsBatch = []) (hln : D.lhsNonContracting = [1]) (hlc : D.lhsContracting = [0])
    (hrb : D.rhsBatch = []) (hrn : D.rhsNonContracting = [0]) (hrc : D.rhsContracting = [1])
    (prec : Option ContractPrecision) (a : FVec Ideal ⟨2, ![K, N]⟩ φ₁) (b : FVec Ideal ⟨2, ![M, K]⟩ φ₂)
    (q : Fin N) (p : Fin M) :
    FloatOps.matmul D prec a b (constant ⟨2, ![N, M]⟩ .f32 0x00000000#32) (ix2 q p)
      = ∑ k : Fin K, a (ix2 k q) * b (ix2 p k) := by
  have hr : D.contr.rank = 1 := by rw [D.rank_contr, hlc]; rfl
  have hs : D.contr.size ⟨0, by omega⟩ = K := by
    have h := D.size_contr 0 (by rw [hlc]; exact Nat.one_pos)
    simp only [hlc, List.getElem_cons_zero] at h
    exact h
  rw [matmul_constant_zero_apply, ← Equiv.sum_comp (contrEquiv1 D K hr hs).symm]
  refine Finset.sum_congr rfl fun k _ => ?_
  have ea : D.lhsIdx (ix2 q p) ((contrEquiv1 D K hr hs).symm k) = ix2 k q := by
    funext ax
    refine Fin.ext ?_
    match ax with
    | ⟨0, _⟩ =>
      exact (D.lhsIdx_val_of_single (cl := (0 : Fin 2)) hlc _ _).trans (contrEquiv1_symm_val D K hr hs k)
    | ⟨1, _⟩ =>
      exact D.lhsIdx_val_of_kept (a := (1 : Fin 2)) (by rw [hlb]; exact List.not_mem_nil) (by rw [hln]; exact List.mem_singleton.mpr rfl)
        _ _ 0 Nat.zero_lt_two (by rw [hlb, hln]; rfl)
  have eb : D.rhsIdx (ix2 q p) ((contrEquiv1 D K hr hs).symm k) = ix2 p k := by
    funext ax
    refine Fin.ext ?_
    match ax with
    | ⟨0, _⟩ =>
      exact D.rhsIdx_val_of_kept (a := (0 : Fin 2)) (by rw [hrb]; exact List.not_mem_nil) (by rw [hrn]; exact List.mem_singleton.mpr rfl)
        _ _ 1 Nat.one_lt_two (by rw [hlb, hln, hrn]; rfl)
    | ⟨1, _⟩ =>
      exact (D.rhsIdx_val_of_single (cr := (1 : Fin 2)) hrc _ _).trans (contrEquiv1_symm_val D K hr hs k)
  rw [ea, eb]

end Idealize.ShloMosaic.Ideal

end
-- ==== Proof.KIPay.lean ====
/- The fused kernels' three payloads read at one entry, at the exact instance: the zero block, one reduction step
   (the accumulator's entry plus a row-times-column sum of products), and the epilogue (the accumulator times the
   weights plus the bias). The changes of float format and the casts of a shape to itself are the identity there. -/
import proofs.«116793_j28183575396967_2_alg».proof.Proof.Gen.KernelIdeal.Skeleton
import proofs.«116793_j28183575396967_2_alg».proof.Proof.LibMatmulEntry
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.HandVal

open Cert.KernelIdeal Cert.KernelIdeal.Gen
open Idealize.ShloMosaic Idealize.ShloMosaic.ValueIdx
open scoped BigOperators

/-! ## Region 0's payloads -/

/-- The zero block the first reduction step stores. -/
theorem pay1_0_apply (p : Fin 1024) (d : Fin 128) : (k0_pay1 (F := Ideal)) (ix2 p d) = 0 := by
  unfold k0_pay1
  rw [shapeCast_self]
  exact Ideal.ofBits_zero_f32

/-- One reduction step adds to entry `(p, d)` of the accumulator the products of row `p` of the left block with column
    `d` of the right block. -/
theorem pay2_0_apply (x0 : FVec Ideal S1024x2048 .f32) (x1 : FVec Ideal S2048x128 .f32) (xs : FVec Ideal S1024x128 .f32)
    (p : Fin 1024) (d : Fin 128) :
    k0_pay2 x0 x1 xs (ix2 p d) = xs (ix2 p d) + ∑ kk : Fin 2048, x0 (ix2 p kk) * x1 (ix2 kk d) := by
  unfold k0_pay2
  simp only [shapeCast_self]
  refine congrArg (xs (ix2 p d) + ·) ?_
  exact Ideal.matmul_rows_cols dot_S1024x2048_S2048x128_S1024x128_1_0_0_1_n_n rfl rfl rfl rfl rfl rfl none _ _ p d

/-- The epilogue: the accumulator times the weights, plus the bias row repeated down the rows. -/
theorem pay3_0_apply (acc : FVec Ideal S1024x128 .f32) (w : FVec Ideal S128x256 .f32) (b : FVec Ideal S1x256 .f32)
    (p : Fin 1024) (j : Fin 256) :
    k0_pay3 acc w b (ix2 p j) = (∑ d : Fin 128, acc (ix2 p d) * w (ix2 d j)) + b (ix2 0 j) := by
  unfold k0_pay3
  simp only [shapeCast_self]
  rw [addf_apply, broadcastTo_1b_ab_apply]
  refine congrArg (· + b (ix2 0 j)) ?_
  exact Ideal.matmul_rows_cols dot_S1024x128_S128x256_S1024x256_1_0_0_1_n_n rfl rfl rfl rfl rfl rfl none _ _ p j

/-! ## Region 1's payloads -/

/-- The zero block the first reduction step stores. -/
theorem pay1_1_apply (p : Fin 1024) (d : Fin 256) : (k1_pay1 (F := Ideal)) (ix2 p d) = 0 := by
  unfold k1_pay1
  rw [shapeCast_self]
  exact Ideal.ofBits_zero_f32

/-- One reduction step adds to entry `(p, d)` of the accumulator the products of row `p` of the left block with column
    `d` of the right block. -/
theorem pay2_1_apply (x0 : FVec Ideal S1024x2048 .f32) (x1 : FVec Ideal S2048x256 .f32) (xs : FVec Ideal S1024x256 .f32)
    (p : Fin 1024) (d : Fin 256) :
    k1_pay2 x0 x1 xs (ix2 p d) = xs (ix2 p d) + ∑ kk : Fin 2048, x0 (ix2 p kk) * x1 (ix2 kk d) := by
  unfold k1_pay2
  simp only [shapeCast_self]
  refine congrArg (xs (ix2 p d) + ·) ?_
  exact Ideal.matmul_rows_cols dot_S1024x2048_S2048x256_S1024x256_1_0_0_1_n_n rfl rfl rfl rfl rfl rfl none _ _ p d

/-- The epilogue: the accumulator times the weights, plus the bias row repeated down the rows. -/
theorem pay3_1_apply (acc : FVec Ideal S1024x256 .f32) (w : FVec Ideal S256x256 .f32) (b : FVec Ideal S1x256 .f32)
    (p : Fin 1024) (j : Fin 256) :
    k1_pay3 acc w b (ix2 p j) = (∑ d : Fin 256, acc (ix2 p d) * w (ix2 d j)) + b (ix2 0 j) := by
  unfold k1_pay3
  simp only [shapeCast_self]
  rw [addf_apply, broadcastTo_1b_ab_apply]
  refine congrArg (· + b (ix2 0 j)) ?_
  exact Ideal.matmul_rows_cols dot_S1024x256_S256x256_S1024x256_1_0_0_1_n_n rfl rfl rfl rfl rfl rfl none _ _ p j

end Cert.KernelIdeal.HandVal

end
-- ==== Proof.KIBlk.lean ====
/- The two fused calls' windows read in their arrays, at the exact instance: which entry of its array each entry of a
   window's block is (the adjacency's block at row block `t / 4` and column tile `t % 4`; the features, weights and bias
   whole), the 2048-row slice of the features the body loads at a point, and how the output's row blocks cover its
   array. Stated for any region-entry contents `V`. -/
import proofs.«116793_j28183575396967_2_alg».proof.Proof.Gen.KernelIdeal.Launch
import proofs.«116793_j28183575396967_2_alg».proof.Proof.Gen.KernelIdeal.Points
import Idealize.ShloMosaic.Lib.Pipeline.FrameBody
import Idealize.ShloMosaic.Lib.Pipeline.Value
import Idealize.ShloMosaic.Lib.ValueIdx

set_option maxRecDepth 16384

noncomputable section

namespace Cert.KernelIdeal.HandVal

open Cert.KernelIdeal Cert.KernelIdeal.Gen
open Idealize.ShloMosaic Idealize.ShloMosaic.TcCoe Idealize.SL.Sem
open Idealize.ShloMosaic.Pipeline (Dat)
open Idealize.ShloMosaic.ValueIdx

/-- Row `p` of row block `q`. -/
def rowB (q : Fin 8) (p : Fin 1024) : Fin 8192 := ⟨q.val * 1024 + p.val, by have := q.isLt; have := p.isLt; omega⟩
/-- Node `kk` of tile `k`. -/
def nodeB (k : Fin 4) (kk : Fin 2048) : Fin 8192 := ⟨k.val * 2048 + kk.val, by have := k.isLt; have := kk.isLt; omega⟩

theorem rowB_val (q : Fin 8) (p : Fin 1024) : (rowB q p).val = q.val * 1024 + p.val := rfl
theorem nodeB_val (k : Fin 4) (kk : Fin 2048) : (nodeB k kk).val = k.val * 2048 + kk.val := rfl

variable (V : (c : Dev nD) → (b : Ref sig .tc) → Buf (Elt Ideal) ((c : Thread nD τ).loc b))

/-! ## Region 0 -/

/-- The block indices of region 0's windows and the row offset of its dynamic slice, decided over the grid: the
    adjacency's block moves along both axes (row block `t / 4`, column tile `t % 4`), the features, weights and bias are
    one block each, the output's row block is `t / 4`, and the slice starts at row `2048 (t % 4)`. -/
theorem idx_facts0 : ∀ t : Fin cfg0.N,
    win0_0.index t 0 = t.val / 4 ∧ win0_0.index t 1 = t.val % 4
    ∧ win0_1.index t 0 = 0 ∧ win0_1.index t 1 = 0 ∧ win0_2.index t 0 = 0 ∧ win0_2.index t 1 = 0
    ∧ win0_3.index t 0 = 0 ∧ win0_3.index t 1 = 0 ∧ win0_4.index t 0 = t.val / 4 ∧ win0_4.index t 1 = 0
    ∧ k0_off1 (grid0.coords t) 0 = 2048 * (t.val % 4) ∧ k0_off1 (grid0.coords t) 1 = 0 :=
  (by decide +kernel : ∀ t : Fin grid0.N,
    win0_0.index t 0 = t.val / 4 ∧ win0_0.index t 1 = t.val % 4
    ∧ win0_1.index t 0 = 0 ∧ win0_1.index t 1 = 0 ∧ win0_2.index t 0 = 0 ∧ win0_2.index t 1 = 0
    ∧ win0_3.index t 0 = 0 ∧ win0_3.index t 1 = 0 ∧ win0_4.index t 0 = t.val / 4 ∧ win0_4.index t 1 = 0
    ∧ k0_off1 (grid0.coords t) 0 = 2048 * (t.val % 4) ∧ k0_off1 (grid0.coords t) 1 = 0)

/-- Entry `(p, kk)` of the adjacency's block at a point of row block `q`, tile `k`, is its entry
    `(1024 q + p, 2048 k + kk)`. -/
theorem blk0_0_apply (c : Dev nD) (t : Fin cfg0.N) (q : Fin 8) (k : Fin 4) (hq : t.val / 4 = q.val) (hk : t.val % 4 = k.val)
    (p : Fin 1024) (kk : Fin 2048) :
    (((cfg0.win 0).blk t).view.read (Elt Ideal) (V c (Pipeline.arrRef spec0 0)) : FVec Ideal S1024x2048 .f32) (ix2 p kk)
      = (V c main_arg1 : FVec Ideal S8192x8192 .f32) (ix2 (rowB q p) (nodeB k kk)) := by
  obtain ⟨h00, h01, -⟩ := idx_facts0 t
  rw [View.read_apply]
  show V c main_arg1 _ = V c main_arg1 _
  congr 1
  funext a
  apply Fin.ext
  match a with
  | ⟨0, _⟩ => show win0_0.index t 0 * 1024 + 1 * p.val = q.val * 1024 + p.val; rw [h00, hq]; omega
  | ⟨1, _⟩ => show win0_0.index t 1 * 2048 + 1 * kk.val = k.val * 2048 + kk.val; rw [h01, hk]; omega

/-- The features' one block is their whole array. -/
theorem blk0_1_apply (c : Dev nD) (t : Fin cfg0.N) (n : Fin 8192) (d : Fin 128) :
    (((cfg0.win 1).blk t).view.read (Elt Ideal) (V c (Pipeline.arrRef spec0 1)) : FVec Ideal S8192x128 .f32) (ix2 n d)
      = (V c main_arg0 : FVec Ideal S8192x128 .f32) (ix2 n d) := by
  obtain ⟨-, -, h10, h11, -⟩ := idx_facts0 t
  rw [View.read_apply]
  show V c main_arg0 _ = V c main_arg0 _
  congr 1
  funext a
  apply Fin.ext
  match a with
  | ⟨0, _⟩ => show win0_1.index t 0 * 8192 + 1 * n.val = n.val; rw [h10]; omega
  | ⟨1, _⟩ => show win0_1.index t 1 * 128 + 1 * d.val = d.val; rw [h11]; omega

/-- The weights' one block is their whole array. -/
theorem blk0_2_apply (c : Dev nD) (t : Fin cfg0.N) (d : Fin 128) (j : Fin 256) :
    (((cfg0.win 2).blk t).view.read (Elt Ideal) (V c (Pipeline.arrRef spec0 2)) : FVec Ideal S128x256 .f32) (ix2 d j)
      = (V c main_arg3 : FVec Ideal S128x256 .f32) (ix2 d j) := by
  obtain ⟨-, -, -, -, h20, h21, -⟩ := idx_facts0 t
  rw [View.read_apply]
  show V c main_arg3 _ = V c main_arg3 _
  congr 1
  funext a
  apply Fin.ext
  match a with
  | ⟨0, _⟩ => show win0_2.index t 0 * 128 + 1 * d.val = d.val; rw [h20]; omega
  | ⟨1, _⟩ => show win0_2.index t 1 * 256 + 1 * j.val = j.val; rw [h21]; omega

/-- The bias row's one block is its whole array. -/
theorem blk0_3_apply (c : Dev nD) (t : Fin cfg0.N) (j : Fin 256) :
    (((cfg0.win 3).blk t).view.read (Elt Ideal) (V c (Pipeline.arrRef spec0 3)) : FVec Ideal S1x256 .f32) (ix2 0 j)
      = (V c main_v0 : FVec Ideal S1x256 .f32) (ix2 0 j) := by
  obtain ⟨-, -, -, -, -, -, h30, h31, -⟩ := idx_facts0 t
  rw [View.read_apply]
  show V c main_v0 _ = V c main_v0 _
  congr 1
  funext a
  apply Fin.ext
  match a with
  | ⟨0, _⟩ => show win0_3.index t 0 * 1 + 1 * 0 = 0; rw [h30]
  | ⟨1, _⟩ => show win0_3.index t 1 * 256 + 1 * j.val = j.val; rw [h31]; omega

/-- Entry `(kk, d)` of the 2048-row slice the body loads of the features at a point of tile `k` is their entry
    `(2048 k + kk, d)`. -/
theorem slice0_apply (X : Vec Ideal S8192x128 .f32) (t : Fin cfg0.N) (k : Fin 4) (hk : t.val % 4 = k.val) (kk : Fin 2048) (d : Fin 128) :
    (View.ld (Val := Elt Ideal) (e' := .f32) X (Rect.unit (s := S8192x128) (k0_off1 (grid0.coords t)) S2048x128.size (k0_off1_inb (grid0.coords t))) : Vec Ideal S2048x128 .f32) (ix2 kk d)
      = X (ix2 (nodeB k kk) d) := by
  obtain ⟨-, -, -, -, -, -, -, -, -, -, ho0, ho1⟩ := idx_facts0 t
  show X _ = X _
  congr 1
  funext a
  apply Fin.ext
  match a with
  | ⟨0, _⟩ => show k0_off1 (grid0.coords t) 0 + 1 * kk.val = k.val * 2048 + kk.val; rw [ho0, hk]; omega
  | ⟨1, _⟩ => show k0_off1 (grid0.coords t) 1 + 1 * d.val = d.val; rw [ho1]; omega

/-- A block of the output whose entry `(p, j)` is `G` at `(1024 q + p, j)` is the read of `G` through the output window's
    block at a point of row block `q`. -/
theorem read_blk0_4 (c : Dev nD) (t : Fin cfg0.N) (q : Fin 8) (hq : t.val / 4 = q.val) (G : FVec Ideal S8192x256 .f32)
    (X : FVec Ideal S1024x256 .f32) (hX : ∀ (p : Fin 1024) (j : Fin 256), X (ix2 p j) = G (ix2 (rowB q p) j)) :
    X = (((cfg0.win 4).blk t).view.read (Elt Ideal) (G : Buf (Elt Ideal) ((c : Thread nD τ).loc main_v1)) : FVec Ideal S1024x256 .f32) := by
  obtain ⟨-, -, -, -, -, -, -, -, h40, h41, -⟩ := idx_facts0 t
  funext y
  obtain ⟨p, j, rfl⟩ : ∃ (p : Fin 1024) (j : Fin 256), y = ix2 p j := ⟨y 0, y 1, eq_ix2 y⟩
  rw [View.read_apply, hX p j]
  show G _ = G _
  congr 1
  funext a
  apply Fin.ext
  match a with
  | ⟨0, _⟩ => show q.val * 1024 + p.val = win0_4.index t 0 * 1024 + 1 * p.val; rw [h40, hq]; omega
  | ⟨1, _⟩ => show j.val = win0_4.index t 1 * 256 + 1 * j.val; rw [h41]; omega

/-- Every entry of the output array lies in the block some writing-back point covers: row `r` in that of the last
    reduction step of row block `r / 1024`. -/
theorem cover0_4 (i : S8192x256.Idx) : ∃ t : Fin cfg0.N, (cfg0.win 4).flush t = true ∧ i ∈ ((cfg0.win 4).blk t).view.set := by
  have hN : cfg0.N = 32 := N_0
  have h0 : (i 0 : Nat) < 8192 := (i 0).isLt
  have h1 : (i 1 : Nat) < 256 := (i 1).isLt
  let t : Fin cfg0.N := ⟨4 * ((i 0 : Nat) / 1024) + 3, by rw [hN]; omega⟩
  have ht : t.val = 4 * ((i 0 : Nat) / 1024) + 3 := rfl
  obtain ⟨-, -, -, -, -, -, -, -, h40, h41, -⟩ := idx_facts0 t
  refine ⟨t, (flush0_4 t).mpr (by rw [ht]; omega), ?_⟩
  show i ∈ ((View.whole main_v1).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024
              rw [h40, ht]; omega
  | ⟨1, _⟩ => show win0_4.index t 1 * 256 ≤ (i 1 : Nat) ∧ (i 1 : Nat) < win0_4.index t 1 * 256 + 256
              rw [h41]; omega

/-! ## Region 1 -/

/-- The block indices of region 1's windows and the row offset of its dynamic slice, decided over the grid: the
    adjacency's block moves along both axes (row block `t / 4`, column tile `t % 4`), the features, weights and bias are
    one block each, the output's row block is `t / 4`, and the slice starts at row `2048 (t % 4)`. -/
theorem idx_facts1 : ∀ t : Fin cfg1.N,
    win1_0.index t 0 = t.val / 4 ∧ win1_0.index t 1 = t.val % 4
    ∧ win1_1.index t 0 = 0 ∧ win1_1.index t 1 = 0 ∧ win1_2.index t 0 = 0 ∧ win1_2.index t 1 = 0
    ∧ win1_3.index t 0 = 0 ∧ win1_3.index t 1 = 0 ∧ win1_4.index t 0 = t.val / 4 ∧ win1_4.index t 1 = 0
    ∧ k1_off1 (grid1.coords t) 0 = 2048 * (t.val % 4) ∧ k1_off1 (grid1.coords t) 1 = 0 :=
  (by decide +kernel : ∀ t : Fin grid1.N,
    win1_0.index t 0 = t.val / 4 ∧ win1_0.index t 1 = t.val % 4
    ∧ win1_1.index t 0 = 0 ∧ win1_1.index t 1 = 0 ∧ win1_2.index t 0 = 0 ∧ win1_2.index t 1 = 0
    ∧ win1_3.index t 0 = 0 ∧ win1_3.index t 1 = 0 ∧ win1_4.index t 0 = t.val / 4 ∧ win1_4.index t 1 = 0
    ∧ k1_off1 (grid1.coords t) 0 = 2048 * (t.val % 4) ∧ k1_off1 (grid1.coords t) 1 = 0)

/-- Entry `(p, kk)` of the adjacency's block at a point of row block `q`, tile `k`, is its entry
    `(1024 q + p, 2048 k + kk)`. -/
theorem blk1_0_apply (c : Dev nD) (t : Fin cfg1.N) (q : Fin 8) (k : Fin 4) (hq : t.val / 4 = q.val) (hk : t.val % 4 = k.val)
    (p : Fin 1024) (kk : Fin 2048) :
    (((cfg1.win 0).blk t).view.read (Elt Ideal) (V c (Pipeline.arrRef spec1 0)) : FVec Ideal S1024x2048 .f32) (ix2 p kk)
      = (V c main_arg1 : FVec Ideal S8192x8192 .f32) (ix2 (rowB q p) (nodeB k kk)) := by
  obtain ⟨h00, h01, -⟩ := idx_facts1 t
  rw [View.read_apply]
  show V c main_arg1 _ = V c main_arg1 _
  congr 1
  funext a
  apply Fin.ext
  match a with
  | ⟨0, _⟩ => show win1_0.index t 0 * 1024 + 1 * p.val = q.val * 1024 + p.val; rw [h00, hq]; omega
  | ⟨1, _⟩ => show win1_0.index t 1 * 2048 + 1 * kk.val = k.val * 2048 + kk.val; rw [h01, hk]; omega

/-- The features' one block is their whole array. -/
theorem blk1_1_apply (c : Dev nD) (t : Fin cfg1.N) (n : Fin 8192) (d : Fin 256) :
    (((cfg1.win 1).blk t).view.read (Elt Ideal) (V c (Pipeline.arrRef spec1 1)) : FVec Ideal S8192x256 .f32) (ix2 n d)
      = (V c main_v45 : FVec Ideal S8192x256 .f32) (ix2 n d) := by
  obtain ⟨-, -, h10, h11, -⟩ := idx_facts1 t
  rw [View.read_apply]
  show V c main_v45 _ = V c main_v45 _
  congr 1
  funext a
  apply Fin.ext
  match a with
  | ⟨0, _⟩ => show win1_1.index t 0 * 8192 + 1 * n.val = n.val; rw [h10]; omega
  | ⟨1, _⟩ => show win1_1.index t 1 * 256 + 1 * d.val = d.val; rw [h11]; omega

/-- The weights' one block is their whole array. -/
theorem blk1_2_apply (c : Dev nD) (t : Fin cfg1.N) (d : Fin 256) (j : Fin 256) :
    (((cfg1.win 2).blk t).view.read (Elt Ideal) (V c (Pipeline.arrRef spec1 2)) : FVec Ideal S256x256 .f32) (ix2 d j)
      = (V c main_arg11 : FVec Ideal S256x256 .f32) (ix2 d j) := by
  obtain ⟨-, -, -, -, h20, h21, -⟩ := idx_facts1 t
  rw [View.read_apply]
  show V c main_arg11 _ = V c main_arg11 _
  congr 1
  funext a
  apply Fin.ext
  match a with
  | ⟨0, _⟩ => show win1_2.index t 0 * 256 + 1 * d.val = d.val; rw [h20]; omega
  | ⟨1, _⟩ => show win1_2.index t 1 * 256 + 1 * j.val = j.val; rw [h21]; omega

/-- The bias row's one block is its whole array. -/
theorem blk1_3_apply (c : Dev nD) (t : Fin cfg1.N) (j : Fin 256) :
    (((cfg1.win 3).blk t).view.read (Elt Ideal) (V c (Pipeline.arrRef spec1 3)) : FVec Ideal S1x256 .f32) (ix2 0 j)
      = (V c main_v46 : FVec Ideal S1x256 .f32) (ix2 0 j) := by
  obtain ⟨-, -, -, -, -, -, h30, h31, -⟩ := idx_facts1 t
  rw [View.read_apply]
  show V c main_v46 _ = V c main_v46 _
  congr 1
  funext a
  apply Fin.ext
  match a with
  | ⟨0, _⟩ => show win1_3.index t 0 * 1 + 1 * 0 = 0; rw [h30]
  | ⟨1, _⟩ => show win1_3.index t 1 * 256 + 1 * j.val = j.val; rw [h31]; omega

/-- Entry `(kk, d)` of the 2048-row slice the body loads of the features at a point of tile `k` is their entry
    `(2048 k + kk, d)`. -/
theorem slice1_apply (X : Vec Ideal S8192x256 .f32) (t : Fin cfg1.N) (k : Fin 4) (hk : t.val % 4 = k.val) (kk : Fin 2048) (d : Fin 256) :
    (View.ld (Val := Elt Ideal) (e' := .f32) X (Rect.unit (s := S8192x256) (k1_off1 (grid1.coords t)) S2048x256.size (k1_off1_inb (grid1.coords t))) : Vec Ideal S2048x256 .f32) (ix2 kk d)
      = X (ix2 (nodeB k kk) d) := by
  obtain ⟨-, -, -, -, -, -, -, -, -, -, ho0, ho1⟩ := idx_facts1 t
  show X _ = X _
  congr 1
  funext a
  apply Fin.ext
  match a with
  | ⟨0, _⟩ => show k1_off1 (grid1.coords t) 0 + 1 * kk.val = k.val * 2048 + kk.val; rw [ho0, hk]; omega
  | ⟨1, _⟩ => show k1_off1 (grid1.coords t) 1 + 1 * d.val = d.val; rw [ho1]; omega

/-- A block of the output whose entry `(p, j)` is `G` at `(1024 q + p, j)` is the read of `G` through the output window's
    block at a point of row block `q`. -/
theorem read_blk1_4 (c : Dev nD) (t : Fin cfg1.N) (q : Fin 8) (hq : t.val / 4 = q.val) (G : FVec Ideal S8192x256 .f32)
    (X : FVec Ideal S1024x256 .f32) (hX : ∀ (p : Fin 1024) (j : Fin 256), X (ix2 p j) = G (ix2 (rowB q p) j)) :
    X = (((cfg1.win 4).blk t).view.read (Elt Ideal) (G : Buf (Elt Ideal) ((c : Thread nD τ).loc main_v47)) : FVec Ideal S1024x256 .f32) := by
  obtain ⟨-, -, -, -, -, -, -, -, h40, h41, -⟩ := idx_facts1 t
  funext y
  obtain ⟨p, j, rfl⟩ : ∃ (p : Fin 1024) (j : Fin 256), y = ix2 p j := ⟨y 0, y 1, eq_ix2 y⟩
  rw [View.read_apply, hX p j]
  show G _ = G _
  congr 1
  funext a
  apply Fin.ext
  match a with
  | ⟨0, _⟩ => show q.val * 1024 + p.val = win1_4.index t 0 * 1024 + 1 * p.val; rw [h40, hq]; omega
  | ⟨1, _⟩ => show j.val = win1_4.index t 1 * 256 + 1 * j.val; rw [h41]; omega

/-- Every entry of the output array lies in the block some writing-back point covers: row `r` in that of the last
    reduction step of row block `r / 1024`. -/
theorem cover1_4 (i : S8192x256.Idx) : ∃ t : Fin cfg1.N, (cfg1.win 4).flush t = true ∧ i ∈ ((cfg1.win 4).blk t).view.set := by
  have hN : cfg1.N = 32 := N_1
  have h0 : (i 0 : Nat) < 8192 := (i 0).isLt
  have h1 : (i 1 : Nat) < 256 := (i 1).isLt
  let t : Fin cfg1.N := ⟨4 * ((i 0 : Nat) / 1024) + 3, by rw [hN]; omega⟩
  have ht : t.val = 4 * ((i 0 : Nat) / 1024) + 3 := rfl
  obtain ⟨-, -, -, -, -, -, -, -, h40, h41, -⟩ := idx_facts1 t
  refine ⟨t, (flush1_4 t).mpr (by rw [ht]; omega), ?_⟩
  show i ∈ ((View.whole main_v47).slice (win1_4.rect t)).set
  rw [View.set_slice_whole, Rect.mem_set_unit]
  intro a
  match a with
  | ⟨0, _⟩ => show win1_4.index t 0 * 1024 ≤ (i 0 : Nat) ∧ (i 0 : Nat) < win1_4.index t 0 * 1024 + 1024
              rw [h40, ht]; omega
  | ⟨1, _⟩ => show win1_4.index t 1 * 256 ≤ (i 1 : Nat) ∧ (i 1 : Nat) < win1_4.index t 1 * 256 + 256
              rw [h41]; omega

end Cert.KernelIdeal.HandVal

end
-- ==== Proof.LibDotGeneralEntry.lean ====
/-
  The host's `dot_general` of two rank-2 operands, `[M, K] × [K, N] → [M, N]` contracting the left operand's axis 1 with
  the right operand's axis 0, read at ONE ENTRY of its result at the ideal values: entry `(p, q)` is
  `Σ_k a[p, k] · b[k, q]`, a plain sum over `Fin K`, whatever the schedule key — stated for ANY dimension-number record
  with those six lists, any extents and operand formats.

  At the ideal values the host product and a `tpu.matmul` into the zero accumulator are the same sum over the
  contraction's index type, so the entry form of the matrix product (LibMatmulEntry) carries over.
-/
import proofs.«116793_j28183575396967_2_alg».proof.Proof.LibMatmulEntry

noncomputable section

open scoped BigOperators

namespace Idealize.ShloMosaic.Ideal

open Idealize.ShloMosaic.ValueIdx

/-- Rows times columns on the host: `[M, K] × [K, N] → [M, N]`, at entry `(p, q)`. -/
theorem dotGeneral_rows_cols {M K N : Nat} {φ₁ φ₂ : FTy} (D : DotDims ⟨2, ![M, K]⟩ ⟨2, ![K, N]⟩ ⟨2, ![M, N]⟩)
    (hlb : D.lhsBatch = []) (hln : D.lhsNonContracting = [0]) (hlc : D.lhsContracting = [1])
    (hrb : D.rhsBatch = []) (hrn : D.rhsNonContracting = [1]) (hrc : D.rhsContracting = [0])
    (prec : Option ContractPrecision) (sched : HostSchedule) (a : FVec Ideal ⟨2, ![M, K]⟩ φ₁) (b : FVec Ideal ⟨2, ![K, N]⟩ φ₂)
    (p : Fin M) (q : Fin N) :
    FloatOps.dotGeneral D prec sched a b (ix2 p q) = ∑ k : Fin K, a (ix2 p k) * b (ix2 k q) :=
  ((dotGeneral_apply D prec sched a b (ix2 p q)).trans (matmul_constant_zero_apply D prec a b (ix2 p q)).symm).trans
    (matmul_rows_cols D hlb hln hlc hrb hrn hrc prec a b p q)

end Idealize.ShloMosaic.Ideal

end
-- ==== Proof.LibBlockSum.lean ====
/-
  A sum over `Fin (B * R)` read block by block: the index `i` is `b * R + r` for exactly one block `b : Fin B`
  and one offset `r : Fin R`, so summing the blocks' sums is summing everything.  Stated in any commutative
  additive monoid (the extended reals are one: no finiteness is needed to regroup a sum).
-/
import Mathlib.Algebra.BigOperators.Fin
import Mathlib.Logic.Equiv.Fin.Basic

namespace Cert.Lib

/-- `∑ b, ∑ r, g (b * R + r) = ∑ i, g i` over `Fin (B * R)`, the index built by `finProdFinEquiv`
    (whose value is `r + R * b`). -/
theorem sum_blocks {M : Type*} [AddCommMonoid M] (B R : ℕ) (g : Fin (B * R) → M) :
    ∑ b : Fin B, ∑ r : Fin R, g (finProdFinEquiv (b, r)) = ∑ i : Fin (B * R), g i := by
  rw [← Fintype.sum_prod_type' (f := fun b r => g (finProdFinEquiv (b, r)))]
  exact Equiv.sum_comp finProdFinEquiv g

/-- The same with the block's entry named by its value: any `idx b r` whose value is `b * R + r`. -/
theorem sum_blocks_val {M : Type*} [AddCommMonoid M] (B R : ℕ) (g : Fin (B * R) → M)
    (idx : Fin B → Fin R → Fin (B * R)) (hidx : ∀ b r, (idx b r).val = b.val * R + r.val) :
    ∑ b : Fin B, ∑ r : Fin R, g (idx b r) = ∑ i : Fin (B * R), g i := by
  rw [← sum_blocks B R g]
  refine Finset.sum_congr rfl fun b _ => Finset.sum_congr rfl fun r _ => congrArg g (Fin.ext ?_)
  rw [hidx]; simp [finProdFinEquiv, Nat.mul_comm, Nat.add_comm]

/-- The same over `Fin N` with `N = B * R` given as an equation (so that `N` may be a literal). -/
theorem sum_blocks_of_eq {M : Type*} [AddCommMonoid M] {B R N : ℕ} (hN : B * R = N) (g : Fin N → M)
    (idx : Fin B → Fin R → Fin N) (hidx : ∀ b r, (idx b r).val = b.val * R + r.val) :
    ∑ b : Fin B, ∑ r : Fin R, g (idx b r) = ∑ i : Fin N, g i := by
  subst hN
  exact sum_blocks_val B R g idx hidx

end Cert.Lib
-- ==== Proof.Spec.lean ====
import Idealize.ShloMosaic.PureOps.Ideal.Laws
import Idealize.ShloMosaic.Lib.ValueIdx
import Idealize.ShloMosaic.Lib.Pipeline.Value
import proofs.«116793_j28183575396967_2_alg».proof.Proof.LibDotGeneralEntry
import proofs.«116793_j28183575396967_2_alg».proof.Proof.LibBlockSum

/-!
The two whole-array functions both programs compute at the exact instance, index by index, and the host program's
spelling of each.

`lin A H W b` is a graph layer's first linear map applied to the aggregated neighbour features: entry `(r, j)` is
`∑ d, (∑ n, A r n · H n d) · W d j + b j`. `pool P H` is the readout `∑ n, P g n · H n j`. On the extended reals these are
plain finite sums; nothing here needs a finite input.
-/

noncomputable section

namespace Cert.Spec

open Idealize.ShloMosaic Idealize.ShloMosaic.ValueIdx
open scoped BigOperators

/-- Aggregate, then the linear map, then the bias: `(A · H) · W + b` at every entry. -/
def lin {K D : Nat} (A : FVec Ideal ⟨2, ![8192, K]⟩ .f32) (H : FVec Ideal ⟨2, ![K, D]⟩ .f32)
    (W : FVec Ideal ⟨2, ![D, 256]⟩ .f32) (b : Fin 256 → Ideal .f32) : FVec Ideal ⟨2, ![8192, 256]⟩ .f32 :=
  fun i => (∑ d : Fin D, (∑ n : Fin K, A (ix2 (i 0) n) * H (ix2 n d)) * W (ix2 d (i 1))) + b (i 1)

theorem lin_apply {K D : Nat} (A : FVec Ideal ⟨2, ![8192, K]⟩ .f32) (H : FVec Ideal ⟨2, ![K, D]⟩ .f32)
    (W : FVec Ideal ⟨2, ![D, 256]⟩ .f32) (b : Fin 256 → Ideal .f32) (r : Fin 8192) (j : Fin 256) :
    lin A H W b (ix2 r j) = (∑ d : Fin D, (∑ n : Fin K, A (ix2 r n) * H (ix2 n d)) * W (ix2 d j)) + b j := rfl

/-- The readout: `P · H` at every entry. -/
def pool (P : FVec Ideal ⟨2, ![64, 8192]⟩ .f32) (H : FVec Ideal ⟨2, ![8192, 256]⟩ .f32) : FVec Ideal ⟨2, ![64, 256]⟩ .f32 :=
  fun i => ∑ n : Fin 8192, P (ix2 (i 0) n) * H (ix2 n (i 1))

theorem pool_apply (P : FVec Ideal ⟨2, ![64, 8192]⟩ .f32) (H : FVec Ideal ⟨2, ![8192, 256]⟩ .f32) (g : Fin 64) (j : Fin 256) :
    pool P H (ix2 g j) = ∑ n : Fin 8192, P (ix2 g n) * H (ix2 n j) := rfl

/-- A bias vector laid out as a row and repeated down the rows, read at an entry, is the vector at the column. -/
theorem bias_rows (b : FVec Ideal ⟨1, ![256]⟩ .f32)
    (hb1 : (⟨1, ![256]⟩ : Shape).BroadcastsInDim ⟨2, ![1, 256]⟩ ![1])
    (hb2 : (⟨2, ![1, 256]⟩ : Shape).BroadcastsInDim ⟨2, ![8192, 256]⟩ ![0, 1]) (r : Fin 8192) (j : Fin 256) :
    broadcastInDim ⟨2, ![8192, 256]⟩ ![0, 1] hb2 (broadcastInDim ⟨2, ![1, 256]⟩ ![1] hb1 b) (ix2 r j) = b (ix1 j) := by
  rw [broadcastInDim_apply ![0, 1] hb2 _ (ix2 r j) (ix2 0 j) (by intro a; match a with | ⟨0, _⟩ => rfl | ⟨1, _⟩ => rfl)]
  exact broadcastInDim_apply ![1] hb1 b (ix2 0 j) (ix1 j) (by intro a; match a with | ⟨0, _⟩ => rfl)

/-- The host's two matrix products and its broadcast bias are `lin`. -/
theorem host_lin {K D : Nat} (D1 : DotDims ⟨2, ![8192, K]⟩ ⟨2, ![K, D]⟩ ⟨2, ![8192, D]⟩)
    (h1lb : D1.lhsBatch = []) (h1ln : D1.lhsNonContracting = [0]) (h1lc : D1.lhsContracting = [1])
    (h1rb : D1.rhsBatch = []) (h1rn : D1.rhsNonContracting = [1]) (h1rc : D1.rhsContracting = [0])
    (D2 : DotDims ⟨2, ![8192, D]⟩ ⟨2, ![D, 256]⟩ ⟨2, ![8192, 256]⟩)
    (h2lb : D2.lhsBatch = []) (h2ln : D2.lhsNonContracting = [0]) (h2lc : D2.lhsContracting = [1])
    (h2rb : D2.rhsBatch = []) (h2rn : D2.rhsNonContracting = [1]) (h2rc : D2.rhsContracting = [0])
    (p1 p2 : Option ContractPrecision)
    (A : FVec Ideal ⟨2, ![8192, K]⟩ .f32) (H : FVec Ideal ⟨2, ![K, D]⟩ .f32) (W : FVec Ideal ⟨2, ![D, 256]⟩ .f32)
    (b : FVec Ideal ⟨1, ![256]⟩ .f32)
    (hb1 : (⟨1, ![256]⟩ : Shape).BroadcastsInDim ⟨2, ![1, 256]⟩ ![1])
    (hb2 : (⟨2, ![1, 256]⟩ : Shape).BroadcastsInDim ⟨2, ![8192, 256]⟩ ![0, 1]) :
    addf (Host.dotGeneral (F := Ideal) D2 p2 (Host.dotGeneral (F := Ideal) D1 p1 A H) W)
        (broadcastInDim ⟨2, ![8192, 256]⟩ ![0, 1] hb2 (broadcastInDim ⟨2, ![1, 256]⟩ ![1] hb1 b))
      = lin A H W (fun j => b (ix1 j)) := by
  funext i
  obtain ⟨r, j, rfl⟩ : ∃ (r : Fin 8192) (j : Fin 256), i = ix2 r j := ⟨i 0, i 1, eq_ix2 i⟩
  rw [addf_apply, lin_apply, bias_rows b hb1 hb2 r j]
  refine congrArg (· + b (ix1 j)) ?_
  refine (Ideal.dotGeneral_rows_cols D2 h2lb h2ln h2lc h2rb h2rn h2rc p2 .single _ W r j).trans ?_
  refine Finset.sum_congr rfl fun d _ => congrArg (· * W (ix2 d j)) ?_
  exact Ideal.dotGeneral_rows_cols D1 h1lb h1ln h1lc h1rb h1rn h1rc p1 .single A H r d

/-- The host's readout product is `pool`. -/
theorem host_pool (D3 : DotDims ⟨2, ![64, 8192]⟩ ⟨2, ![8192, 256]⟩ ⟨2, ![64, 256]⟩)
    (hlb : D3.lhsBatch = []) (hln : D3.lhsNonContracting = [0]) (hlc : D3.lhsContracting = [1])
    (hrb : D3.rhsBatch = []) (hrn : D3.rhsNonContracting = [1]) (hrc : D3.rhsContracting = [0])
    (p : Option ContractPrecision) (P : FVec Ideal ⟨2, ![64, 8192]⟩ .f32) (H : FVec Ideal ⟨2, ![8192, 256]⟩ .f32) :
    Host.dotGeneral (F := Ideal) D3 p P H = pool P H := by
  funext i
  obtain ⟨g, j, rfl⟩ : ∃ (g : Fin 64) (j : Fin 256), i = ix2 g j := ⟨i 0, i 1, eq_ix2 i⟩
  exact Ideal.dotGeneral_rows_cols D3 hlb hln hlc hrb hrn hrc p .single P H g j

/-- A sum over `Fin 8192` taken as four consecutive tiles of `2048`, added from zero in tile order: what a kernel that
    accumulates one tile per step leaves, against the whole sum. -/
theorem four_tiles {M : Type*} [AddCommMonoid M] (g : Fin 8192 → M) (idx : Fin 4 → Fin 2048 → Fin 8192)
    (hidx : ∀ k kk, (idx k kk).val = k.val * 2048 + kk.val) :
    (((0 + ∑ kk : Fin 2048, g (idx 0 kk)) + ∑ kk : Fin 2048, g (idx 1 kk)) + ∑ kk : Fin 2048, g (idx 2 kk))
        + ∑ kk : Fin 2048, g (idx 3 kk) = ∑ n : Fin 8192, g n := by
  rw [← Cert.Lib.sum_blocks_of_eq (B := 4) (R := 2048) (by norm_num) g idx hidx, Fin.sum_univ_four, zero_add]

end Cert.Spec

end
-- ==== Proof.KIVal0.lean ====
/- Region 0's output array after the region, at the exact instance. In each row block the four reduction steps add one
   tile of 2048 products each to the accumulator, starting from zeros, so after the last step its entry `(p, d)` is the
   whole aggregation `∑ n, A (row, n) · H (n, d)`; the epilogue multiplies by the weights and adds the bias row; and the
   eight written-back row blocks cover the [8192, 256] array. -/
import proofs.«116793_j28183575396967_2_alg».proof.Proof.KI0
import proofs.«116793_j28183575396967_2_alg».proof.Proof.KIPay
import proofs.«116793_j28183575396967_2_alg».proof.Proof.KIBlk
import proofs.«116793_j28183575396967_2_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

theorem hz0 : (![0, 0] : Fin 2 → Nat) = fun _ => 0 := funext fun a => by fin_cases a <;> rfl

/-! ## What the body leaves, at an entry -/

theorem zero0_apply (p : Fin 1024) (d : Fin 128) : (zero0 (F := Ideal)) (ix2 p d) = 0 := by
  unfold zero0
  rw [View.canon_unit_zero hz0]
  exact pay1_0_apply p d

/-- One accumulation step at an entry: the accumulator's entry plus the products of the left block's row with the
    loaded row slice's column. -/
theorem step0_apply (i : grid0.Coords) (x0 : Vec Ideal S1024x2048 .f32) (x1 : Vec Ideal S8192x128 .f32) (xs : Vec Ideal S1024x128 .f32)
    (p : Fin 1024) (d : Fin 128) :
    step0 i x0 x1 xs (ix2 p d) = xs (ix2 p d) + ∑ kk : Fin 2048, x0 (ix2 p kk) * (View.ld (Val := Elt Ideal) (e' := .f32) x1 (rH0 i) : Vec Ideal S2048x128 .f32) (ix2 kk d) := by
  unfold step0
  rw [View.canon_unit_zero hz0, View.ld_unit_zero (S := S1024x2048) hz0, View.ld_unit_zero (S := S1024x128) hz0]
  exact pay2_0_apply _ _ _ p d

/-- The epilogue at an entry: the accumulator's row times the weights' column, plus the bias. -/
theorem fin0_apply (xs : Vec Ideal S1024x128 .f32) (x2 : Vec Ideal S128x256 .f32) (x3 : Vec Ideal S1x256 .f32) (p : Fin 1024) (j : Fin 256) :
    fin0 xs x2 x3 (ix2 p j) = (∑ d : Fin 128, xs (ix2 p d) * x2 (ix2 d j)) + x3 (ix2 0 j) := by
  unfold fin0
  rw [View.canon_unit_zero hz0, View.ld_unit_zero (S := S1024x128) hz0, View.ld_unit_zero (S := S128x256) hz0, View.ld_unit_zero (S := S1x256) hz0]
  exact pay3_0_apply _ _ _ p j

/-! ## The accumulator, entry by entry -/

/-- One product of the aggregation at row `n'`, feature `d`: the adjacency's weight of node `n` times the node's feature. -/
def term0 (A : FVec Ideal S8192x8192 .f32) (H : FVec Ideal S8192x128 .f32) (n' : Fin 8192) (d : Fin 128) (n : Fin 8192) : EReal :=
  A (ix2 n' n) * H (ix2 n d)

/-- Tile `k` of that aggregation. -/
def tile0 (A : FVec Ideal S8192x8192 .f32) (H : FVec Ideal S8192x128 .f32) (n' : Fin 8192) (d : Fin 128) (k : Fin 4) : EReal :=
  ∑ kk : Fin 2048, term0 A H n' d (nodeB k kk)

variable (V : (c : Dev nD) → (b : Ref sig .tc) → Buf (Elt Ideal) ((c : Thread nD τ).loc b))

/-- One step at a point of row block `q`, tile `k`: the accumulator's entry plus tile `k` of the row's aggregation. -/
theorem step_pt0 (c : Dev nD) (t : Fin cfg0.N) (q : Fin 8) (k : Fin 4) (hq : t.val / 4 = q.val) (hk : t.val % 4 = k.val)
    (xs : Vec Ideal S1024x128 .f32) (p : Fin 1024) (d : Fin 128) :
    step0 (grid0.coords t) (iblk0 V c 0 t) (iblk0 V c 1 t) xs (ix2 p d)
      = xs (ix2 p d) + tile0 (V c main_arg1) (V c main_arg0) (rowB q p) d k := by
  refine (step0_apply (grid0.coords t) (iblk0 V c 0 t) (iblk0 V c 1 t) xs p d).trans ?_
  refine congrArg (xs (ix2 p d) + ·) ?_
  refine Finset.sum_congr rfl fun kk _ => ?_
  exact congrArg₂ (fun (a b : EReal) => a * b) (blk0_0_apply V c t q k hq hk p kk)
    ((slice0_apply (iblk0 V c 1 t) t k hk kk d).trans (blk0_1_apply V c t (nodeB k kk) d))

theorem acc0_reset_apply (c : Dev nD) (n : ℕ) (h : n < cfg0.N) (h0 : n % 4 = 0) (q : Fin 8) (hq : n / 4 = q.val)
    (p : Fin 1024) (d : Fin 128) :
    acc0 V c n h (ix2 p d) = 0 + tile0 (V c main_arg1) (V c main_arg0) (rowB q p) d 0 :=
  (congrFun (acc0_reset V c ⟨n, h⟩ h0) (ix2 p d)).trans
    ((step_pt0 V c ⟨n, h⟩ q 0 hq h0 (zero0 (F := Ideal)) p d).trans (by rw [zero0_apply]))

theorem acc0_succ_apply (c : Dev nD) (m : ℕ) (h : m + 1 < cfg0.N) (h0 : ¬(m + 1) % 4 = 0) (q : Fin 8) (k : Fin 4)
    (hq : (m + 1) / 4 = q.val) (hk : (m + 1) % 4 = k.val) (p : Fin 1024) (d : Fin 128) :
    acc0 V c (m + 1) h (ix2 p d) = acc0 V c m (Nat.lt_of_succ_lt h) (ix2 p d) + tile0 (V c main_arg1) (V c main_arg0) (rowB q p) d k :=
  (congrFun (acc0_step V c ⟨m + 1, h⟩ h0) (ix2 p d)).trans
    (step_pt0 V c ⟨m + 1, h⟩ q k hq hk (acc0 V c m (Nat.lt_of_succ_lt h)) p d)

/-- After a row block's last step the accumulator's entry is the whole aggregation of the row. -/
theorem acc0_last (c : Dev nD) (n : ℕ) (h : n < cfg0.N) (h3 : n % 4 = 3) (q : Fin 8) (hq : n / 4 = q.val) (p : Fin 1024) (d : Fin 128) :
    acc0 V c n h (ix2 p d) = ∑ n' : Fin 8192, term0 (V c main_arg1) (V c main_arg0) (rowB q p) d n' := by
  obtain ⟨m, rfl⟩ : ∃ m, n = m + 3 := ⟨n - 3, by omega⟩
  have e3 : acc0 V c (m + 3) h (ix2 p d) = acc0 V c (m + 2) (by omega) (ix2 p d) + tile0 (V c main_arg1) (V c main_arg0) (rowB q p) d 3 :=
    acc0_succ_apply V c (m + 2) h (by omega) q 3 (by omega) (by show (m + 2 + 1) % 4 = 3; omega) p d
  have e2 : acc0 V c (m + 2) (by omega) (ix2 p d) = acc0 V c (m + 1) (by omega) (ix2 p d) + tile0 (V c main_arg1) (V c main_arg0) (rowB q p) d 2 :=
    acc0_succ_apply V c (m + 1) (by omega) (by omega) q 2 (by omega) (by show (m + 1 + 1) % 4 = 2; omega) p d
  have e1 : acc0 V c (m + 1) (by omega) (ix2 p d) = acc0 V c m (by omega) (ix2 p d) + tile0 (V c main_arg1) (V c main_arg0) (rowB q p) d 1 :=
    acc0_succ_apply V c m (by omega) (by omega) q 1 (by omega) (by show (m + 1) % 4 = 1; omega) p d
  have e0 : acc0 V c m (by omega) (ix2 p d) = 0 + tile0 (V c main_arg1) (V c main_arg0) (rowB q p) d 0 :=
    acc0_reset_apply V c m (by omega) (by omega) q (by omega) p d
  rw [e3, e2, e1, e0]
  exact Cert.Spec.four_tiles (term0 (V c main_arg1) (V c main_arg0) (rowB q p) d) nodeB nodeB_val

/-! ## The output block, and from the blocks to the array -/

/-- The block the epilogue stores at a row block's last step is the layer's linear map at the block's rows. -/
theorem out0_apply (c : Dev nD) (t : Fin cfg0.N) (h3 : t.val % 4 = 3) (q : Fin 8) (hq : t.val / 4 = q.val) (p : Fin 1024) (j : Fin 256) :
    out0 V c t.val t.isLt (ix2 p j)
      = Cert.Spec.lin (V c main_arg1) (V c main_arg0) (V c main_arg3) (fun j => V c main_v0 (ix2 0 j)) (ix2 (rowB q p) j) := by
  rw [out0_eq, fin0_apply, Cert.Spec.lin_apply]
  refine congrArg₂ (fun (a b : EReal) => a + b) (Finset.sum_congr rfl fun d _ => ?_) (blk0_3_apply V c t j)
  exact congrArg₂ (fun (a b : EReal) => a * b) (acc0_last V c t.val t.isLt h3 q hq p d) (blk0_2_apply V c t d j)

/-- Each write-back writes the linear map's rows of its block. -/
theorem flushed_eq0 (c : Dev nD) (t : Fin cfg0.N) (hf : (cfg0.win 4).flush t = true) :
    (dat0 V c).flushed 4 t = ((cfg0.win 4).blk t).view.read (Elt Ideal)
      (Cert.Spec.lin (V c main_arg1) (V c main_arg0) (V c main_arg3) (fun j => V c main_v0 (ix2 0 j))) := by
  have hN : cfg0.N = 32 := N_0
  have h3 : t.val % 4 = 3 := (flush0_4 t).mp hf
  have hlt : t.val < 32 := lt_of_lt_of_eq t.isLt hN
  show (cfg0.win 4).cut (grid0.coords t) ((dat0 V c).after 4 t) = _
  rw [after0_4]
  exact read_blk0_4 c t ⟨t.val / 4, by omega⟩ rfl _ (out0 V c t.val t.isLt)
    (fun p j => out0_apply V c t h3 ⟨t.val / 4, by omega⟩ rfl p j)

/-- THE OUTPUT ARRAY after the region: the layer's linear map of the region-entry arrays. -/
theorem final0 (c : Dev nD) : (dat0 (F := Ideal) V c).arrAt 4 cfg0.N
    = Cert.Spec.lin (V c main_arg1) (V c main_arg0) (V c main_arg3) (fun j => V c main_v0 (ValueIdx.ix2 0 j)) :=
  (dat0 V c).arrAt_eq_of_cover 4 _ (flushed_eq0 V c) cover0_4

end Cert.KernelIdeal.HandVal

end
-- ==== Proof.KIVal1.lean ====
/- Region 1's output array after the region, at the exact instance. In each row block the four reduction steps add one
   tile of 2048 products each to the accumulator, starting from zeros, so after the last step its entry `(p, d)` is the
   whole aggregation `∑ n, A (row, n) · H (n, d)`; the epilogue multiplies by the weights and adds the bias row; and the
   eight written-back row blocks cover the [8192, 256] array. -/
import proofs.«116793_j28183575396967_2_alg».proof.Proof.KI1
import proofs.«116793_j28183575396967_2_alg».proof.Proof.KIPay
import proofs.«116793_j28183575396967_2_alg».proof.Proof.KIBlk
import proofs.«116793_j28183575396967_2_alg».proof.Proof.Spec
import Idealize.ShloMosaic.Lib.Pipeline.Value
import Idealize.ShloMosaic.PureOps.Ideal.Laws
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

theorem hz1 : (![0, 0] : Fin 2 → Nat) = fun _ => 0 := funext fun a => by fin_cases a <;> rfl

/-! ## What the body leaves, at an entry -/

theorem zero1_apply (p : Fin 1024) (d : Fin 256) : (zero1 (F := Ideal)) (ix2 p d) = 0 := by
  unfold zero1
  rw [View.canon_unit_zero hz1]
  exact pay1_1_apply p d

/-- One accumulation step at an entry: the accumulator's entry plus the products of the left block's row with the
    loaded row slice's column. -/
theorem step1_apply (i : grid1.Coords) (x0 : Vec Ideal S1024x2048 .f32) (x1 : Vec Ideal S8192x256 .f32) (xs : Vec Ideal S1024x256 .f32)
    (p : Fin 1024) (d : Fin 256) :
    step1 i x0 x1 xs (ix2 p d) = xs (ix2 p d) + ∑ kk : Fin 2048, x0 (ix2 p kk) * (View.ld (Val := Elt Ideal) (e' := .f32) x1 (rH1 i) : Vec Ideal S2048x256 .f32) (ix2 kk d) := by
  unfold step1
  rw [View.canon_unit_zero hz1, View.ld_unit_zero (S := S1024x2048) hz1, View.ld_unit_zero (S := S1024x256) hz1]
  exact pay2_1_apply _ _ _ p d

/-- The epilogue at an entry: the accumulator's row times the weights' column, plus the bias. -/
theorem fin1_apply (xs : Vec Ideal S1024x256 .f32) (x2 : Vec Ideal S256x256 .f32) (x3 : Vec Ideal S1x256 .f32) (p : Fin 1024) (j : Fin 256) :
    fin1 xs x2 x3 (ix2 p j) = (∑ d : Fin 256, xs (ix2 p d) * x2 (ix2 d j)) + x3 (ix2 0 j) := by
  unfold fin1
  rw [View.canon_unit_zero hz1, View.ld_unit_zero (S := S1024x256) hz1, View.ld_unit_zero (S := S256x256) hz1, View.ld_unit_zero (S := S1x256) hz1]
  exact pay3_1_apply _ _ _ p j

/-! ## The accumulator, entry by entry -/

/-- One product of the aggregation at row `n'`, feature `d`: the adjacency's weight of node `n` times the node's feature. -/
def term1 (A : FVec Ideal S8192x8192 .f32) (H : FVec Ideal S8192x256 .f32) (n' : Fin 8192) (d : Fin 256) (n : Fin 8192) : EReal :=
  A (ix2 n' n) * H (ix2 n d)

/-- Tile `k` of that aggregation. -/
def tile1 (A : FVec Ideal S8192x8192 .f32) (H : FVec Ideal S8192x256 .f32) (n' : Fin 8192) (d : Fin 256) (k : Fin 4) : EReal :=
  ∑ kk : Fin 2048, term1 A H n' d (nodeB k kk)

variable (V : (c : Dev nD) → (b : Ref sig .tc) → Buf (Elt Ideal) ((c : Thread nD τ).loc b))

/-- One step at a point of row block `q`, tile `k`: the accumulator's entry plus tile `k` of the row's aggregation. -/
theorem step_pt1 (c : Dev nD) (t : Fin cfg1.N) (q : Fin 8) (k : Fin 4) (hq : t.val / 4 = q.val) (hk : t.val % 4 = k.val)
    (xs : Vec Ideal S1024x256 .f32) (p : Fin 1024) (d : Fin 256) :
    step1 (grid1.coords t) (iblk1 V c 0 t) (iblk1 V c 1 t) xs (ix2 p d)
      = xs (ix2 p d) + tile1 (V c main_arg1) (V c main_v45) (rowB q p) d k := by
  refine (step1_apply (grid1.coords t) (iblk1 V c 0 t) (iblk1 V c 1 t) xs p d).trans ?_
  refine congrArg (xs (ix2 p d) + ·) ?_
  refine Finset.sum_congr rfl fun kk _ => ?_
  exact congrArg₂ (fun (a b : EReal) => a * b) (blk1_0_apply V c t q k hq hk p kk)
    ((slice1_apply (iblk1 V c 1 t) t k hk kk d).trans (blk1_1_apply V c t (nodeB k kk) d))

theorem acc1_reset_apply (c : Dev nD) (n : ℕ) (h : n < cfg1.N) (h0 : n % 4 = 0) (q : Fin 8) (hq : n / 4 = q.val)
    (p : Fin 1024) (d : Fin 256) :
    acc1 V c n h (ix2 p d) = 0 + tile1 (V c main_arg1) (V c main_v45) (rowB q p) d 0 :=
  (congrFun (acc1_reset V c ⟨n, h⟩ h0) (ix2 p d)).trans
    ((step_pt1 V c ⟨n, h⟩ q 0 hq h0 (zero1 (F := Ideal)) p d).trans (by rw [zero1_apply]))

theorem acc1_succ_apply (c : Dev nD) (m : ℕ) (h : m + 1 < cfg1.N) (h0 : ¬(m + 1) % 4 = 0) (q : Fin 8) (k : Fin 4)
    (hq : (m + 1) / 4 = q.val) (hk : (m + 1) % 4 = k.val) (p : Fin 1024) (d : Fin 256) :
    acc1 V c (m + 1) h (ix2 p d) = acc1 V c m (Nat.lt_of_succ_lt h) (ix2 p d) + tile1 (V c main_arg1) (V c main_v45) (rowB q p) d k :=
  (congrFun (acc1_step V c ⟨m + 1, h⟩ h0) (ix2 p d)).trans
    (step_pt1 V c ⟨m + 1, h⟩ q k hq hk (acc1 V c m (Nat.lt_of_succ_lt h)) p d)

/-- After a row block's last step the accumulator's entry is the whole aggregation of the row. -/
theorem acc1_last (c : Dev nD) (n : ℕ) (h : n < cfg1.N) (h3 : n % 4 = 3) (q : Fin 8) (hq : n / 4 = q.val) (p : Fin 1024) (d : Fin 256) :
    acc1 V c n h (ix2 p d) = ∑ n' : Fin 8192, term1 (V c main_arg1) (V c main_v45) (rowB q p) d n' := by
  obtain ⟨m, rfl⟩ : ∃ m, n = m + 3 := ⟨n - 3, by omega⟩
  have e3 : acc1 V c (m + 3) h (ix2 p d) = acc1 V c (m + 2) (by omega) (ix2 p d) + tile1 (V c main_arg1) (V c main_v45) (rowB q p) d 3 :=
    acc1_succ_apply V c (m + 2) h (by omega) q 3 (by omega) (by show (m + 2 + 1) % 4 = 3; omega) p d
  have e2 : acc1 V c (m + 2) (by omega) (ix2 p d) = acc1 V c (m + 1) (by omega) (ix2 p d) + tile1 (V c main_arg1) (V c main_v45) (rowB q p) d 2 :=
    acc1_succ_apply V c (m + 1) (by omega) (by omega) q 2 (by omega) (by show (m + 1 + 1) % 4 = 2; omega) p d
  have e1 : acc1 V c (m + 1) (by omega) (ix2 p d) = acc1 V c m (by omega) (ix2 p d) + tile1 (V c main_arg1) (V c main_v45) (rowB q p) d 1 :=
    acc1_succ_apply V c m (by omega) (by omega) q 1 (by omega) (by show (m + 1) % 4 = 1; omega) p d
  have e0 : acc1 V c m (by omega) (ix2 p d) = 0 + tile1 (V c main_arg1) (V c main_v45) (rowB q p) d 0 :=
    acc1_reset_apply V c m (by omega) (by omega) q (by omega) p d
  rw [e3, e2, e1, e0]
  exact Cert.Spec.four_tiles (term1 (V c main_arg1) (V c main_v45) (rowB q p) d) nodeB nodeB_val

/-! ## The output block, and from the blocks to the array -/

/-- The block the epilogue stores at a row block's last step is the layer's linear map at the block's rows. -/
theorem out1_apply (c : Dev nD) (t : Fin cfg1.N) (h3 : t.val % 4 = 3) (q : Fin 8) (hq : t.val / 4 = q.val) (p : Fin 1024) (j : Fin 256) :
    out1 V c t.val t.isLt (ix2 p j)
      = Cert.Spec.lin (V c main_arg1) (V c main_v45) (V c main_arg11) (fun j => V c main_v46 (ix2 0 j)) (ix2 (rowB q p) j) := by
  rw [out1_eq, fin1_apply, Cert.Spec.lin_apply]
  refine congrArg₂ (fun (a b : EReal) => a + b) (Finset.sum_congr rfl fun d _ => ?_) (blk1_3_apply V c t j)
  exact congrArg₂ (fun (a b : EReal) => a * b) (acc1_last V c t.val t.isLt h3 q hq p d) (blk1_2_apply V c t d j)

/-- Each write-back writes the linear map's rows of its block. -/
theorem flushed_eq1 (c : Dev nD) (t : Fin cfg1.N) (hf : (cfg1.win 4).flush t = true) :
    (dat1 V c).flushed 4 t = ((cfg1.win 4).blk t).view.read (Elt Ideal)
      (Cert.Spec.lin (V c main_arg1) (V c main_v45) (V c main_arg11) (fun j => V c main_v46 (ix2 0 j))) := by
  have hN : cfg1.N = 32 := N_1
  have h3 : t.val % 4 = 3 := (flush1_4 t).mp hf
  have hlt : t.val < 32 := lt_of_lt_of_eq t.isLt hN
  show (cfg1.win 4).cut (grid1.coords t) ((dat1 V c).after 4 t) = _
  rw [after1_4]
  exact read_blk1_4 c t ⟨t.val / 4, by omega⟩ rfl _ (out1 V c t.val t.isLt)
    (fun p j => out1_apply V c t h3 ⟨t.val / 4, by omega⟩ rfl p j)

/-- THE OUTPUT ARRAY after the region: the layer's linear map of the region-entry arrays. -/
theorem final1 (c : Dev nD) : (dat1 (F := Ideal) V c).arrAt 4 cfg1.N
    = Cert.Spec.lin (V c main_arg1) (V c main_v45) (V c main_arg11) (fun j => V c main_v46 (ValueIdx.ix2 0 j)) :=
  (dat1 V c).arrAt_eq_of_cover 4 _ (flushed_eq1 V c) cover1_4

end Cert.KernelIdeal.HandVal

end
-- ==== Proof.KIVal2.lean ====
/- Region 2's output array after the region, at the exact instance: the four accumulation steps each add one tile of
   2048 products to the accumulator, starting from zeros, and the last step's write-back covers the whole [64, 256]
   array; so entry (g, j) ends at the full sum over the 8192 nodes of pool-weight times feature. -/
import proofs.«116793_j28183575396967_2_alg».proof.Proof.KI2
import proofs.«116793_j28183575396967_2_alg».proof.Proof.Spec
import proofs.«116793_j28183575396967_2_alg».proof.Proof.LibMatmulEntry
import Idealize.ShloMosaic.Lib.Pipeline.Value
import Idealize.ShloMosaic.PureOps.Ideal.Laws
import Idealize.ShloMosaic.Lib.ValueIdx

set_option maxRecDepth 16384

noncomputable section

namespace Cert.KernelIdeal.HandVal

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## One accumulation step at an entry -/

/-- The zero block the first step stores. -/
theorem pay1_2_apply (g : Fin 64) (j : Fin 256) : (k2_pay1 (F := Ideal)) (ix2 g j) = 0 := by
  unfold k2_pay1
  rw [shapeCast_self]
  exact Ideal.ofBits_zero_f32

/-- One step adds to entry `(g, j)` of the accumulator the products of row `g` of the left block with column `j` of the
    right block: the changes of float format are the identity at the exact instance. -/
theorem pay2_2_apply (x0 : FVec Ideal S64x2048 .f32) (x1 : FVec Ideal S2048x256 .f32) (xs : FVec Ideal S64x256 .f32)
    (g : Fin 64) (j : Fin 256) :
    k2_pay2 x0 x1 xs (ix2 g j) = xs (ix2 g j) + ∑ kk : Fin 2048, x0 (ix2 g kk) * x1 (ix2 kk j) := by
  unfold k2_pay2
  rw [shapeCast_self, shapeCast_self]
  refine congrArg (xs (ix2 g j) + ·) ?_
  exact Ideal.matmul_rows_cols dot_S64x2048_S2048x256_S64x256_1_0_0_1_n_n rfl rfl rfl rfl rfl rfl none _ _ g j

/-! ## The blocks read in the arrays -/

/-- Node `kk` of tile `k`. -/
def node2 (k : Fin 4) (kk : Fin 2048) : Fin 8192 := ⟨k.val * 2048 + kk.val, by have := k.isLt; have := kk.isLt; omega⟩

theorem node_val2 (k : Fin 4) (kk : Fin 2048) : (node2 k kk).val = k.val * 2048 + kk.val := rfl

/-- The block indices of the two input windows, decided over the grid: the pooling matrix moves along its columns, the
    features along their rows, one tile per step. -/
theorem idx_facts2 : ∀ t : Fin cfg2.N, win2_0.index t 0 = 0 ∧ win2_0.index t 1 = t.val ∧ win2_1.index t 0 = t.val ∧ win2_1.index t 1 = 0 :=
  (by decide +kernel : ∀ t : Fin grid2.N, win2_0.index t 0 = 0 ∧ win2_0.index t 1 = t.val ∧ win2_1.index t 0 = t.val ∧ win2_1.index t 1 = 0)

variable (V : (c : Dev nD) → (b : Ref sig .tc) → Buf (Elt Ideal) ((c : Thread nD τ).loc b))

/-- Entry `(g, kk)` of the pooling matrix's block at step `k` is its entry `(g, 2048 k + kk)`. -/
theorem iblk2_0_apply (c : Dev nD) (t : Fin cfg2.N) (k : Fin 4) (hk : t.val = k.val) (g : Fin 64) (kk : Fin 2048) :
    (iblk2 V c 0 t : FVec Ideal S64x2048 .f32) (ix2 g kk) = (V c main_arg2 : FVec Ideal S64x8192 .f32) (ix2 g (node2 k kk)) := by
  obtain ⟨h00, h01, -, -⟩ := idx_facts2 t
  unfold iblk2
  rw [View.read_apply]
  show V c main_arg2 _ = V c main_arg2 _
  congr 1
  funext a
  apply Fin.ext
  match a with
  | ⟨0, _⟩ => show win2_0.index t 0 * 64 + 1 * g.val = g.val; rw [h00]; omega
  | ⟨1, _⟩ => show win2_0.index t 1 * 2048 + 1 * kk.val = k.val * 2048 + kk.val; rw [h01, hk]; omega

/-- Entry `(kk, j)` of the features' block at step `k` is their entry `(2048 k + kk, j)`. -/
theorem iblk2_1_apply (c : Dev nD) (t : Fin cfg2.N) (k : Fin 4) (hk : t.val = k.val) (kk : Fin 2048) (j : Fin 256) :
    (iblk2 V c 1 t : FVec Ideal S2048x256 .f32) (ix2 kk j) = (V c main_v91 : FVec Ideal S8192x256 .f32) (ix2 (node2 k kk) j) := by
  obtain ⟨-, -, h10, h11⟩ := idx_facts2 t
  unfold iblk2
  rw [View.read_apply]
  show V c main_v91 _ = V c main_v91 _
  congr 1
  funext a
  apply Fin.ext
  match a with
  | ⟨0, _⟩ => show win2_1.index t 0 * 2048 + 1 * kk.val = k.val * 2048 + kk.val; rw [h10, hk]; omega
  | ⟨1, _⟩ => show win2_1.index t 1 * 256 + 1 * j.val = j.val; rw [h11]; omega

/-! ## The accumulator, entry by entry -/

/-- One product of entry `(g, j)`'s sum: pool weight of node `n` times the node's feature `j`. -/
def term2 (A : FVec Ideal S64x8192 .f32) (H : FVec Ideal S8192x256 .f32) (g : Fin 64) (j : Fin 256) (n : Fin 8192) : EReal :=
  A (ix2 g n) * H (ix2 n j)

/-- Tile `k` of entry `(g, j)`'s sum. -/
def tile2 (A : FVec Ideal S64x8192 .f32) (H : FVec Ideal S8192x256 .f32) (g : Fin 64) (j : Fin 256) (k : Fin 4) : EReal :=
  ∑ kk : Fin 2048, term2 A H g j (node2 k kk)

/-- One step at point `t`, the step `k`: the accumulator's entry plus tile `k`. -/
theorem step_apply2 (c : Dev nD) (t : Fin cfg2.N) (k : Fin 4) (hk : t.val = k.val) (xs : FVec Ideal S64x256 .f32) (g : Fin 64) (j : Fin 256) :
    k2_pay2 (iblk2 V c 0 t) (iblk2 V c 1 t) xs (ix2 g j) = xs (ix2 g j) + tile2 (V c main_arg2) (V c main_v91) g j k := by
  refine (pay2_2_apply (iblk2 V c 0 t) (iblk2 V c 1 t) xs g j).trans ?_
  refine congrArg (xs (ix2 g j) + ·) ?_
  refine Finset.sum_congr rfl fun kk _ => ?_
  exact congrArg₂ (fun (a b : EReal) => a * b) (iblk2_0_apply V c t k hk g kk) (iblk2_1_apply V c t k hk kk j)

theorem acc2_zero_apply (c : Dev nD) (h : 0 < cfg2.N) (g : Fin 64) (j : Fin 256) :
    acc2 V c 0 h (ix2 g j) = 0 + tile2 (V c main_arg2) (V c main_v91) g j 0 :=
  (step_apply2 V c ⟨0, h⟩ 0 rfl k2_pay1 g j).trans (by rw [pay1_2_apply])

theorem acc2_succ_apply (c : Dev nD) (n : ℕ) (h : n + 1 < cfg2.N) (k : Fin 4) (hk : n + 1 = k.val) (g : Fin 64) (j : Fin 256) :
    acc2 V c (n + 1) h (ix2 g j) = acc2 V c n (Nat.lt_of_succ_lt h) (ix2 g j) + tile2 (V c main_arg2) (V c main_v91) g j k :=
  step_apply2 V c ⟨n + 1, h⟩ k hk (acc2 V c n (Nat.lt_of_succ_lt h)) g j

/-- After the last step the accumulator holds the whole sum. -/
theorem acc2_last (c : Dev nD) (h : 3 < cfg2.N) :
    acc2 V c 3 h = Cert.Spec.pool (V c main_arg2) (V c main_v91) := by
  funext i
  obtain ⟨g, j, rfl⟩ : ∃ (g : Fin 64) (j : Fin 256), i = ix2 g j := ⟨i 0, i 1, eq_ix2 i⟩
  rw [acc2_succ_apply V c 2 h 3 rfl, acc2_succ_apply V c 1 _ 2 rfl, acc2_succ_apply V c 0 _ 1 rfl, acc2_zero_apply,
    Cert.Spec.pool_apply]
  exact Cert.Spec.four_tiles (term2 (V c main_arg2) (V c main_v91) g j) node2 node_val2

/-! ## From the one written-back block to the array -/

theorem hz2 : (fun a => win2_2.index t2_3 a * main_v92.ty.shape.size a) = fun _ => 0 := funext fun a => by fin_cases a <;> decide

/-- The one write-back, at the last point, writes the whole sum: the output's one block is its array. -/
theorem flushed_eq2 (c : Dev nD) (t : Fin cfg2.N) (hf : (cfg2.win 2).flush t = true) :
    (dat2 V c).flushed 2 t = ((cfg2.win 2).blk t).view.read (Elt Ideal) (Cert.Spec.pool (V c main_arg2) (V c main_v91)) := by
  have hN : cfg2.N = 4 := N_2
  have h3 : t.val = 3 := by have := (flush2_2 t).mp hf; have := t.isLt; omega
  obtain rfl : t = t2_3 := Fin.ext h3
  show (cfg2.win 2).cut (grid2.coords t2_3) ((dat2 V c).after 2 t2_3) = _
  rw [after2_2, out2_eq, show acc2 V c t2_3.val t2_3.isLt = acc2 V c 3 t2_3.isLt from rfl, acc2_last V c t2_3.isLt]
  exact (Memref.read_access_unit_zero (Elt Ideal) main_v92 hz2 (fun a => by rw [congrFun hz2 a]; simp) (Cert.Spec.pool (V c main_arg2) (V c main_v91))).symm

/-- THE OUTPUT ARRAY after the region: the readout of the region-entry arrays. -/
theorem final2 (c : Dev nD) : (dat2 (F := Ideal) V c).arrAt 2 cfg2.N = Cert.Spec.pool (V c main_arg2) (V c main_v91) :=
  (dat2 V c).arrAt_eq_of_cover 2 (Cert.Spec.pool (V c main_arg2) (V c main_v91)) (flushed_eq2 V c) fun i =>
    ⟨t2_3, (flush2_2 t2_3).mpr rfl, by
      show i ∈ ((View.whole main_v92).slice (win2_2.rect t2_3)).set
      rw [View.set_slice_whole, Rect.mem_set_unit]
      intro a
      have h0 : (i 0 : Nat) < 64 := (i 0).isLt
      have h1 : (i 1 : Nat) < 256 := (i 1).isLt
      match a with
      | ⟨0, _⟩ => show win2_2.index t2_3 0 * win2_2.size 0 ≤ (i 0 : Nat) ∧ (i 0 : Nat) < win2_2.index t2_3 0 * win2_2.size 0 + win2_2.xsize (grid2.coords t2_3) 0
                  rw [show win2_2.index t2_3 0 * win2_2.size 0 = 0 from by decide +kernel, show win2_2.xsize (grid2.coords t2_3) 0 = 64 from by decide +kernel]; omega
      | ⟨1, _⟩ => show win2_2.index t2_3 1 * win2_2.size 1 ≤ (i 1 : Nat) ∧ (i 1 : Nat) < win2_2.index t2_3 1 * win2_2.size 1 + win2_2.xsize (grid2.coords t2_3) 1
                  rw [show win2_2.index t2_3 1 * win2_2.size 1 = 0 from by decide +kernel, show win2_2.xsize (grid2.coords t2_3) 1 = 256 from by decide +kernel]; omega⟩

end Cert.KernelIdeal.HandVal

end
-- ==== Proof.RefRun.lean ====
import proofs.«116793_j28183575396967_2_alg».proof.Proof.Gen.ReferenceIdeal
import Idealize.ShloMosaic.Lib.StableHlo.Run
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The operations

@main is a straight line: each `func.call` runs the callee's body on the operands, so the line is @main's own
operations with each callee's written in place over the buffers of that call. -/

/-- @main's 207 operations, in order, each callee's operations at its call over that call's buffers. -/
abbrev ops : List (HloOp τ sig (Elt F)) :=
  [ StableHlo.binary main_arg1 main_arg0 main_v0 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    StableHlo.binary main_v0 main_arg3 main_v1 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    StableHlo.unary main_arg4 main_v2 (broadcastInDim S1x256 ![1] bcast_S256_S1x256_1 : (⟨S256, .f32⟩ : BufTy).Contents (Elt F) → (⟨S1x256, .f32⟩ : BufTy).Contents (Elt F)),
    StableHlo.unary main_v2 main_v3 (broadcastInDim S8192x256 ![0, 1] bcast_S1x256_S8192x256_0_1 : (⟨S1x256, .f32⟩ : BufTy).Contents (Elt F) → (⟨S8192x256, .f32⟩ : BufTy).Contents (Elt F)),
    StableHlo.binary main_v1 main_v3 main_v4 (addf : (⟨S8192x256, .f32⟩ : BufTy).Contents (Elt F) → (⟨S8192x256, .f32⟩ : BufTy).Contents (Elt F) → (⟨S8192x256, .f32⟩ : BufTy).Contents (Elt F)),
    StableHlo.nullary main_cst (constant S_ .f32 0x00000000#32),
    StableHlo.binary main_v4 main_cst main_v5 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_0 (constant S_ .f32 0x46000000#32),
    StableHlo.unary main_cst_0 main_v6 (broadcastInDim S256 ![] bcast_S_S256 : (⟨S_, .f32⟩ : BufTy).Contents (Elt F) → (⟨S256, .f32⟩ : BufTy).Contents (Elt F)),
    StableHlo.binary main_v5 main_v6 main_v7 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary (.of main_call0_cst : StableHlo.TRef sig ⟨S_, .f32⟩) (constant S_ .f32 0x00000000#32),
    StableHlo.TRef.binary (.of main_v4 : StableHlo.TRef sig ⟨S8192x256, .f32⟩) (.of main_call0_cst : StableHlo.TRef sig ⟨S_, .f32⟩) (.of main_call0_v0 : StableHlo.TRef sig ⟨S256, .f32⟩) (fun x v => Host.reduceAdd x v reducesTo_S8192x256_S256_d0 h_S_),
    StableHlo.TRef.unary (.of main_call0_v0 : StableHlo.TRef sig ⟨S256, .f32⟩) (.of main_call0_v1 : StableHlo.TRef sig ⟨S1x256, .f32⟩) (broadcastInDim S1x256 ![1] bcast_S256_S1x256_1),
    StableHlo.TRef.nullary (.of main_call0_cst_0 : StableHlo.TRef sig ⟨S_, .f32⟩) (constant S_ .f32 0x46000000#32),
    StableHlo.TRef.unary (.of main_call0_cst_0 : StableHlo.TRef sig ⟨S_, .f32⟩) (.of main_call0_v2 : StableHlo.TRef sig ⟨S1x256, .f32⟩) (broadcastInDim S1x256 ![] bcast_S_S1x256),
    StableHlo.TRef.binary (.of main_call0_v1 : StableHlo.TRef sig ⟨S1x256, .f32⟩) (.of main_call0_v2 : StableHlo.TRef sig ⟨S1x256, .f32⟩) (.of main_call0_v3 : StableHlo.TRef sig ⟨S1x256, .f32⟩) Host.divf,
    StableHlo.TRef.unary (.of main_call0_v3 : StableHlo.TRef sig ⟨S1x256, .f32⟩) (.of main_call0_v4 : StableHlo.TRef sig ⟨S8192x256, .f32⟩) (broadcastInDim S8192x256 ![0, 1] bcast_S1x256_S8192x256_0_1),
    StableHlo.TRef.binary (.of main_v4 : StableHlo.TRef sig ⟨S8192x256, .f32⟩) (.of main_call0_v4 : StableHlo.TRef sig ⟨S8192x256, .f32⟩) (.of main_call0_v5 : StableHlo.TRef sig ⟨S8192x256, .f32⟩) subf,
    StableHlo.TRef.binary (.of main_call0_v5 : StableHlo.TRef sig ⟨S8192x256, .f32⟩) (.of main_call0_v5 : StableHlo.TRef sig ⟨S8192x256, .f32⟩) (.of main_call0_v6 : StableHlo.TRef sig ⟨S8192x256, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8192x256, .f32⟩) (.of main_call0_cst_2 : StableHlo.TRef sig ⟨S_, .f32⟩) (.of main_call0_v9 : StableHlo.TRef sig ⟨S256, .f32⟩) (fun x v => Host.reduceAdd x v reducesTo_S8192x256_S256_d0 h_S_),
    StableHlo.TRef.unary (.of main_call0_v8 : StableHlo.TRef sig ⟨S_, .f32⟩) (.of main_call0_v10 : StableHlo.TRef sig ⟨S256, .f32⟩) (broadcastInDim S256 ![] bcast_S_S256),
    StableHlo.TRef.binary (.of main_call0_v9 : StableHlo.TRef sig ⟨S256, .f32⟩) (.of main_call0_v10 : StableHlo.TRef sig ⟨S256, .f32⟩) (.of main_call0_v11 : StableHlo.TRef sig ⟨S256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S256, .f32⟩) (broadcastInDim S256 ![] bcast_S_S256),
    StableHlo.TRef.ternary (.of main_call0_v12 : StableHlo.TRef sig ⟨S_, .i1⟩) (.of main_call0_v11 : StableHlo.TRef sig ⟨S256, .f32⟩) (.of main_call0_call0_v1 : StableHlo.TRef sig ⟨S256, .f32⟩) (.of main_v8 : StableHlo.TRef sig ⟨S256, .f32⟩) (fun p a b => select (broadcastInDim S256 ![] bcast_S_S256 p) a b),
    StableHlo.unary main_v7 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S8192x256 ![0, 1] bcast_S1x256_S8192x256_0_1 : (⟨S1x256, .f32⟩ : BufTy).Contents (Elt F) → (⟨S8192x256, .f32⟩ : BufTy).Contents (Elt F)),
    StableHlo.binary main_v4 main_v10 main_v11 (subf : (⟨S8192x256, .f32⟩ : BufTy).Contents (Elt F) → (⟨S8192x256, .f32⟩ : BufTy).Contents (Elt F) → (⟨S8192x256, .f32⟩ : BufTy).Contents (Elt F)),
    StableHlo.unary main_arg5 main_v12 (broadcastInDim S1x256 ![1] bcast_S256_S1x256_1 : (⟨S256, .f32⟩ : BufTy).Contents (Elt F) → (⟨S1x256, .f32⟩ : BufTy).Contents (Elt F)),
    StableHlo.unary main_v12 main_v13 (broadcastInDim S8192x256 ![0, 1] bcast_S1x256_S8192x256_0_1 : (⟨S1x256, .f32⟩ : BufTy).Contents (Elt F) → (⟨S8192x256, .f32⟩ : BufTy).Contents (Elt F)),
    StableHlo.binary main_v13 main_v11 main_v14 (mulf : (⟨S8192x256, .f32⟩ : BufTy).Contents (Elt F) → (⟨S8192x256, .f32⟩ : BufTy).Contents (Elt F) → (⟨S8192x256, .f32⟩ : BufTy).Contents (Elt F)),
    StableHlo.nullary main_cst_1 (constant S_ .f32 0x3727C5AC#32),
    StableHlo.unary main_cst_1 main_v15 (broadcastInDim S256 ![] bcast_S_S256 : (⟨S_, .f32⟩ : BufTy).Contents (Elt F) → (⟨S256, .f32⟩ : BufTy).Contents (Elt F)),
    StableHlo.binary main_v8 main_v15 main_v16 (addf : (⟨S256, .f32⟩ : BufTy).Contents (Elt F) → (⟨S256, .f32⟩ : BufTy).Contents (Elt F) → (⟨S256, .f32⟩ : BufTy).Contents (Elt F)),
    StableHlo.unary main_v16 main_v17 (Host.rsqrt : (⟨S256, .f32⟩ : BufTy).Contents (Elt F) → (⟨S256, .f32⟩ : BufTy).Contents (Elt F)),
    StableHlo.unary main_v17 main_v18 (broadcastInDim S1x256 ![1] bcast_S256_S1x256_1 : (⟨S256, .f32⟩ : BufTy).Contents (Elt F) → (⟨S1x256, .f32⟩ : BufTy).Contents (Elt F)),
    StableHlo.unary main_v18 main_v19 (broadcastInDim S8192x256 ![0, 1] bcast_S1x256_S8192x256_0_1 : (⟨S1x256, .f32⟩ : BufTy).Contents (Elt F) → (⟨S8192x256, .f32⟩ : BufTy).Contents (Elt F)),
    StableHlo.binary main_v14 main_v19 main_v20 (mulf : (⟨S8192x256, .f32⟩ : BufTy).Contents (Elt F) → (⟨S8192x256, .f32⟩ : BufTy).Contents (Elt F) → (⟨S8192x256, .f32⟩ : BufTy).Contents (Elt F)),
    StableHlo.unary main_arg6 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S8192x256 ![0, 1] bcast_S1x256_S8192x256_0_1 : (⟨S1x256, .f32⟩ : BufTy).Contents (Elt F) → (⟨S8192x256, .f32⟩ : BufTy).Contents (Elt F)),
    StableHlo.binary main_v20 main_v22 main_v23 (addf : (⟨S8192x256, .f32⟩ : BufTy).Contents (Elt F) → (⟨S8192x256, .f32⟩ : BufTy).Contents (Elt F) → (⟨S8192x256, .f32⟩ : BufTy).Contents (Elt F)),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8192x256, .f32⟩) (broadcastInDim S8192x256 ![] bcast_S_S8192x256),
    StableHlo.TRef.binary (.of main_v23 : StableHlo.TRef sig ⟨S8192x256, .f32⟩) (.of main_call1_v0 : StableHlo.TRef sig ⟨S8192x256, .f32⟩) (.of main_v24 : StableHlo.TRef sig ⟨S8192x256, .f32⟩) maximumf,
    StableHlo.binary main_v24 main_arg7 main_v25 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg8 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S8192x256 ![0, 1] bcast_S1x256_S8192x256_0_1 : (⟨S1x256, .f32⟩ : BufTy).Contents (Elt F) → (⟨S8192x256, .f32⟩ : BufTy).Contents (Elt F)),
    StableHlo.binary main_v25 main_v27 main_v28 (addf : (⟨S8192x256, .f32⟩ : BufTy).Contents (Elt F) → (⟨S8192x256, .f32⟩ : BufTy).Contents (Elt F) → (⟨S8192x256, .f32⟩ : BufTy).Contents (Elt F)),
    StableHlo.nullary main_cst_2 (constant S_ .f32 0x00000000#32),
    StableHlo.binary main_v28 main_cst_2 main_v29 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_3 (constant S_ .f32 0x46000000#32),
    StableHlo.unary main_cst_3 main_v30 (broadcastInDim S256 ![] bcast_S_S256 : (⟨S_, .f32⟩ : BufTy).Contents (Elt F) → (⟨S256, .f32⟩ : BufTy).Contents (Elt F)),
    StableHlo.binary main_v29 main_v30 main_v31 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32),
    StableHlo.TRef.nullary (.of main_call2_cst : StableHlo.TRef sig ⟨S_, .f32⟩) (constant S_ .f32 0x00000000#32),
    StableHlo.TRef.binary (.of main_v28 : StableHlo.TRef sig ⟨S8192x256, .f32⟩) (.of main_call2_cst : StableHlo.TRef sig ⟨S_, .f32⟩) (.of main_call2_v0 : StableHlo.TRef sig ⟨S256, .f32⟩) (fun x v => Host.reduceAdd x v reducesTo_S8192x256_S256_d0 h_S_),
    StableHlo.TRef.unary (.of main_call2_v0 : StableHlo.TRef sig ⟨S256, .f32⟩) (.of main_call2_v1 : StableHlo.TRef sig ⟨S1x256, .f32⟩) (broadcastInDim S1x256 ![1] bcast_S256_S1x256_1),
    StableHlo.TRef.nullary (.of main_call2_cst_0 : StableHlo.TRef sig ⟨S_, .f32⟩) (constant S_ .f32 0x46000000#32),
    StableHlo.TRef.unary (.of main_call2_cst_0 : StableHlo.TRef sig ⟨S_, .f32⟩) (.of main_call2_v2 : StableHlo.TRef sig ⟨S1x256, .f32⟩) (broadcastInDim S1x256 ![] bcast_S_S1x256),
    StableHlo.TRef.binary (.of main_call2_v1 : StableHlo.TRef sig ⟨S1x256, .f32⟩) (.of main_call2_v2 : StableHlo.TRef sig ⟨S1x256, .f32⟩) (.of main_call2_v3 : StableHlo.TRef sig ⟨S1x256, .f32⟩) Host.divf,
    StableHlo.TRef.unary (.of main_call2_v3 : StableHlo.TRef sig ⟨S1x256, .f32⟩) (.of main_call2_v4 : StableHlo.TRef sig ⟨S8192x256, .f32⟩) (broadcastInDim S8192x256 ![0, 1] bcast_S1x256_S8192x256_0_1),
    StableHlo.TRef.binary (.of main_v28 : StableHlo.TRef sig ⟨S8192x256, .f32⟩) (.of main_call2_v4 : StableHlo.TRef sig ⟨S8192x256, .f32⟩) (.of main_call2_v5 : StableHlo.TRef sig ⟨S8192x256, .f32⟩) subf,
    StableHlo.TRef.binary (.of main_call2_v5 : StableHlo.TRef sig ⟨S8192x256, .f32⟩) (.of main_call2_v5 : StableHlo.TRef sig ⟨S8192x256, .f32⟩) (.of main_call2_v6 : StableHlo.TRef sig ⟨S8192x256, .f32⟩) mulf,
    StableHlo.TRef.unary (.of main_c_4 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x46000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8192x256, .f32⟩) (.of main_call2_cst_2 : StableHlo.TRef sig ⟨S_, .f32⟩) (.of main_call2_v9 : StableHlo.TRef sig ⟨S256, .f32⟩) (fun x v => Host.reduceAdd x v reducesTo_S8192x256_S256_d0 h_S_),
    StableHlo.TRef.unary (.of main_call2_v8 : StableHlo.TRef sig ⟨S_, .f32⟩) (.of main_call2_v10 : StableHlo.TRef sig ⟨S256, .f32⟩) (broadcastInDim S256 ![] bcast_S_S256),
    StableHlo.TRef.binary (.of main_call2_v9 : StableHlo.TRef sig ⟨S256, .f32⟩) (.of main_call2_v10 : StableHlo.TRef sig ⟨S256, .f32⟩) (.of main_call2_v11 : StableHlo.TRef sig ⟨S256, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S256, .f32⟩) (broadcastInDim S256 ![] bcast_S_S256),
    StableHlo.TRef.ternary (.of main_call2_v12 : StableHlo.TRef sig ⟨S_, .i1⟩) (.of main_call2_v11 : StableHlo.TRef sig ⟨S256, .f32⟩) (.of main_call2_call0_v1 : StableHlo.TRef sig ⟨S256, .f32⟩) (.of main_v32 : StableHlo.TRef sig ⟨S256, .f32⟩) (fun p a b => select (broadcastInDim S256 ![] bcast_S_S256 p) a b),
    StableHlo.unary main_v31 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S8192x256 ![0, 1] bcast_S1x256_S8192x256_0_1 : (⟨S1x256, .f32⟩ : BufTy).Contents (Elt F) → (⟨S8192x256, .f32⟩ : BufTy).Contents (Elt F)),
    StableHlo.binary main_v28 main_v34 main_v35 (subf : (⟨S8192x256, .f32⟩ : BufTy).Contents (Elt F) → (⟨S8192x256, .f32⟩ : BufTy).Contents (Elt F) → (⟨S8192x256, .f32⟩ : BufTy).Contents (Elt F)),
    StableHlo.unary main_arg9 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S8192x256 ![0, 1] bcast_S1x256_S8192x256_0_1 : (⟨S1x256, .f32⟩ : BufTy).Contents (Elt F) → (⟨S8192x256, .f32⟩ : BufTy).Contents (Elt F)),
    StableHlo.binary main_v37 main_v35 main_v38 (mulf : (⟨S8192x256, .f32⟩ : BufTy).Contents (Elt F) → (⟨S8192x256, .f32⟩ : BufTy).Contents (Elt F) → (⟨S8192x256, .f32⟩ : BufTy).Contents (Elt F)),
    StableHlo.nullary main_cst_5 (constant S_ .f32 0x3727C5AC#32),
    StableHlo.unary main_cst_5 main_v39 (broadcastInDim S256 ![] bcast_S_S256 : (⟨S_, .f32⟩ : BufTy).Contents (Elt F) → (⟨S256, .f32⟩ : BufTy).Contents (Elt F)),
    StableHlo.binary main_v32 main_v39 main_v40 (addf : (⟨S256, .f32⟩ : BufTy).Contents (Elt F) → (⟨S256, .f32⟩ : BufTy).Contents (Elt F) → (⟨S256, .f32⟩ : BufTy).Contents (Elt F)),
    StableHlo.unary main_v40 main_v41 (Host.rsqrt : (⟨S256, .f32⟩ : BufTy).Contents (Elt F) → (⟨S256, .f32⟩ : BufTy).Contents (Elt F)),
    StableHlo.unary main_v41 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S8192x256 ![0, 1] bcast_S1x256_S8192x256_0_1 : (⟨S1x256, .f32⟩ : BufTy).Contents (Elt F) → (⟨S8192x256, .f32⟩ : BufTy).Contents (Elt F)),
    StableHlo.binary main_v38 main_v43 main_v44 (mulf : (⟨S8192x256, .f32⟩ : BufTy).Contents (Elt F) → (⟨S8192x256, .f32⟩ : BufTy).Contents (Elt F) → (⟨S8192x256, .f32⟩ : BufTy).Contents (Elt F)),
    StableHlo.unary main_arg10 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S8192x256 ![0, 1] bcast_S1x256_S8192x256_0_1 : (⟨S1x256, .f32⟩ : BufTy).Contents (Elt F) → (⟨S8192x256, .f32⟩ : BufTy).Contents (Elt F)),
    StableHlo.binary main_v44 main_v46 main_v47 (addf : (⟨S8192x256, .f32⟩ : BufTy).Contents (Elt F) → (⟨S8192x256, .f32⟩ : BufTy).Contents (Elt F) → (⟨S8192x256, .f32⟩ : BufTy).Contents (Elt F)),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8192x256, .f32⟩) (broadcastInDim S8192x256 ![] bcast_S_S8192x256),
    StableHlo.TRef.binary (.of main_v47 : StableHlo.TRef sig ⟨S8192x256, .f32⟩) (.of main_call3_v0 : StableHlo.TRef sig ⟨S8192x256, .f32⟩) (.of main_v48 : StableHlo.TRef sig ⟨S8192x256, .f32⟩) maximumf,
    StableHlo.binary main_arg1 main_v48 main_v49 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.binary main_v49 main_arg11 main_v50 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg12 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S8192x256 ![0, 1] bcast_S1x256_S8192x256_0_1 : (⟨S1x256, .f32⟩ : BufTy).Contents (Elt F) → (⟨S8192x256, .f32⟩ : BufTy).Contents (Elt F)),
    StableHlo.binary main_v50 main_v52 main_v53 (addf : (⟨S8192x256, .f32⟩ : BufTy).Contents (Elt F) → (⟨S8192x256, .f32⟩ : BufTy).Contents (Elt F) → (⟨S8192x256, .f32⟩ : BufTy).Contents (Elt F)),
    StableHlo.nullary main_cst_6 (constant S_ .f32 0x00000000#32),
    StableHlo.binary main_v53 main_cst_6 main_v54 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_7 (constant S_ .f32 0x46000000#32),
    StableHlo.unary main_cst_7 main_v55 (broadcastInDim S256 ![] bcast_S_S256 : (⟨S_, .f32⟩ : BufTy).Contents (Elt F) → (⟨S256, .f32⟩ : BufTy).Contents (Elt F)),
    StableHlo.binary main_v54 main_v55 main_v56 (Host.divf : (⟨S256, .f32⟩ : BufTy).Contents (Elt F) → (⟨S256, .f32⟩ : BufTy).Contents (Elt F) → (⟨S256, .f32⟩ : BufTy).Contents (Elt F)),
    StableHlo.nullary main_c_8 (constantI S_ 32 0#32),
    StableHlo.TRef.nullary (.of main_call4_cst : StableHlo.TRef sig ⟨S_, .f32⟩) (constant S_ .f32 0x00000000#32),
    StableHlo.TRef.binary (.of main_v53 : StableHlo.TRef sig ⟨S8192x256, .f32⟩) (.of main_call4_cst : StableHlo.TRef sig ⟨S_, .f32⟩) (.of main_call4_v0 : StableHlo.TRef sig ⟨S256, .f32⟩) (fun x v => Host.reduceAdd x v reducesTo_S8192x256_S256_d0 h_S_),
    StableHlo.TRef.unary (.of main_call4_v0 : StableHlo.TRef sig ⟨S256, .f32⟩) (.of main_call4_v1 : StableHlo.TRef sig ⟨S1x256, .f32⟩) (broadcastInDim S1x256 ![1] bcast_S256_S1x256_1),
    StableHlo.TRef.nullary (.of main_call4_cst_0 : StableHlo.TRef sig ⟨S_, .f32⟩) (constant S_ .f32 0x46000000#32),
    StableHlo.TRef.unary (.of main_call4_cst_0 : StableHlo.TRef sig ⟨S_, .f32⟩) (.of main_call4_v2 : StableHlo.TRef sig ⟨S1x256, .f32⟩) (broadcastInDim S1x256 ![] bcast_S_S1x256),
    StableHlo.TRef.binary (.of main_call4_v1 : StableHlo.TRef sig ⟨S1x256, .f32⟩) (.of main_call4_v2 : StableHlo.TRef sig ⟨S1x256, .f32⟩) (.of main_call4_v3 : StableHlo.TRef sig ⟨S1x256, .f32⟩) Host.divf,
    StableHlo.TRef.unary (.of main_call4_v3 : StableHlo.TRef sig ⟨S1x256, .f32⟩) (.of main_call4_v4 : StableHlo.TRef sig ⟨S8192x256, .f32⟩) (broadcastInDim S8192x256 ![0, 1] bcast_S1x256_S8192x256_0_1),
    StableHlo.TRef.binary (.of main_v53 : StableHlo.TRef sig ⟨S8192x256, .f32⟩) (.of main_call4_v4 : StableHlo.TRef sig ⟨S8192x256, .f32⟩) (.of main_call4_v5 : StableHlo.TRef sig ⟨S8192x256, .f32⟩) subf,
    StableHlo.TRef.binary (.of main_call4_v5 : StableHlo.TRef sig ⟨S8192x256, .f32⟩) (.of main_call4_v5 : StableHlo.TRef sig ⟨S8192x256, .f32⟩) (.of main_call4_v6 : StableHlo.TRef sig ⟨S8192x256, .f32⟩) mulf,
    StableHlo.TRef.unary (.of main_c_8 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x46000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S8192x256, .f32⟩) (.of main_call4_cst_2 : StableHlo.TRef sig ⟨S_, .f32⟩) (.of main_call4_v9 : StableHlo.TRef sig ⟨S256, .f32⟩) (fun x v => Host.reduceAdd x v reducesTo_S8192x256_S256_d0 h_S_),
    StableHlo.TRef.unary (.of main_call4_v8 : StableHlo.TRef sig ⟨S_, .f32⟩) (.of main_call4_v10 : StableHlo.TRef sig ⟨S256, .f32⟩) (broadcastInDim S256 ![] bcast_S_S256),
    StableHlo.TRef.binary (.of main_call4_v9 : StableHlo.TRef sig ⟨S256, .f32⟩) (.of main_call4_v10 : StableHlo.TRef sig ⟨S256, .f32⟩) (.of main_call4_v11 : StableHlo.TRef sig ⟨S256, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S256, .f32⟩) (broadcastInDim S256 ![] bcast_S_S256),
    StableHlo.TRef.ternary (.of main_call4_v12 : StableHlo.TRef sig ⟨S_, .i1⟩) (.of main_call4_v11 : StableHlo.TRef sig ⟨S256, .f32⟩) (.of main_call4_call0_v1 : StableHlo.TRef sig ⟨S256, .f32⟩) (.of main_v57 : StableHlo.TRef sig ⟨S256, .f32⟩) (fun p a b => select (broadcastInDim S256 ![] bcast_S_S256 p) a b),
    StableHlo.unary main_v56 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S8192x256 ![0, 1] bcast_S1x256_S8192x256_0_1 : (⟨S1x256, .f32⟩ : BufTy).Contents (Elt F) → (⟨S8192x256, .f32⟩ : BufTy).Contents (Elt F)),
    StableHlo.binary main_v53 main_v59 main_v60 (subf : (⟨S8192x256, .f32⟩ : BufTy).Contents (Elt F) → (⟨S8192x256, .f32⟩ : BufTy).Contents (Elt F) → (⟨S8192x256, .f32⟩ : BufTy).Contents (Elt F)),
    StableHlo.unary main_arg13 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S8192x256 ![0, 1] bcast_S1x256_S8192x256_0_1 : (⟨S1x256, .f32⟩ : BufTy).Contents (Elt F) → (⟨S8192x256, .f32⟩ : BufTy).Contents (Elt F)),
    StableHlo.binary main_v62 main_v60 main_v63 (mulf : (⟨S8192x256, .f32⟩ : BufTy).Contents (Elt F) → (⟨S8192x256, .f32⟩ : BufTy).Contents (Elt F) → (⟨S8192x256, .f32⟩ : BufTy).Contents (Elt F)),
    StableHlo.nullary main_cst_9 (constant S_ .f32 0x3727C5AC#32),
    StableHlo.unary main_cst_9 main_v64 (broadcastInDim S256 ![] bcast_S_S256 : (⟨S_, .f32⟩ : BufTy).Contents (Elt F) → (⟨S256, .f32⟩ : BufTy).Contents (Elt F)),
    StableHlo.binary main_v57 main_v64 main_v65 (addf : (⟨S256, .f32⟩ : BufTy).Contents (Elt F) → (⟨S256, .f32⟩ : BufTy).Contents (Elt F) → (⟨S256, .f32⟩ : BufTy).Contents (Elt F)),
    StableHlo.unary main_v65 main_v66 (Host.rsqrt : (⟨S256, .f32⟩ : BufTy).Contents (Elt F) → (⟨S256, .f32⟩ : BufTy).Contents (Elt F)),
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S8192x256 ![0, 1] bcast_S1x256_S8192x256_0_1 : (⟨S1x256, .f32⟩ : BufTy).Contents (Elt F) → (⟨S8192x256, .f32⟩ : BufTy).Contents (Elt F)),
    StableHlo.binary main_v63 main_v68 main_v69 (mulf : (⟨S8192x256, .f32⟩ : BufTy).Contents (Elt F) → (⟨S8192x256, .f32⟩ : BufTy).Contents (Elt F) → (⟨S8192x256, .f32⟩ : BufTy).Contents (Elt F)),
    StableHlo.unary main_arg14 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S8192x256 ![0, 1] bcast_S1x256_S8192x256_0_1 : (⟨S1x256, .f32⟩ : BufTy).Contents (Elt F) → (⟨S8192x256, .f32⟩ : BufTy).Contents (Elt F)),
    StableHlo.binary main_v69 main_v71 main_v72 (addf : (⟨S8192x256, .f32⟩ : BufTy).Contents (Elt F) → (⟨S8192x256, .f32⟩ : BufTy).Contents (Elt F) → (⟨S8192x256, .f32⟩ : BufTy).Contents (Elt F)),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S8192x256, .f32⟩) (broadcastInDim S8192x256 ![] bcast_S_S8192x256),
    StableHlo.TRef.binary (.of main_v72 : StableHlo.TRef sig ⟨S8192x256, .f32⟩) (.of main_call5_v0 : StableHlo.TRef sig ⟨S8192x256, .f32⟩) (.of main_v73 : StableHlo.TRef sig ⟨S8192x256, .f32⟩) maximumf,
    StableHlo.binary main_v73 main_arg15 main_v74 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg16 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S8192x256 ![0, 1] bcast_S1x256_S8192x256_0_1 : (⟨S1x256, .f32⟩ : BufTy).Contents (Elt F) → (⟨S8192x256, .f32⟩ : BufTy).Contents (Elt F)),
    StableHlo.binary main_v74 main_v76 main_v77 (addf : (⟨S8192x256, .f32⟩ : BufTy).Contents (Elt F) → (⟨S8192x256, .f32⟩ : BufTy).Contents (Elt F) → (⟨S8192x256, .f32⟩ : BufTy).Contents (Elt F)),
    StableHlo.nullary main_cst_10 (constant S_ .f32 0x00000000#32),
    StableHlo.binary main_v77 main_cst_10 main_v78 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_11 (constant S_ .f32 0x46000000#32),
    StableHlo.unary main_cst_11 main_v79 (broadcastInDim S256 ![] bcast_S_S256 : (⟨S_, .f32⟩ : BufTy).Contents (Elt F) → (⟨S256, .f32⟩ : BufTy).Contents (Elt F)),
    StableHlo.binary main_v78 main_v79 main_v80 (Host.divf : (⟨S256, .f32⟩ : BufTy).Contents (Elt F) → (⟨S256, .f32⟩ : BufTy).Contents (Elt F) → (⟨S256, .f32⟩ : BufTy).Contents (Elt F)),
    StableHlo.nullary main_c_12 (constantI S_ 32 0#32),
    StableHlo.TRef.nullary (.of main_call6_cst : StableHlo.TRef sig ⟨S_, .f32⟩) (constant S_ .f32 0x00000000#32),
    StableHlo.TRef.binary (.of main_v77 : StableHlo.TRef sig ⟨S8192x256, .f32⟩) (.of main_call6_cst : StableHlo.TRef sig ⟨S_, .f32⟩) (.of main_call6_v0 : StableHlo.TRef sig ⟨S256, .f32⟩) (fun x v => Host.reduceAdd x v reducesTo_S8192x256_S256_d0 h_S_),
    StableHlo.TRef.unary (.of main_call6_v0 : StableHlo.TRef sig ⟨S256, .f32⟩) (.of main_call6_v1 : StableHlo.TRef sig ⟨S1x256, .f32⟩) (broadcastInDim S1x256 ![1] bcast_S256_S1x256_1),
    StableHlo.TRef.nullary (.of main_call6_cst_0 : StableHlo.TRef sig ⟨S_, .f32⟩) (constant S_ .f32 0x46000000#32),
    StableHlo.TRef.unary (.of main_call6_cst_0 : StableHlo.TRef sig ⟨S_, .f32⟩) (.of main_call6_v2 : StableHlo.TRef sig ⟨S1x256, .f32⟩) (broadcastInDim S1x256 ![] bcast_S_S1x256),
    StableHlo.TRef.binary (.of main_call6_v1 : StableHlo.TRef sig ⟨S1x256, .f32⟩) (.of main_call6_v2 : StableHlo.TRef sig ⟨S1x256, .f32⟩) (.of main_call6_v3 : StableHlo.TRef sig ⟨S1x256, .f32⟩) Host.divf,
    StableHlo.TRef.unary (.of main_call6_v3 : StableHlo.TRef sig ⟨S1x256, .f32⟩) (.of main_call6_v4 : StableHlo.TRef sig ⟨S8192x256, .f32⟩) (broadcastInDim S8192x256 ![0, 1] bcast_S1x256_S8192x256_0_1),
    StableHlo.TRef.binary (.of main_v77 : StableHlo.TRef sig ⟨S8192x256, .f32⟩) (.of main_call6_v4 : StableHlo.TRef sig ⟨S8192x256, .f32⟩) (.of main_call6_v5 : StableHlo.TRef sig ⟨S8192x256, .f32⟩) subf,
    StableHlo.TRef.binary (.of main_call6_v5 : StableHlo.TRef sig ⟨S8192x256, .f32⟩) (.of main_call6_v5 : StableHlo.TRef sig ⟨S8192x256, .f32⟩) (.of main_call6_v6 : StableHlo.TRef sig ⟨S8192x256, .f32⟩) mulf,
    StableHlo.TRef.unary (.of main_c_12 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x46000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S8192x256, .f32⟩) (.of main_call6_cst_2 : StableHlo.TRef sig ⟨S_, .f32⟩) (.of main_call6_v9 : StableHlo.TRef sig ⟨S256, .f32⟩) (fun x v => Host.reduceAdd x v reducesTo_S8192x256_S256_d0 h_S_),
    StableHlo.TRef.unary (.of main_call6_v8 : StableHlo.TRef sig ⟨S_, .f32⟩) (.of main_call6_v10 : StableHlo.TRef sig ⟨S256, .f32⟩) (broadcastInDim S256 ![] bcast_S_S256),
    StableHlo.TRef.binary (.of main_call6_v9 : StableHlo.TRef sig ⟨S256, .f32⟩) (.of main_call6_v10 : StableHlo.TRef sig ⟨S256, .f32⟩) (.of main_call6_v11 : StableHlo.TRef sig ⟨S256, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S256, .f32⟩) (broadcastInDim S256 ![] bcast_S_S256),
    StableHlo.TRef.ternary (.of main_call6_v12 : StableHlo.TRef sig ⟨S_, .i1⟩) (.of main_call6_v11 : StableHlo.TRef sig ⟨S256, .f32⟩) (.of main_call6_call0_v1 : StableHlo.TRef sig ⟨S256, .f32⟩) (.of main_v81 : StableHlo.TRef sig ⟨S256, .f32⟩) (fun p a b => select (broadcastInDim S256 ![] bcast_S_S256 p) a b),
    StableHlo.unary main_v80 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S8192x256 ![0, 1] bcast_S1x256_S8192x256_0_1 : (⟨S1x256, .f32⟩ : BufTy).Contents (Elt F) → (⟨S8192x256, .f32⟩ : BufTy).Contents (Elt F)),
    StableHlo.binary main_v77 main_v83 main_v84 (subf : (⟨S8192x256, .f32⟩ : BufTy).Contents (Elt F) → (⟨S8192x256, .f32⟩ : BufTy).Contents (Elt F) → (⟨S8192x256, .f32⟩ : BufTy).Contents (Elt F)),
    StableHlo.unary main_arg17 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S8192x256 ![0, 1] bcast_S1x256_S8192x256_0_1 : (⟨S1x256, .f32⟩ : BufTy).Contents (Elt F) → (⟨S8192x256, .f32⟩ : BufTy).Contents (Elt F)),
    StableHlo.binary main_v86 main_v84 main_v87 (mulf : (⟨S8192x256, .f32⟩ : BufTy).Contents (Elt F) → (⟨S8192x256, .f32⟩ : BufTy).Contents (Elt F) → (⟨S8192x256, .f32⟩ : BufTy).Contents (Elt F)),
    StableHlo.nullary main_cst_13 (constant S_ .f32 0x3727C5AC#32),
    StableHlo.unary main_cst_13 main_v88 (broadcastInDim S256 ![] bcast_S_S256 : (⟨S_, .f32⟩ : BufTy).Contents (Elt F) → (⟨S256, .f32⟩ : BufTy).Contents (Elt F)),
    StableHlo.binary main_v81 main_v88 main_v89 (addf : (⟨S256, .f32⟩ : BufTy).Contents (Elt F) → (⟨S256, .f32⟩ : BufTy).Contents (Elt F) → (⟨S256, .f32⟩ : BufTy).Contents (Elt F)),
    StableHlo.unary main_v89 main_v90 (Host.rsqrt : (⟨S256, .f32⟩ : BufTy).Contents (Elt F) → (⟨S256, .f32⟩ : BufTy).Contents (Elt F)),
    StableHlo.unary main_v90 main_v91 (broadcastInDim S1x256 ![1] bcast_S256_S1x256_1 : (⟨S256, .f32⟩ : BufTy).Contents (Elt F) → (⟨S1x256, .f32⟩ : BufTy).Contents (Elt F)),
    StableHlo.unary main_v91 main_v92 (broadcastInDim S8192x256 ![0, 1] bcast_S1x256_S8192x256_0_1 : (⟨S1x256, .f32⟩ : BufTy).Contents (Elt F) → (⟨S8192x256, .f32⟩ : BufTy).Contents (Elt F)),
    StableHlo.binary main_v87 main_v92 main_v93 (mulf : (⟨S8192x256, .f32⟩ : BufTy).Contents (Elt F) → (⟨S8192x256, .f32⟩ : BufTy).Contents (Elt F) → (⟨S8192x256, .f32⟩ : BufTy).Contents (Elt F)),
    StableHlo.unary main_arg18 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S8192x256 ![0, 1] bcast_S1x256_S8192x256_0_1 : (⟨S1x256, .f32⟩ : BufTy).Contents (Elt F) → (⟨S8192x256, .f32⟩ : BufTy).Contents (Elt F)),
    StableHlo.binary main_v93 main_v95 main_v96 (addf : (⟨S8192x256, .f32⟩ : BufTy).Contents (Elt F) → (⟨S8192x256, .f32⟩ : BufTy).Contents (Elt F) → (⟨S8192x256, .f32⟩ : BufTy).Contents (Elt F)),
    StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S8192x256, .f32⟩) (broadcastInDim S8192x256 ![] bcast_S_S8192x256),
    StableHlo.TRef.binary (.of main_v96 : StableHlo.TRef sig ⟨S8192x256, .f32⟩) (.of main_call7_v0 : StableHlo.TRef sig ⟨S8192x256, .f32⟩) (.of main_v97 : StableHlo.TRef sig ⟨S8192x256, .f32⟩) maximumf,
    StableHlo.binary main_arg2 main_v97 main_v98 ((fun l r => Host.dotGeneral dot_S64x8192_S8192x256_S64x256_1_0_0_1_n_n none l r) : (⟨S64x8192, .f32⟩ : BufTy).Contents (Elt F) → (⟨S8192x256, .f32⟩ : BufTy).Contents (Elt F) → (⟨S64x256, .f32⟩ : BufTy).Contents (Elt F)) ]

set_option maxRecDepth 8192 in
set_option maxHeartbeats 4000000 in
/-- @main is that line: both sides are the same chain of steps once the two halves of @main, the callees' bodies and
    the calls' buffer records are unfolded. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## The line in stretches

The same list cut into 19 consecutive stretches: one per call, and @main's own operations between the calls cut
where a layer's aggregation and linear map begin and end. -/

/-- An operation's one written buffer is in a list of references: what a builder writes is the singleton of its result. -/
local macro "written_in" : tactic =>
  `(tactic| (simp only [nullary_writes, unary_writes, binary_writes, ternary_writes, Finset.singleton_subset_iff, List.mem_toFinset]
             exact List.mem_map_of_mem (by decide)))

/-- The first layer's aggregation and linear map: `%arg1 · %arg0`, that times `%arg3`, and `%arg4` broadcast over the rows and added (`%0 … %4`). -/
abbrev refOps0 : List (HloOp τ sig (Elt F)) :=
  [ StableHlo.binary main_arg1 main_arg0 main_v0 ((fun l r => Host.dotGeneral dot_S8192x8192_S8192x128_S8192x128_1_0_0_1_n_n none l r) : (⟨S8192x8192, .f32⟩ : BufTy).Contents (Elt F) → (⟨S8192x128, .f32⟩ : BufTy).Contents (Elt F) → (⟨S8192x128, .f32⟩ : BufTy).Contents (Elt F)),
    StableHlo.binary main_v0 main_arg3 main_v1 ((fun l r => Host.dotGeneral dot_S8192x128_S128x256_S8192x256_1_0_0_1_n_n none l r) : (⟨S8192x128, .f32⟩ : BufTy).Contents (Elt F) → (⟨S128x256, .f32⟩ : BufTy).Contents (Elt F) → (⟨S8192x256, .f32⟩ : BufTy).Contents (Elt F)),
    StableHlo.unary main_arg4 main_v2 (broadcastInDim S1x256 ![1] bcast_S256_S1x256_1 : (⟨S256, .f32⟩ : BufTy).Contents (Elt F) → (⟨S1x256, .f32⟩ : BufTy).Contents (Elt F)),
    StableHlo.unary main_v2 main_v3 (broadcastInDim S8192x256 ![0, 1] bcast_S1x256_S8192x256_0_1 : (⟨S1x256, .f32⟩ : BufTy).Contents (Elt F) → (⟨S8192x256, .f32⟩ : BufTy).Contents (Elt F)),
    StableHlo.binary main_v1 main_v3 main_v4 (addf : (⟨S8192x256, .f32⟩ : BufTy).Contents (Elt F) → (⟨S8192x256, .f32⟩ : BufTy).Contents (Elt F) → (⟨S8192x256, .f32⟩ : BufTy).Contents (Elt F)) ]
theorem refOps0_sub : (refOps0 : List (HloOp τ sig (Elt F))).Forall fun op => op.bufs ⊆ tcRefs τ sig :=
  ⟨binary_bufs_sub .., binary_bufs_sub .., unary_bufs_sub .., unary_bufs_sub .., binary_bufs_sub ..⟩
theorem refOps0_fresh : (refOps0 : List (HloOp τ sig (Elt F))).Forall fun op => op.fresh = ∅ := by
  simp only [List.Forall]; repeat' constructor
/-- The buffers `refOps0` writes. -/
abbrev refOps0_W : List (Ref sig .tc) := [main_v0, main_v1, main_v2, main_v3, main_v4]
theorem refOps0_writes : (refOps0 : List (HloOp τ sig (Elt F))).Forall fun op => op.writes ⊆ (refOps0_W.map (Proc.devRef (τ := τ) .tc)).toFinset := by
  simp only [List.Forall]; repeat' apply And.intro
  all_goals written_in
/-- A buffer `refOps0` does not write keeps its contents through it. -/
theorem refOps0_keep (V : Valuation τ sig (Elt F)) (r : Ref sig .tc) (h : r ∉ refOps0_W) :
    after refOps0 V (Proc.devRef .tc r) = V (Proc.devRef .tc r) :=
  after_of_writes_sub refOps0 V refOps0_writes h

/-- The column sums of `%4` over its 8192 rows divided by 8192: its column means `%7` (`%cst … %7`); and the zero `%c` its variance is taken with. -/
abbrev refOps1 : List (HloOp τ sig (Elt F)) :=
  [ StableHlo.nullary main_cst (constant S_ .f32 0x00000000#32),
    StableHlo.binary main_v4 main_cst main_v5 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_0 (constant S_ .f32 0x46000000#32),
    StableHlo.unary main_cst_0 main_v6 (broadcastInDim S256 ![] bcast_S_S256 : (⟨S_, .f32⟩ : BufTy).Contents (Elt F) → (⟨S256, .f32⟩ : BufTy).Contents (Elt F)),
    StableHlo.binary main_v5 main_v6 main_v7 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32) ]
theorem refOps1_sub : (refOps1 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem refOps1_fresh : (refOps1 : List (HloOp τ sig (Elt F))).Forall fun op => op.fresh = ∅ := by
  simp only [List.Forall]; repeat' constructor
/-- The buffers `refOps1` writes. -/
abbrev refOps1_W : List (Ref sig .tc) := [main_cst, main_v5, main_cst_0, main_v6, main_v7, main_c]
theorem refOps1_writes : (refOps1 : List (HloOp τ sig (Elt F))).Forall fun op => op.writes ⊆ (refOps1_W.map (Proc.devRef (τ := τ) .tc)).toFinset := by
  simp only [List.Forall]; repeat' apply And.intro
  all_goals written_in
/-- A buffer `refOps1` does not write keeps its contents through it. -/
theorem refOps1_keep (V : Valuation τ sig (Elt F)) (r : Ref sig .tc) (h : r ∉ refOps1_W) :
    after refOps1 V (Proc.devRef .tc r) = V (Proc.devRef .tc r) :=
  after_of_writes_sub refOps1 V refOps1_writes h

/-- The column variances of `%4` (@_var at its first call, @_where inside it): the means again, the squared deviations summed over the rows and divided by `8192 - 0`, that quotient kept where the divisor is positive and NaN elsewhere (`%8`). -/
abbrev refOps2 : List (HloOp τ sig (Elt F)) :=
  [ StableHlo.TRef.nullary (.of main_call0_cst : StableHlo.TRef sig ⟨S_, .f32⟩) (constant S_ .f32 0x00000000#32),
    StableHlo.TRef.binary (.of main_v4 : StableHlo.TRef sig ⟨S8192x256, .f32⟩) (.of main_call0_cst : StableHlo.TRef sig ⟨S_, .f32⟩) (.of main_call0_v0 : StableHlo.TRef sig ⟨S256, .f32⟩) (fun x v => Host.reduceAdd x v reducesTo_S8192x256_S256_d0 h_S_),
    StableHlo.TRef.unary (.of main_call0_v0 : StableHlo.TRef sig ⟨S256, .f32⟩) (.of main_call0_v1 : StableHlo.TRef sig ⟨S1x256, .f32⟩) (broadcastInDim S1x256 ![1] bcast_S256_S1x256_1),
    StableHlo.TRef.nullary (.of main_call0_cst_0 : StableHlo.TRef sig ⟨S_, .f32⟩) (constant S_ .f32 0x46000000#32),
    StableHlo.TRef.unary (.of main_call0_cst_0 : StableHlo.TRef sig ⟨S_, .f32⟩) (.of main_call0_v2 : StableHlo.TRef sig ⟨S1x256, .f32⟩) (broadcastInDim S1x256 ![] bcast_S_S1x256),
    StableHlo.TRef.binary (.of main_call0_v1 : StableHlo.TRef sig ⟨S1x256, .f32⟩) (.of main_call0_v2 : StableHlo.TRef sig ⟨S1x256, .f32⟩) (.of main_call0_v3 : StableHlo.TRef sig ⟨S1x256, .f32⟩) Host.divf,
    StableHlo.TRef.unary (.of main_call0_v3 : StableHlo.TRef sig ⟨S1x256, .f32⟩) (.of main_call0_v4 : StableHlo.TRef sig ⟨S8192x256, .f32⟩) (broadcastInDim S8192x256 ![0, 1] bcast_S1x256_S8192x256_0_1),
    StableHlo.TRef.binary (.of main_v4 : StableHlo.TRef sig ⟨S8192x256, .f32⟩) (.of main_call0_v4 : StableHlo.TRef sig ⟨S8192x256, .f32⟩) (.of main_call0_v5 : StableHlo.TRef sig ⟨S8192x256, .f32⟩) subf,
    StableHlo.TRef.binary (.of main_call0_v5 : StableHlo.TRef sig ⟨S8192x256, .f32⟩) (.of main_call0_v5 : StableHlo.TRef sig ⟨S8192x256, .f32⟩) (.of main_call0_v6 : StableHlo.TRef sig ⟨S8192x256, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x46000000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S8192x256, .f32⟩) (.of main_call0_cst_2 : StableHlo.TRef sig ⟨S_, .f32⟩) (.of main_call0_v9 : StableHlo.TRef sig ⟨S256, .f32⟩) (fun x v => Host.reduceAdd x v reducesTo_S8192x256_S256_d0 h_S_),
    StableHlo.TRef.unary (.of main_call0_v8 : StableHlo.TRef sig ⟨S_, .f32⟩) (.of main_call0_v10 : StableHlo.TRef sig ⟨S256, .f32⟩) (broadcastInDim S256 ![] bcast_S_S256),
    StableHlo.TRef.binary (.of main_call0_v9 : StableHlo.TRef sig ⟨S256, .f32⟩) (.of main_call0_v10 : StableHlo.TRef sig ⟨S256, .f32⟩) (.of main_call0_v11 : StableHlo.TRef sig ⟨S256, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v12 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S256, .f32⟩) (broadcastInDim S256 ![] bcast_S_S256),
    StableHlo.TRef.ternary (.of main_call0_v12 : StableHlo.TRef sig ⟨S_, .i1⟩) (.of main_call0_v11 : StableHlo.TRef sig ⟨S256, .f32⟩) (.of main_call0_call0_v1 : StableHlo.TRef sig ⟨S256, .f32⟩) (.of main_v8 : StableHlo.TRef sig ⟨S256, .f32⟩) (fun p a b => select (broadcastInDim S256 ![] bcast_S_S256 p) a b) ]
theorem refOps2_sub : (refOps2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem refOps2_fresh : (refOps2 : List (HloOp τ sig (Elt F))).Forall fun op => op.fresh = ∅ := by
  simp only [List.Forall]; repeat' constructor
/-- The buffers `refOps2` writes. -/
abbrev refOps2_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v8]
theorem refOps2_writes : (refOps2 : List (HloOp τ sig (Elt F))).Forall fun op => op.writes ⊆ (refOps2_W.map (Proc.devRef (τ := τ) .tc)).toFinset := by
  simp only [List.Forall]; repeat' apply And.intro
  all_goals written_in
/-- A buffer `refOps2` does not write keeps its contents through it. -/
theorem refOps2_keep (V : Valuation τ sig (Elt F)) (r : Ref sig .tc) (h : r ∉ refOps2_W) :
    after refOps2 V (Proc.devRef .tc r) = V (Proc.devRef .tc r) :=
  after_of_writes_sub refOps2 V refOps2_writes h

/-- The normalisation of `%4`: the means subtracted, times `%arg5`, times the reciprocal square root of the variances plus `1e-5`, plus `%arg6` (`%9 … %23`). -/
abbrev refOps3 : List (HloOp τ sig (Elt F)) :=
  [ StableHlo.unary main_v7 main_v9 (broadcastInDim S1x256 ![1] bcast_S256_S1x256_1 : (⟨S256, .f32⟩ : BufTy).Contents (Elt F) → (⟨S1x256, .f32⟩ : BufTy).Contents (Elt F)),
    StableHlo.unary main_v9 main_v10 (broadcastInDim S8192x256 ![0, 1] bcast_S1x256_S8192x256_0_1 : (⟨S1x256, .f32⟩ : BufTy).Contents (Elt F) → (⟨S8192x256, .f32⟩ : BufTy).Contents (Elt F)),
    StableHlo.binary main_v4 main_v10 main_v11 (subf : (⟨S8192x256, .f32⟩ : BufTy).Contents (Elt F) → (⟨S8192x256, .f32⟩ : BufTy).Contents (Elt F) → (⟨S8192x256, .f32⟩ : BufTy).Contents (Elt F)),
    StableHlo.unary main_arg5 main_v12 (broadcastInDim S1x256 ![1] bcast_S256_S1x256_1 : (⟨S256, .f32⟩ : BufTy).Contents (Elt F) → (⟨S1x256, .f32⟩ : BufTy).Contents (Elt F)),
    StableHlo.unary main_v12 main_v13 (broadcastInDim S8192x256 ![0, 1] bcast_S1x256_S8192x256_0_1 : (⟨S1x256, .f32⟩ : BufTy).Contents (Elt F) → (⟨S8192x256, .f32⟩ : BufTy).Contents (Elt F)),
    StableHlo.binary main_v13 main_v11 main_v14 (mulf : (⟨S8192x256, .f32⟩ : BufTy).Contents (Elt F) → (⟨S8192x256, .f32⟩ : BufTy).Contents (Elt F) → (⟨S8192x256, .f32⟩ : BufTy).Contents (Elt F)),
    StableHlo.nullary main_cst_1 (constant S_ .f32 0x3727C5AC#32),
    StableHlo.unary main_cst_1 main_v15 (broadcastInDim S256 ![] bcast_S_S256 : (⟨S_, .f32⟩ : BufTy).Contents (Elt F) → (⟨S256, .f32⟩ : BufTy).Contents (Elt F)),
    StableHlo.binary main_v8 main_v15 main_v16 (addf : (⟨S256, .f32⟩ : BufTy).Contents (Elt F) → (⟨S256, .f32⟩ : BufTy).Contents (Elt F) → (⟨S256, .f32⟩ : BufTy).Contents (Elt F)),
    StableHlo.unary main_v16 main_v17 (Host.rsqrt : (⟨S256, .f32⟩ : BufTy).Contents (Elt F) → (⟨S256, .f32⟩ : BufTy).Contents (Elt F)),
    StableHlo.unary main_v17 main_v18 (broadcastInDim S1x256 ![1] bcast_S256_S1x256_1 : (⟨S256, .f32⟩ : BufTy).Contents (Elt F) → (⟨S1x256, .f32⟩ : BufTy).Contents (Elt F)),
    StableHlo.unary main_v18 main_v19 (broadcastInDim S8192x256 ![0, 1] bcast_S1x256_S8192x256_0_1 : (⟨S1x256, .f32⟩ : BufTy).Contents (Elt F) → (⟨S8192x256, .f32⟩ : BufTy).Contents (Elt F)),
    StableHlo.binary main_v14 main_v19 main_v20 (mulf : (⟨S8192x256, .f32⟩ : BufTy).Contents (Elt F) → (⟨S8192x256, .f32⟩ : BufTy).Contents (Elt F) → (⟨S8192x256, .f32⟩ : BufTy).Contents (Elt F)),
    StableHlo.unary main_arg6 main_v21 (broadcastInDim S1x256 ![1] bcast_S256_S1x256_1 : (⟨S256, .f32⟩ : BufTy).Contents (Elt F) → (⟨S1x256, .f32⟩ : BufTy).Contents (Elt F)),
    StableHlo.unary main_v21 main_v22 (broadcastInDim S8192x256 ![0, 1] bcast_S1x256_S8192x256_0_1 : (⟨S1x256, .f32⟩ : BufTy).Contents (Elt F) → (⟨S8192x256, .f32⟩ : BufTy).Contents (Elt F)),
    StableHlo.binary main_v20 main_v22 main_v23 (addf : (⟨S8192x256, .f32⟩ : BufTy).Contents (Elt F) → (⟨S8192x256, .f32⟩ : BufTy).Contents (Elt F) → (⟨S8192x256, .f32⟩ : BufTy).Contents (Elt F)) ]
theorem refOps3_sub : (refOps3 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem refOps3_fresh : (refOps3 : List (HloOp τ sig (Elt F))).Forall fun op => op.fresh = ∅ := by
  simp only [List.Forall]; repeat' constructor
/-- The buffers `refOps3` writes. -/
abbrev refOps3_W : List (Ref sig .tc) := [main_v9, main_v10, main_v11, main_v12, main_v13, main_v14, main_cst_1, main_v15, main_v16, main_v17, main_v18, main_v19, main_v20, main_v21, main_v22, main_v23]
theorem refOps3_writes : (refOps3 : List (HloOp τ sig (Elt F))).Forall fun op => op.writes ⊆ (refOps3_W.map (Proc.devRef (τ := τ) .tc)).toFinset := by
  simp only [List.Forall]; repeat' apply And.intro
  all_goals written_in
/-- A buffer `refOps3` does not write keeps its contents through it. -/
theorem refOps3_keep (V : Valuation τ sig (Elt F)) (r : Ref sig .tc) (h : r ∉ refOps3_W) :
    after refOps3 V (Proc.devRef .tc r) = V (Proc.devRef .tc r) :=
  after_of_writes_sub refOps3 V refOps3_writes h

/-- `%24`: the maximum of `%23` and zero (@relu at its first call). -/
abbrev refOps4 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S8192x256, .f32⟩) (broadcastInDim S8192x256 ![] bcast_S_S8192x256),
    StableHlo.TRef.binary (.of main_v23 : StableHlo.TRef sig ⟨S8192x256, .f32⟩) (.of main_call1_v0 : StableHlo.TRef sig ⟨S8192x256, .f32⟩) (.of main_v24 : StableHlo.TRef sig ⟨S8192x256, .f32⟩) maximumf ]
theorem refOps4_sub : (refOps4 : List (HloOp τ sig (Elt F))).Forall fun op => op.bufs ⊆ tcRefs τ sig :=
  ⟨nullary_bufs_sub .., unary_bufs_sub .., binary_bufs_sub ..⟩
theorem refOps4_fresh : (refOps4 : List (HloOp τ sig (Elt F))).Forall fun op => op.fresh = ∅ := by
  simp only [List.Forall]; repeat' constructor
/-- The buffers `refOps4` writes. -/
abbrev refOps4_W : List (Ref sig .tc) := [main_call1_cst, main_call1_v0, main_v24]
theorem refOps4_writes : (refOps4 : List (HloOp τ sig (Elt F))).Forall fun op => op.writes ⊆ (refOps4_W.map (Proc.devRef (τ := τ) .tc)).toFinset := by
  simp only [List.Forall]; repeat' apply And.intro
  all_goals written_in
/-- A buffer `refOps4` does not write keeps its contents through it. -/
theorem refOps4_keep (V : Valuation τ sig (Elt F)) (r : Ref sig .tc) (h : r ∉ refOps4_W) :
    after refOps4 V (Proc.devRef .tc r) = V (Proc.devRef .tc r) :=
  after_of_writes_sub refOps4 V refOps4_writes h

/-- The linear map `%24 · %arg7` with `%arg8` broadcast and added (`%25 … %28`), its column means `%31` (`%cst_2 … %31`) and the zero `%c_4`. -/
abbrev refOps5 : List (HloOp τ sig (Elt F)) :=
  [ StableHlo.binary main_v24 main_arg7 main_v25 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg8 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S8192x256 ![0, 1] bcast_S1x256_S8192x256_0_1 : (⟨S1x256, .f32⟩ : BufTy).Contents (Elt F) → (⟨S8192x256, .f32⟩ : BufTy).Contents (Elt F)),
    StableHlo.binary main_v25 main_v27 main_v28 (addf : (⟨S8192x256, .f32⟩ : BufTy).Contents (Elt F) → (⟨S8192x256, .f32⟩ : BufTy).Contents (Elt F) → (⟨S8192x256, .f32⟩ : BufTy).Contents (Elt F)),
    StableHlo.nullary main_cst_2 (constant S_ .f32 0x00000000#32),
    StableHlo.binary main_v28 main_cst_2 main_v29 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_3 (constant S_ .f32 0x46000000#32),
    StableHlo.unary main_cst_3 main_v30 (broadcastInDim S256 ![] bcast_S_S256 : (⟨S_, .f32⟩ : BufTy).Contents (Elt F) → (⟨S256, .f32⟩ : BufTy).Contents (Elt F)),
    StableHlo.binary main_v29 main_v30 main_v31 (Host.divf : (⟨S256, .f32⟩ : BufTy).Contents (Elt F) → (⟨S256, .f32⟩ : BufTy).Contents (Elt F) → (⟨S256, .f32⟩ : BufTy).Contents (Elt F)),
    StableHlo.nullary main_c_4 (constantI S_ 32 0#32) ]
theorem refOps5_sub : (refOps5 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub ..⟩
theorem refOps5_fresh : (refOps5 : List (HloOp τ sig (Elt F))).Forall fun op => op.fresh = ∅ := by
  simp only [List.Forall]; repeat' constructor
/-- The buffers `refOps5` writes. -/
abbrev refOps5_W : List (Ref sig .tc) := [main_v25, main_v26, main_v27, main_v28, main_cst_2, main_v29, main_cst_3, main_v30, main_v31, main_c_4]
theorem refOps5_writes : (refOps5 : List (HloOp τ sig (Elt F))).Forall fun op => op.writes ⊆ (refOps5_W.map (Proc.devRef (τ := τ) .tc)).toFinset := by
  simp only [List.Forall]; repeat' apply And.intro
  all_goals written_in
/-- A buffer `refOps5` does not write keeps its contents through it. -/
theorem refOps5_keep (V : Valuation τ sig (Elt F)) (r : Ref sig .tc) (h : r ∉ refOps5_W) :
    after refOps5 V (Proc.devRef .tc r) = V (Proc.devRef .tc r) :=
  after_of_writes_sub refOps5 V refOps5_writes h

/-- The column variances of `%28` (@_var at its second call): `%32`. -/
abbrev refOps6 : List (HloOp τ sig (Elt F)) :=
  [ StableHlo.TRef.nullary (.of main_call2_cst : StableHlo.TRef sig ⟨S_, .f32⟩) (constant S_ .f32 0x00000000#32),
    StableHlo.TRef.binary (.of main_v28 : StableHlo.TRef sig ⟨S8192x256, .f32⟩) (.of main_call2_cst : StableHlo.TRef sig ⟨S_, .f32⟩) (.of main_call2_v0 : StableHlo.TRef sig ⟨S256, .f32⟩) (fun x v => Host.reduceAdd x v reducesTo_S8192x256_S256_d0 h_S_),
    StableHlo.TRef.unary (.of main_call2_v0 : StableHlo.TRef sig ⟨S256, .f32⟩) (.of main_call2_v1 : StableHlo.TRef sig ⟨S1x256, .f32⟩) (broadcastInDim S1x256 ![1] bcast_S256_S1x256_1),
    StableHlo.TRef.nullary (.of main_call2_cst_0 : StableHlo.TRef sig ⟨S_, .f32⟩) (constant S_ .f32 0x46000000#32),
    StableHlo.TRef.unary (.of main_call2_cst_0 : StableHlo.TRef sig ⟨S_, .f32⟩) (.of main_call2_v2 : StableHlo.TRef sig ⟨S1x256, .f32⟩) (broadcastInDim S1x256 ![] bcast_S_S1x256),
    StableHlo.TRef.binary (.of main_call2_v1 : StableHlo.TRef sig ⟨S1x256, .f32⟩) (.of main_call2_v2 : StableHlo.TRef sig ⟨S1x256, .f32⟩) (.of main_call2_v3 : StableHlo.TRef sig ⟨S1x256, .f32⟩) Host.divf,
    StableHlo.TRef.unary (.of main_call2_v3 : StableHlo.TRef sig ⟨S1x256, .f32⟩) (.of main_call2_v4 : StableHlo.TRef sig ⟨S8192x256, .f32⟩) (broadcastInDim S8192x256 ![0, 1] bcast_S1x256_S8192x256_0_1),
    StableHlo.TRef.binary (.of main_v28 : StableHlo.TRef sig ⟨S8192x256, .f32⟩) (.of main_call2_v4 : StableHlo.TRef sig ⟨S8192x256, .f32⟩) (.of main_call2_v5 : StableHlo.TRef sig ⟨S8192x256, .f32⟩) subf,
    StableHlo.TRef.binary (.of main_call2_v5 : StableHlo.TRef sig ⟨S8192x256, .f32⟩) (.of main_call2_v5 : StableHlo.TRef sig ⟨S8192x256, .f32⟩) (.of main_call2_v6 : StableHlo.TRef sig ⟨S8192x256, .f32⟩) mulf,
    StableHlo.TRef.unary (.of main_c_4 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x46000000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S8192x256, .f32⟩) (.of main_call2_cst_2 : StableHlo.TRef sig ⟨S_, .f32⟩) (.of main_call2_v9 : StableHlo.TRef sig ⟨S256, .f32⟩) (fun x v => Host.reduceAdd x v reducesTo_S8192x256_S256_d0 h_S_),
    StableHlo.TRef.unary (.of main_call2_v8 : StableHlo.TRef sig ⟨S_, .f32⟩) (.of main_call2_v10 : StableHlo.TRef sig ⟨S256, .f32⟩) (broadcastInDim S256 ![] bcast_S_S256),
    StableHlo.TRef.binary (.of main_call2_v9 : StableHlo.TRef sig ⟨S256, .f32⟩) (.of main_call2_v10 : StableHlo.TRef sig ⟨S256, .f32⟩) (.of main_call2_v11 : StableHlo.TRef sig ⟨S256, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v12 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S256, .f32⟩) (broadcastInDim S256 ![] bcast_S_S256),
    StableHlo.TRef.ternary (.of main_call2_v12 : StableHlo.TRef sig ⟨S_, .i1⟩) (.of main_call2_v11 : StableHlo.TRef sig ⟨S256, .f32⟩) (.of main_call2_call0_v1 : StableHlo.TRef sig ⟨S256, .f32⟩) (.of main_v32 : StableHlo.TRef sig ⟨S256, .f32⟩) (fun p a b => select (broadcastInDim S256 ![] bcast_S_S256 p) a b) ]
theorem refOps6_sub : (refOps6 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem refOps6_fresh : (refOps6 : List (HloOp τ sig (Elt F))).Forall fun op => op.fresh = ∅ := by
  simp only [List.Forall]; repeat' constructor
/-- The buffers `refOps6` writes. -/
abbrev refOps6_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v32]
theorem refOps6_writes : (refOps6 : List (HloOp τ sig (Elt F))).Forall fun op => op.writes ⊆ (refOps6_W.map (Proc.devRef (τ := τ) .tc)).toFinset := by
  simp only [List.Forall]; repeat' apply And.intro
  all_goals written_in
/-- A buffer `refOps6` does not write keeps its contents through it. -/
theorem refOps6_keep (V : Valuation τ sig (Elt F)) (r : Ref sig .tc) (h : r ∉ refOps6_W) :
    after refOps6 V (Proc.devRef .tc r) = V (Proc.devRef .tc r) :=
  after_of_writes_sub refOps6 V refOps6_writes h

/-- The normalisation of `%28` with `%arg9`, `%arg10` (`%33 … %47`). -/
abbrev refOps7 : List (HloOp τ sig (Elt F)) :=
  [ StableHlo.unary main_v31 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S8192x256 ![0, 1] bcast_S1x256_S8192x256_0_1 : (⟨S1x256, .f32⟩ : BufTy).Contents (Elt F) → (⟨S8192x256, .f32⟩ : BufTy).Contents (Elt F)),
    StableHlo.binary main_v28 main_v34 main_v35 (subf : (⟨S8192x256, .f32⟩ : BufTy).Contents (Elt F) → (⟨S8192x256, .f32⟩ : BufTy).Contents (Elt F) → (⟨S8192x256, .f32⟩ : BufTy).Contents (Elt F)),
    StableHlo.unary main_arg9 main_v36 (broadcastInDim S1x256 ![1] bcast_S256_S1x256_1 : (⟨S256, .f32⟩ : BufTy).Contents (Elt F) → (⟨S1x256, .f32⟩ : BufTy).Contents (Elt F)),
    StableHlo.unary main_v36 main_v37 (broadcastInDim S8192x256 ![0, 1] bcast_S1x256_S8192x256_0_1 : (⟨S1x256, .f32⟩ : BufTy).Contents (Elt F) → (⟨S8192x256, .f32⟩ : BufTy).Contents (Elt F)),
    StableHlo.binary main_v37 main_v35 main_v38 (mulf : (⟨S8192x256, .f32⟩ : BufTy).Contents (Elt F) → (⟨S8192x256, .f32⟩ : BufTy).Contents (Elt F) → (⟨S8192x256, .f32⟩ : BufTy).Contents (Elt F)),
    StableHlo.nullary main_cst_5 (constant S_ .f32 0x3727C5AC#32),
    StableHlo.unary main_cst_5 main_v39 (broadcastInDim S256 ![] bcast_S_S256 : (⟨S_, .f32⟩ : BufTy).Contents (Elt F) → (⟨S256, .f32⟩ : BufTy).Contents (Elt F)),
    StableHlo.binary main_v32 main_v39 main_v40 (addf : (⟨S256, .f32⟩ : BufTy).Contents (Elt F) → (⟨S256, .f32⟩ : BufTy).Contents (Elt F) → (⟨S256, .f32⟩ : BufTy).Contents (Elt F)),
    StableHlo.unary main_v40 main_v41 (Host.rsqrt : (⟨S256, .f32⟩ : BufTy).Contents (Elt F) → (⟨S256, .f32⟩ : BufTy).Contents (Elt F)),
    StableHlo.unary main_v41 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S8192x256 ![0, 1] bcast_S1x256_S8192x256_0_1 : (⟨S1x256, .f32⟩ : BufTy).Contents (Elt F) → (⟨S8192x256, .f32⟩ : BufTy).Contents (Elt F)),
    StableHlo.binary main_v38 main_v43 main_v44 (mulf : (⟨S8192x256, .f32⟩ : BufTy).Contents (Elt F) → (⟨S8192x256, .f32⟩ : BufTy).Contents (Elt F) → (⟨S8192x256, .f32⟩ : BufTy).Contents (Elt F)),
    StableHlo.unary main_arg10 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S8192x256 ![0, 1] bcast_S1x256_S8192x256_0_1 : (⟨S1x256, .f32⟩ : BufTy).Contents (Elt F) → (⟨S8192x256, .f32⟩ : BufTy).Contents (Elt F)),
    StableHlo.binary main_v44 main_v46 main_v47 (addf : (⟨S8192x256, .f32⟩ : BufTy).Contents (Elt F) → (⟨S8192x256, .f32⟩ : BufTy).Contents (Elt F) → (⟨S8192x256, .f32⟩ : BufTy).Contents (Elt F)) ]
theorem refOps7_sub : (refOps7 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem refOps7_fresh : (refOps7 : List (HloOp τ sig (Elt F))).Forall fun op => op.fresh = ∅ := by
  simp only [List.Forall]; repeat' constructor
/-- The buffers `refOps7` writes. -/
abbrev refOps7_W : List (Ref sig .tc) := [main_v33, main_v34, main_v35, main_v36, main_v37, main_v38, main_cst_5, main_v39, main_v40, main_v41, main_v42, main_v43, main_v44, main_v45, main_v46, main_v47]
theorem refOps7_writes : (refOps7 : List (HloOp τ sig (Elt F))).Forall fun op => op.writes ⊆ (refOps7_W.map (Proc.devRef (τ := τ) .tc)).toFinset := by
  simp only [List.Forall]; repeat' apply And.intro
  all_goals written_in
/-- A buffer `refOps7` does not write keeps its contents through it. -/
theorem refOps7_keep (V : Valuation τ sig (Elt F)) (r : Ref sig .tc) (h : r ∉ refOps7_W) :
    after refOps7 V (Proc.devRef .tc r) = V (Proc.devRef .tc r) :=
  after_of_writes_sub refOps7 V refOps7_writes h

/-- `%48`: the maximum of `%47` and zero (@relu at its second call). -/
abbrev refOps8 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S8192x256, .f32⟩) (broadcastInDim S8192x256 ![] bcast_S_S8192x256),
    StableHlo.TRef.binary (.of main_v47 : StableHlo.TRef sig ⟨S8192x256, .f32⟩) (.of main_call3_v0 : StableHlo.TRef sig ⟨S8192x256, .f32⟩) (.of main_v48 : StableHlo.TRef sig ⟨S8192x256, .f32⟩) maximumf ]
theorem refOps8_sub : (refOps8 : List (HloOp τ sig (Elt F))).Forall fun op => op.bufs ⊆ tcRefs τ sig :=
  ⟨nullary_bufs_sub .., unary_bufs_sub .., binary_bufs_sub ..⟩
theorem refOps8_fresh : (refOps8 : List (HloOp τ sig (Elt F))).Forall fun op => op.fresh = ∅ := by
  simp only [List.Forall]; repeat' constructor
/-- The buffers `refOps8` writes. -/
abbrev refOps8_W : List (Ref sig .tc) := [main_call3_cst, main_call3_v0, main_v48]
theorem refOps8_writes : (refOps8 : List (HloOp τ sig (Elt F))).Forall fun op => op.writes ⊆ (refOps8_W.map (Proc.devRef (τ := τ) .tc)).toFinset := by
  simp only [List.Forall]; repeat' apply And.intro
  all_goals written_in
/-- A buffer `refOps8` does not write keeps its contents through it. -/
theorem refOps8_keep (V : Valuation τ sig (Elt F)) (r : Ref sig .tc) (h : r ∉ refOps8_W) :
    after refOps8 V (Proc.devRef .tc r) = V (Proc.devRef .tc r) :=
  after_of_writes_sub refOps8 V refOps8_writes h

/-- The second layer's aggregation and linear map: `%arg1 · %48`, that times `%arg11`, and `%arg12` broadcast over the rows and added (`%49 … %53`). -/
abbrev refOps9 : List (HloOp τ sig (Elt F)) :=
  [ StableHlo.binary main_arg1 main_v48 main_v49 ((fun l r => Host.dotGeneral dot_S8192x8192_S8192x256_S8192x256_1_0_0_1_n_n none l r) : (⟨S8192x8192, .f32⟩ : BufTy).Contents (Elt F) → (⟨S8192x256, .f32⟩ : BufTy).Contents (Elt F) → (⟨S8192x256, .f32⟩ : BufTy).Contents (Elt F)),
    StableHlo.binary main_v49 main_arg11 main_v50 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg12 main_v51 (broadcastInDim S1x256 ![1] bcast_S256_S1x256_1 : (⟨S256, .f32⟩ : BufTy).Contents (Elt F) → (⟨S1x256, .f32⟩ : BufTy).Contents (Elt F)),
    StableHlo.unary main_v51 main_v52 (broadcastInDim S8192x256 ![0, 1] bcast_S1x256_S8192x256_0_1 : (⟨S1x256, .f32⟩ : BufTy).Contents (Elt F) → (⟨S8192x256, .f32⟩ : BufTy).Contents (Elt F)),
    StableHlo.binary main_v50 main_v52 main_v53 (addf : (⟨S8192x256, .f32⟩ : BufTy).Contents (Elt F) → (⟨S8192x256, .f32⟩ : BufTy).Contents (Elt F) → (⟨S8192x256, .f32⟩ : BufTy).Contents (Elt F)) ]
theorem refOps9_sub : (refOps9 : List (HloOp τ sig (Elt F))).Forall fun op => op.bufs ⊆ tcRefs τ sig :=
  ⟨binary_bufs_sub .., binary_bufs_sub .., unary_bufs_sub .., unary_bufs_sub .., binary_bufs_sub ..⟩
theorem refOps9_fresh : (refOps9 : List (HloOp τ sig (Elt F))).Forall fun op => op.fresh = ∅ := by
  simp only [List.Forall]; repeat' constructor
/-- The buffers `refOps9` writes. -/
abbrev refOps9_W : List (Ref sig .tc) := [main_v49, main_v50, main_v51, main_v52, main_v53]
theorem refOps9_writes : (refOps9 : List (HloOp τ sig (Elt F))).Forall fun op => op.writes ⊆ (refOps9_W.map (Proc.devRef (τ := τ) .tc)).toFinset := by
  simp only [List.Forall]; repeat' apply And.intro
  all_goals written_in
/-- A buffer `refOps9` does not write keeps its contents through it. -/
theorem refOps9_keep (V : Valuation τ sig (Elt F)) (r : Ref sig .tc) (h : r ∉ refOps9_W) :
    after refOps9 V (Proc.devRef .tc r) = V (Proc.devRef .tc r) :=
  after_of_writes_sub refOps9 V refOps9_writes h

/-- The column means `%56` of `%53` (`%cst_6 … %56`) and the zero `%c_8`. -/
abbrev refOps10 : List (HloOp τ sig (Elt F)) :=
  [ StableHlo.nullary main_cst_6 (constant S_ .f32 0x00000000#32),
    StableHlo.binary main_v53 main_cst_6 main_v54 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_7 (constant S_ .f32 0x46000000#32),
    StableHlo.unary main_cst_7 main_v55 (broadcastInDim S256 ![] bcast_S_S256 : (⟨S_, .f32⟩ : BufTy).Contents (Elt F) → (⟨S256, .f32⟩ : BufTy).Contents (Elt F)),
    StableHlo.binary main_v54 main_v55 main_v56 (Host.divf : (⟨S256, .f32⟩ : BufTy).Contents (Elt F) → (⟨S256, .f32⟩ : BufTy).Contents (Elt F) → (⟨S256, .f32⟩ : BufTy).Contents (Elt F)),
    StableHlo.nullary main_c_8 (constantI S_ 32 0#32) ]
theorem refOps10_sub : (refOps10 : List (HloOp τ sig (Elt F))).Forall fun op => op.bufs ⊆ tcRefs τ sig :=
  ⟨nullary_bufs_sub .., binary_bufs_sub .., nullary_bufs_sub .., unary_bufs_sub .., binary_bufs_sub .., nullary_bufs_sub ..⟩
theorem refOps10_fresh : (refOps10 : List (HloOp τ sig (Elt F))).Forall fun op => op.fresh = ∅ := by
  simp only [List.Forall]; repeat' constructor
/-- The buffers `refOps10` writes. -/
abbrev refOps10_W : List (Ref sig .tc) := [main_cst_6, main_v54, main_cst_7, main_v55, main_v56, main_c_8]
theorem refOps10_writes : (refOps10 : List (HloOp τ sig (Elt F))).Forall fun op => op.writes ⊆ (refOps10_W.map (Proc.devRef (τ := τ) .tc)).toFinset := by
  simp only [List.Forall]; repeat' apply And.intro
  all_goals written_in
/-- A buffer `refOps10` does not write keeps its contents through it. -/
theorem refOps10_keep (V : Valuation τ sig (Elt F)) (r : Ref sig .tc) (h : r ∉ refOps10_W) :
    after refOps10 V (Proc.devRef .tc r) = V (Proc.devRef .tc r) :=
  after_of_writes_sub refOps10 V refOps10_writes h

/-- The column variances of `%53` (@_var at its third call): `%57`. -/
abbrev refOps11 : List (HloOp τ sig (Elt F)) :=
  [ StableHlo.TRef.nullary (.of main_call4_cst : StableHlo.TRef sig ⟨S_, .f32⟩) (constant S_ .f32 0x00000000#32),
    StableHlo.TRef.binary (.of main_v53 : StableHlo.TRef sig ⟨S8192x256, .f32⟩) (.of main_call4_cst : StableHlo.TRef sig ⟨S_, .f32⟩) (.of main_call4_v0 : StableHlo.TRef sig ⟨S256, .f32⟩) (fun x v => Host.reduceAdd x v reducesTo_S8192x256_S256_d0 h_S_),
    StableHlo.TRef.unary (.of main_call4_v0 : StableHlo.TRef sig ⟨S256, .f32⟩) (.of main_call4_v1 : StableHlo.TRef sig ⟨S1x256, .f32⟩) (broadcastInDim S1x256 ![1] bcast_S256_S1x256_1),
    StableHlo.TRef.nullary (.of main_call4_cst_0 : StableHlo.TRef sig ⟨S_, .f32⟩) (constant S_ .f32 0x46000000#32),
    StableHlo.TRef.unary (.of main_call4_cst_0 : StableHlo.TRef sig ⟨S_, .f32⟩) (.of main_call4_v2 : StableHlo.TRef sig ⟨S1x256, .f32⟩) (broadcastInDim S1x256 ![] bcast_S_S1x256),
    StableHlo.TRef.binary (.of main_call4_v1 : StableHlo.TRef sig ⟨S1x256, .f32⟩) (.of main_call4_v2 : StableHlo.TRef sig ⟨S1x256, .f32⟩) (.of main_call4_v3 : StableHlo.TRef sig ⟨S1x256, .f32⟩) Host.divf,
    StableHlo.TRef.unary (.of main_call4_v3 : StableHlo.TRef sig ⟨S1x256, .f32⟩) (.of main_call4_v4 : StableHlo.TRef sig ⟨S8192x256, .f32⟩) (broadcastInDim S8192x256 ![0, 1] bcast_S1x256_S8192x256_0_1),
    StableHlo.TRef.binary (.of main_v53 : StableHlo.TRef sig ⟨S8192x256, .f32⟩) (.of main_call4_v4 : StableHlo.TRef sig ⟨S8192x256, .f32⟩) (.of main_call4_v5 : StableHlo.TRef sig ⟨S8192x256, .f32⟩) subf,
    StableHlo.TRef.binary (.of main_call4_v5 : StableHlo.TRef sig ⟨S8192x256, .f32⟩) (.of main_call4_v5 : StableHlo.TRef sig ⟨S8192x256, .f32⟩) (.of main_call4_v6 : StableHlo.TRef sig ⟨S8192x256, .f32⟩) mulf,
    StableHlo.TRef.unary (.of main_c_8 : StableHlo.TRef sig ⟨S_, .i32⟩) (.of main_call4_v7 : StableHlo.TRef sig ⟨S_, .f32⟩) (sitofp .f32),
    StableHlo.TRef.nullary (.of main_call4_cst_1 : StableHlo.TRef sig ⟨S_, .f32⟩) (constant S_ .f32 0x46000000#32),
    StableHlo.TRef.binary (.of main_call4_cst_1 : StableHlo.TRef sig ⟨S_, .f32⟩) (.of main_call4_v7 : StableHlo.TRef sig ⟨S_, .f32⟩) (.of main_call4_v8 : StableHlo.TRef sig ⟨S_, .f32⟩) subf,
    StableHlo.TRef.nullary (.of main_call4_cst_2 : StableHlo.TRef sig ⟨S_, .f32⟩) (constant S_ .f32 0x00000000#32),
    StableHlo.TRef.binary (.of main_call4_v6 : StableHlo.TRef sig ⟨S8192x256, .f32⟩) (.of main_call4_cst_2 : StableHlo.TRef sig ⟨S_, .f32⟩) (.of main_call4_v9 : StableHlo.TRef sig ⟨S256, .f32⟩) (fun x v => Host.reduceAdd x v reducesTo_S8192x256_S256_d0 h_S_),
    StableHlo.TRef.unary (.of main_call4_v8 : StableHlo.TRef sig ⟨S_, .f32⟩) (.of main_call4_v10 : StableHlo.TRef sig ⟨S256, .f32⟩) (broadcastInDim S256 ![] bcast_S_S256),
    StableHlo.TRef.binary (.of main_call4_v9 : StableHlo.TRef sig ⟨S256, .f32⟩) (.of main_call4_v10 : StableHlo.TRef sig ⟨S256, .f32⟩) (.of main_call4_v11 : StableHlo.TRef sig ⟨S256, .f32⟩) Host.divf,
    StableHlo.TRef.nullary (.of main_call4_cst_3 : StableHlo.TRef sig ⟨S_, .f32⟩) (constant S_ .f32 0x00000000#32),
    StableHlo.TRef.binary (.of main_call4_v8 : StableHlo.TRef sig ⟨S_, .f32⟩) (.of main_call4_cst_3 : StableHlo.TRef sig ⟨S_, .f32⟩) (.of main_call4_v12 : StableHlo.TRef sig ⟨S_, .i1⟩) (cmpf .ogt),
    StableHlo.TRef.nullary (.of main_call4_cst_4 : StableHlo.TRef sig ⟨S_, .f32⟩) (constant S_ .f32 0x7FC00000#32),
    StableHlo.TRef.unary (.of main_call4_cst_4 : StableHlo.TRef sig ⟨S_, .f32⟩) (.of main_call4_call0_v0 : StableHlo.TRef sig ⟨S_, .f32⟩) id,
    StableHlo.TRef.unary (.of main_call4_call0_v0 : StableHlo.TRef sig ⟨S_, .f32⟩) (.of main_call4_call0_v1 : StableHlo.TRef sig ⟨S256, .f32⟩) (broadcastInDim S256 ![] bcast_S_S256),
    StableHlo.TRef.ternary (.of main_call4_v12 : StableHlo.TRef sig ⟨S_, .i1⟩) (.of main_call4_v11 : StableHlo.TRef sig ⟨S256, .f32⟩) (.of main_call4_call0_v1 : StableHlo.TRef sig ⟨S256, .f32⟩) (.of main_v57 : StableHlo.TRef sig ⟨S256, .f32⟩) (fun p a b => select (broadcastInDim S256 ![] bcast_S_S256 p) a b) ]
theorem refOps11_sub : (refOps11 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem refOps11_fresh : (refOps11 : List (HloOp τ sig (Elt F))).Forall fun op => op.fresh = ∅ := by
  simp only [List.Forall]; repeat' constructor
/-- The buffers `refOps11` writes. -/
abbrev refOps11_W : List (Ref sig .tc) := [main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v57]
theorem refOps11_writes : (refOps11 : List (HloOp τ sig (Elt F))).Forall fun op => op.writes ⊆ (refOps11_W.map (Proc.devRef (τ := τ) .tc)).toFinset := by
  simp only [List.Forall]; repeat' apply And.intro
  all_goals written_in
/-- A buffer `refOps11` does not write keeps its contents through it. -/
theorem refOps11_keep (V : Valuation τ sig (Elt F)) (r : Ref sig .tc) (h : r ∉ refOps11_W) :
    after refOps11 V (Proc.devRef .tc r) = V (Proc.devRef .tc r) :=
  after_of_writes_sub refOps11 V refOps11_writes h

/-- The normalisation of `%53` with `%arg13`, `%arg14` (`%58 … %72`). -/
abbrev refOps12 : List (HloOp τ sig (Elt F)) :=
  [ StableHlo.unary main_v56 main_v58 (broadcastInDim S1x256 ![1] bcast_S256_S1x256_1 : (⟨S256, .f32⟩ : BufTy).Contents (Elt F) → (⟨S1x256, .f32⟩ : BufTy).Contents (Elt F)),
    StableHlo.unary main_v58 main_v59 (broadcastInDim S8192x256 ![0, 1] bcast_S1x256_S8192x256_0_1 : (⟨S1x256, .f32⟩ : BufTy).Contents (Elt F) → (⟨S8192x256, .f32⟩ : BufTy).Contents (Elt F)),
    StableHlo.binary main_v53 main_v59 main_v60 (subf : (⟨S8192x256, .f32⟩ : BufTy).Contents (Elt F) → (⟨S8192x256, .f32⟩ : BufTy).Contents (Elt F) → (⟨S8192x256, .f32⟩ : BufTy).Contents (Elt F)),
    StableHlo.unary main_arg13 main_v61 (broadcastInDim S1x256 ![1] bcast_S256_S1x256_1 : (⟨S256, .f32⟩ : BufTy).Contents (Elt F) → (⟨S1x256, .f32⟩ : BufTy).Contents (Elt F)),
    StableHlo.unary main_v61 main_v62 (broadcastInDim S8192x256 ![0, 1] bcast_S1x256_S8192x256_0_1 : (⟨S1x256, .f32⟩ : BufTy).Contents (Elt F) → (⟨S8192x256, .f32⟩ : BufTy).Contents (Elt F)),
    StableHlo.binary main_v62 main_v60 main_v63 (mulf : (⟨S8192x256, .f32⟩ : BufTy).Contents (Elt F) → (⟨S8192x256, .f32⟩ : BufTy).Contents (Elt F) → (⟨S8192x256, .f32⟩ : BufTy).Contents (Elt F)),
    StableHlo.nullary main_cst_9 (constant S_ .f32 0x3727C5AC#32),
    StableHlo.unary main_cst_9 main_v64 (broadcastInDim S256 ![] bcast_S_S256 : (⟨S_, .f32⟩ : BufTy).Contents (Elt F) → (⟨S256, .f32⟩ : BufTy).Contents (Elt F)),
    StableHlo.binary main_v57 main_v64 main_v65 (addf : (⟨S256, .f32⟩ : BufTy).Contents (Elt F) → (⟨S256, .f32⟩ : BufTy).Contents (Elt F) → (⟨S256, .f32⟩ : BufTy).Contents (Elt F)),
    StableHlo.unary main_v65 main_v66 (Host.rsqrt : (⟨S256, .f32⟩ : BufTy).Contents (Elt F) → (⟨S256, .f32⟩ : BufTy).Contents (Elt F)),
    StableHlo.unary main_v66 main_v67 (broadcastInDim S1x256 ![1] bcast_S256_S1x256_1 : (⟨S256, .f32⟩ : BufTy).Contents (Elt F) → (⟨S1x256, .f32⟩ : BufTy).Contents (Elt F)),
    StableHlo.unary main_v67 main_v68 (broadcastInDim S8192x256 ![0, 1] bcast_S1x256_S8192x256_0_1 : (⟨S1x256, .f32⟩ : BufTy).Contents (Elt F) → (⟨S8192x256, .f32⟩ : BufTy).Contents (Elt F)),
    StableHlo.binary main_v63 main_v68 main_v69 (mulf : (⟨S8192x256, .f32⟩ : BufTy).Contents (Elt F) → (⟨S8192x256, .f32⟩ : BufTy).Contents (Elt F) → (⟨S8192x256, .f32⟩ : BufTy).Contents (Elt F)),
    StableHlo.unary main_arg14 main_v70 (broadcastInDim S1x256 ![1] bcast_S256_S1x256_1 : (⟨S256, .f32⟩ : BufTy).Contents (Elt F) → (⟨S1x256, .f32⟩ : BufTy).Contents (Elt F)),
    StableHlo.unary main_v70 main_v71 (broadcastInDim S8192x256 ![0, 1] bcast_S1x256_S8192x256_0_1 : (⟨S1x256, .f32⟩ : BufTy).Contents (Elt F) → (⟨S8192x256, .f32⟩ : BufTy).Contents (Elt F)),
    StableHlo.binary main_v69 main_v71 main_v72 (addf : (⟨S8192x256, .f32⟩ : BufTy).Contents (Elt F) → (⟨S8192x256, .f32⟩ : BufTy).Contents (Elt F) → (⟨S8192x256, .f32⟩ : BufTy).Contents (Elt F)) ]
theorem refOps12_sub : (refOps12 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem refOps12_fresh : (refOps12 : List (HloOp τ sig (Elt F))).Forall fun op => op.fresh = ∅ := by
  simp only [List.Forall]; repeat' constructor
/-- The buffers `refOps12` writes. -/
abbrev refOps12_W : List (Ref sig .tc) := [main_v58, main_v59, main_v60, main_v61, main_v62, main_v63, main_cst_9, main_v64, main_v65, main_v66, main_v67, main_v68, main_v69, main_v70, main_v71, main_v72]
theorem refOps12_writes : (refOps12 : List (HloOp τ sig (Elt F))).Forall fun op => op.writes ⊆ (refOps12_W.map (Proc.devRef (τ := τ) .tc)).toFinset := by
  simp only [List.Forall]; repeat' apply And.intro
  all_goals written_in
/-- A buffer `refOps12` does not write keeps its contents through it. -/
theorem refOps12_keep (V : Valuation τ sig (Elt F)) (r : Ref sig .tc) (h : r ∉ refOps12_W) :
    after refOps12 V (Proc.devRef .tc r) = V (Proc.devRef .tc r) :=
  after_of_writes_sub refOps12 V refOps12_writes h

/-- `%73`: the maximum of `%72` and zero (@relu at its third call). -/
abbrev refOps13 : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S8192x256, .f32⟩) (broadcastInDim S8192x256 ![] bcast_S_S8192x256),
    StableHlo.TRef.binary (.of main_v72 : StableHlo.TRef sig ⟨S8192x256, .f32⟩) (.of main_call5_v0 : StableHlo.TRef sig ⟨S8192x256, .f32⟩) (.of main_v73 : StableHlo.TRef sig ⟨S8192x256, .f32⟩) maximumf ]
theorem refOps13_sub : (refOps13 : List (HloOp τ sig (Elt F))).Forall fun op => op.bufs ⊆ tcRefs τ sig :=
  ⟨nullary_bufs_sub .., unary_bufs_sub .., binary_bufs_sub ..⟩
theorem refOps13_fresh : (refOps13 : List (HloOp τ sig (Elt F))).Forall fun op => op.fresh = ∅ := by
  simp only [List.Forall]; repeat' constructor
/-- The buffers `refOps13` writes. -/
abbrev refOps13_W : List (Ref sig .tc) := [main_call5_cst, main_call5_v0, main_v73]
theorem refOps13_writes : (refOps13 : List (HloOp τ sig (Elt F))).Forall fun op => op.writes ⊆ (refOps13_W.map (Proc.devRef (τ := τ) .tc)).toFinset := by
  simp only [List.Forall]; repeat' apply And.intro
  all_goals written_in
/-- A buffer `refOps13` does not write keeps its contents through it. -/
theorem refOps13_keep (V : Valuation τ sig (Elt F)) (r : Ref sig .tc) (h : r ∉ refOps13_W) :
    after refOps13 V (Proc.devRef .tc r) = V (Proc.devRef .tc r) :=
  after_of_writes_sub refOps13 V refOps13_writes h

/-- The linear map `%73 · %arg15` with `%arg16` broadcast and added (`%74 … %77`), its column means `%80` (`%cst_10 … %80`) and the zero `%c_12`. -/
abbrev refOps14 : List (HloOp τ sig (Elt F)) :=
  [ StableHlo.binary main_v73 main_arg15 main_v74 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F)),
    StableHlo.unary main_arg16 main_v75 (broadcastInDim S1x256 ![1] bcast_S256_S1x256_1 : (⟨S256, .f32⟩ : BufTy).Contents (Elt F) → (⟨S1x256, .f32⟩ : BufTy).Contents (Elt F)),
    StableHlo.unary main_v75 main_v76 (broadcastInDim S8192x256 ![0, 1] bcast_S1x256_S8192x256_0_1 : (⟨S1x256, .f32⟩ : BufTy).Contents (Elt F) → (⟨S8192x256, .f32⟩ : BufTy).Contents (Elt F)),
    StableHlo.binary main_v74 main_v76 main_v77 (addf : (⟨S8192x256, .f32⟩ : BufTy).Contents (Elt F) → (⟨S8192x256, .f32⟩ : BufTy).Contents (Elt F) → (⟨S8192x256, .f32⟩ : BufTy).Contents (Elt F)),
    StableHlo.nullary main_cst_10 (constant S_ .f32 0x00000000#32),
    StableHlo.binary main_v77 main_cst_10 main_v78 ((fun x v => Host.reduceAdd x v reducesTo_S8192x256_S256_d0 h_S_) : (⟨S8192x256, .f32⟩ : BufTy).Contents (Elt F) → (⟨S_, .f32⟩ : BufTy).Contents (Elt F) → (⟨S256, .f32⟩ : BufTy).Contents (Elt F)),
    StableHlo.nullary main_cst_11 (constant S_ .f32 0x46000000#32),
    StableHlo.unary main_cst_11 main_v79 (broadcastInDim S256 ![] bcast_S_S256 : (⟨S_, .f32⟩ : BufTy).Contents (Elt F) → (⟨S256, .f32⟩ : BufTy).Contents (Elt F)),
    StableHlo.binary main_v78 main_v79 main_v80 (Host.divf : (⟨S256, .f32⟩ : BufTy).Contents (Elt F) → (⟨S256, .f32⟩ : BufTy).Contents (Elt F) → (⟨S256, .f32⟩ : BufTy).Contents (Elt F)),
    StableHlo.nullary main_c_12 (constantI S_ 32 0#32) ]
theorem refOps14_sub : (refOps14 : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., nullary_bufs_sub ..⟩
theorem refOps14_fresh : (refOps14 : List (HloOp τ sig (Elt F))).Forall fun op => op.fresh = ∅ := by
  simp only [List.Forall]; repeat' constructor
/-- The buffers `refOps14` writes. -/
abbrev refOps14_W : List (Ref sig .tc) := [main_v74, main_v75, main_v76, main_v77, main_cst_10, main_v78, main_cst_11, main_v79, main_v80, main_c_12]
theorem refOps14_writes : (refOps14 : List (HloOp τ sig (Elt F))).Forall fun op => op.writes ⊆ (refOps14_W.map (Proc.devRef (τ := τ) .tc)).toFinset := by
  simp only [List.Forall]; repeat' apply And.intro
  all_goals written_in
/-- A buffer `refOps14` does not write keeps its contents through it. -/
theorem refOps14_keep (V : Valuation τ sig (Elt F)) (r : Ref sig .tc) (h : r ∉ refOps14_W) :
    after refOps14 V (Proc.devRef .tc r) = V (Proc.devRef .tc r) :=
  after_of_writes_sub refOps14 V refOps14_writes h

/-- The column variances of `%77` (@_var at its fourth call): `%81`. -/
abbrev refOps15 : List (HloOp τ sig (Elt F)) :=
  [ StableHlo.TRef.nullary (.of main_call6_cst : StableHlo.TRef sig ⟨S_, .f32⟩) (constant S_ .f32 0x00000000#32),
    StableHlo.TRef.binary (.of main_v77 : StableHlo.TRef sig ⟨S8192x256, .f32⟩) (.of main_call6_cst : StableHlo.TRef sig ⟨S_, .f32⟩) (.of main_call6_v0 : StableHlo.TRef sig ⟨S256, .f32⟩) (fun x v => Host.reduceAdd x v reducesTo_S8192x256_S256_d0 h_S_),
    StableHlo.TRef.unary (.of main_call6_v0 : StableHlo.TRef sig ⟨S256, .f32⟩) (.of main_call6_v1 : StableHlo.TRef sig ⟨S1x256, .f32⟩) (broadcastInDim S1x256 ![1] bcast_S256_S1x256_1),
    StableHlo.TRef.nullary (.of main_call6_cst_0 : StableHlo.TRef sig ⟨S_, .f32⟩) (constant S_ .f32 0x46000000#32),
    StableHlo.TRef.unary (.of main_call6_cst_0 : StableHlo.TRef sig ⟨S_, .f32⟩) (.of main_call6_v2 : StableHlo.TRef sig ⟨S1x256, .f32⟩) (broadcastInDim S1x256 ![] bcast_S_S1x256),
    StableHlo.TRef.binary (.of main_call6_v1 : StableHlo.TRef sig ⟨S1x256, .f32⟩) (.of main_call6_v2 : StableHlo.TRef sig ⟨S1x256, .f32⟩) (.of main_call6_v3 : StableHlo.TRef sig ⟨S1x256, .f32⟩) Host.divf,
    StableHlo.TRef.unary (.of main_call6_v3 : StableHlo.TRef sig ⟨S1x256, .f32⟩) (.of main_call6_v4 : StableHlo.TRef sig ⟨S8192x256, .f32⟩) (broadcastInDim S8192x256 ![0, 1] bcast_S1x256_S8192x256_0_1),
    StableHlo.TRef.binary (.of main_v77 : StableHlo.TRef sig ⟨S8192x256, .f32⟩) (.of main_call6_v4 : StableHlo.TRef sig ⟨S8192x256, .f32⟩) (.of main_call6_v5 : StableHlo.TRef sig ⟨S8192x256, .f32⟩) subf,
    StableHlo.TRef.binary (.of main_call6_v5 : StableHlo.TRef sig ⟨S8192x256, .f32⟩) (.of main_call6_v5 : StableHlo.TRef sig ⟨S8192x256, .f32⟩) (.of main_call6_v6 : StableHlo.TRef sig ⟨S8192x256, .f32⟩) mulf,
    StableHlo.TRef.unary (.of main_c_12 : StableHlo.TRef sig ⟨S_, .i32⟩) (.of main_call6_v7 : StableHlo.TRef sig ⟨S_, .f32⟩) (sitofp .f32),
    StableHlo.TRef.nullary (.of main_call6_cst_1 : StableHlo.TRef sig ⟨S_, .f32⟩) (constant S_ .f32 0x46000000#32),
    StableHlo.TRef.binary (.of main_call6_cst_1 : StableHlo.TRef sig ⟨S_, .f32⟩) (.of main_call6_v7 : StableHlo.TRef sig ⟨S_, .f32⟩) (.of main_call6_v8 : StableHlo.TRef sig ⟨S_, .f32⟩) subf,
    StableHlo.TRef.nullary (.of main_call6_cst_2 : StableHlo.TRef sig ⟨S_, .f32⟩) (constant S_ .f32 0x00000000#32),
    StableHlo.TRef.binary (.of main_call6_v6 : StableHlo.TRef sig ⟨S8192x256, .f32⟩) (.of main_call6_cst_2 : StableHlo.TRef sig ⟨S_, .f32⟩) (.of main_call6_v9 : StableHlo.TRef sig ⟨S256, .f32⟩) (fun x v => Host.reduceAdd x v reducesTo_S8192x256_S256_d0 h_S_),
    StableHlo.TRef.unary (.of main_call6_v8 : StableHlo.TRef sig ⟨S_, .f32⟩) (.of main_call6_v10 : StableHlo.TRef sig ⟨S256, .f32⟩) (broadcastInDim S256 ![] bcast_S_S256),
    StableHlo.TRef.binary (.of main_call6_v9 : StableHlo.TRef sig ⟨S256, .f32⟩) (.of main_call6_v10 : StableHlo.TRef sig ⟨S256, .f32⟩) (.of main_call6_v11 : StableHlo.TRef sig ⟨S256, .f32⟩) Host.divf,
    StableHlo.TRef.nullary (.of main_call6_cst_3 : StableHlo.TRef sig ⟨S_, .f32⟩) (constant S_ .f32 0x00000000#32),
    StableHlo.TRef.binary (.of main_call6_v8 : StableHlo.TRef sig ⟨S_, .f32⟩) (.of main_call6_cst_3 : StableHlo.TRef sig ⟨S_, .f32⟩) (.of main_call6_v12 : StableHlo.TRef sig ⟨S_, .i1⟩) (cmpf .ogt),
    StableHlo.TRef.nullary (.of main_call6_cst_4 : StableHlo.TRef sig ⟨S_, .f32⟩) (constant S_ .f32 0x7FC00000#32),
    StableHlo.TRef.unary (.of main_call6_cst_4 : StableHlo.TRef sig ⟨S_, .f32⟩) (.of main_call6_call0_v0 : StableHlo.TRef sig ⟨S_, .f32⟩) id,
    StableHlo.TRef.unary (.of main_call6_call0_v0 : StableHlo.TRef sig ⟨S_, .f32⟩) (.of main_call6_call0_v1 : StableHlo.TRef sig ⟨S256, .f32⟩) (broadcastInDim S256 ![] bcast_S_S256),
    StableHlo.TRef.ternary (.of main_call6_v12 : StableHlo.TRef sig ⟨S_, .i1⟩) (.of main_call6_v11 : StableHlo.TRef sig ⟨S256, .f32⟩) (.of main_call6_call0_v1 : StableHlo.TRef sig ⟨S256, .f32⟩) (.of main_v81 : StableHlo.TRef sig ⟨S256, .f32⟩) (fun p a b => select (broadcastInDim S256 ![] bcast_S_S256 p) a b) ]
theorem refOps15_sub : (refOps15 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩
theorem refOps15_fresh : (refOps15 : List (HloOp τ sig (Elt F))).Forall fun op => op.fresh = ∅ := by
  simp only [List.Forall]; repeat' constructor
/-- The buffers `refOps15` writes. -/
abbrev refOps15_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v81]
theorem refOps15_writes : (refOps15 : List (HloOp τ sig (Elt F))).Forall fun op => op.writes ⊆ (refOps15_W.map (Proc.devRef (τ := τ) .tc)).toFinset := by
  simp only [List.Forall]; repeat' apply And.intro
  all_goals written_in
/-- A buffer `refOps15` does not write keeps its contents through it. -/
theorem refOps15_keep (V : Valuation τ sig (Elt F)) (r : Ref sig .tc) (h : r ∉ refOps15_W) :
    after refOps15 V (Proc.devRef .tc r) = V (Proc.devRef .tc r) :=
  after_of_writes_sub refOps15 V refOps15_writes h

/-- The normalisation of `%77` with `%arg17`, `%arg18` (`%82 … %96`). -/
abbrev refOps16 : List (HloOp τ sig (Elt F)) :=
  [ StableHlo.unary main_v80 main_v82 (broadcastInDim S1x256 ![1] bcast_S256_S1x256_1 : (⟨S256, .f32⟩ : BufTy).Contents (Elt F) → (⟨S1x256, .f32⟩ : BufTy).Contents (Elt F)),
    StableHlo.unary main_v82 main_v83 (broadcastInDim S8192x256 ![0, 1] bcast_S1x256_S8192x256_0_1 : (⟨S1x256, .f32⟩ : BufTy).Contents (Elt F) → (⟨S8192x256, .f32⟩ : BufTy).Contents (Elt F)),
    StableHlo.binary main_v77 main_v83 main_v84 (subf : (⟨S8192x256, .f32⟩ : BufTy).Contents (Elt F) → (⟨S8192x256, .f32⟩ : BufTy).Contents (Elt F) → (⟨S8192x256, .f32⟩ : BufTy).Contents (Elt F)),
    StableHlo.unary main_arg17 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S8192x256 ![0, 1] bcast_S1x256_S8192x256_0_1 : (⟨S1x256, .f32⟩ : BufTy).Contents (Elt F) → (⟨S8192x256, .f32⟩ : BufTy).Contents (Elt F)),
    StableHlo.binary main_v86 main_v84 main_v87 (mulf : (⟨S8192x256, .f32⟩ : BufTy).Contents (Elt F) → (⟨S8192x256, .f32⟩ : BufTy).Contents (Elt F) → (⟨S8192x256, .f32⟩ : BufTy).Contents (Elt F)),
    StableHlo.nullary main_cst_13 (constant S_ .f32 0x3727C5AC#32),
    StableHlo.unary main_cst_13 main_v88 (broadcastInDim S256 ![] bcast_S_S256 : (⟨S_, .f32⟩ : BufTy).Contents (Elt F) → (⟨S256, .f32⟩ : BufTy).Contents (Elt F)),
    StableHlo.binary main_v81 main_v88 main_v89 (addf : (⟨S256, .f32⟩ : BufTy).Contents (Elt F) → (⟨S256, .f32⟩ : BufTy).Contents (Elt F) → (⟨S256, .f32⟩ : BufTy).Contents (Elt F)),
    StableHlo.unary main_v89 main_v90 (Host.rsqrt : (⟨S256, .f32⟩ : BufTy).Contents (Elt F) → (⟨S256, .f32⟩ : BufTy).Contents (Elt F)),
    StableHlo.unary main_v90 main_v91 (broadcastInDim S1x256 ![1] bcast_S256_S1x256_1 : (⟨S256, .f32⟩ : BufTy).Contents (Elt F) → (⟨S1x256, .f32⟩ : BufTy).Contents (Elt F)),
    StableHlo.unary main_v91 main_v92 (broadcastInDim S8192x256 ![0, 1] bcast_S1x256_S8192x256_0_1 : (⟨S1x256, .f32⟩ : BufTy).Contents (Elt F) → (⟨S8192x256, .f32⟩ : BufTy).Contents (Elt F)),
    StableHlo.binary main_v87 main_v92 main_v93 (mulf : (⟨S8192x256, .f32⟩ : BufTy).Contents (Elt F) → (⟨S8192x256, .f32⟩ : BufTy).Contents (Elt F) → (⟨S8192x256, .f32⟩ : BufTy).Contents (Elt F)),
    StableHlo.unary main_arg18 main_v94 (broadcastInDim S1x256 ![1] bcast_S256_S1x256_1 : (⟨S256, .f32⟩ : BufTy).Contents (Elt F) → (⟨S1x256, .f32⟩ : BufTy).Contents (Elt F)),
    StableHlo.unary main_v94 main_v95 (broadcastInDim S8192x256 ![0, 1] bcast_S1x256_S8192x256_0_1 : (⟨S1x256, .f32⟩ : BufTy).Contents (Elt F) → (⟨S8192x256, .f32⟩ : BufTy).Contents (Elt F)),
    StableHlo.binary main_v93 main_v95 main_v96 (addf : (⟨S8192x256, .f32⟩ : BufTy).Contents (Elt F) → (⟨S8192x256, .f32⟩ : BufTy).Contents (Elt F) → (⟨S8192x256, .f32⟩ : BufTy).Contents (Elt F)) ]
theorem refOps16_sub : (refOps16 : List (HloOp τ sig (Elt F))).Forall fun op => op.bufs ⊆ tcRefs τ sig :=
  ⟨unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub ..⟩
theorem refOps16_fresh : (refOps16 : List (HloOp τ sig (Elt F))).Forall fun op => op.fresh = ∅ := by
  simp only [List.Forall]; repeat' constructor
/-- The buffers `refOps16` writes. -/
abbrev refOps16_W : List (Ref sig .tc) := [main_v82, main_v83, main_v84, main_v85, main_v86, main_v87, main_cst_13, main_v88, main_v89, main_v90, main_v91, main_v92, main_v93, main_v94, main_v95, main_v96]
theorem refOps16_writes : (refOps16 : List (HloOp τ sig (Elt F))).Forall fun op => op.writes ⊆ (refOps16_W.map (Proc.devRef (τ := τ) .tc)).toFinset := by
  simp only [List.Forall]; repeat' apply And.intro
  all_goals written_in
/-- A buffer `refOps16` does not write keeps its contents through it. -/
theorem refOps16_keep (V : Valuation τ sig (Elt F)) (r : Ref sig .tc) (h : r ∉ refOps16_W) :
    after refOps16 V (Proc.devRef .tc r) = V (Proc.devRef .tc r) :=
  after_of_writes_sub refOps16 V refOps16_writes h

/-- `%97`: the maximum of `%96` and zero (@relu at its fourth call), the second value @main returns. -/
abbrev refOps17 : List (HloOp τ sig (Elt F)) :=
  [ StableHlo.TRef.nullary (.of main_call7_cst : StableHlo.TRef sig ⟨S_, .f32⟩) (constant S_ .f32 0x00000000#32),
    StableHlo.TRef.unary (.of main_call7_cst : StableHlo.TRef sig ⟨S_, .f32⟩) (.of main_call7_v0 : StableHlo.TRef sig ⟨S8192x256, .f32⟩) (broadcastInDim S8192x256 ![] bcast_S_S8192x256),
    StableHlo.TRef.binary (.of main_v96 : StableHlo.TRef sig ⟨S8192x256, .f32⟩) (.of main_call7_v0 : StableHlo.TRef sig ⟨S8192x256, .f32⟩) (.of main_v97 : StableHlo.TRef sig ⟨S8192x256, .f32⟩) maximumf ]
theorem refOps17_sub : (refOps17 : List (HloOp τ sig (Elt F))).Forall fun op => op.bufs ⊆ tcRefs τ sig :=
  ⟨nullary_bufs_sub .., unary_bufs_sub .., binary_bufs_sub ..⟩
theorem refOps17_fresh : (refOps17 : List (HloOp τ sig (Elt F))).Forall fun op => op.fresh = ∅ := by
  simp only [List.Forall]; repeat' constructor
/-- The buffers `refOps17` writes. -/
abbrev refOps17_W : List (Ref sig .tc) := [main_call7_cst, main_call7_v0, main_v97]
theorem refOps17_writes : (refOps17 : List (HloOp τ sig (Elt F))).Forall fun op => op.writes ⊆ (refOps17_W.map (Proc.devRef (τ := τ) .tc)).toFinset := by
  simp only [List.Forall]; repeat' apply And.intro
  all_goals written_in
/-- A buffer `refOps17` does not write keeps its contents through it. -/
theorem refOps17_keep (V : Valuation τ sig (Elt F)) (r : Ref sig .tc) (h : r ∉ refOps17_W) :
    after refOps17 V (Proc.devRef .tc r) = V (Proc.devRef .tc r) :=
  after_of_writes_sub refOps17 V refOps17_writes h

/-- The readout `%98 = %arg2 · %97`, the first value @main returns. -/
abbrev refOps18 : List (HloOp τ sig (Elt F)) :=
  [ StableHlo.binary main_arg2 main_v97 main_v98 ((fun l r => Host.dotGeneral dot_S64x8192_S8192x256_S64x256_1_0_0_1_n_n none l r) : (⟨S64x8192, .f32⟩ : BufTy).Contents (Elt F) → (⟨S8192x256, .f32⟩ : BufTy).Contents (Elt F) → (⟨S64x256, .f32⟩ : BufTy).Contents (Elt F)) ]
theorem refOps18_sub : (refOps18 : List (HloOp τ sig (Elt F))).Forall fun op => op.bufs ⊆ tcRefs τ sig :=
  binary_bufs_sub ..
theorem refOps18_fresh : (refOps18 : List (HloOp τ sig (Elt F))).Forall fun op => op.fresh = ∅ := by
  simp only [List.Forall]; repeat' constructor
/-- The buffers `refOps18` writes. -/
abbrev refOps18_W : List (Ref sig .tc) := [main_v98]
theorem refOps18_writes : (refOps18 : List (HloOp τ sig (Elt F))).Forall fun op => op.writes ⊆ (refOps18_W.map (Proc.devRef (τ := τ) .tc)).toFinset := by
  simp only [List.Forall]; repeat' apply And.intro
  all_goals written_in
/-- A buffer `refOps18` does not write keeps its contents through it. -/
theorem refOps18_keep (V : Valuation τ sig (Elt F)) (r : Ref sig .tc) (h : r ∉ refOps18_W) :
    after refOps18 V (Proc.devRef .tc r) = V (Proc.devRef .tc r) :=
  after_of_writes_sub refOps18 V refOps18_writes h

/-! ## The whole line from its stretches -/

set_option maxRecDepth 8192 in
/-- The line is its stretches in order. -/
theorem ops_eq : (ops : List (HloOp τ sig (Elt F))) = refOps0 ++ (refOps1 ++ (refOps2 ++ (refOps3 ++ (refOps4 ++ (refOps5 ++ (refOps6 ++ (refOps7 ++ (refOps8 ++ (refOps9 ++ (refOps10 ++ (refOps11 ++ (refOps12 ++ (refOps13 ++ (refOps14 ++ (refOps15 ++ (refOps16 ++ (refOps17 ++ (refOps18)))))))))))))))))) := rfl

/-- The contents after the line: the stretches' folds composed. -/
theorem after_ops (V : Valuation τ sig (Elt F)) :
    after ops V = after refOps18 (after refOps17 (after refOps16 (after refOps15 (after refOps14 (after refOps13 (after refOps12 (after refOps11 (after refOps10 (after refOps9 (after refOps8 (after refOps7 (after refOps6 (after refOps5 (after refOps4 (after refOps3 (after refOps2 (after refOps1 (after refOps0 (V))))))))))))))))))) := by
  rw [ops_eq]; simp only [after_append]

theorem ops_sub : (ops : List (HloOp τ sig (Elt F))).Forall fun op => op.bufs ⊆ tcRefs τ sig := by
  rw [ops_eq]; simp only [List.forall_append]
  exact ⟨refOps0_sub, refOps1_sub, refOps2_sub, refOps3_sub, refOps4_sub, refOps5_sub, refOps6_sub, refOps7_sub, refOps8_sub, refOps9_sub, refOps10_sub, refOps11_sub, refOps12_sub, refOps13_sub, refOps14_sub, refOps15_sub, refOps16_sub, refOps17_sub, refOps18_sub⟩

/-- Every operation determines what it writes. -/
theorem ops_fresh : (ops : List (HloOp τ sig (Elt F))).Forall fun op => op.fresh = ∅ := by
  rw [ops_eq]; simp only [List.forall_append]
  exact ⟨refOps0_fresh, refOps1_fresh, refOps2_fresh, refOps3_fresh, refOps4_fresh, refOps5_fresh, refOps6_fresh, refOps7_fresh, refOps8_fresh, refOps9_fresh, refOps10_fresh, refOps11_fresh, refOps12_fresh, refOps13_fresh, refOps14_fresh, refOps15_fresh, refOps16_fresh, refOps17_fresh, refOps18_fresh⟩

/-- Every buffer the line writes: the 207 results. -/
abbrev ops_W : List (Ref sig .tc) := refOps0_W ++ (refOps1_W ++ (refOps2_W ++ (refOps3_W ++ (refOps4_W ++ (refOps5_W ++ (refOps6_W ++ (refOps7_W ++ (refOps8_W ++ (refOps9_W ++ (refOps10_W ++ (refOps11_W ++ (refOps12_W ++ (refOps13_W ++ (refOps14_W ++ (refOps15_W ++ (refOps16_W ++ (refOps17_W ++ (refOps18_W))))))))))))))))))

/-- A buffer the line does not write keeps its contents through it. -/
theorem ops_keep (V : Valuation τ sig (Elt F)) (r : Ref sig .tc) (h : r ∉ ops_W) :
    after ops V (Proc.devRef .tc r) = V (Proc.devRef .tc r) := by
  simp only [ops_W, List.mem_append, not_or] at h
  obtain ⟨h0, h1, h2, h3, h4, h5, h6, h7, h8, h9, h10, h11, h12, h13, h14, h15, h16, h17, h18⟩ := h
  rw [after_ops, refOps18_keep _ _ h18, refOps17_keep _ _ h17, refOps16_keep _ _ h16, refOps15_keep _ _ h15, refOps14_keep _ _ h14, refOps13_keep _ _ h13, refOps12_keep _ _ h12, refOps11_keep _ _ h11, refOps10_keep _ _ h10, refOps9_keep _ _ h9, refOps8_keep _ _ h8, refOps7_keep _ _ h7, refOps6_keep _ _ h6, refOps5_keep _ _ h5, refOps4_keep _ _ h4, refOps3_keep _ _ h3, refOps2_keep _ _ h2, refOps1_keep _ _ h1, refOps0_keep _ _ h0]

/-! ## The run -/

/-- On every device, for any float values, from any memory with zero counters: every weakly fair execution of @main
    terminates, and every final state has each buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

/-! ## The arguments are not written -/

theorem kept_arg0 (V : Valuation τ sig (Elt F)) : after ops V (Proc.devRef .tc main_arg0) = V (Proc.devRef .tc main_arg0) :=
  ops_keep V main_arg0 (by decide)
theorem kept_arg1 (V : Valuation τ sig (Elt F)) : after ops V (Proc.devRef .tc main_arg1) = V (Proc.devRef .tc main_arg1) :=
  ops_keep V main_arg1 (by decide)
theorem kept_arg2 (V : Valuation τ sig (Elt F)) : after ops V (Proc.devRef .tc main_arg2) = V (Proc.devRef .tc main_arg2) :=
  ops_keep V main_arg2 (by decide)
theorem kept_arg3 (V : Valuation τ sig (Elt F)) : after ops V (Proc.devRef .tc main_arg3) = V (Proc.devRef .tc main_arg3) :=
  ops_keep V main_arg3 (by decide)
theorem kept_arg4 (V : Valuation τ sig (Elt F)) : after ops V (Proc.devRef .tc main_arg4) = V (Proc.devRef .tc main_arg4) :=
  ops_keep V main_arg4 (by decide)
theorem kept_arg5 (V : Valuation τ sig (Elt F)) : after ops V (Proc.devRef .tc main_arg5) = V (Proc.devRef .tc main_arg5) :=
  ops_keep V main_arg5 (by decide)
theorem kept_arg6 (V : Valuation τ sig (Elt F)) : after ops V (Proc.devRef .tc main_arg6) = V (Proc.devRef .tc main_arg6) :=
  ops_keep V main_arg6 (by decide)
theorem kept_arg7 (V : Valuation τ sig (Elt F)) : after ops V (Proc.devRef .tc main_arg7) = V (Proc.devRef .tc main_arg7) :=
  ops_keep V main_arg7 (by decide)
theorem kept_arg8 (V : Valuation τ sig (Elt F)) : after ops V (Proc.devRef .tc main_arg8) = V (Proc.devRef .tc main_arg8) :=
  ops_keep V main_arg8 (by decide)
theorem kept_arg9 (V : Valuation τ sig (Elt F)) : after ops V (Proc.devRef .tc main_arg9) = V (Proc.devRef .tc main_arg9) :=
  ops_keep V main_arg9 (by decide)
theorem kept_arg10 (V : Valuation τ sig (Elt F)) : after ops V (Proc.devRef .tc main_arg10) = V (Proc.devRef .tc main_arg10) :=
  ops_keep V main_arg10 (by decide)
theorem kept_arg11 (V : Valuation τ sig (Elt F)) : after ops V (Proc.devRef .tc main_arg11) = V (Proc.devRef .tc main_arg11) :=
  ops_keep V main_arg11 (by decide)
theorem kept_arg12 (V : Valuation τ sig (Elt F)) : after ops V (Proc.devRef .tc main_arg12) = V (Proc.devRef .tc main_arg12) :=
  ops_keep V main_arg12 (by decide)
theorem kept_arg13 (V : Valuation τ sig (Elt F)) : after ops V (Proc.devRef .tc main_arg13) = V (Proc.devRef .tc main_arg13) :=
  ops_keep V main_arg13 (by decide)
theorem kept_arg14 (V : Valuation τ sig (Elt F)) : after ops V (Proc.devRef .tc main_arg14) = V (Proc.devRef .tc main_arg14) :=
  ops_keep V main_arg14 (by decide)
theorem kept_arg15 (V : Valuation τ sig (Elt F)) : after ops V (Proc.devRef .tc main_arg15) = V (Proc.devRef .tc main_arg15) :=
  ops_keep V main_arg15 (by decide)
theorem kept_arg16 (V : Valuation τ sig (Elt F)) : after ops V (Proc.devRef .tc main_arg16) = V (Proc.devRef .tc main_arg16) :=
  ops_keep V main_arg16 (by decide)
theorem kept_arg17 (V : Valuation τ sig (Elt F)) : after ops V (Proc.devRef .tc main_arg17) = V (Proc.devRef .tc main_arg17) :=
  ops_keep V main_arg17 (by decide)
theorem kept_arg18 (V : Valuation τ sig (Elt F)) : after ops V (Proc.devRef .tc main_arg18) = V (Proc.devRef .tc main_arg18) :=
  ops_keep V main_arg18 (by decide)

end Cert.ReferenceIdeal.Hand

end
-- ==== Proof.RefVal.lean ====
import proofs.«116793_j28183575396967_2_alg».proof.Proof.RefRun
import proofs.«116793_j28183575396967_2_alg».proof.Proof.Spec

/-!
The reference's three matrix stretches read as whole-array functions, at the exact instance: each layer's aggregation,
linear map and bias is `Cert.Spec.lin` of the buffers it reads, and the readout is `Cert.Spec.pool`.
-/

noncomputable section

namespace Cert.ReferenceIdeal.HandVal

open Cert.ReferenceIdeal Cert.ReferenceIdeal.Gen Cert.ReferenceIdeal.Hand
open Idealize.ShloMosaic Idealize.ShloMosaic.TcCoe Idealize.SL.Sem Idealize.ShloMosaic.StableHlo

/-- The first layer: `%4 = (%arg1 · %arg0) · %arg3 + %arg4` row by row. -/
theorem ref_lin0 (V : Valuation τ sig (Elt Ideal)) :
    after refOps0 V (Proc.devRef .tc main_v4)
      = Cert.Spec.lin (V (Proc.devRef .tc main_arg1)) (V (Proc.devRef .tc main_arg0)) (V (Proc.devRef .tc main_arg3))
          (fun j => V (Proc.devRef .tc main_arg4) (ValueIdx.ix1 j)) := by
  after_results
  exact Cert.Spec.host_lin dot_S8192x8192_S8192x128_S8192x128_1_0_0_1_n_n rfl rfl rfl rfl rfl rfl
    dot_S8192x128_S128x256_S8192x256_1_0_0_1_n_n rfl rfl rfl rfl rfl rfl none none _ _ _ _ _ _

/-- The second layer: `%53 = (%arg1 · %48) · %arg11 + %arg12` row by row. -/
theorem ref_lin1 (V : Valuation τ sig (Elt Ideal)) :
    after refOps9 V (Proc.devRef .tc main_v53)
      = Cert.Spec.lin (V (Proc.devRef .tc main_arg1)) (V (Proc.devRef .tc main_v48)) (V (Proc.devRef .tc main_arg11))
          (fun j => V (Proc.devRef .tc main_arg12) (ValueIdx.ix1 j)) := by
  after_results
  exact Cert.Spec.host_lin dot_S8192x8192_S8192x256_S8192x256_1_0_0_1_n_n rfl rfl rfl rfl rfl rfl
    dot_S8192x256_S256x256_S8192x256_1_0_0_1_n_n rfl rfl rfl rfl rfl rfl none none _ _ _ _ _ _

/-- The readout: `%98 = %arg2 · %97`. -/
theorem ref_pool (V : Valuation τ sig (Elt Ideal)) :
    after refOps18 V (Proc.devRef .tc main_v98)
      = Cert.Spec.pool (V (Proc.devRef .tc main_arg2)) (V (Proc.devRef .tc main_v97)) := by
  after_results
  exact Cert.Spec.host_pool dot_S64x8192_S8192x256_S64x256_1_0_0_1_n_n rfl rfl rfl rfl rfl rfl none _ _

end Cert.ReferenceIdeal.HandVal

end
-- ==== Proof.Tail.lean ====
import proofs.«116793_j28183575396967_2_alg».proof.Proof.RefRun
import proofs.«116793_j28183575396967_2_alg».proof.Proof.Gen.KernelIdeal.Launch

noncomputable section

namespace Cert.Bridge

open Idealize.ShloMosaic Idealize.ShloMosaic.TcCoe Idealize.ShloMosaic.StableHlo
open Cert.ReferenceIdeal.Hand (refOps1 refOps2 refOps3 refOps4 refOps5 refOps6 refOps7 refOps8 refOps10 refOps11 refOps12 refOps13 refOps14 refOps15 refOps16 refOps17)
open Cert.KernelIdeal.Gen (hostOps1 hostOps1_1 hostOps1_2 hostOps1_3 hostOps1_4 hostOps1_5 hostOps1_6 hostOps1_7 hostOps2 hostOps2_1 hostOps2_2 hostOps2_3 hostOps2_4 hostOps2_5 hostOps2_6 hostOps2_7)

variable {F : FTy → Type} [FloatOps F]

/-! ## The shared normalisation stretches

Between the fused layers (and after the second) the two programs run the same host operations on their own buffers.
The statements below compare the two folds at the one buffer that leaves each stretch. -/

set_option maxRecDepth 16384 in
set_option maxHeartbeats 8000000 in
/-- After the first layer both programs apply the same 98 operations — the column means and variances of the layer's
    output, its normalisation, the maximum with zero, a linear map with its bias, and the same three again — so from
    equal layer outputs and equal parameters (`%arg5 … %arg10`) the two maxima are equal: each fold read back as its
    composed term over what enters, the entries identified, and the two terms then differ only in the two programs'
    own proofs of the shape facts and their own copies of the product's dimension record. -/
theorem tail0 (VK : Valuation Cert.KernelIdeal.τ Cert.KernelIdeal.sig (Elt F)) (VR : Valuation Cert.ReferenceIdeal.τ Cert.ReferenceIdeal.sig (Elt F))
    (hz : VK (Proc.devRef .tc Cert.KernelIdeal.main_v1) = VR (Proc.devRef .tc Cert.ReferenceIdeal.main_v4))
    (h5 : VK (Proc.devRef .tc Cert.KernelIdeal.main_arg5) = VR (Proc.devRef .tc Cert.ReferenceIdeal.main_arg5)) (h6 : VK (Proc.devRef .tc Cert.KernelIdeal.main_arg6) = VR (Proc.devRef .tc Cert.ReferenceIdeal.main_arg6)) (h7 : VK (Proc.devRef .tc Cert.KernelIdeal.main_arg7) = VR (Proc.devRef .tc Cert.ReferenceIdeal.main_arg7)) (h8 : VK (Proc.devRef .tc Cert.KernelIdeal.main_arg8) = VR (Proc.devRef .tc Cert.ReferenceIdeal.main_arg8)) (h9 : VK (Proc.devRef .tc Cert.KernelIdeal.main_arg9) = VR (Proc.devRef .tc Cert.ReferenceIdeal.main_arg9)) (h10 : VK (Proc.devRef .tc Cert.KernelIdeal.main_arg10) = VR (Proc.devRef .tc Cert.ReferenceIdeal.main_arg10)) :
    after hostOps1_7 (after hostOps1_6 (after hostOps1_5 (after hostOps1_4 (after hostOps1_3 (after hostOps1_2 (after hostOps1_1 (after hostOps1 (VK)))))))) (Proc.devRef .tc Cert.KernelIdeal.main_v45)
      = after refOps8 (after refOps7 (after refOps6 (after refOps5 (after refOps4 (after refOps3 (after refOps2 (after refOps1 (VR)))))))) (Proc.devRef .tc Cert.ReferenceIdeal.main_v48) := by
  simp only [hostOps1, hostOps1_1, hostOps1_2, hostOps1_3, hostOps1_4, hostOps1_5, hostOps1_6, hostOps1_7, refOps1, refOps2, refOps3, refOps4, refOps5, refOps6, refOps7, refOps8]
  after_results_simp
  simp only [hz, h5, h6, h7, h8, h9, h10]
  rfl

set_option maxRecDepth 16384 in
set_option maxHeartbeats 8000000 in
/-- The same after the second layer, with the parameters `%arg13 … %arg18`. -/
theorem tail1 (VK : Valuation Cert.KernelIdeal.τ Cert.KernelIdeal.sig (Elt F)) (VR : Valuation Cert.ReferenceIdeal.τ Cert.ReferenceIdeal.sig (Elt F))
    (hz : VK (Proc.devRef .tc Cert.KernelIdeal.main_v47) = VR (Proc.devRef .tc Cert.ReferenceIdeal.main_v53))
    (h13 : VK (Proc.devRef .tc Cert.KernelIdeal.main_arg13) = VR (Proc.devRef .tc Cert.ReferenceIdeal.main_arg13)) (h14 : VK (Proc.devRef .tc Cert.KernelIdeal.main_arg14) = VR (Proc.devRef .tc Cert.ReferenceIdeal.main_arg14)) (h15 : VK (Proc.devRef .tc Cert.KernelIdeal.main_arg15) = VR (Proc.devRef .tc Cert.ReferenceIdeal.main_arg15)) (h16 : VK (Proc.devRef .tc Cert.KernelIdeal.main_arg16) = VR (Proc.devRef .tc Cert.ReferenceIdeal.main_arg16)) (h17 : VK (Proc.devRef .tc Cert.KernelIdeal.main_arg17) = VR (Proc.devRef .tc Cert.ReferenceIdeal.main_arg17)) (h18 : VK (Proc.devRef .tc Cert.KernelIdeal.main_arg18) = VR (Proc.devRef .tc Cert.ReferenceIdeal.main_arg18)) :
    after hostOps2_7 (after hostOps2_6 (after hostOps2_5 (after hostOps2_4 (after hostOps2_3 (after hostOps2_2 (after hostOps2_1 (after hostOps2 (VK)))))))) (Proc.devRef .tc Cert.KernelIdeal.main_v91)
      = after refOps17 (after refOps16 (after refOps15 (after refOps14 (after refOps13 (after refOps12 (after refOps11 (after refOps10 (VR)))))))) (Proc.devRef .tc Cert.ReferenceIdeal.main_v97) := by
  simp only [hostOps2, hostOps2_1, hostOps2_2, hostOps2_3, hostOps2_4, hostOps2_5, hostOps2_6, hostOps2_7, refOps10, refOps11, refOps12, refOps13, refOps14, refOps15, refOps16, refOps17]
  after_results_simp
  simp only [hz, h13, h14, h15, h16, h17, h18]
  rfl

end Cert.Bridge

end
-- ==== Proof.Bridge.lean ====
import proofs.«116793_j28183575396967_2_alg».proof.Proof.KIRun
import proofs.«116793_j28183575396967_2_alg».proof.Proof.KIVal0
import proofs.«116793_j28183575396967_2_alg».proof.Proof.KIVal1
import proofs.«116793_j28183575396967_2_alg».proof.Proof.KIVal2
import proofs.«116793_j28183575396967_2_alg».proof.Proof.RefVal
import proofs.«116793_j28183575396967_2_alg».proof.Proof.Tail
import Idealize.ShloMosaic.Lib.ValueIdx
import Idealize.ShloMosaic.Lib.Pipeline.Value

/-!
The two idealized programs end with the same results.

Both apply the same host operations around three matrix stages. Stage by stage: the fused kernel's output array is
`Spec.lin` of the arrays it was given (its accumulation over four column tiles is the whole sum), which is what the
reference's two products and broadcast bias compute; the host operations after a stage are the same on both sides, so
equal inputs give equal outputs; and the readout kernel's output is `Spec.pool`, the reference's last product.
-/

set_option maxRecDepth 16384

noncomputable section

namespace Cert.Bridge

open Idealize.ShloMosaic Idealize.ShloMosaic.TcCoe Idealize.SL.Sem Idealize.ShloMosaic.ValueIdx
open Cert.KernelIdeal.Hand Cert.KernelIdeal.HandVal

/-! ## The reference's fold, cut at the stages -/

/-- The reference's buffers after its first `k` stretches, from the contents `V`. -/
abbrev R0 (V : Valuation Cert.ReferenceIdeal.τ Cert.ReferenceIdeal.sig (Elt Ideal)) := StableHlo.after Cert.ReferenceIdeal.Hand.refOps0 V
abbrev R8 (V : Valuation Cert.ReferenceIdeal.τ Cert.ReferenceIdeal.sig (Elt Ideal)) := StableHlo.after Cert.ReferenceIdeal.Hand.refOps8 (StableHlo.after Cert.ReferenceIdeal.Hand.refOps7 (StableHlo.after Cert.ReferenceIdeal.Hand.refOps6 (StableHlo.after Cert.ReferenceIdeal.Hand.refOps5 (StableHlo.after Cert.ReferenceIdeal.Hand.refOps4 (StableHlo.after Cert.ReferenceIdeal.Hand.refOps3 (StableHlo.after Cert.ReferenceIdeal.Hand.refOps2 (StableHlo.after Cert.ReferenceIdeal.Hand.refOps1 (R0 V))))))))
abbrev R9 (V : Valuation Cert.ReferenceIdeal.τ Cert.ReferenceIdeal.sig (Elt Ideal)) := StableHlo.after Cert.ReferenceIdeal.Hand.refOps9 (R8 V)
abbrev R17 (V : Valuation Cert.ReferenceIdeal.τ Cert.ReferenceIdeal.sig (Elt Ideal)) := StableHlo.after Cert.ReferenceIdeal.Hand.refOps17 (StableHlo.after Cert.ReferenceIdeal.Hand.refOps16 (StableHlo.after Cert.ReferenceIdeal.Hand.refOps15 (StableHlo.after Cert.ReferenceIdeal.Hand.refOps14 (StableHlo.after Cert.ReferenceIdeal.Hand.refOps13 (StableHlo.after Cert.ReferenceIdeal.Hand.refOps12 (StableHlo.after Cert.ReferenceIdeal.Hand.refOps11 (StableHlo.after Cert.ReferenceIdeal.Hand.refOps10 (R9 V))))))))

theorem R0_keep (V : Valuation Cert.ReferenceIdeal.τ Cert.ReferenceIdeal.sig (Elt Ideal)) (r : Ref Cert.ReferenceIdeal.sig .tc) (h0 : r ∉ Cert.ReferenceIdeal.Hand.refOps0_W) :
    R0 V (Proc.devRef .tc r) = V (Proc.devRef .tc r) := (Cert.ReferenceIdeal.Hand.refOps0_keep _ r h0).trans <| rfl
theorem R8_keep (V : Valuation Cert.ReferenceIdeal.τ Cert.ReferenceIdeal.sig (Elt Ideal)) (r : Ref Cert.ReferenceIdeal.sig .tc) (h0 : r ∉ Cert.ReferenceIdeal.Hand.refOps0_W) (h1 : r ∉ Cert.ReferenceIdeal.Hand.refOps1_W) (h2 : r ∉ Cert.ReferenceIdeal.Hand.refOps2_W) (h3 : r ∉ Cert.ReferenceIdeal.Hand.refOps3_W) (h4 : r ∉ Cert.ReferenceIdeal.Hand.refOps4_W) (h5 : r ∉ Cert.ReferenceIdeal.Hand.refOps5_W) (h6 : r ∉ Cert.ReferenceIdeal.Hand.refOps6_W) (h7 : r ∉ Cert.ReferenceIdeal.Hand.refOps7_W) (h8 : r ∉ Cert.ReferenceIdeal.Hand.refOps8_W) :
    R8 V (Proc.devRef .tc r) = V (Proc.devRef .tc r) := (Cert.ReferenceIdeal.Hand.refOps8_keep _ r h8).trans <| (Cert.ReferenceIdeal.Hand.refOps7_keep _ r h7).trans <| (Cert.ReferenceIdeal.Hand.refOps6_keep _ r h6).trans <| (Cert.ReferenceIdeal.Hand.refOps5_keep _ r h5).trans <| (Cert.ReferenceIdeal.Hand.refOps4_keep _ r h4).trans <| (Cert.ReferenceIdeal.Hand.refOps3_keep _ r h3).trans <| (Cert.ReferenceIdeal.Hand.refOps2_keep _ r h2).trans <| (Cert.ReferenceIdeal.Hand.refOps1_keep _ r h1).trans <| (Cert.ReferenceIdeal.Hand.refOps0_keep _ r h0).trans <| rfl
theorem R9_keep (V : Valuation Cert.ReferenceIdeal.τ Cert.ReferenceIdeal.sig (Elt Ideal)) (r : Ref Cert.ReferenceIdeal.sig .tc) (h0 : r ∉ Cert.ReferenceIdeal.Hand.refOps0_W) (h1 : r ∉ Cert.ReferenceIdeal.Hand.refOps1_W) (h2 : r ∉ Cert.ReferenceIdeal.Hand.refOps2_W) (h3 : r ∉ Cert.ReferenceIdeal.Hand.refOps3_W) (h4 : r ∉ Cert.ReferenceIdeal.Hand.refOps4_W) (h5 : r ∉ Cert.ReferenceIdeal.Hand.refOps5_W) (h6 : r ∉ Cert.ReferenceIdeal.Hand.refOps6_W) (h7 : r ∉ Cert.ReferenceIdeal.Hand.refOps7_W) (h8 : r ∉ Cert.ReferenceIdeal.Hand.refOps8_W) (h9 : r ∉ Cert.ReferenceIdeal.Hand.refOps9_W) :
    R9 V (Proc.devRef .tc r) = V (Proc.devRef .tc r) := (Cert.ReferenceIdeal.Hand.refOps9_keep _ r h9).trans <| (Cert.ReferenceIdeal.Hand.refOps8_keep _ r h8).trans <| (Cert.ReferenceIdeal.Hand.refOps7_keep _ r h7).trans <| (Cert.ReferenceIdeal.Hand.refOps6_keep _ r h6).trans <| (Cert.ReferenceIdeal.Hand.refOps5_keep _ r h5).trans <| (Cert.ReferenceIdeal.Hand.refOps4_keep _ r h4).trans <| (Cert.ReferenceIdeal.Hand.refOps3_keep _ r h3).trans <| (Cert.ReferenceIdeal.Hand.refOps2_keep _ r h2).trans <| (Cert.ReferenceIdeal.Hand.refOps1_keep _ r h1).trans <| (Cert.ReferenceIdeal.Hand.refOps0_keep _ r h0).trans <| rfl
theorem R17_keep (V : Valuation Cert.ReferenceIdeal.τ Cert.ReferenceIdeal.sig (Elt Ideal)) (r : Ref Cert.ReferenceIdeal.sig .tc) (h0 : r ∉ Cert.ReferenceIdeal.Hand.refOps0_W) (h1 : r ∉ Cert.ReferenceIdeal.Hand.refOps1_W) (h2 : r ∉ Cert.ReferenceIdeal.Hand.refOps2_W) (h3 : r ∉ Cert.ReferenceIdeal.Hand.refOps3_W) (h4 : r ∉ Cert.ReferenceIdeal.Hand.refOps4_W) (h5 : r ∉ Cert.ReferenceIdeal.Hand.refOps5_W) (h6 : r ∉ Cert.ReferenceIdeal.Hand.refOps6_W) (h7 : r ∉ Cert.ReferenceIdeal.Hand.refOps7_W) (h8 : r ∉ Cert.ReferenceIdeal.Hand.refOps8_W) (h9 : r ∉ Cert.ReferenceIdeal.Hand.refOps9_W) (h10 : r ∉ Cert.ReferenceIdeal.Hand.refOps10_W) (h11 : r ∉ Cert.ReferenceIdeal.Hand.refOps11_W) (h12 : r ∉ Cert.ReferenceIdeal.Hand.refOps12_W) (h13 : r ∉ Cert.ReferenceIdeal.Hand.refOps13_W) (h14 : r ∉ Cert.ReferenceIdeal.Hand.refOps14_W) (h15 : r ∉ Cert.ReferenceIdeal.Hand.refOps15_W) (h16 : r ∉ Cert.ReferenceIdeal.Hand.refOps16_W) (h17 : r ∉ Cert.ReferenceIdeal.Hand.refOps17_W) :
    R17 V (Proc.devRef .tc r) = V (Proc.devRef .tc r) := (Cert.ReferenceIdeal.Hand.refOps17_keep _ r h17).trans <| (Cert.ReferenceIdeal.Hand.refOps16_keep _ r h16).trans <| (Cert.ReferenceIdeal.Hand.refOps15_keep _ r h15).trans <| (Cert.ReferenceIdeal.Hand.refOps14_keep _ r h14).trans <| (Cert.ReferenceIdeal.Hand.refOps13_keep _ r h13).trans <| (Cert.ReferenceIdeal.Hand.refOps12_keep _ r h12).trans <| (Cert.ReferenceIdeal.Hand.refOps11_keep _ r h11).trans <| (Cert.ReferenceIdeal.Hand.refOps10_keep _ r h10).trans <| (Cert.ReferenceIdeal.Hand.refOps9_keep _ r h9).trans <| (Cert.ReferenceIdeal.Hand.refOps8_keep _ r h8).trans <| (Cert.ReferenceIdeal.Hand.refOps7_keep _ r h7).trans <| (Cert.ReferenceIdeal.Hand.refOps6_keep _ r h6).trans <| (Cert.ReferenceIdeal.Hand.refOps5_keep _ r h5).trans <| (Cert.ReferenceIdeal.Hand.refOps4_keep _ r h4).trans <| (Cert.ReferenceIdeal.Hand.refOps3_keep _ r h3).trans <| (Cert.ReferenceIdeal.Hand.refOps2_keep _ r h2).trans <| (Cert.ReferenceIdeal.Hand.refOps1_keep _ r h1).trans <| (Cert.ReferenceIdeal.Hand.refOps0_keep _ r h0).trans <| rfl

/-! ## The kernel program's fold read at the buffers the stages use -/

variable (m : (ℓ : Loc Cert.KernelIdeal.nD Cert.KernelIdeal.τ Cert.KernelIdeal.sig) → Buf (Elt Ideal) ℓ) (ρ : Dev Cert.KernelIdeal.nD → PrngReg)

/-- A reference no item up to region 1's entry writes holds its launch contents there. -/
theorem W11_untouched (c : Dev Cert.KernelIdeal.nD) (b : Ref Cert.KernelIdeal.sig .tc) (h0 : b ∉ Cert.KernelIdeal.Gen.hostOps0_W) (h1 : b ≠ Cert.KernelIdeal.main_v1) (h2 : b ∉ Cert.KernelIdeal.Gen.hostOps1_W) (h3 : b ∉ Cert.KernelIdeal.Gen.hostOps1_1_W) (h4 : b ∉ Cert.KernelIdeal.Gen.hostOps1_2_W) (h5 : b ∉ Cert.KernelIdeal.Gen.hostOps1_3_W) (h6 : b ∉ Cert.KernelIdeal.Gen.hostOps1_4_W) (h7 : b ∉ Cert.KernelIdeal.Gen.hostOps1_5_W) (h8 : b ∉ Cert.KernelIdeal.Gen.hostOps1_6_W) (h9 : b ∉ Cert.KernelIdeal.Gen.hostOps1_7_W) (h10 : b ∉ Cert.KernelIdeal.Gen.hostOps1_8_W) :
    W11 m ρ c (Proc.devRef .tc b) = m ((c : Thread Cert.KernelIdeal.nD Cert.KernelIdeal.τ).loc b) :=
  (W11_keep m ρ c b h10).trans <| (W10_keep m ρ c b h9).trans <| (W9_keep m ρ c b h8).trans <| (W8_keep m ρ c b h7).trans <| (W7_keep m ρ c b h6).trans <| (W6_keep m ρ c b h5).trans <| (W5_keep m ρ c b h4).trans <| (W4_keep m ρ c b h3).trans <| (W3_keep m ρ c b h2).trans <| (W2_keep m ρ c b h1).trans <| (W1_keep m ρ c b h0).trans <| rfl
/-- … up to region 2's entry. -/
theorem W20_untouched (c : Dev Cert.KernelIdeal.nD) (b : Ref Cert.KernelIdeal.sig .tc) (h0 : b ∉ Cert.KernelIdeal.Gen.hostOps0_W) (h1 : b ≠ Cert.KernelIdeal.main_v1) (h2 : b ∉ Cert.KernelIdeal.Gen.hostOps1_W) (h3 : b ∉ Cert.KernelIdeal.Gen.hostOps1_1_W) (h4 : b ∉ Cert.KernelIdeal.Gen.hostOps1_2_W) (h5 : b ∉ Cert.KernelIdeal.Gen.hostOps1_3_W) (h6 : b ∉ Cert.KernelIdeal.Gen.hostOps1_4_W) (h7 : b ∉ Cert.KernelIdeal.Gen.hostOps1_5_W) (h8 : b ∉ Cert.KernelIdeal.Gen.hostOps1_6_W) (h9 : b ∉ Cert.KernelIdeal.Gen.hostOps1_7_W) (h10 : b ∉ Cert.KernelIdeal.Gen.hostOps1_8_W) (h11 : b ≠ Cert.KernelIdeal.main_v47) (h12 : b ∉ Cert.KernelIdeal.Gen.hostOps2_W) (h13 : b ∉ Cert.KernelIdeal.Gen.hostOps2_1_W) (h14 : b ∉ Cert.KernelIdeal.Gen.hostOps2_2_W) (h15 : b ∉ Cert.KernelIdeal.Gen.hostOps2_3_W) (h16 : b ∉ Cert.KernelIdeal.Gen.hostOps2_4_W) (h17 : b ∉ Cert.KernelIdeal.Gen.hostOps2_5_W) (h18 : b ∉ Cert.KernelIdeal.Gen.hostOps2_6_W) (h19 : b ∉ Cert.KernelIdeal.Gen.hostOps2_7_W) :
    W20 m ρ c (Proc.devRef .tc b) = m ((c : Thread Cert.KernelIdeal.nD Cert.KernelIdeal.τ).loc b) :=
  (W20_keep m ρ c b h19).trans <| (W19_keep m ρ c b h18).trans <| (W18_keep m ρ c b h17).trans <| (W17_keep m ρ c b h16).trans <| (W16_keep m ρ c b h15).trans <| (W15_keep m ρ c b h14).trans <| (W14_keep m ρ c b h13).trans <| (W13_keep m ρ c b h12).trans <| (W12_keep m ρ c b h11).trans <| (W11_keep m ρ c b h10).trans <| (W10_keep m ρ c b h9).trans <| (W9_keep m ρ c b h8).trans <| (W8_keep m ρ c b h7).trans <| (W7_keep m ρ c b h6).trans <| (W6_keep m ρ c b h5).trans <| (W5_keep m ρ c b h4).trans <| (W4_keep m ρ c b h3).trans <| (W3_keep m ρ c b h2).trans <| (W2_keep m ρ c b h1).trans <| (W1_keep m ρ c b h0).trans <| rfl

/-- The first layer's bias, laid out as a row by the host, read at a column. -/
theorem W1_bias (c : Dev Cert.KernelIdeal.nD) (j : Fin 256) :
    (W1 m ρ c (Proc.devRef .tc Cert.KernelIdeal.main_v0) : FVec Ideal Cert.KernelIdeal.S1x256 .f32) (ix2 0 j)
      = (m ((c : Thread Cert.KernelIdeal.nD Cert.KernelIdeal.τ).loc Cert.KernelIdeal.main_arg4) : FVec Ideal Cert.KernelIdeal.S256 .f32) (ix1 j) := by
  have e : (W1 m ρ c (Proc.devRef .tc Cert.KernelIdeal.main_v0) : FVec Ideal Cert.KernelIdeal.S1x256 .f32)
      = shapeCast Cert.KernelIdeal.S1x256 (m ((c : Thread Cert.KernelIdeal.nD Cert.KernelIdeal.τ).loc Cert.KernelIdeal.main_arg4) : FVec Ideal Cert.KernelIdeal.S256 .f32) Cert.KernelIdeal.Facts₀.shapeCasts_S256_S1x256 := by
    dsimp only [W1, Cert.KernelIdeal.Gen.hostOps0]; after_results; rfl
  rw [e]
  exact shapeCast_apply _ _ (ix2 0 j) (ix1 j) (by simp [Shape.rowMajor_val_one, Shape.rowMajor_val_two])

/-- The second layer's bias row at a column. -/
theorem W11_bias (c : Dev Cert.KernelIdeal.nD) (j : Fin 256) :
    (W11 m ρ c (Proc.devRef .tc Cert.KernelIdeal.main_v46) : FVec Ideal Cert.KernelIdeal.S1x256 .f32) (ix2 0 j)
      = (m ((c : Thread Cert.KernelIdeal.nD Cert.KernelIdeal.τ).loc Cert.KernelIdeal.main_arg12) : FVec Ideal Cert.KernelIdeal.S256 .f32) (ix1 j) := by
  have e : ∀ X : Valuation Cert.KernelIdeal.τ Cert.KernelIdeal.sig (Elt Ideal),
      (StableHlo.after Cert.KernelIdeal.Gen.hostOps1_8 X (Proc.devRef .tc Cert.KernelIdeal.main_v46) : FVec Ideal Cert.KernelIdeal.S1x256 .f32)
        = shapeCast Cert.KernelIdeal.S1x256 (X (Proc.devRef .tc Cert.KernelIdeal.main_arg12) : FVec Ideal Cert.KernelIdeal.S256 .f32) Cert.KernelIdeal.Facts₀.shapeCasts_S256_S1x256 := by
    intro X; after_results; rfl
  rw [show W11 m ρ c = StableHlo.after Cert.KernelIdeal.Gen.hostOps1_8 (W10 m ρ c) from rfl, e]
  refine (shapeCast_apply _ _ (ix2 0 j) (ix1 j) (by simp [Shape.rowMajor_val_one, Shape.rowMajor_val_two])).trans ?_
  exact congrFun ((W10_keep m ρ c Cert.KernelIdeal.main_arg12 (by decide)).trans <| (W9_keep m ρ c Cert.KernelIdeal.main_arg12 (by decide)).trans <| (W8_keep m ρ c Cert.KernelIdeal.main_arg12 (by decide)).trans <| (W7_keep m ρ c Cert.KernelIdeal.main_arg12 (by decide)).trans <| (W6_keep m ρ c Cert.KernelIdeal.main_arg12 (by decide)).trans <| (W5_keep m ρ c Cert.KernelIdeal.main_arg12 (by decide)).trans <| (W4_keep m ρ c Cert.KernelIdeal.main_arg12 (by decide)).trans <| (W3_keep m ρ c Cert.KernelIdeal.main_arg12 (by decide)).trans <| (W2_keep m ρ c Cert.KernelIdeal.main_arg12 (by decide)).trans <| (W1_keep m ρ c Cert.KernelIdeal.main_arg12 (by decide)).trans <| rfl) (ix1 j)

/-! ## Stage by stage -/

variable (m' : (ℓ : Loc Cert.ReferenceIdeal.nD Cert.ReferenceIdeal.τ Cert.ReferenceIdeal.sig) → Buf (Elt Ideal) ℓ)

/-- The reference's launch contents on core `c`. -/
abbrev VR0 (c : Dev Cert.ReferenceIdeal.nD) : Valuation Cert.ReferenceIdeal.τ Cert.ReferenceIdeal.sig (Elt Ideal) := StableHlo.launchContents m' c

section
variable (c : Dev Cert.KernelIdeal.nD)
variable (ha0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
variable (ha1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
variable (ha2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
variable (ha3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
variable (ha4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
variable (ha5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
variable (ha6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
variable (ha7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
variable (ha8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
variable (ha9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
variable (ha10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
variable (ha11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
variable (ha12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
variable (ha13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
variable (ha14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
variable (ha15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15))
variable (ha16 : m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
variable (ha17 : m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17))
variable (ha18 : m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18))

include ha0 ha1 ha3 ha4 in
/-- After the first fused layer: the kernel's output array is the reference's biased product. -/
theorem stage0 : W2 m ρ c (Proc.devRef .tc Cert.KernelIdeal.main_v1) = R0 (VR0 m' c) (Proc.devRef .tc Cert.ReferenceIdeal.main_v4) := by
  rw [W2_arr m ρ c 4, final0 (V1 m ρ) c]
  refine Eq.trans ?_ (Cert.ReferenceIdeal.HandVal.ref_lin0 (VR0 m' c)).symm
  have e1 : V1 m ρ c Cert.KernelIdeal.main_arg1 = m ((c : Thread Cert.KernelIdeal.nD Cert.KernelIdeal.τ).loc Cert.KernelIdeal.main_arg1) := W1_keep m ρ c Cert.KernelIdeal.main_arg1 (by decide)
  have e0 : V1 m ρ c Cert.KernelIdeal.main_arg0 = m ((c : Thread Cert.KernelIdeal.nD Cert.KernelIdeal.τ).loc Cert.KernelIdeal.main_arg0) := W1_keep m ρ c Cert.KernelIdeal.main_arg0 (by decide)
  have e3 : V1 m ρ c Cert.KernelIdeal.main_arg3 = m ((c : Thread Cert.KernelIdeal.nD Cert.KernelIdeal.τ).loc Cert.KernelIdeal.main_arg3) := W1_keep m ρ c Cert.KernelIdeal.main_arg3 (by decide)
  have hb : (fun j : Fin 256 => V1 m ρ c Cert.KernelIdeal.main_v0 (ix2 0 j))
      = fun j => VR0 m' c (Proc.devRef .tc Cert.ReferenceIdeal.main_arg4) (ix1 j) :=
    funext fun j => (W1_bias m ρ c j).trans (congrFun ha4.symm (ix1 j))
  rw [e1, e0, e3, hb]
  show _ = Cert.Spec.lin (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg3)) _
  rw [ha1, ha0, ha3]

include ha0 ha1 ha2 ha3 ha4 ha5 ha6 ha7 ha8 ha9 ha10 ha11 ha12 ha13 ha14 ha15 ha16 ha17 ha18 in
/-- After the first layer's host operations the node features entering the second layer agree: the same operations on
    equal inputs. -/
theorem stage0t : W10 m ρ c (Proc.devRef .tc Cert.KernelIdeal.main_v45) = R8 (VR0 m' c) (Proc.devRef .tc Cert.ReferenceIdeal.main_v48) :=
  tail0 (W2 m ρ c) (R0 (VR0 m' c)) (stage0 m ρ m' c ha0 ha1 ha3 ha4)
    ((W2_keep m ρ c Cert.KernelIdeal.main_arg5 (by decide)).trans ((W1_keep m ρ c Cert.KernelIdeal.main_arg5 (by decide)).trans (ha5.symm.trans (R0_keep (VR0 m' c) Cert.ReferenceIdeal.main_arg5 (by decide)).symm)))
    ((W2_keep m ρ c Cert.KernelIdeal.main_arg6 (by decide)).trans ((W1_keep m ρ c Cert.KernelIdeal.main_arg6 (by decide)).trans (ha6.symm.trans (R0_keep (VR0 m' c) Cert.ReferenceIdeal.main_arg6 (by decide)).symm)))
    ((W2_keep m ρ c Cert.KernelIdeal.main_arg7 (by decide)).trans ((W1_keep m ρ c Cert.KernelIdeal.main_arg7 (by decide)).trans (ha7.symm.trans (R0_keep (VR0 m' c) Cert.ReferenceIdeal.main_arg7 (by decide)).symm)))
    ((W2_keep m ρ c Cert.KernelIdeal.main_arg8 (by decide)).trans ((W1_keep m ρ c Cert.KernelIdeal.main_arg8 (by decide)).trans (ha8.symm.trans (R0_keep (VR0 m' c) Cert.ReferenceIdeal.main_arg8 (by decide)).symm)))
    ((W2_keep m ρ c Cert.KernelIdeal.main_arg9 (by decide)).trans ((W1_keep m ρ c Cert.KernelIdeal.main_arg9 (by decide)).trans (ha9.symm.trans (R0_keep (VR0 m' c) Cert.ReferenceIdeal.main_arg9 (by decide)).symm)))
    ((W2_keep m ρ c Cert.KernelIdeal.main_arg10 (by decide)).trans ((W1_keep m ρ c Cert.KernelIdeal.main_arg10 (by decide)).trans (ha10.symm.trans (R0_keep (VR0 m' c) Cert.ReferenceIdeal.main_arg10 (by decide)).symm)))

include ha0 ha1 ha2 ha3 ha4 ha5 ha6 ha7 ha8 ha9 ha10 ha11 ha12 ha13 ha14 ha15 ha16 ha17 ha18 in
/-- After the second fused layer. -/
theorem stage1 : W12 m ρ c (Proc.devRef .tc Cert.KernelIdeal.main_v47) = R9 (VR0 m' c) (Proc.devRef .tc Cert.ReferenceIdeal.main_v53) := by
  rw [W12_arr m ρ c 4, final1 (V11 m ρ) c]
  refine Eq.trans ?_ (Cert.ReferenceIdeal.HandVal.ref_lin1 (R8 (VR0 m' c))).symm
  have e1 : V11 m ρ c Cert.KernelIdeal.main_arg1 = m ((c.tc : Thread Cert.KernelIdeal.nD Cert.KernelIdeal.τ).loc Cert.KernelIdeal.main_arg1) := W11_untouched m ρ c Cert.KernelIdeal.main_arg1 (by decide) (by decide) (by decide) (by decide) (by decide) (by decide) (by decide) (by decide) (by decide) (by decide) (by decide)
  have e11 : V11 m ρ c Cert.KernelIdeal.main_arg11 = m ((c.tc : Thread Cert.KernelIdeal.nD Cert.KernelIdeal.τ).loc Cert.KernelIdeal.main_arg11) := W11_untouched m ρ c Cert.KernelIdeal.main_arg11 (by decide) (by decide) (by decide) (by decide) (by decide) (by decide) (by decide) (by decide) (by decide) (by decide) (by decide)
  have e45 : V11 m ρ c Cert.KernelIdeal.main_v45 = R8 (VR0 m' c) (Proc.devRef .tc Cert.ReferenceIdeal.main_v48) :=
    (W11_keep m ρ c Cert.KernelIdeal.main_v45 (by decide)).trans (stage0t m ρ m' c ha0 ha1 ha2 ha3 ha4 ha5 ha6 ha7 ha8 ha9 ha10 ha11 ha12 ha13 ha14 ha15 ha16 ha17 ha18)
  have r1 : R8 (VR0 m' c) (Proc.devRef .tc Cert.ReferenceIdeal.main_arg1) = m' ((c.tc : Thread Cert.ReferenceIdeal.nD Cert.ReferenceIdeal.τ).loc Cert.ReferenceIdeal.main_arg1) := R8_keep _ _ (by decide) (by decide) (by decide) (by decide) (by decide) (by decide) (by decide) (by decide) (by decide)
  have r11 : R8 (VR0 m' c) (Proc.devRef .tc Cert.ReferenceIdeal.main_arg11) = m' ((c.tc : Thread Cert.ReferenceIdeal.nD Cert.ReferenceIdeal.τ).loc Cert.ReferenceIdeal.main_arg11) := R8_keep _ _ (by decide) (by decide) (by decide) (by decide) (by decide) (by decide) (by decide) (by decide) (by decide)
  have r12 : R8 (VR0 m' c) (Proc.devRef .tc Cert.ReferenceIdeal.main_arg12) = m' ((c.tc : Thread Cert.ReferenceIdeal.nD Cert.ReferenceIdeal.τ).loc Cert.ReferenceIdeal.main_arg12) := R8_keep _ _ (by decide) (by decide) (by decide) (by decide) (by decide) (by decide) (by decide) (by decide) (by decide)
  have hb : (fun j : Fin 256 => V11 m ρ c Cert.KernelIdeal.main_v46 (ix2 0 j))
      = fun j => R8 (VR0 m' c) (Proc.devRef .tc Cert.ReferenceIdeal.main_arg12) (ix1 j) :=
    funext fun j => (W11_bias m ρ c j).trans (congrFun (ha12.symm.trans r12.symm) (ix1 j))
  rw [e1, e11, e45, hb, r1, r11, ha1, ha11]

include ha0 ha1 ha2 ha3 ha4 ha5 ha6 ha7 ha8 ha9 ha10 ha11 ha12 ha13 ha14 ha15 ha16 ha17 ha18 in
/-- After the second layer's host operations the final node features agree. -/
theorem stage1t : W20 m ρ c (Proc.devRef .tc Cert.KernelIdeal.main_v91) = R17 (VR0 m' c) (Proc.devRef .tc Cert.ReferenceIdeal.main_v97) :=
  tail1 (W12 m ρ c) (R9 (VR0 m' c)) (stage1 m ρ m' c ha0 ha1 ha2 ha3 ha4 ha5 ha6 ha7 ha8 ha9 ha10 ha11 ha12 ha13 ha14 ha15 ha16 ha17 ha18)
    ((W12_keep m ρ c Cert.KernelIdeal.main_arg13 (by decide)).trans ((W11_untouched m ρ c Cert.KernelIdeal.main_arg13 (by decide) (by decide) (by decide) (by decide) (by decide) (by decide) (by decide) (by decide) (by decide) (by decide) (by decide)).trans (ha13.symm.trans (R9_keep (VR0 m' c) Cert.ReferenceIdeal.main_arg13 (by decide) (by decide) (by decide) (by decide) (by decide) (by decide) (by decide) (by decide) (by decide) (by decide)).symm)))
    ((W12_keep m ρ c Cert.KernelIdeal.main_arg14 (by decide)).trans ((W11_untouched m ρ c Cert.KernelIdeal.main_arg14 (by decide) (by decide) (by decide) (by decide) (by decide) (by decide) (by decide) (by decide) (by decide) (by decide) (by decide)).trans (ha14.symm.trans (R9_keep (VR0 m' c) Cert.ReferenceIdeal.main_arg14 (by decide) (by decide) (by decide) (by decide) (by decide) (by decide) (by decide) (by decide) (by decide) (by decide)).symm)))
    ((W12_keep m ρ c Cert.KernelIdeal.main_arg15 (by decide)).trans ((W11_untouched m ρ c Cert.KernelIdeal.main_arg15 (by decide) (by decide) (by decide) (by decide) (by decide) (by decide) (by decide) (by decide) (by decide) (by decide) (by decide)).trans (ha15.symm.trans (R9_keep (VR0 m' c) Cert.ReferenceIdeal.main_arg15 (by decide) (by decide) (by decide) (by decide) (by decide) (by decide) (by decide) (by decide) (by decide) (by decide)).symm)))
    ((W12_keep m ρ c Cert.KernelIdeal.main_arg16 (by decide)).trans ((W11_untouched m ρ c Cert.KernelIdeal.main_arg16 (by decide) (by decide) (by decide) (by decide) (by decide) (by decide) (by decide) (by decide) (by decide) (by decide) (by decide)).trans (ha16.symm.trans (R9_keep (VR0 m' c) Cert.ReferenceIdeal.main_arg16 (by decide) (by decide) (by decide) (by decide) (by decide) (by decide) (by decide) (by decide) (by decide) (by decide)).symm)))
    ((W12_keep m ρ c Cert.KernelIdeal.main_arg17 (by decide)).trans ((W11_untouched m ρ c Cert.KernelIdeal.main_arg17 (by decide) (by decide) (by decide) (by decide) (by decide) (by decide) (by decide) (by decide) (by decide) (by decide) (by decide)).trans (ha17.symm.trans (R9_keep (VR0 m' c) Cert.ReferenceIdeal.main_arg17 (by decide) (by decide) (by decide) (by decide) (by decide) (by decide) (by decide) (by decide) (by decide) (by decide)).symm)))
    ((W12_keep m ρ c Cert.KernelIdeal.main_arg18 (by decide)).trans ((W11_untouched m ρ c Cert.KernelIdeal.main_arg18 (by decide) (by decide) (by decide) (by decide) (by decide) (by decide) (by decide) (by decide) (by decide) (by decide) (by decide)).trans (ha18.symm.trans (R9_keep (VR0 m' c) Cert.ReferenceIdeal.main_arg18 (by decide) (by decide) (by decide) (by decide) (by decide) (by decide) (by decide) (by decide) (by decide) (by decide)).symm)))

include ha0 ha1 ha2 ha3 ha4 ha5 ha6 ha7 ha8 ha9 ha10 ha11 ha12 ha13 ha14 ha15 ha16 ha17 ha18 in
/-- The readout. -/
theorem stage2 : W21 m ρ c (Proc.devRef .tc Cert.KernelIdeal.main_v92)
    = StableHlo.after Cert.ReferenceIdeal.Hand.refOps18 (R17 (VR0 m' c)) (Proc.devRef .tc Cert.ReferenceIdeal.main_v98) := by
  rw [W21_arr m ρ c 2, final2 (V20 m ρ) c]
  refine Eq.trans ?_ (Cert.ReferenceIdeal.HandVal.ref_pool (R17 (VR0 m' c))).symm
  have e2 : V20 m ρ c Cert.KernelIdeal.main_arg2 = m ((c.tc : Thread Cert.KernelIdeal.nD Cert.KernelIdeal.τ).loc Cert.KernelIdeal.main_arg2) := W20_untouched m ρ c Cert.KernelIdeal.main_arg2 (by decide) (by decide) (by decide) (by decide) (by decide) (by decide) (by decide) (by decide) (by decide) (by decide) (by decide) (by decide) (by decide) (by decide) (by decide) (by decide) (by decide) (by decide) (by decide) (by decide)
  have e91 : V20 m ρ c Cert.KernelIdeal.main_v91 = R17 (VR0 m' c) (Proc.devRef .tc Cert.ReferenceIdeal.main_v97) :=
    stage1t m ρ m' c ha0 ha1 ha2 ha3 ha4 ha5 ha6 ha7 ha8 ha9 ha10 ha11 ha12 ha13 ha14 ha15 ha16 ha17 ha18
  have r2 : R17 (VR0 m' c) (Proc.devRef .tc Cert.ReferenceIdeal.main_arg2) = m' ((c.tc : Thread Cert.ReferenceIdeal.nD Cert.ReferenceIdeal.τ).loc Cert.ReferenceIdeal.main_arg2) := R17_keep _ _ (by decide) (by decide) (by decide) (by decide) (by decide) (by decide) (by decide) (by decide) (by decide) (by decide) (by decide) (by decide) (by decide) (by decide) (by decide) (by decide) (by decide) (by decide)
  rw [e2, e91, r2, ha2]

include ha0 ha1 ha2 ha3 ha4 ha5 ha6 ha7 ha8 ha9 ha10 ha11 ha12 ha13 ha14 ha15 ha16 ha17 ha18 in
/-- The reference's first result is the kernel program's. -/
theorem result0 : StableHlo.after Cert.ReferenceIdeal.Hand.ops (VR0 m' c) (Proc.devRef .tc Cert.ReferenceIdeal.main_v98)
    = W21 m ρ c (Proc.devRef .tc Cert.KernelIdeal.main_v92) := by
  rw [Cert.ReferenceIdeal.Hand.after_ops]
  exact (stage2 m ρ m' c ha0 ha1 ha2 ha3 ha4 ha5 ha6 ha7 ha8 ha9 ha10 ha11 ha12 ha13 ha14 ha15 ha16 ha17 ha18).symm

include ha0 ha1 ha2 ha3 ha4 ha5 ha6 ha7 ha8 ha9 ha10 ha11 ha12 ha13 ha14 ha15 ha16 ha17 ha18 in
/-- The reference's second result is the kernel program's. -/
theorem result1 : StableHlo.after Cert.ReferenceIdeal.Hand.ops (VR0 m' c) (Proc.devRef .tc Cert.ReferenceIdeal.main_v97)
    = W21 m ρ c (Proc.devRef .tc Cert.KernelIdeal.main_v91) := by
  rw [Cert.ReferenceIdeal.Hand.after_ops]
  exact (Cert.ReferenceIdeal.Hand.refOps18_keep _ Cert.ReferenceIdeal.main_v97 (by decide)).trans
    ((stage1t m ρ m' c ha0 ha1 ha2 ha3 ha4 ha5 ha6 ha7 ha8 ha9 ha10 ha11 ha12 ha13 ha14 ha15 ha16 ha17 ha18).symm.trans (W21_keep m ρ c Cert.KernelIdeal.main_v91 (by decide)).symm)

end

end Cert.Bridge

end
-- ==== Proof.lean ====
/-
  Two graph-convolution layers and a readout. Each layer aggregates neighbour features with the adjacency matrix, applies a
  linear map with bias, a batch normalisation, a rectifier, a second linear map, a second normalisation and rectifier;
  the readout multiplies a pooling matrix with the final node features. The kernel program computes the aggregation
  fused with the first linear map in one tiled kernel per layer (the contraction over the 8192 nodes in four tiles of
  2048 columns, accumulated in a scratch array, the linear map and bias applied after the last tile) and the readout in
  a third tiled kernel; everything else is the same host operations as in the reference.

  Frames: @main is run as a list of segments, a stretch of host operations or a kernel region each, and every unscoped
  buffer is followed through them; no item writes an argument. Each region's body is run once per control case (first
  tile, middle tiles, last tile) with the accumulator carried in the region's invariant.
  Values at the exact instance: a region's output array is one whole-array function of the arrays it reads (a sum
  over four tiles is the whole sum: addition on the extended reals is associative and commutative, so no finiteness of
  the inputs is needed); the host operations between regions are the same on both sides.
-/
import proofs.«116793_j28183575396967_2_alg».proof.Defs
import proofs.«116793_j28183575396967_2_alg».proof.Proof.Gen.Kernel
import proofs.«116793_j28183575396967_2_alg».proof.Proof.Gen.KernelIdeal
import proofs.«116793_j28183575396967_2_alg».proof.Proof.Gen.ReferenceIdeal
import proofs.«116793_j28183575396967_2_alg».proof.Proof.Gen.Pre_finite_inputs
import proofs.«116793_j28183575396967_2_alg».proof.Proof.KRun
import proofs.«116793_j28183575396967_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched. -/
theorem frame_k : Cert.frame_Kernel (hKernel := Cert.Kernel.Gen.facts) (hPre_finite_inputs := Cert.Pre_finite_inputs.Gen.facts) := fun m ρ _ =>
  (θ_run (Cert.Kernel.defs (F := Bits)) _ _).mono (fun r h c =>
    ⟨(h c _ (Cert.Kernel.Hand.mem_uc Cert.Kernel.main_arg0 (by decide))).trans (Cert.Kernel.Hand.W21_main_arg0 m ρ c),
      (h c _ (Cert.Kernel.Hand.mem_uc Cert.Kernel.main_arg1 (by decide))).trans (Cert.Kernel.Hand.W21_main_arg1 m ρ c),
      (h c _ (Cert.Kernel.Hand.mem_uc Cert.Kernel.main_arg2 (by decide))).trans (Cert.Kernel.Hand.W21_main_arg2 m ρ c),
      (h c _ (Cert.Kernel.Hand.mem_uc Cert.Kernel.main_arg3 (by decide))).trans (Cert.Kernel.Hand.W21_main_arg3 m ρ c),
      (h c _ (Cert.Kernel.Hand.mem_uc Cert.Kernel.main_arg4 (by decide))).trans (Cert.Kernel.Hand.W21_main_arg4 m ρ c),
      (h c _ (Cert.Kernel.Hand.mem_uc Cert.Kernel.main_arg5 (by decide))).trans (Cert.Kernel.Hand.W21_main_arg5 m ρ c),
      (h c _ (Cert.Kernel.Hand.mem_uc Cert.Kernel.main_arg6 (by decide))).trans (Cert.Kernel.Hand.W21_main_arg6 m ρ c),
      (h c _ (Cert.Kernel.Hand.mem_uc Cert.Kernel.main_arg7 (by decide))).trans (Cert.Kernel.Hand.W21_main_arg7 m ρ c),
      (h c _ (Cert.Kernel.Hand.mem_uc Cert.Kernel.main_arg8 (by decide))).trans (Cert.Kernel.Hand.W21_main_arg8 m ρ c),
      (h c _ (Cert.Kernel.Hand.mem_uc Cert.Kernel.main_arg9 (by decide))).trans (Cert.Kernel.Hand.W21_main_arg9 m ρ c),
      (h c _ (Cert.Kernel.Hand.mem_uc Cert.Kernel.main_arg10 (by decide))).trans (Cert.Kernel.Hand.W21_main_arg10 m ρ c),
      (h c _ (Cert.Kernel.Hand.mem_uc Cert.Kernel.main_arg11 (by decide))).trans (Cert.Kernel.Hand.W21_main_arg11 m ρ c),
      (h c _ (Cert.Kernel.Hand.mem_uc Cert.Kernel.main_arg12 (by decide))).trans (Cert.Kernel.Hand.W21_main_arg12 m ρ c),
      (h c _ (Cert.Kernel.Hand.mem_uc Cert.Kernel.main_arg13 (by decide))).trans (Cert.Kernel.Hand.W21_main_arg13 m ρ c),
      (h c _ (Cert.Kernel.Hand.mem_uc Cert.Kernel.main_arg14 (by decide))).trans (Cert.Kernel.Hand.W21_main_arg14 m ρ c),
      (h c _ (Cert.Kernel.Hand.mem_uc Cert.Kernel.main_arg15 (by decide))).trans (Cert.Kernel.Hand.W21_main_arg15 m ρ c),
      (h c _ (Cert.Kernel.Hand.mem_uc Cert.Kernel.main_arg16 (by decide))).trans (Cert.Kernel.Hand.W21_main_arg16 m ρ c),
      (h c _ (Cert.Kernel.Hand.mem_uc Cert.Kernel.main_arg17 (by decide))).trans (Cert.Kernel.Hand.W21_main_arg17 m ρ c),
      (h c _ (Cert.Kernel.Hand.mem_uc Cert.Kernel.main_arg18 (by decide))).trans (Cert.Kernel.Hand.W21_main_arg18 m ρ c)⟩)
    (Cert.Kernel.Hand.run_all (F := Bits) m ρ)

/-- The idealized kernel program runs and leaves its arguments as launched. -/
theorem frame_ki : Cert.frame_KernelIdeal (hKernelIdeal := Cert.KernelIdeal.Gen.facts) (hPre_finite_inputs := Cert.Pre_finite_inputs.Gen.facts) := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W21_main_arg0 m ρ c),
      (h c _ (Cert.KernelIdeal.Hand.mem_uc Cert.KernelIdeal.main_arg1 (by decide))).trans (Cert.KernelIdeal.Hand.W21_main_arg1 m ρ c),
      (h c _ (Cert.KernelIdeal.Hand.mem_uc Cert.KernelIdeal.main_arg2 (by decide))).trans (Cert.KernelIdeal.Hand.W21_main_arg2 m ρ c),
      (h c _ (Cert.KernelIdeal.Hand.mem_uc Cert.KernelIdeal.main_arg3 (by decide))).trans (Cert.KernelIdeal.Hand.W21_main_arg3 m ρ c),
      (h c _ (Cert.KernelIdeal.Hand.mem_uc Cert.KernelIdeal.main_arg4 (by decide))).trans (Cert.KernelIdeal.Hand.W21_main_arg4 m ρ c),
      (h c _ (Cert.KernelIdeal.Hand.mem_uc Cert.KernelIdeal.main_arg5 (by decide))).trans (Cert.KernelIdeal.Hand.W21_main_arg5 m ρ c),
      (h c _ (Cert.KernelIdeal.Hand.mem_uc Cert.KernelIdeal.main_arg6 (by decide))).trans (Cert.KernelIdeal.Hand.W21_main_arg6 m ρ c),
      (h c _ (Cert.KernelIdeal.Hand.mem_uc Cert.KernelIdeal.main_arg7 (by decide))).trans (Cert.KernelIdeal.Hand.W21_main_arg7 m ρ c),
      (h c _ (Cert.KernelIdeal.Hand.mem_uc Cert.KernelIdeal.main_arg8 (by decide))).trans (Cert.KernelIdeal.Hand.W21_main_arg8 m ρ c),
      (h c _ (Cert.KernelIdeal.Hand.mem_uc Cert.KernelIdeal.main_arg9 (by decide))).trans (Cert.KernelIdeal.Hand.W21_main_arg9 m ρ c),
      (h c _ (Cert.KernelIdeal.Hand.mem_uc Cert.KernelIdeal.main_arg10 (by decide))).trans (Cert.KernelIdeal.Hand.W21_main_arg10 m ρ c),
      (h c _ (Cert.KernelIdeal.Hand.mem_uc Cert.KernelIdeal.main_arg11 (by decide))).trans (Cert.KernelIdeal.Hand.W21_main_arg11 m ρ c),
      (h c _ (Cert.KernelIdeal.Hand.mem_uc Cert.KernelIdeal.main_arg12 (by decide))).trans (Cert.KernelIdeal.Hand.W21_main_arg12 m ρ c),
      (h c _ (Cert.KernelIdeal.Hand.mem_uc Cert.KernelIdeal.main_arg13 (by decide))).trans (Cert.KernelIdeal.Hand.W21_main_arg13 m ρ c),
      (h c _ (Cert.KernelIdeal.Hand.mem_uc Cert.KernelIdeal.main_arg14 (by decide))).trans (Cert.KernelIdeal.Hand.W21_main_arg14 m ρ c),
      (h c _ (Cert.KernelIdeal.Hand.mem_uc Cert.KernelIdeal.main_arg15 (by decide))).trans (Cert.KernelIdeal.Hand.W21_main_arg15 m ρ c),
      (h c _ (Cert.KernelIdeal.Hand.mem_uc Cert.KernelIdeal.main_arg16 (by decide))).trans (Cert.KernelIdeal.Hand.W21_main_arg16 m ρ c),
      (h c _ (Cert.KernelIdeal.Hand.mem_uc Cert.KernelIdeal.main_arg17 (by decide))).trans (Cert.KernelIdeal.Hand.W21_main_arg17 m ρ c),
      (h c _ (Cert.KernelIdeal.Hand.mem_uc Cert.KernelIdeal.main_arg18 (by decide))).trans (Cert.KernelIdeal.Hand.W21_main_arg18 m ρ c)⟩)
    (Cert.KernelIdeal.Hand.run_all (F := Ideal) m ρ)

/-- The reference runs and leaves its arguments as launched: no host operation writes one. -/
theorem frame_ri : Cert.frame_ReferenceIdeal (hReferenceIdeal := Cert.ReferenceIdeal.Gen.facts) (hPre_finite_inputs := Cert.Pre_finite_inputs.Gen.facts) := fun m ρ _ =>
  (θ_run (Cert.ReferenceIdeal.defs (F := Ideal)) _ _).mono (fun r h c =>
    ⟨(h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _),
      (h c Cert.ReferenceIdeal.main_arg12).trans (Cert.ReferenceIdeal.Hand.kept_arg12 _),
      (h c Cert.ReferenceIdeal.main_arg13).trans (Cert.ReferenceIdeal.Hand.kept_arg13 _),
      (h c Cert.ReferenceIdeal.main_arg14).trans (Cert.ReferenceIdeal.Hand.kept_arg14 _),
      (h c Cert.ReferenceIdeal.main_arg15).trans (Cert.ReferenceIdeal.Hand.kept_arg15 _),
      (h c Cert.ReferenceIdeal.main_arg16).trans (Cert.ReferenceIdeal.Hand.kept_arg16 _),
      (h c Cert.ReferenceIdeal.main_arg17).trans (Cert.ReferenceIdeal.Hand.kept_arg17 _),
      (h c Cert.ReferenceIdeal.main_arg18).trans (Cert.ReferenceIdeal.Hand.kept_arg18 _)⟩)
    (Cert.ReferenceIdeal.Hand.run_fold (F := Ideal) m ρ)

/-- From memories agreeing on the arguments both idealized programs end with the same two results. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Hand.W21 m ρ c (Proc.devRef .tc Cert.KernelIdeal.main_v92),
    fun c => Cert.KernelIdeal.Hand.W21 m ρ c (Proc.devRef .tc Cert.KernelIdeal.main_v91), ?_, ?_⟩
  · exact (θ_run (Cert.KernelIdeal.defs (F := Ideal)) _ _).mono (fun r h c =>
      ⟨h c _ (Cert.KernelIdeal.Hand.mem_uc Cert.KernelIdeal.main_v92 (by decide)),
       h c _ (Cert.KernelIdeal.Hand.mem_uc Cert.KernelIdeal.main_v91 (by decide)),
       (h c _ (Cert.KernelIdeal.Hand.mem_uc Cert.KernelIdeal.main_arg0 (by decide))).trans (Cert.KernelIdeal.Hand.W21_main_arg0 m ρ c),
       (h c _ (Cert.KernelIdeal.Hand.mem_uc Cert.KernelIdeal.main_arg1 (by decide))).trans (Cert.KernelIdeal.Hand.W21_main_arg1 m ρ c),
       (h c _ (Cert.KernelIdeal.Hand.mem_uc Cert.KernelIdeal.main_arg2 (by decide))).trans (Cert.KernelIdeal.Hand.W21_main_arg2 m ρ c),
       (h c _ (Cert.KernelIdeal.Hand.mem_uc Cert.KernelIdeal.main_arg3 (by decide))).trans (Cert.KernelIdeal.Hand.W21_main_arg3 m ρ c),
       (h c _ (Cert.KernelIdeal.Hand.mem_uc Cert.KernelIdeal.main_arg4 (by decide))).trans (Cert.KernelIdeal.Hand.W21_main_arg4 m ρ c),
       (h c _ (Cert.KernelIdeal.Hand.mem_uc Cert.KernelIdeal.main_arg5 (by decide))).trans (Cert.KernelIdeal.Hand.W21_main_arg5 m ρ c),
       (h c _ (Cert.KernelIdeal.Hand.mem_uc Cert.KernelIdeal.main_arg6 (by decide))).trans (Cert.KernelIdeal.Hand.W21_main_arg6 m ρ c),
       (h c _ (Cert.KernelIdeal.Hand.mem_uc Cert.KernelIdeal.main_arg7 (by decide))).trans (Cert.KernelIdeal.Hand.W21_main_arg7 m ρ c),
       (h c _ (Cert.KernelIdeal.Hand.mem_uc Cert.KernelIdeal.main_arg8 (by decide))).trans (Cert.KernelIdeal.Hand.W21_main_arg8 m ρ c),
       (h c _ (Cert.KernelIdeal.Hand.mem_uc Cert.KernelIdeal.main_arg9 (by decide))).trans (Cert.KernelIdeal.Hand.W21_main_arg9 m ρ c),
       (h c _ (Cert.KernelIdeal.Hand.mem_uc Cert.KernelIdeal.main_arg10 (by decide))).trans (Cert.KernelIdeal.Hand.W21_main_arg10 m ρ c),
       (h c _ (Cert.KernelIdeal.Hand.mem_uc Cert.KernelIdeal.main_arg11 (by decide))).trans (Cert.KernelIdeal.Hand.W21_main_arg11 m ρ c),
       (h c _ (Cert.KernelIdeal.Hand.mem_uc Cert.KernelIdeal.main_arg12 (by decide))).trans (Cert.KernelIdeal.Hand.W21_main_arg12 m ρ c),
       (h c _ (Cert.KernelIdeal.Hand.mem_uc Cert.KernelIdeal.main_arg13 (by decide))).trans (Cert.KernelIdeal.Hand.W21_main_arg13 m ρ c),
       (h c _ (Cert.KernelIdeal.Hand.mem_uc Cert.KernelIdeal.main_arg14 (by decide))).trans (Cert.KernelIdeal.Hand.W21_main_arg14 m ρ c),
       (h c _ (Cert.KernelIdeal.Hand.mem_uc Cert.KernelIdeal.main_arg15 (by decide))).trans (Cert.KernelIdeal.Hand.W21_main_arg15 m ρ c),
       (h c _ (Cert.KernelIdeal.Hand.mem_uc Cert.KernelIdeal.main_arg16 (by decide))).trans (Cert.KernelIdeal.Hand.W21_main_arg16 m ρ c),
       (h c _ (Cert.KernelIdeal.Hand.mem_uc Cert.KernelIdeal.main_arg17 (by decide))).trans (Cert.KernelIdeal.Hand.W21_main_arg17 m ρ c),
       (h c _ (Cert.KernelIdeal.Hand.mem_uc Cert.KernelIdeal.main_arg18 (by decide))).trans (Cert.KernelIdeal.Hand.W21_main_arg18 m ρ c)⟩)
      (Cert.KernelIdeal.Hand.run_all (F := Ideal) m ρ)
  · refine (θ_run (Cert.ReferenceIdeal.defs (F := Ideal)) _ _).mono (fun r h c => ?_) (Cert.ReferenceIdeal.Hand.run_fold (F := Ideal) m' ρ')
    obtain ⟨ha0, ha1, ha2, ha3, ha4, ha5, ha6, ha7, ha8, ha9, ha10, ha11, ha12, ha13, ha14, ha15, ha16, ha17, ha18⟩ := hagree c
    exact ⟨(h c Cert.ReferenceIdeal.main_v98).trans (Cert.Bridge.result0 m ρ m' c ha0 ha1 ha2 ha3 ha4 ha5 ha6 ha7 ha8 ha9 ha10 ha11 ha12 ha13 ha14 ha15 ha16 ha17 ha18),
      (h c Cert.ReferenceIdeal.main_v97).trans (Cert.Bridge.result1 m ρ m' c ha0 ha1 ha2 ha3 ha4 ha5 ha6 ha7 ha8 ha9 ha10 ha11 ha12 ha13 ha14 ha15 ha16 ha17 ha18),
      (h c Cert.ReferenceIdeal.main_arg0).trans (Cert.ReferenceIdeal.Hand.kept_arg0 _),
      (h c Cert.ReferenceIdeal.main_arg1).trans (Cert.ReferenceIdeal.Hand.kept_arg1 _),
      (h c Cert.ReferenceIdeal.main_arg2).trans (Cert.ReferenceIdeal.Hand.kept_arg2 _),
      (h c Cert.ReferenceIdeal.main_arg3).trans (Cert.ReferenceIdeal.Hand.kept_arg3 _),
      (h c Cert.ReferenceIdeal.main_arg4).trans (Cert.ReferenceIdeal.Hand.kept_arg4 _),
      (h c Cert.ReferenceIdeal.main_arg5).trans (Cert.ReferenceIdeal.Hand.kept_arg5 _),
      (h c Cert.ReferenceIdeal.main_arg6).trans (Cert.ReferenceIdeal.Hand.kept_arg6 _),
      (h c Cert.ReferenceIdeal.main_arg7).trans (Cert.ReferenceIdeal.Hand.kept_arg7 _),
      (h c Cert.ReferenceIdeal.main_arg8).trans (Cert.ReferenceIdeal.Hand.kept_arg8 _),
      (h c Cert.ReferenceIdeal.main_arg9).trans (Cert.ReferenceIdeal.Hand.kept_arg9 _),
      (h c Cert.ReferenceIdeal.main_arg10).trans (Cert.ReferenceIdeal.Hand.kept_arg10 _),
      (h c Cert.ReferenceIdeal.main_arg11).trans (Cert.ReferenceIdeal.Hand.kept_arg11 _),
      (h c Cert.ReferenceIdeal.main_arg12).trans (Cert.ReferenceIdeal.Hand.kept_arg12 _),
      (h c Cert.ReferenceIdeal.main_arg13).trans (Cert.ReferenceIdeal.Hand.kept_arg13 _),
      (h c Cert.ReferenceIdeal.main_arg14).trans (Cert.ReferenceIdeal.Hand.kept_arg14 _),
      (h c Cert.ReferenceIdeal.main_arg15).trans (Cert.ReferenceIdeal.Hand.kept_arg15 _),
      (h c Cert.ReferenceIdeal.main_arg16).trans (Cert.ReferenceIdeal.Hand.kept_arg16 _),
      (h c Cert.ReferenceIdeal.main_arg17).trans (Cert.ReferenceIdeal.Hand.kept_arg17 _),
      (h c Cert.ReferenceIdeal.main_arg18).trans (Cert.ReferenceIdeal.Hand.kept_arg18 _)⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
